-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Pre_finite_inputs_ReferenceIdeal.lean ====
abbrev S4096x512 : Shape := ⟨2, ![4096, 512]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x512 .f32) (main_arg1 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S3x2x128x512 : Shape := ⟨4, ![3, 2, 128, 512]⟩
abbrev S3x2 : Shape := ⟨2, ![3, 2]⟩
abbrev S_ : Shape := ⟨0, ![]⟩
abbrev S128x512 : Shape := ⟨2, ![128, 512]⟩
abbrev S1x1x128x512 : Shape := ⟨4, ![1, 1, 128, 512]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .bf16⟩
  | .local _ .vmem, ⟨0, _⟩ => ⟨S1024x512, .f32⟩
  | .local _ .vmem, ⟨1, _⟩ => ⟨S512x512, .f32⟩
  | .local _ .vmem, ⟨2, _⟩ => ⟨S1024x512, .bf16⟩
  | .local _ .vmem, ⟨3, _⟩ => ⟨S3x2x128x512, .bf16⟩
  | .local _ .vmem, ⟨4, _⟩ => ⟨S3x2x128x512, .bf16⟩
  | .local _ .vmem, ⟨5, _⟩ => ⟨S512x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  { ofTc nBuf bufTy 1 27 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_27 : BitVec 32) (c0_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c256_i32 : BitVec 32 := 256#32
  let v54 : BitVec 32 := Scalar.muli v53 c256_i32
  let v55 : BitVec 32 := Scalar.addi v54 c0_i32_34
  let v56 : Index := Scalar.indexCast v55
  let c0 : Index := 0#32
  ![v56.toNat, 0]
def k0_off2 (d0 : Dev nD) (c2_i32_111 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v169 : BitVec 32 := Scalar.addi v2 c2_i32_111
  let c4_i32_112 : BitVec 32 := 4#32
  let c0_i32_113 : BitVec 32 := 0#32
  let v170 : BitVec 1 := Scalar.cmpi .eq c4_i32_112 c0_i32_113
  let c1_i32_114 : BitVec 32 := 1#32
  let v171 : BitVec 32 := Scalar.select v170 c1_i32_114 c4_i32_112
  let v172 : BitVec 32 := Scalar.remsi v169 v171
  let c0_i32_116 : BitVec 32 := 0#32
  let v174 : BitVec 1 := Scalar.cmpi .slt v172 c0_i32_116
  let c0_i32_117 : BitVec 32 := 0#32
  let v175 : BitVec 1 := Scalar.cmpi .slt v171 c0_i32_117
  let v176 : BitVec 1 := Scalar.xori v174 v175
  let c0_i32_115 : BitVec 32 := 0#32
  let v173 : BitVec 1 := Scalar.cmpi .ne v172 c0_i32_115
  let v177 : BitVec 1 := Scalar.andi v176 v173
  let v178 : BitVec 32 := Scalar.addi v172 v171
  let v179 : BitVec 32 := Scalar.select v177 v178 v172
  let v180 : BitVec 32 := Scalar.subi v2 v179
  let c1_i32_118 : BitVec 32 := 1#32
  let v181 : BitVec 32 := Scalar.subi v180 c1_i32_118
  let c4_i32_119 : BitVec 32 := 4#32
  let c0_i32_120 : BitVec 32 := 0#32
  let v182 : BitVec 1 := Scalar.cmpi .eq c4_i32_119 c0_i32_120
  let c1_i32_121 : BitVec 32 := 1#32
  let v183 : BitVec 32 := Scalar.select v182 c1_i32_121 c4_i32_119
  let v184 : BitVec 32 := Scalar.remsi v181 v183
  let c0_i32_123 : BitVec 32 := 0#32
  let v186 : BitVec 1 := Scalar.cmpi .slt v184 c0_i32_123
  let c0_i32_124 : BitVec 32 := 0#32
  let v187 : BitVec 1 := Scalar.cmpi .slt v183 c0_i32_124
  let v188 : BitVec 1 := Scalar.xori v186 v187
  let c0_i32_122 : BitVec 32 := 0#32
  let v185 : BitVec 1 := Scalar.cmpi .ne v184 c0_i32_122
  let v189 : BitVec 1 := Scalar.andi v188 v185
  let v190 : BitVec 32 := Scalar.addi v184 v183
  let v191 : BitVec 32 := Scalar.select v189 v190 v184
  let c0_i32_128 : BitVec 32 := 0#32
  ![v191.toNat, 0]
def k0_off3 (d0 : Dev nD) (c2_i32_111 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v169 : BitVec 32 := Scalar.addi v2 c2_i32_111
  let c4_i32_112 : BitVec 32 := 4#32
  let c0_i32_113 : BitVec 32 := 0#32
  let v170 : BitVec 1 := Scalar.cmpi .eq c4_i32_112 c0_i32_113
  let c1_i32_114 : BitVec 32 := 1#32
  let v171 : BitVec 32 := Scalar.select v170 c1_i32_114 c4_i32_112
  let v172 : BitVec 32 := Scalar.remsi v169 v171
  let c0_i32_116 : BitVec 32 := 0#32
  let v174 : BitVec 1 := Scalar.cmpi .slt v172 c0_i32_116
  let c0_i32_117 : BitVec 32 := 0#32
  let v175 : BitVec 1 := Scalar.cmpi .slt v171 c0_i32_117
  let v176 : BitVec 1 := Scalar.xori v174 v175
  let c0_i32_115 : BitVec 32 := 0#32
  let v173 : BitVec 1 := Scalar.cmpi .ne v172 c0_i32_115
  let v177 : BitVec 1 := Scalar.andi v176 v173
  let v178 : BitVec 32 := Scalar.addi v172 v171
  let v179 : BitVec 32 := Scalar.select v177 v178 v172
  let v180 : BitVec 32 := Scalar.subi v2 v179
  let c1_i32_118 : BitVec 32 := 1#32
  let v181 : BitVec 32 := Scalar.subi v180 c1_i32_118
  let c4_i32_119 : BitVec 32 := 4#32
  let c0_i32_120 : BitVec 32 := 0#32
  let v182 : BitVec 1 := Scalar.cmpi .eq c4_i32_119 c0_i32_120
  let c1_i32_121 : BitVec 32 := 1#32
  let v183 : BitVec 32 := Scalar.select v182 c1_i32_121 c4_i32_119
  let v184 : BitVec 32 := Scalar.remsi v181 v183
  let c0_i32_123 : BitVec 32 := 0#32
  let v186 : BitVec 1 := Scalar.cmpi .slt v184 c0_i32_123
  let c0_i32_124 : BitVec 32 := 0#32
  let v187 : BitVec 1 := Scalar.cmpi .slt v183 c0_i32_124
  let v188 : BitVec 1 := Scalar.xori v186 v187
  let c0_i32_122 : BitVec 32 := 0#32
  let v185 : BitVec 1 := Scalar.cmpi .ne v184 c0_i32_122
  let v189 : BitVec 1 := Scalar.andi v188 v185
  let v190 : BitVec 32 := Scalar.addi v184 v183
  let v191 : BitVec 32 := Scalar.select v189 v190 v184
  let c0_i32_127 : BitVec 32 := 0#32
  let c0_i32_133 : BitVec 32 := 0#32
  let c0_i32_134 : BitVec 32 := 0#32
  ![v191.toNat, 0, 0, 0]
def k0_dev4 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_111 : BitVec 32 := 2#32
  let v169 : BitVec 32 := Scalar.addi v2 c2_i32_111
  let c4_i32_112 : BitVec 32 := 4#32
  let c0_i32_113 : BitVec 32 := 0#32
  let v170 : BitVec 1 := Scalar.cmpi .eq c4_i32_112 c0_i32_113
  let c1_i32_114 : BitVec 32 := 1#32
  let v171 : BitVec 32 := Scalar.select v170 c1_i32_114 c4_i32_112
  let v172 : BitVec 32 := Scalar.remsi v169 v171
  let c0_i32_116 : BitVec 32 := 0#32
  let v174 : BitVec 1 := Scalar.cmpi .slt v172 c0_i32_116
  let c0_i32_117 : BitVec 32 := 0#32
  let v175 : BitVec 1 := Scalar.cmpi .slt v171 c0_i32_117
  let v176 : BitVec 1 := Scalar.xori v174 v175
  let c0_i32_115 : BitVec 32 := 0#32
  let v173 : BitVec 1 := Scalar.cmpi .ne v172 c0_i32_115
  let v177 : BitVec 1 := Scalar.andi v176 v173
  let v178 : BitVec 32 := Scalar.addi v172 v171
  let v179 : BitVec 32 := Scalar.select v177 v178 v172
  let c1_i32_131 : BitVec 32 := 1#32
  let v192 : BitVec 32 := Scalar.muli v179 c1_i32_131
  let v193 : BitVec 32 := Scalar.addi c0_i32_132 v192
  v193.toNat
def k0_dev5 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_137 : BitVec 32 := 1#32
  let v202 : BitVec 32 := Scalar.addi v2 c1_i32_137
  let c4_i32_138 : BitVec 32 := 4#32
  let c0_i32_139 : BitVec 32 := 0#32
  let v203 : BitVec 1 := Scalar.cmpi .eq c4_i32_138 c0_i32_139
  let c1_i32_140 : BitVec 32 := 1#32
  let v204 : BitVec 32 := Scalar.select v203 c1_i32_140 c4_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c1_i32_157 : BitVec 32 := 1#32
  let v225 : BitVec 32 := Scalar.muli v212 c1_i32_157
  let v226 : BitVec 32 := Scalar.addi c0_i32_158 v225
  v226.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_163 : BitVec 32 := 3#32
  let v235 : BitVec 32 := Scalar.addi v2 c3_i32_163
  let c4_i32_164 : BitVec 32 := 4#32
  let c0_i32_165 : BitVec 32 := 0#32
  let v236 : BitVec 1 := Scalar.cmpi .eq c4_i32_164 c0_i32_165
  let c1_i32_166 : BitVec 32 := 1#32
  let v237 : BitVec 32 := Scalar.select v236 c1_i32_166 c4_i32_164
  let v238 : BitVec 32 := Scalar.remsi v235 v237
  let c0_i32_168 : BitVec 32 := 0#32
  let v240 : BitVec 1 := Scalar.cmpi .slt v238 c0_i32_168
  let c0_i32_169 : BitVec 32 := 0#32
  let v241 : BitVec 1 := Scalar.cmpi .slt v237 c0_i32_169
  let v242 : BitVec 1 := Scalar.xori v240 v241
  let c0_i32_167 : BitVec 32 := 0#32
  let v239 : BitVec 1 := Scalar.cmpi .ne v238 c0_i32_167
  let v243 : BitVec 1 := Scalar.andi v242 v239
  let v244 : BitVec 32 := Scalar.addi v238 v237
  let v245 : BitVec 32 := Scalar.select v243 v244 v238
  let c1_i32_183 : BitVec 32 := 1#32
  let v258 : BitVec 32 := Scalar.muli v245 c1_i32_183
  let v259 : BitVec 32 := Scalar.addi c0_i32_184 v258
  v259.toNat
def k0_off4 (d0 : Dev nD) (c2_i32_189 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v268 : BitVec 32 := Scalar.addi v2 c2_i32_189
  let c4_i32_190 : BitVec 32 := 4#32
  let c0_i32_191 : BitVec 32 := 0#32
  let v269 : BitVec 1 := Scalar.cmpi .eq c4_i32_190 c0_i32_191
  let c1_i32_192 : BitVec 32 := 1#32
  let v270 : BitVec 32 := Scalar.select v269 c1_i32_192 c4_i32_190
  let v271 : BitVec 32 := Scalar.remsi v268 v270
  let c0_i32_194 : BitVec 32 := 0#32
  let v273 : BitVec 1 := Scalar.cmpi .slt v271 c0_i32_194
  let c0_i32_195 : BitVec 32 := 0#32
  let v274 : BitVec 1 := Scalar.cmpi .slt v270 c0_i32_195
  let v275 : BitVec 1 := Scalar.xori v273 v274
  let c0_i32_193 : BitVec 32 := 0#32
  let v272 : BitVec 1 := Scalar.cmpi .ne v271 c0_i32_193
  let v276 : BitVec 1 := Scalar.andi v275 v272
  let v277 : BitVec 32 := Scalar.addi v271 v270
  let v278 : BitVec 32 := Scalar.select v276 v277 v271
  let v279 : BitVec 32 := Scalar.subi v2 v278
  let c1_i32_196 : BitVec 32 := 1#32
  let v280 : BitVec 32 := Scalar.subi v279 c1_i32_196
  let c4_i32_197 : BitVec 32 := 4#32
  let c0_i32_198 : BitVec 32 := 0#32
  let v281 : BitVec 1 := Scalar.cmpi .eq c4_i32_197 c0_i32_198
  let c1_i32_199 : BitVec 32 := 1#32
  let v282 : BitVec 32 := Scalar.select v281 c1_i32_199 c4_i32_197
  let v283 : BitVec 32 := Scalar.remsi v280 v282
  let c0_i32_201 : BitVec 32 := 0#32
  let v285 : BitVec 1 := Scalar.cmpi .slt v283 c0_i32_201
  let c0_i32_202 : BitVec 32 := 0#32
  let v286 : BitVec 1 := Scalar.cmpi .slt v282 c0_i32_202
  let v287 : BitVec 1 := Scalar.xori v285 v286
  let c0_i32_200 : BitVec 32 := 0#32
  let v284 : BitVec 1 := Scalar.cmpi .ne v283 c0_i32_200
  let v288 : BitVec 1 := Scalar.andi v287 v284
  let v289 : BitVec 32 := Scalar.addi v283 v282
  let v290 : BitVec 32 := Scalar.select v288 v289 v283
  let c1_i32_206 : BitVec 32 := 1#32
  ![v290.toNat, 1]
def k0_off5 (d0 : Dev nD) (c2_i32_189 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v268 : BitVec 32 := Scalar.addi v2 c2_i32_189
  let c4_i32_190 : BitVec 32 := 4#32
  let c0_i32_191 : BitVec 32 := 0#32
  let v269 : BitVec 1 := Scalar.cmpi .eq c4_i32_190 c0_i32_191
  let c1_i32_192 : BitVec 32 := 1#32
  let v270 : BitVec 32 := Scalar.select v269 c1_i32_192 c4_i32_190
  let v271 : BitVec 32 := Scalar.remsi v268 v270
  let c0_i32_194 : BitVec 32 := 0#32
  let v273 : BitVec 1 := Scalar.cmpi .slt v271 c0_i32_194
  let c0_i32_195 : BitVec 32 := 0#32
  let v274 : BitVec 1 := Scalar.cmpi .slt v270 c0_i32_195
  let v275 : BitVec 1 := Scalar.xori v273 v274
  let c0_i32_193 : BitVec 32 := 0#32
  let v272 : BitVec 1 := Scalar.cmpi .ne v271 c0_i32_193
  let v276 : BitVec 1 := Scalar.andi v275 v272
  let v277 : BitVec 32 := Scalar.addi v271 v270
  let v278 : BitVec 32 := Scalar.select v276 v277 v271
  let v279 : BitVec 32 := Scalar.subi v2 v278
  let c1_i32_196 : BitVec 32 := 1#32
  let v280 : BitVec 32 := Scalar.subi v279 c1_i32_196
  let c4_i32_197 : BitVec 32 := 4#32
  let c0_i32_198 : BitVec 32 := 0#32
  let v281 : BitVec 1 := Scalar.cmpi .eq c4_i32_197 c0_i32_198
  let c1_i32_199 : BitVec 32 := 1#32
  let v282 : BitVec 32 := Scalar.select v281 c1_i32_199 c4_i32_197
  let v283 : BitVec 32 := Scalar.remsi v280 v282
  let c0_i32_201 : BitVec 32 := 0#32
  let v285 : BitVec 1 := Scalar.cmpi .slt v283 c0_i32_201
  let c0_i32_202 : BitVec 32 := 0#32
  let v286 : BitVec 1 := Scalar.cmpi .slt v282 c0_i32_202
  let v287 : BitVec 1 := Scalar.xori v285 v286
  let c0_i32_200 : BitVec 32 := 0#32
  let v284 : BitVec 1 := Scalar.cmpi .ne v283 c0_i32_200
  let v288 : BitVec 1 := Scalar.andi v287 v284
  let v289 : BitVec 32 := Scalar.addi v283 v282
  let v290 : BitVec 32 := Scalar.select v288 v289 v283
  let c1_i32_205 : BitVec 32 := 1#32
  let c0_i32_211 : BitVec 32 := 0#32
  let c0_i32_212 : BitVec 32 := 0#32
  ![v290.toNat, 1, 0, 0]
def k0_dev7 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_189 : BitVec 32 := 2#32
  let v268 : BitVec 32 := Scalar.addi v2 c2_i32_189
  let c4_i32_190 : BitVec 32 := 4#32
  let c0_i32_191 : BitVec 32 := 0#32
  let v269 : BitVec 1 := Scalar.cmpi .eq c4_i32_190 c0_i32_191
  let c1_i32_192 : BitVec 32 := 1#32
  let v270 : BitVec 32 := Scalar.select v269 c1_i32_192 c4_i32_190
  let v271 : BitVec 32 := Scalar.remsi v268 v270
  let c0_i32_194 : BitVec 32 := 0#32
  let v273 : BitVec 1 := Scalar.cmpi .slt v271 c0_i32_194
  let c0_i32_195 : BitVec 32 := 0#32
  let v274 : BitVec 1 := Scalar.cmpi .slt v270 c0_i32_195
  let v275 : BitVec 1 := Scalar.xori v273 v274
  let c0_i32_193 : BitVec 32 := 0#32
  let v272 : BitVec 1 := Scalar.cmpi .ne v271 c0_i32_193
  let v276 : BitVec 1 := Scalar.andi v275 v272
  let v277 : BitVec 32 := Scalar.addi v271 v270
  let v278 : BitVec 32 := Scalar.select v276 v277 v271
  let c1_i32_209 : BitVec 32 := 1#32
  let v291 : BitVec 32 := Scalar.muli v278 c1_i32_209
  let v292 : BitVec 32 := Scalar.addi c0_i32_210 v291
  v292.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_215 : BitVec 32 := 1#32
  let v301 : BitVec 32 := Scalar.addi v2 c1_i32_215
  let c4_i32_216 : BitVec 32 := 4#32
  let c0_i32_217 : BitVec 32 := 0#32
  let v302 : BitVec 1 := Scalar.cmpi .eq c4_i32_216 c0_i32_217
  let c1_i32_218 : BitVec 32 := 1#32
  let v303 : BitVec 32 := Scalar.select v302 c1_i32_218 c4_i32_216
  let v304 : BitVec 32 := Scalar.remsi v301 v303
  let c0_i32_220 : BitVec 32 := 0#32
  let v306 : BitVec 1 := Scalar.cmpi .slt v304 c0_i32_220
  let c0_i32_221 : BitVec 32 := 0#32
  let v307 : BitVec 1 := Scalar.cmpi .slt v303 c0_i32_221
  let v308 : BitVec 1 := Scalar.xori v306 v307
  let c0_i32_219 : BitVec 32 := 0#32
  let v305 : BitVec 1 := Scalar.cmpi .ne v304 c0_i32_219
  let v309 : BitVec 1 := Scalar.andi v308 v305
  let v310 : BitVec 32 := Scalar.addi v304 v303
  let v311 : BitVec 32 := Scalar.select v309 v310 v304
  let c1_i32_235 : BitVec 32 := 1#32
  let v324 : BitVec 32 := Scalar.muli v311 c1_i32_235
  let v325 : BitVec 32 := Scalar.addi c0_i32_236 v324
  v325.toNat
def k0_dev9 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_241 : BitVec 32 := 3#32
  let v334 : BitVec 32 := Scalar.addi v2 c3_i32_241
  let c4_i32_242 : BitVec 32 := 4#32
  let c0_i32_243 : BitVec 32 := 0#32
  let v335 : BitVec 1 := Scalar.cmpi .eq c4_i32_242 c0_i32_243
  let c1_i32_244 : BitVec 32 := 1#32
  let v336 : BitVec 32 := Scalar.select v335 c1_i32_244 c4_i32_242
  let v337 : BitVec 32 := Scalar.remsi v334 v336
  let c0_i32_246 : BitVec 32 := 0#32
  let v339 : BitVec 1 := Scalar.cmpi .slt v337 c0_i32_246
  let c0_i32_247 : BitVec 32 := 0#32
  let v340 : BitVec 1 := Scalar.cmpi .slt v336 c0_i32_247
  let v341 : BitVec 1 := Scalar.xori v339 v340
  let c0_i32_245 : BitVec 32 := 0#32
  let v338 : BitVec 1 := Scalar.cmpi .ne v337 c0_i32_245
  let v342 : BitVec 1 := Scalar.andi v341 v338
  let v343 : BitVec 32 := Scalar.addi v337 v336
  let v344 : BitVec 32 := Scalar.select v342 v343 v337
  let c1_i32_261 : BitVec 32 := 1#32
  let v357 : BitVec 32 := Scalar.muli v344 c1_i32_261
  let v358 : BitVec 32 := Scalar.addi c0_i32_262 v357
  v358.toNat
def k0_off6 (d0 : Dev nD) (c0_i32_310 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_309 : BitVec 32 := 256#32
  let v391 : BitVec 32 := Scalar.muli v2 c256_i32_309
  let v392 : BitVec 32 := Scalar.addi v391 c0_i32_310
  let v393 : Index := Scalar.indexCast v392
  let c0_311 : Index := 0#32
  ![v393.toNat, 0]
def k0_off7 (d0 : Dev nD) (c0_i32_310 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_309 : BitVec 32 := 256#32
  let v391 : BitVec 32 := Scalar.muli v2 c256_i32_309
  let v392 : BitVec 32 := Scalar.addi v391 c0_i32_310
  let c0_i32_346 : BitVec 32 := 0#32
  ![v392.toNat, 0]
def k0_dev10 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_327 : BitVec 32 := 2#32
  let v414 : BitVec 32 := Scalar.addi v2 c2_i32_327
  let c4_i32_328 : BitVec 32 := 4#32
  let c0_i32_329 : BitVec 32 := 0#32
  let v415 : BitVec 1 := Scalar.cmpi .eq c4_i32_328 c0_i32_329
  let c1_i32_330 : BitVec 32 := 1#32
  let v416 : BitVec 32 := Scalar.select v415 c1_i32_330 c4_i32_328
  let v417 : BitVec 32 := Scalar.remsi v414 v416
  let c0_i32_332 : BitVec 32 := 0#32
  let v419 : BitVec 1 := Scalar.cmpi .slt v417 c0_i32_332
  let c0_i32_333 : BitVec 32 := 0#32
  let v420 : BitVec 1 := Scalar.cmpi .slt v416 c0_i32_333
  let v421 : BitVec 1 := Scalar.xori v419 v420
  let c0_i32_331 : BitVec 32 := 0#32
  let v418 : BitVec 1 := Scalar.cmpi .ne v417 c0_i32_331
  let v422 : BitVec 1 := Scalar.andi v421 v418
  let v423 : BitVec 32 := Scalar.addi v417 v416
  let v424 : BitVec 32 := Scalar.select v422 v423 v417
  let c1_i32_344 : BitVec 32 := 1#32
  let v437 : BitVec 32 := Scalar.muli v424 c1_i32_344
  let v438 : BitVec 32 := Scalar.addi c0_i32_345 v437
  v438.toNat
def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_348 : BitVec 32 := 1#32
  let v445 : BitVec 32 := Scalar.addi v2 c1_i32_348
  let c4_i32_349 : BitVec 32 := 4#32
  let c0_i32_350 : BitVec 32 := 0#32
  let v446 : BitVec 1 := Scalar.cmpi .eq c4_i32_349 c0_i32_350
  let c1_i32_351 : BitVec 32 := 1#32
  let v447 : BitVec 32 := Scalar.select v446 c1_i32_351 c4_i32_349
  let v448 : BitVec 32 := Scalar.remsi v445 v447
  let c0_i32_353 : BitVec 32 := 0#32
  let v450 : BitVec 1 := Scalar.cmpi .slt v448 c0_i32_353
  let c0_i32_354 : BitVec 32 := 0#32
  let v451 : BitVec 1 := Scalar.cmpi .slt v447 c0_i32_354
  let v452 : BitVec 1 := Scalar.xori v450 v451
  let c0_i32_352 : BitVec 32 := 0#32
  let v449 : BitVec 1 := Scalar.cmpi .ne v448 c0_i32_352
  let v453 : BitVec 1 := Scalar.andi v452 v449
  let v454 : BitVec 32 := Scalar.addi v448 v447
  let v455 : BitVec 32 := Scalar.select v453 v454 v448
  let c1_i32_365 : BitVec 32 := 1#32
  let v468 : BitVec 32 := Scalar.muli v455 c1_i32_365
  let v469 : BitVec 32 := Scalar.addi c0_i32_366 v468
  v469.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_369 : BitVec 32 := 3#32
  let v476 : BitVec 32 := Scalar.addi v2 c3_i32_369
  let c4_i32_370 : BitVec 32 := 4#32
  let c0_i32_371 : BitVec 32 := 0#32
  let v477 : BitVec 1 := Scalar.cmpi .eq c4_i32_370 c0_i32_371
  let c1_i32_372 : BitVec 32 := 1#32
  let v478 : BitVec 32 := Scalar.select v477 c1_i32_372 c4_i32_370
  let v479 : BitVec 32 := Scalar.remsi v476 v478
  let c0_i32_374 : BitVec 32 := 0#32
  let v481 : BitVec 1 := Scalar.cmpi .slt v479 c0_i32_374
  let c0_i32_375 : BitVec 32 := 0#32
  let v482 : BitVec 1 := Scalar.cmpi .slt v478 c0_i32_375
  let v483 : BitVec 1 := Scalar.xori v481 v482
  let c0_i32_373 : BitVec 32 := 0#32
  let v480 : BitVec 1 := Scalar.cmpi .ne v479 c0_i32_373
  let v484 : BitVec 1 := Scalar.andi v483 v480
  let v485 : BitVec 32 := Scalar.addi v479 v478
  let v486 : BitVec 32 := Scalar.select v484 v485 v479
  let c1_i32_386 : BitVec 32 := 1#32
  let v499 : BitVec 32 := Scalar.muli v486 c1_i32_386
  let v500 : BitVec 32 := Scalar.addi c0_i32_387 v499
  v500.toNat
def k0_dev13 (d0 : Dev nD) : Nat :=
  let c0_i32_469 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_451 : BitVec 32 := 2#32
  let v554 : BitVec 32 := Scalar.addi v2 c2_i32_451
  let c4_i32_452 : BitVec 32 := 4#32
  let c0_i32_453 : BitVec 32 := 0#32
  let v555 : BitVec 1 := Scalar.cmpi .eq c4_i32_452 c0_i32_453
  let c1_i32_454 : BitVec 32 := 1#32
  let v556 : BitVec 32 := Scalar.select v555 c1_i32_454 c4_i32_452
  let v557 : BitVec 32 := Scalar.remsi v554 v556
  let c0_i32_456 : BitVec 32 := 0#32
  let v559 : BitVec 1 := Scalar.cmpi .slt v557 c0_i32_456
  let c0_i32_457 : BitVec 32 := 0#32
  let v560 : BitVec 1 := Scalar.cmpi .slt v556 c0_i32_457
  let v561 : BitVec 1 := Scalar.xori v559 v560
  let c0_i32_455 : BitVec 32 := 0#32
  let v558 : BitVec 1 := Scalar.cmpi .ne v557 c0_i32_455
  let v562 : BitVec 1 := Scalar.andi v561 v558
  let v563 : BitVec 32 := Scalar.addi v557 v556
  let v564 : BitVec 32 := Scalar.select v562 v563 v557
  let c1_i32_468 : BitVec 32 := 1#32
  let v577 : BitVec 32 := Scalar.muli v564 c1_i32_468
  let v578 : BitVec 32 := Scalar.addi c0_i32_469 v577
  v578.toNat
def k0_dev14 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_472 : BitVec 32 := 1#32
  let v585 : BitVec 32 := Scalar.addi v2 c1_i32_472
  let c4_i32_473 : BitVec 32 := 4#32
  let c0_i32_474 : BitVec 32 := 0#32
  let v586 : BitVec 1 := Scalar.cmpi .eq c4_i32_473 c0_i32_474
  let c1_i32_475 : BitVec 32 := 1#32
  let v587 : BitVec 32 := Scalar.select v586 c1_i32_475 c4_i32_473
  let v588 : BitVec 32 := Scalar.remsi v585 v587
  let c0_i32_477 : BitVec 32 := 0#32
  let v590 : BitVec 1 := Scalar.cmpi .slt v588 c0_i32_477
  let c0_i32_478 : BitVec 32 := 0#32
  let v591 : BitVec 1 := Scalar.cmpi .slt v587 c0_i32_478
  let v592 : BitVec 1 := Scalar.xori v590 v591
  let c0_i32_476 : BitVec 32 := 0#32
  let v589 : BitVec 1 := Scalar.cmpi .ne v588 c0_i32_476
  let v593 : BitVec 1 := Scalar.andi v592 v589
  let v594 : BitVec 32 := Scalar.addi v588 v587
  let v595 : BitVec 32 := Scalar.select v593 v594 v588
  let c1_i32_489 : BitVec 32 := 1#32
  let v608 : BitVec 32 := Scalar.muli v595 c1_i32_489
  let v609 : BitVec 32 := Scalar.addi c0_i32_490 v608
  v609.toNat
def k0_dev15 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_493 : BitVec 32 := 3#32
  let v616 : BitVec 32 := Scalar.addi v2 c3_i32_493
  let c4_i32_494 : BitVec 32 := 4#32
  let c0_i32_495 : BitVec 32 := 0#32
  let v617 : BitVec 1 := Scalar.cmpi .eq c4_i32_494 c0_i32_495
  let c1_i32_496 : BitVec 32 := 1#32
  let v618 : BitVec 32 := Scalar.select v617 c1_i32_496 c4_i32_494
  let v619 : BitVec 32 := Scalar.remsi v616 v618
  let c0_i32_498 : BitVec 32 := 0#32
  let v621 : BitVec 1 := Scalar.cmpi .slt v619 c0_i32_498
  let c0_i32_499 : BitVec 32 := 0#32
  let v622 : BitVec 1 := Scalar.cmpi .slt v618 c0_i32_499
  let v623 : BitVec 1 := Scalar.xori v621 v622
  let c0_i32_497 : BitVec 32 := 0#32
  let v620 : BitVec 1 := Scalar.cmpi .ne v619 c0_i32_497
  let v624 : BitVec 1 := Scalar.andi v623 v620
  let v625 : BitVec 32 := Scalar.addi v619 v618
  let v626 : BitVec 32 := Scalar.select v624 v625 v619
  let c1_i32_510 : BitVec 32 := 1#32
  let v639 : BitVec 32 := Scalar.muli v626 c1_i32_510
  let v640 : BitVec 32 := Scalar.addi c0_i32_511 v639
  v640.toNat
def k0_off8 (d0 : Dev nD) (c0_i32_515 : BitVec 32) (c0_i32_523 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_514 : BitVec 32 := 1#32
  let v647 : BitVec 32 := Scalar.addi v2 c1_i32_514
  let v648 : BitVec 32 := Scalar.addi v647 c0_i32_515
  let c4_i32_516 : BitVec 32 := 4#32
  let c0_i32_517 : BitVec 32 := 0#32
  let v649 : BitVec 1 := Scalar.cmpi .eq c4_i32_516 c0_i32_517
  let c1_i32_518 : BitVec 32 := 1#32
  let v650 : BitVec 32 := Scalar.select v649 c1_i32_518 c4_i32_516
  let v651 : BitVec 32 := Scalar.remsi v648 v650
  let c0_i32_520 : BitVec 32 := 0#32
  let v653 : BitVec 1 := Scalar.cmpi .slt v651 c0_i32_520
  let c0_i32_521 : BitVec 32 := 0#32
  let v654 : BitVec 1 := Scalar.cmpi .slt v650 c0_i32_521
  let v655 : BitVec 1 := Scalar.xori v653 v654
  let c0_i32_519 : BitVec 32 := 0#32
  let v652 : BitVec 1 := Scalar.cmpi .ne v651 c0_i32_519
  let v656 : BitVec 1 := Scalar.andi v655 v652
  let v657 : BitVec 32 := Scalar.addi v651 v650
  let v658 : BitVec 32 := Scalar.select v656 v657 v651
  let c256_i32_522 : BitVec 32 := 256#32
  let v659 : BitVec 32 := Scalar.muli v658 c256_i32_522
  let v660 : BitVec 32 := Scalar.addi v659 c0_i32_523
  let c0_i32_530 : BitVec 32 := 0#32
  ![v660.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S128x512 : 0 < S128x512.numel
  shapeCasts_S128x512_S128x512 : S128x512.ShapeCasts S128x512
  bitsLt_bf16_f32 : FTy.bits .bf16 < FTy.bits .f32
  inb_S3x2x128x512_S1x1x128x512_0_0_0_0 : ∀ a, (![0, 0, 0, 0] : Fin 4 → Nat) a + S1x1x128x512.size a ≤ S3x2x128x512.size a
  h_S1x1x128x512 : 0 < S1x1x128x512.numel
  shapeCasts_S1x1x128x512_S128x512 : S1x1x128x512.ShapeCasts S128x512
  shapeCasts_S128x512_S1x1x128x512 : S128x512.ShapeCasts S1x1x128x512
  packedbf16_S3x2x128x512_S1x1x128x512_0_0_0_0 : (Rect.unit (s := S3x2x128x512) ![0, 0, 0, 0] S1x1x128x512.size inb_S3x2x128x512_S1x1x128x512_0_0_0_0).PackedRows (EltTy.packing .bf16)
  inb_S3x2x128x512_S1x1x128x512_1_0_0_0 : ∀ a, (![1, 0, 0, 0] : Fin 4 → Nat) a + S1x1x128x512.size a ≤ S3x2x128x512.size a
  packedbf16_S3x2x128x512_S1x1x128x512_1_0_0_0 : (Rect.unit (s := S3x2x128x512) ![1, 0, 0, 0] S1x1x128x512.size inb_S3x2x128x512_S1x1x128x512_1_0_0_0).PackedRows (EltTy.packing .bf16)
  inb_S3x2x128x512_S1x1x128x512_2_0_0_0 : ∀ a, (![2, 0, 0, 0] : Fin 4 → Nat) a + S1x1x128x512.size a ≤ S3x2x128x512.size a
  packedbf16_S3x2x128x512_S1x1x128x512_2_0_0_0 : (Rect.unit (s := S3x2x128x512) ![2, 0, 0, 0] S1x1x128x512.size inb_S3x2x128x512_S1x1x128x512_2_0_0_0).PackedRows (EltTy.packing .bf16)
  inb_S3x2x128x512_S1x1x128x512_0_1_0_0 : ∀ a, (![0, 1, 0, 0] : Fin 4 → Nat) a + S1x1x128x512.size a ≤ S3x2x128x512.size a
  packedbf16_S3x2x128x512_S1x1x128x512_0_1_0_0 : (Rect.unit (s := S3x2x128x512) ![0, 1, 0, 0] S1x1x128x512.size inb_S3x2x128x512_S1x1x128x512_0_1_0_0).PackedRows (EltTy.packing .bf16)
  inb_S3x2x128x512_S1x1x128x512_1_1_0_0 : ∀ a, (![1, 1, 0, 0] : Fin 4 → Nat) a + S1x1x128x512.size a ≤ S3x2x128x512.size a
  packedbf16_S3x2x128x512_S1x1x128x512_1_1_0_0 : (Rect.unit (s := S3x2x128x512) ![1, 1, 0, 0] S1x1x128x512.size inb_S3x2x128x512_S1x1x128x512_1_1_0_0).PackedRows (EltTy.packing .bf16)
  inb_S3x2x128x512_S1x1x128x512_2_1_0_0 : ∀ a, (![2, 1, 0, 0] : Fin 4 → Nat) a + S1x1x128x512.size a ≤ S3x2x128x512.size a
  packedbf16_S3x2x128x512_S1x1x128x512_2_1_0_0 : (Rect.unit (s := S3x2x128x512) ![2, 1, 0, 0] S1x1x128x512.size inb_S3x2x128x512_S1x1x128x512_2_1_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  hamt_3 : (3#32 : BitVec 32).msb = false
  inb_S3x2_S1x1_1_0 : ∀ a, (![1, 0] : Fin 2 → Nat) a + S1x1.size a ≤ S3x2.size a
  squeezes_S1x1_S_ : S1x1.Squeezes S_
  squeezes_S1x1x128x512_S128x512 : S1x1x128x512.Squeezes S128x512
  wordsbf16_S3x2x128x512_S1x1x128x512_1_0_0_0 : (Rect.unit (s := S3x2x128x512) ![1, 0, 0, 0] S1x1x128x512.size inb_S3x2x128x512_S1x1x128x512_1_0_0_0).WholeWords (EltTy.packing .bf16)
  inb_S3x2_S1x1_0_0 : ∀ a, (![0, 0] : Fin 2 → Nat) a + S1x1.size a ≤ S3x2.size a
  wordsbf16_S3x2x128x512_S1x1x128x512_0_0_0_0 : (Rect.unit (s := S3x2x128x512) ![0, 0, 0, 0] S1x1x128x512.size inb_S3x2x128x512_S1x1x128x512_0_0_0_0).WholeWords (EltTy.packing .bf16)
  inb_S3x2_S1x1_2_0 : ∀ a, (![2, 0] : Fin 2 → Nat) a + S1x1.size a ≤ S3x2.size a
  wordsbf16_S3x2x128x512_S1x1x128x512_2_0_0_0 : (Rect.unit (s := S3x2x128x512) ![2, 0, 0, 0] S1x1x128x512.size inb_S3x2x128x512_S1x1x128x512_2_0_0_0).WholeWords (EltTy.packing .bf16)
  inb_S3x2_S1x1_1_1 : ∀ a, (![1, 1] : Fin 2 → Nat) a + S1x1.size a ≤ S3x2.size a
  wordsbf16_S3x2x128x512_S1x1x128x512_1_1_0_0 : (Rect.unit (s := S3x2x128x512) ![1, 1, 0, 0] S1x1x128x512.size inb_S3x2x128x512_S1x1x128x512_1_1_0_0).WholeWords (EltTy.packing .bf16)
  inb_S3x2_S1x1_0_1 : ∀ a, (![0, 1] : Fin 2 → Nat) a + S1x1.size a ≤ S3x2.size a
  wordsbf16_S3x2x128x512_S1x1x128x512_0_1_0_0 : (Rect.unit (s := S3x2x128x512) ![0, 1, 0, 0] S1x1x128x512.size inb_S3x2x128x512_S1x1x128x512_0_1_0_0).WholeWords (EltTy.packing .bf16)
  inb_S3x2_S1x1_2_1 : ∀ a, (![2, 1] : Fin 2 → Nat) a + S1x1.size a ≤ S3x2.size a
  wordsbf16_S3x2x128x512_S1x1x128x512_2_1_0_0 : (Rect.unit (s := S3x2x128x512) ![2, 1, 0, 0] S1x1x128x512.size inb_S3x2x128x512_S1x1x128x512_2_1_0_0).WholeWords (EltTy.packing .bf16)
  dot_S128x512_S512x512_S128x512_1_0_0_1_n_n_wf : DotDims.WF S128x512 S512x512 S128x512 [1] [0] [0] [1] [] []
  hcc0_scratch3 : 3 + S3x2.numel ≤ 27
  hcc0_scratch4 : 9 + S3x2.numel ≤ 27
  hcc0_scratch5 : 15 + S3x2.numel ≤ 27
  hcc0_scratch6 : 21 + S3x2.numel ≤ 27
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r₁ : Fin 3) (r₂ : Fin 2), ∀ a, (k0_off1 d0 (BitVec.ofNat 32 (1 + r₁.val)) (BitVec.ofNat 32 (128 * r₂.val))) a + S128x512.size a ≤ S1024x512.size a
  k0_off2_inb : ∀ d0 : Dev nD, ∀ (r : Fin 3), ∀ a, (k0_off2 d0 (BitVec.ofNat 32 (1 + r.val))) a + S1x1.size a ≤ S3x2.size a
  k0_off3_inb : ∀ d0 : Dev nD, ∀ (r : Fin 3), ∀ a, (k0_off3 d0 (BitVec.ofNat 32 (1 + r.val))) a + S1x1x128x512.size a ≤ S3x2x128x512.size a
  k0_off3_wordsbf16 : ∀ d0 : Dev nD, ∀ (r : Fin 3), (Rect.unit (s := S3x2x128x512) (k0_off3 d0 (BitVec.ofNat 32 (1 + r.val))) S1x1x128x512.size (k0_off3_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r : Fin 3), ∀ a, (k0_off4 d0 (BitVec.ofNat 32 (1 + r.val))) a + S1x1.size a ≤ S3x2.size a
  k0_off5_inb : ∀ d0 : Dev nD, ∀ (r : Fin 3), ∀ a, (k0_off5 d0 (BitVec.ofNat 32 (1 + r.val))) a + S1x1x128x512.size a ≤ S3x2x128x512.size a
  k0_off5_wordsbf16 : ∀ d0 : Dev nD, ∀ (r : Fin 3), (Rect.unit (s := S3x2x128x512) (k0_off5 d0 (BitVec.ofNat 32 (1 + r.val))) S1x1x128x512.size (k0_off5_inb d0 r)).WholeWords (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off6_inb : ∀ d0 : Dev nD, ∀ (r : Fin 2), ∀ a, (k0_off6 d0 (BitVec.ofNat 32 (128 * r.val))) a + S128x512.size a ≤ S1024x512.size a
  k0_off6_packedbf16 : ∀ d0 : Dev nD, ∀ (r : Fin 2), (Rect.unit (s := S1024x512) (k0_off6 d0 (BitVec.ofNat 32 (128 * r.val))) S128x512.size (k0_off6_inb d0 r)).PackedRows (EltTy.packing .bf16)
  k0_off7_inb : ∀ d0 : Dev nD, ∀ (r : Fin 2), ∀ a, (k0_off7 d0 (BitVec.ofNat 32 (128 * r.val))) a + S128x512.size a ≤ S1024x512.size a
  k0_off7_wordsbf16 : ∀ d0 : Dev nD, ∀ (r : Fin 2), (Rect.unit (s := S1024x512) (k0_off7 d0 (BitVec.ofNat 32 (128 * r.val))) S128x512.size (k0_off7_inb d0 r)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off8_inb : ∀ d0 : Dev nD, ∀ (r₁ : Fin 3) (r₂ : Fin 2), ∀ a, (k0_off8 d0 (BitVec.ofNat 32 r₁.val) (BitVec.ofNat 32 (128 * r₂.val))) a + S128x512.size a ≤ S1024x512.size a
  k0_off8_wordsbf16 : ∀ d0 : Dev nD, ∀ (r₁ : Fin 3) (r₂ : Fin 2), (Rect.unit (s := S1024x512) (k0_off8 d0 (BitVec.ofNat 32 r₁.val) (BitVec.ofNat 32 (128 * r₂.val))) S128x512.size (k0_off8_inb d0 r₁ r₂)).WholeWords (EltTy.packing .bf16)
  hstage0_0 : ∀ j, (stage0_0 j).IsWhole
  hstage0_1 : ∀ j, (stage0_1 j).IsWhole
  hstage0_2 : ∀ j, (stage0_2 j).IsWhole

variable [Facts₀]

abbrev cc0_scratch3 : DmaSems sig S3x2 := SemArray.consecutive 3 S3x2 hcc0_scratch3
abbrev cc0_scratch4 : DmaSems sig S3x2 := SemArray.consecutive 9 S3x2 hcc0_scratch4
abbrev cc0_scratch5 : DmaSems sig S3x2 := SemArray.consecutive 15 S3x2 hcc0_scratch5
abbrev cc0_scratch6 : DmaSems sig S3x2 := SemArray.consecutive 21 S3x2 hcc0_scratch6
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S512x512 : Shape := ⟨2, ![512, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4x1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S1024x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S4096x512_S4x1024x512 : S4096x512.ShapeCasts S4x1024x512
  reducesTo_S4x1024x512_S1024x512_d0 : S4x1024x512.ReducesTo [0] S1024x512
  h_S_ : 0 < S_.numel
  bitsLt_bf16_f32 : FTy.bits .bf16 < FTy.bits .f32
  dot_S1024x512_S512x512_S1024x512_1_0_0_1_n_n_wf : DotDims.WF S1024x512 S512x512 S1024x512 [1] [0] [0] [1] [] []

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

class Facts : Prop extends Facts₀ where

variable [Facts]
-- ==== Proof.KernelProto.lean ====
/-
  The protocol of the four-device kernel: a reduce-scatter of row blocks, a matrix product, an all-gather.

  Each device `c` holds 1024 rows of `t` in four quarters of 256 rows, each quarter in two halves of 128. Quarter `q`
  of the result is owned by device `q`: every other device rounds its rows of that quarter and copies them into a slot
  of `q`'s landing buffer; `q` adds the three landed blocks to its own rows, multiplies by the weights, and copies the
  half it obtained into the same rows of every other device's result buffer. Before its first copy a device signals
  each peer's barrier semaphore once and waits for three units on its own: a unit from peer `p` says `p` is inside the
  kernel, and hands over the slots and rows of `p`'s buffers this device will write.

  Here: the resource algebra, the closed forms of the printed device and offset chains, the cells (a barrier cell and
  24 DMA cells per device), the views, the contents each buffer holds, the schedule of the one round of every cell with
  its tables, what each device owes in program order with the levels that order the waits, the ghost state and the
  pipeline's proof data.
-/
import proofs.«900370_g7700000000000371_dist_matmul_of_ar_i_m1024_n512_k512_v7x_i4_f32_1_alg».proof.Defs
import proofs.«900370_g7700000000000371_dist_matmul_of_ar_i_m1024_n512_k512_v7x_i4_f32_1_alg».proof.Proof.Gen.Kernel
import proofs.«900370_g7700000000000371_dist_matmul_of_ar_i_m1024_n512_k512_v7x_i4_f32_1_alg».proof.Proof.Gen.Kernel.Skeleton
import proofs.«900370_g7700000000000371_dist_matmul_of_ar_i_m1024_n512_k512_v7x_i4_f32_1_alg».proof.Proof.Gen.Kernel.Launch
import proofs.«900370_g7700000000000371_dist_matmul_of_ar_i_m1024_n512_k512_v7x_i4_f32_1_alg».proof.Proof.Gen.Kernel.Points
import proofs.«900370_g7700000000000371_dist_matmul_of_ar_i_m1024_n512_k512_v7x_i4_f32_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh axis -/

/-- The device `e + 1` places after `c` on the mesh axis (cyclically). -/
def pe (c : Dev nD) (e : Fin 3) : Dev nD := ⟨(c.val + 1 + e.val) % 4, Nat.mod_lt _ (by decide)⟩
/-- Seen from `pe c e`, `c` is the device `back e + 1` places after it. -/
def back (e : Fin 3) : Fin 3 := ⟨2 - e.val, by omega⟩

theorem pe_back : ∀ (c : Dev nD) (e : Fin 3), pe (pe c e) (back e) = c := by decide
theorem back_back : ∀ e : Fin 3, back (back e) = e := by decide
theorem pe_ne : ∀ (c : Dev nD) (e : Fin 3), pe c e ≠ c := by decide
theorem pe_inj : ∀ (c : Dev nD) (e e' : Fin 3), pe c e = pe c e' → e = e' := by decide

/-- The printed device chains in closed form: the entry signals go to the three peers in order, the copies of
    each half to the second, the first and the third peer. -/
theorem dev1_eq : ∀ c : Dev nD, (⟨k0_dev1 c, k0_dev1_lt c⟩ : Dev nD) = pe c 0 := by decide +kernel
theorem dev2_eq : ∀ c : Dev nD, (⟨k0_dev2 c, k0_dev2_lt c⟩ : Dev nD) = pe c 1 := by decide +kernel
theorem dev3_eq : ∀ c : Dev nD, (⟨k0_dev3 c, k0_dev3_lt c⟩ : Dev nD) = pe c 2 := by decide +kernel
theorem dev4_eq : ∀ c : Dev nD, (⟨k0_dev4 c, k0_dev4_lt c⟩ : Dev nD) = pe c 1 := by decide +kernel
theorem dev5_eq : ∀ c : Dev nD, (⟨k0_dev5 c, k0_dev5_lt c⟩ : Dev nD) = pe c 0 := by decide +kernel
theorem dev6_eq : ∀ c : Dev nD, (⟨k0_dev6 c, k0_dev6_lt c⟩ : Dev nD) = pe c 2 := by decide +kernel
theorem dev7_eq : ∀ c : Dev nD, (⟨k0_dev7 c, k0_dev7_lt c⟩ : Dev nD) = pe c 1 := by decide +kernel
theorem dev8_eq : ∀ c : Dev nD, (⟨k0_dev8 c, k0_dev8_lt c⟩ : Dev nD) = pe c 0 := by decide +kernel
theorem dev9_eq : ∀ c : Dev nD, (⟨k0_dev9 c, k0_dev9_lt c⟩ : Dev nD) = pe c 2 := by decide +kernel
theorem dev10_eq : ∀ c : Dev nD, (⟨k0_dev10 c, k0_dev10_lt c⟩ : Dev nD) = pe c 1 := by decide +kernel
theorem dev11_eq : ∀ c : Dev nD, (⟨k0_dev11 c, k0_dev11_lt c⟩ : Dev nD) = pe c 0 := by decide +kernel
theorem dev12_eq : ∀ c : Dev nD, (⟨k0_dev12 c, k0_dev12_lt c⟩ : Dev nD) = pe c 2 := by decide +kernel
theorem dev13_eq : ∀ c : Dev nD, (⟨k0_dev13 c, k0_dev13_lt c⟩ : Dev nD) = pe c 1 := by decide +kernel
theorem dev14_eq : ∀ c : Dev nD, (⟨k0_dev14 c, k0_dev14_lt c⟩ : Dev nD) = pe c 0 := by decide +kernel
theorem dev15_eq : ∀ c : Dev nD, (⟨k0_dev15 c, k0_dev15_lt c⟩ : Dev nD) = pe c 2 := by decide +kernel

/-- The printed offset chains in closed form. -/
theorem off1_eq : ∀ (c : Dev nD) (r₁ : Fin 3) (r₂ : Fin 2), k0_off1 c (BitVec.ofNat 32 (1 + r₁.val)) (BitVec.ofNat 32 (128 * r₂.val)) = ![256 * (pe c r₁).val + 128 * r₂.val, 0] := by decide +kernel
theorem off2_eq : ∀ (c : Dev nD) (r : Fin 3), k0_off2 c (BitVec.ofNat 32 (1 + r.val)) = ![(back r).val, 0] := by decide +kernel
theorem off3_eq : ∀ (c : Dev nD) (r : Fin 3), k0_off3 c (BitVec.ofNat 32 (1 + r.val)) = ![(back r).val, 0, 0, 0] := by decide +kernel
theorem off4_eq : ∀ (c : Dev nD) (r : Fin 3), k0_off4 c (BitVec.ofNat 32 (1 + r.val)) = ![(back r).val, 1] := by decide +kernel
theorem off5_eq : ∀ (c : Dev nD) (r : Fin 3), k0_off5 c (BitVec.ofNat 32 (1 + r.val)) = ![(back r).val, 1, 0, 0] := by decide +kernel
theorem off8_eq : ∀ (c : Dev nD) (r₁ : Fin 3) (r₂ : Fin 2), k0_off8 c (BitVec.ofNat 32 r₁.val) (BitVec.ofNat 32 (128 * r₂.val)) = ![256 * (pe c r₁).val + 128 * r₂.val, 0] := by decide +kernel

/-! ## The cells -/

/-- The runtime's barrier semaphore of collective id 0 (not scoped to the launch). -/
abbrev barS : Sem sig := (SemArray.scalar (sig.barrier 0 rfl) : Sems sig S_).sem
abbrev barCell (c : Dev nD) : GSem nD τ sig := ((c : Thread nD τ), .reg barS)

/-- The kernel's four arrays of six DMA semaphores, `s` = 0 the reduce-scatter send cells, 1 its receive cells,
    2 the all-gather send cells, 3 its receive cells; entry `(a, i)` of array `s`. -/
def dsem (s : Fin 4) (a : Fin 3) (i : Fin 2) : DmaSem sig :=
  ⟨3 + 6 * s.val + 2 * a.val + i.val, by have := s.isLt; have := a.isLt; have := i.isLt; show _ < 27; omega⟩
abbrev dcell (c : Dev nD) (s : Fin 4) (a : Fin 3) (i : Fin 2) : GSem nD τ sig := ((c : Thread nD τ), .dma (dsem s a i))

/-! ## The views -/

abbrev tM : Memref sig .tc .vmem S1024x512 .f32 := Memref.whole cc0_stg0_0
abbrev wM : Memref sig .tc .vmem S512x512 .f32 := Memref.whole cc0_stg1_0
abbrev oM : Memref sig .tc .vmem S1024x512 .bf16 := Memref.whole cc0_stg2_0
abbrev sM : Memref sig .tc .vmem S3x2x128x512 .bf16 := Memref.whole cc0_scratch0
abbrev bM : Memref sig .tc .vmem S3x2x128x512 .bf16 := Memref.whole cc0_scratch1
abbrev vM : Memref sig .tc .vmem S512x512 .bf16 := Memref.whole cc0_scratch2

theorem inb4 : ∀ (a : Fin 3) (i : Fin 2), ∀ x, (![a.val, i.val, 0, 0] : Fin 4 → Nat) x + S1x1x128x512.size x ≤ S3x2x128x512.size x := by decide
theorem inb2 : ∀ (q : Dev nD) (i : Fin 2), ∀ x, (![256 * q.val + 128 * i.val, 0] : Fin 2 → Nat) x + S128x512.size x ≤ S1024x512.size x := by decide

/-- Slot `(a, i)` of a `[3, 2, 128, 512]` scratch buffer. -/
abbrev r4 (a : Fin 3) (i : Fin 2) : Rect S3x2x128x512 := Rect.unit ![a.val, i.val, 0, 0] S1x1x128x512.size (inb4 a i)
/-- Rows `256 q + 128 i ..+128` of a `[1024, 512]` buffer: half `i` of device `q`'s quarter. -/
abbrev r2 (q : Dev nD) (i : Fin 2) : Rect S1024x512 := Rect.unit ![256 * q.val + 128 * i.val, 0] S128x512.size (inb2 q i)

/-- Slot `(a, i)` of the staging scratch, of the landing scratch; half `i` of quarter `q` of the result's buffer. -/
abbrev sV (a : Fin 3) (i : Fin 2) : Memref sig .tc .vmem S128x512 .bf16 := (sM.slice (r4 a i) (fun _ => rfl)).squeeze S128x512 squeezes_S1x1x128x512_S128x512
abbrev bV (a : Fin 3) (i : Fin 2) : Memref sig .tc .vmem S128x512 .bf16 := (bM.slice (r4 a i) (fun _ => rfl)).squeeze S128x512 squeezes_S1x1x128x512_S128x512
abbrev oV (q : Dev nD) (i : Fin 2) : Memref sig .tc .vmem S128x512 .bf16 := oM.slice (r2 q i) (fun _ => rfl)

/-- One copy's credit: the same for every slice the kernel moves. -/
abbrev N : ℕ := (bV 0 0).view.dmaCredit
theorem N_pos : 0 < N := View.dmaCredit_pos _ (by decide)
theorem credit_b (a : Fin 3) (i : Fin 2) : (bV a i).view.dmaCredit = N := rfl
theorem credit_s (a : Fin 3) (i : Fin 2) : (sV a i).view.dmaCredit = N := rfl
theorem credit_o (q : Dev nD) (i : Fin 2) : (oV q i).view.dmaCredit = N := rfl

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- What the pipeline stages of device `c`'s two argument arrays. -/
def tIn (c : Dev nD) : (cc0_stg0_0 : Ref sig .tc).ty.Contents (Elt F) :=
  (win0_0.blk (0 : Fin 1)).view.read (Elt F) (m ((c : Thread nD τ).loc main_arg0))
def wIn (c : Dev nD) : (cc0_stg1_0 : Ref sig .tc).ty.Contents (Elt F) :=
  (win0_1.blk (0 : Fin 1)).view.read (Elt F) (m ((c : Thread nD τ).loc main_arg1))

/-- Half `i` of quarter `q` of device `c`'s rows. -/
def tBlk (c q : Dev nD) (i : Fin 2) : Vec F S128x512 .f32 :=
  (tM : Memref sig .tc .vmem S1024x512 .f32).view.readAt (Elt F) (r2 q i).toLoadRect (tIn m c)

/-- What device `c` stages in slot `(a, i)`: its rows of `pe c a`'s quarter, rounded. -/
def stg (c : Dev nD) (a : Fin 3) (i : Fin 2) : FVec F S1x1x128x512 .bf16 := k0_pay1 (tBlk m c (pe c a) i)
/-- What device `c` receives in landing slot `(a, i)`: the sender `pe c a`'s rows of `c`'s quarter, rounded. -/
def rcv (c : Dev nD) (a : Fin 3) (i : Fin 2) : FVec F S1x1x128x512 .bf16 := k0_pay1 (tBlk m (pe c a) c i)
theorem stg_eq_rcv (c : Dev nD) (a : Fin 3) (i : Fin 2) : stg m c a i = rcv m (pe c a) (back a) i := by
  unfold stg rcv; rw [pe_back]

/-- The weights, rounded. -/
def wB (c : Dev nD) : FVec F S512x512 .bf16 := k0_pay8 (wIn m c)

/-- Half `i` of device `c`'s quarter of the result: the four devices' rows of it summed, times the weights. -/
def yX (c : Dev nD) (i : Fin 2) : FVec F S128x512 .bf16 :=
  k0_pay9 (tBlk m c c i) (rcv m c 0 i) (rcv m c 1 i) (rcv m c 2 i) (wB m c)

/-- A `[1, 1, 128, 512]` block read through a squeezed slot. -/
abbrev sq (X : FVec F S1x1x128x512 .bf16) : S128x512.Idx → Elt F .bf16 := shapeCast S128x512 X shapeCasts_S1x1x128x512_S128x512

/-! ## The schedule -/

/-- The three copies of one half lend the same rows: a third of the share each. -/
def agShare (a : Fin 3) : PosShare TreeShare := match a with
  | ⟨0, _⟩ => fullShare.left
  | ⟨1, _⟩ => fullShare.right.left
  | ⟨_ + 2, _⟩ => fullShare.right.right

/-- What the one duty of DMA cell `(s, a, i)` of device `c` hands `c`: its staged slot back (0), slot `(a, i)` of its
    landing buffer holding `pe c a`'s rows (1), its share of its own half of the result back (2), `pe c a`'s half of the
    result landed in its result buffer (3). -/
def pay (c : Dev nD) (s : Fin 4) (a : Fin 3) (i : Fin 2) : sProp 𝕄 :=
  match s with
  | ⟨0, _⟩ => owns (c : Thread nD τ) (sV a i) fullShare (sq (stg m c a i))
  | ⟨1, _⟩ => owns (c : Thread nD τ) (bV a i) fullShare (sq (rcv m c a i))
  | ⟨2, _⟩ => owns (c : Thread nD τ) (oV c i) (agShare a) (yX m c i)
  | ⟨_ + 3, _⟩ => owns (c : Thread nD τ) (oV (pe c a) i) fullShare (yX m (pe c a) i)

/-- What the entry signal of `pe c d` hands `c`: the two slots of `pe c d`'s landing buffer and the two halves of `c`'s
    quarter of its result buffer that `c` will copy into, and that `pe c d` has reached round 0 of the four cells those
    copies complete on. -/
def barPay (c : Dev nD) (d : Fin 3) : sProp 𝕄 :=
  iprop((∃ X, owns (pe c d : Thread nD τ) (bV (back d) 0) fullShare X) ∗ (∃ X, owns (pe c d : Thread nD τ) (bV (back d) 1) fullShare X)
    ∗ (∃ X, owns (pe c d : Thread nD τ) (oV c 0) fullShare X) ∗ (∃ X, owns (pe c d : Thread nD τ) (oV c 1) fullShare X)
    ∗ reached ER (dcell (pe c d) 1 (back d) 0) 0 ∗ reached ER (dcell (pe c d) 1 (back d) 1) 0
    ∗ reached ER (dcell (pe c d) 3 (back d) 0) 0 ∗ reached ER (dcell (pe c d) 3 (back d) 1) 0)

def decS (n : DmaSem sig) : Fin 4 := ⟨(n.val - 3) / 6 % 4, Nat.mod_lt _ (by decide)⟩
def decA (n : DmaSem sig) : Fin 3 := ⟨(n.val - 3) % 6 / 2 % 3, Nat.mod_lt _ (by decide)⟩
def decI (n : DmaSem sig) : Fin 2 := ⟨(n.val - 3) % 2, Nat.mod_lt _ (by decide)⟩
theorem decS_dsem : ∀ (s : Fin 4) (a : Fin 3) (i : Fin 2), decS (dsem s a i) = s := by decide
theorem decA_dsem : ∀ (s : Fin 4) (a : Fin 3) (i : Fin 2), decA (dsem s a i) = a := by decide
theorem decI_dsem : ∀ (s : Fin 4) (a : Fin 3) (i : Fin 2), decI (dsem s a i) = i := by decide
theorem dsem_ge : ∀ (s : Fin 4) (a : Fin 3) (i : Fin 2), 3 ≤ (dsem s a i).val := by decide

/-- One round. A TensorCore's barrier cell has three duties of one unit, one per peer; each of its 24 DMA cells one duty
    of one copy's credit. -/
def collRd : Rounds.Schedule (GSem nD τ sig) (Fin 3) 𝕄 where
  duties g r := if r = 0 ∧ g.1.2 = .tc then (match g.2 with | .reg _ => Finset.univ | .dma n => if 3 ≤ n.val then {0} else ∅) else ∅
  unitless _ := False
  amount g _ _ := match g.2 with | .reg _ => 1 | .dma _ => N
  payload g _ d := match g.2 with | .reg _ => barPay g.1.1 d | .dma n => pay m g.1.1 (decS n) (decA n) (decI n)
  amount_pos g _ _ _ := by
    rcases g with ⟨t, sm⟩
    cases sm with
    | reg _ => exact Nat.one_pos
    | dma _ => exact N_pos

instance pay_storable (c : Dev nD) (s : Fin 4) (a : Fin 3) (i : Fin 2) : BI.Storable (upEmb : UEmb _ 𝕄) (pay m c s a i) := by
  unfold pay; split <;> infer_instance

instance barPay_storable (c : Dev nD) (d : Fin 3) : BI.Storable (upEmb : UEmb _ 𝕄) (barPay (F := F) c d) := by
  unfold barPay; infer_instance

instance collRd_payload_storable (g : GSem nD τ sig) (r : ℕ) (d : Fin 3) :
    BI.Storable (upEmb : UEmb _ 𝕄) ((collRd (F := F) m).payload g r d) := by
  rcases g with ⟨t, sm⟩
  cases sm with
  | reg _ => exact barPay_storable _ _
  | dma n => exact pay_storable m _ _ _ _

section Sched
variable (c : Dev nD) (s : Fin 4) (a : Fin 3) (i : Fin 2)

theorem duties_bar : (collRd (F := F) m).duties (barCell c) 0 = Finset.univ := by dsimp only [collRd]; exact if_pos ⟨rfl, rfl⟩
theorem duties_d : (collRd (F := F) m).duties (dcell c s a i) 0 = {0} := by
  dsimp only [collRd]; rw [if_pos ⟨rfl, rfl⟩]; exact if_pos (dsem_ge s a i)
theorem duties_later (g : GSem nD τ sig) : ∀ r, 1 ≤ r → (collRd (F := F) m).duties g r = ∅ :=
  fun r hr => by dsimp only [collRd]; rw [if_neg fun h => by omega]
theorem amount_bar (d : Fin 3) : (collRd (F := F) m).amount (barCell c) 0 d = 1 := rfl
theorem amount_d (d : Fin 3) : (collRd (F := F) m).amount (dcell c s a i) 0 d = N := rfl
theorem expect_bar : (collRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (collRd (F := F) m).expect (dcell c s a i) 0 = N := by
  unfold Schedule.expect Schedule.amountOf; rw [duties_d, Finset.sum_singleton, amount_d]
theorem payload_bar (d : Fin 3) : (collRd (F := F) m).payload (barCell c) 0 d = barPay c d := rfl
theorem payload_d (d : Fin 3) : (collRd (F := F) m).payload (dcell c s a i) 0 d = pay m c s a i := by
  show pay m c (decS (dsem s a i)) (decA (dsem s a i)) (decI (dsem s a i)) = _
  rw [decS_dsem, decA_dsem, decI_dsem]

/-- The barrier cell's round, no duty taken: the three peers' hand-overs. -/
theorem rest_bar : bigSep ((collRd (F := F) m).duties (barCell c) 0 \ ∅) (fun d => (collRd (F := F) m).payload (barCell c) 0 d)
    = iprop(barPay c 0 ∗ barPay c 1 ∗ barPay c 2) := by
  rw [Finset.sdiff_empty, duties_bar, bigSep_univ_eq_bigSepL [(0 : Fin 3), 1, 2] (by decide) (by decide)]
  rfl
theorem rest_d : bigSep ((collRd (F := F) m).duties (dcell c s a i) 0 \ ∅) (fun d => (collRd (F := F) m).payload (dcell c s a i) 0 d) = pay m c s a i := by
  rw [Finset.sdiff_empty, duties_d, bigSep_singleton, payload_d]

end Sched

/-! ## What each core owes at launch; the levels -/

/-- The cell a copy of device `c` into its peer `pe c e` completes on: array `s` (1 reduce-scatter, 3 all-gather), the
    slot that peer keeps for `c`, half `i`. -/
abbrev peerCell (c : Dev nD) (s : Fin 4) (e : Fin 3) (i : Fin 2) : GSem nD τ sig := dcell (pe c e) s (back e) i

/-- What device `c` pays, in program order: one unit to each peer's barrier cell, its six reduce-scatter copies, its six
    all-gather copies (each group of three to the second, the first and the third peer). -/
def debts (c : Dev nD) : List (GSem nD τ sig × ℕ) :=
  [(barCell (pe c 0), 1), (barCell (pe c 1), 1), (barCell (pe c 2), 1),
   (peerCell c 1 1 0, N), (peerCell c 1 0 0, N), (peerCell c 1 2 0, N),
   (peerCell c 1 1 1, N), (peerCell c 1 0 1, N), (peerCell c 1 2 1, N),
   (peerCell c 3 1 0, N), (peerCell c 3 0 0, N), (peerCell c 3 2 0, N),
   (peerCell c 3 1 1, N), (peerCell c 3 0 1, N), (peerCell c 3 2 1, N)]

def owe : List (GSem nD τ sig × ℕ) → CellTallies nD τ sig Unit
  | [] => 0
  | d :: ds => owe ds + tallyAt d.1 () d.2

/-- What device `c` still owes after its first `k` payments. -/
def O (c : Dev nD) (k : ℕ) : CellTallies nD τ sig Unit := owe ((debts c).drop k)

theorem owe_pos {ds : List (GSem nD τ sig × ℕ)} {g : GSem nD τ sig} {u : Unit} (h : 0 < owe ds g u) : ∃ d ∈ ds, g = d.1 := by
  induction ds with
  | nil => exact absurd h (Nat.lt_irrefl 0)
  | cons d ds ih =>
    unfold owe at h
    rw [Pi.add_apply, Finsupp.add_apply, tallyAt_apply] at h
    by_cases hg : g = d.1 ∧ u = ()
    · exact ⟨d, List.mem_cons_self, hg.1⟩
    · rw [if_neg hg, Nat.add_zero] at h
      obtain ⟨d', hd', e⟩ := ih h
      exact ⟨d', List.mem_cons_of_mem _ hd', e⟩

def L (g : GSem nD τ sig) : Finset Unit := if g.1.2 = .tc then {()} else ∅
/-- Barrier cells at 1, reduce-scatter receive cells at 2, all-gather receive cells at 3, everything else (staging, send) at 0. -/
def lv (g : GSem nD τ sig) (_ : Unit) : ℕ := match g.2 with
  | .reg _ => 1
  | .dma n => if decS n = 1 then 2 else if decS n = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem debts_tc : ∀ (c : Dev nD), ∀ d ∈ debts c, L d.1 = {()} := by
  intro c d hd
  simp only [debts, List.mem_cons, List.mem_nil_iff, or_false] at hd
  rcases hd with rfl | rfl | rfl | rfl | rfl | rfl | rfl | rfl | rfl | rfl | rfl | rfl | rfl | rfl | rfl <;> exact L_tc _ _

/-- A wait on a cell of level at most `b` while every cell still owed sits above `b`. -/
theorem mayWait_of (c : Dev nD) (sm : SemLoc sig) (k : ℕ) (b : ℕ) (hb : lv ((c : Thread nD τ), sm) () ≤ b)
    (hd : ∀ d ∈ (debts c).drop k, b < lv d.1 ()) : (levAts L lv : sProp 𝕄) ⊢ MayWait (c : Thread nD τ) sm () (O c k) :=
  MayOwe.of_cut (L := L) (lev := lv) b
    (fun p hp => by rw [Finset.mem_singleton.mp hp, L_tc]; exact Finset.mem_singleton_self _)
    (fun g u hg => by
      obtain ⟨d, hd', rfl⟩ := owe_pos hg
      rw [debts_tc c d (List.mem_of_mem_drop hd')]; exact Finset.mem_singleton_self _)
    (fun p hp => by rw [Finset.mem_singleton.mp hp]; exact hb)
    (fun g u hg => by
      obtain ⟨d, hd', rfl⟩ := owe_pos hg
      exact hd d hd')

theorem above_bar : ∀ c : Dev nD, ∀ d ∈ (debts c).drop 3, 1 < lv d.1 () := by decide
theorem above_rs0 : ∀ c : Dev nD, ∀ d ∈ (debts c).drop 9, 2 < lv d.1 () := by decide
theorem above_rs1 : ∀ c : Dev nD, ∀ d ∈ (debts c).drop 12, 2 < lv d.1 () := by decide
theorem O_done (c : Dev nD) : O c 15 = 0 := rfl
theorem O_step (c : Dev nD) : O c 0 = O c 1 + tallyAt (barCell (pe c 0)) () 1 := rfl

/-! ## The result's staging buffer at the end: all eight halves -/

/-- Row `256 q + 128 i + r` of the result is row `r` of half `i` of device `q`'s quarter. -/
def outAt : (cc0_stg2_0 : Ref sig .tc).ty.Contents (Elt F) := fun j =>
  yX m ⟨(j 0).val / 256 % 4, Nat.mod_lt _ (by decide)⟩ ⟨(j 0).val % 256 / 128 % 2, Nat.mod_lt _ (by decide)⟩
    (Idealize.ShloMosaic.ValueIdx.ix2 (⟨(j 0).val % 128, Nat.mod_lt _ (by decide)⟩ : Fin 128) (⟨(j 1).val % 512, Nat.mod_lt _ (by decide)⟩ : Fin 512))

/-! ## The ghost state -/

/-- A TensorCore's cells: its barrier cell (`none`) and its 24 DMA cells. -/
abbrev CK : Type := Option (Fin 4 × Fin 3 × Fin 2)
def csem : CK → SemLoc sig
  | none => .reg barS
  | some x => .dma (dsem x.1 x.2.1 x.2.2)
abbrev kcell (ck : Dev nD × CK) : GSem nD τ sig := ((ck.1 : Thread nD τ), csem ck.2)

/-- Every cell's invariant, under the names `K` the launch allocated them at, and round 0 of every cell reached. -/
def records (K : Dev nD × CK → ℕ) : sProp 𝕄 :=
  iprop((bigSep Finset.univ fun ck : Dev nD × CK => cellInv ER (collRd m) (K ck) (kcell ck))
    ∗ bigSep Finset.univ fun ck : Dev nD × CK => reached ER (kcell ck) 0)

instance records_persistent (K : Dev nD × CK → ℕ) : BI.Persistent (records m K) := by unfold records; infer_instance

/-- Device `c`'s positions: round 0 of each of its cells, nothing taken. -/
def posns (c : Dev nD) : sProp 𝕄 := bigSep Finset.univ fun k : CK => atPos ER (kcell (c, k)) 0 ∅ 0

/-- The tokens of the duties device `c` pays: its unit on each peer's barrier cell, its copies' landings on the peers'
    receive cells, its copies' departures on its own send cells. -/
def payToks (c : Dev nD) : sProp 𝕄 :=
  iprop((bigSep Finset.univ fun e : Fin 3 => dutyTok ER (barCell (pe c e)) 0 (back e))
    ∗ (bigSep Finset.univ fun x : Fin 3 × Fin 2 => dutyTok ER (peerCell c 1 x.1 x.2) 0 (0 : Fin 3))
    ∗ (bigSep Finset.univ fun x : Fin 3 × Fin 2 => dutyTok ER (peerCell c 3 x.1 x.2) 0 (0 : Fin 3))
    ∗ (bigSep Finset.univ fun x : Fin 3 × Fin 2 => dutyTok ER (dcell c 0 x.1 x.2) 0 (0 : Fin 3))
    ∗ (bigSep Finset.univ fun x : Fin 3 × Fin 2 => dutyTok ER (dcell c 2 x.1 x.2) 0 (0 : Fin 3)))

def ghost (K : Dev nD × CK → ℕ) (c : Dev nD) : sProp 𝕄 := iprop(records m K ∗ posns c ∗ payToks c)

/-- The credit the launch deals device `c`: what its peers owe its barrier cell and its twelve receive cells. -/
def creds (c : Dev nD) : sProp 𝕄 :=
  iprop(cred (tallyAt (barCell c) () 3)
    ∗ (bigSep Finset.univ fun x : Fin 3 × Fin 2 => cred (tallyAt (dcell c 1 x.1 x.2) () N))
    ∗ (bigSep Finset.univ fun x : Fin 3 × Fin 2 => cred (tallyAt (dcell c 3 x.1 x.2) () N)))

def start (c : Dev nD) : sProp 𝕄 := iprop((∃ K, ghost m K c) ∗ creds c ∗ levAts L lv)

/-- The three scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scr c)
/-- After the point: the scratch buffers back, the 24 own cells at zero, closed (the barrier cell is the runtime's). -/
def Φ₁ (c : Dev nD) : sProp 𝕄 :=
  iprop(scr c ∗ bigSep Finset.univ fun x : Fin 4 × Fin 3 × Fin 2 => semVal (dcell c x.1 x.2.1 x.2.2) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tIn m c
    | ⟨1, _⟩ => wIn m c
    | ⟨2, _⟩ => outAt m
  Φ t := match t with
    | ⟨0, _⟩ => Φ₀ m c
    | ⟨_ + 1, _⟩ => Φ₁ c
  q _ := fullShare
  owed t := match t with
    | ⟨0, _⟩ => O c 0
    | ⟨_ + 1, _⟩ => 0

abbrev 𝒱₀ : Variants := Variants.none

end Cert.Kernel.Coll

end
-- ==== Proof.KernelBodyDefs.lean ====
/-
  What one thread's body starts from and what it leaves: the ghost state, the launch credit, the levels and the three
  scratch buffers; what the thread owes; the three staging buffers whole — the two inputs as the pipeline fetched them,
  the result's at whatever it held — and, after the body, the scratch buffers back, the 24 own cells at zero, nothing
  owed, the inputs as they were and the result's staging buffer holding all eight halves.
-/
import proofs.«900370_g7700000000000371_dist_matmul_of_ar_i_m1024_n512_k512_v7x_i4_f32_1_alg».proof.Proof.KernelProto

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- A staging buffer held whole at contents `X`. -/
abbrev stgW (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ scr c)
    ∗ (dats m ρ 0 c).owesAt () (t0_0 : Fin cfg0.N).castSucc
    ∗ (∃ d, stgW c cc0_stg0_0 ((dats m ρ 0 c).before (0 : Fin 3) t0_0 d))
    ∗ (∃ d, stgW c cc0_stg1_0 ((dats m ρ 0 c).before (1 : Fin 3) t0_0 d))
    ∗ (∃ d, stgW c cc0_stg2_0 ((dats m ρ 0 c).before (2 : Fin 3) t0_0 d)))

def bodyPost (c : Dev nD) : sProp 𝕄 :=
  iprop(Φ₁ c ∗ (dats m ρ 0 c).owesAt () (t0_0 : Fin cfg0.N).succ
    ∗ stgW c cc0_stg0_0 (tIn m c) ∗ stgW c cc0_stg1_0 (wIn m c) ∗ stgW c cc0_stg2_0 (outAt m))

/-- The body, as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6

/-- One thread's body is sound: from `bodyPre` it runs to `bodyPost`. -/
def BodySound : Prop :=
  ∀ (K : Dev nD × CK → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

end Cert.Kernel.Coll

end
-- ==== Proof.KernelSteps.lean ====
/-
  One thread's protocol steps, each as a rule at the head of a program: the entry signal to a peer (handing that peer
  the slots and rows of this device's buffers it will copy into), a copy of a slot or of a half of the result into a
  peer's memory (paying the landing's duty on the peer's receive cell and the departure's on this device's send cell),
  and a wait for the one round of one of the device's own cells. Stated over the printed operation's own spelling of its
  device, views and semaphores, with the equations that identify them.
-/
import proofs.«900370_g7700000000000371_dist_matmul_of_ar_i_m1024_n512_k512_v7x_i4_f32_1_alg».proof.Proof.KernelProto

noncomputable section

namespace Cert.Kernel.Coll

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem inv_at' (ck : Dev nD × CK) :
    (bigSep Finset.univ fun ck : Dev nD × CK => (cellInv ER (collRd m) (K ck) (kcell ck) : sProp 𝕄)) ⊢ cellInv ER (collRd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (ck : Dev nD × CK) : (records m K : sProp 𝕄) ⊢ cellInv ER (collRd m) (K ck) (kcell ck) := by
  unfold records; iintro ⟨H, -⟩; iapply (inv_at' m K ck); iexact H
theorem reached_at (ck : Dev nD × CK) : (records m K : sProp 𝕄) ⊢ reached ER (kcell ck) 0 := by
  unfold records; iintro ⟨-, H⟩; iapply (reached_at' (F := F) ck); iexact H

/-- The entry signal to the peer `pe c e`: it pays the peer's barrier duty `back e`, handing over slot `e` of this device's
    landing buffer and the peer's quarter of its result buffer, both halves of each. -/
theorem step_signal (c : Dev nD) (e : Fin 3) (n : Dev nD) (hn : n = pe c e) (O₀ O' : CellTallies nD τ sig Unit)
    (hO : O₀ = O' + tallyAt (barCell (pe c e)) () 1) (W : Waits sig Unit)
    {α : Type} {Q : α → sProp 𝕄} {k : PUnit → Prog (TpuEff nD τ sig (Elt F) Λ₀ .tc) α} :
    iprop(records m K ∗ owes (c : Thread nD τ) O₀ W ∗ dutyTok ER (barCell (pe c e)) 0 (back e)
        ∗ (∃ X, owns (c : Thread nD τ) (bV e 0) fullShare X) ∗ (∃ X, owns (c : Thread nD τ) (bV e 1) fullShare X)
        ∗ (∃ X, owns (c : Thread nD τ) (oV (pe c e) 0) fullShare X) ∗ (∃ X, owns (c : Thread nD τ) (oV (pe c e) 1) fullShare X))
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Htok, Hp⟩
  iapply (Rounds.wp_signal 𝒱₀ ER (collRd m) (c : Thread nD τ) none (dst := (pe c e : Thread nD τ)) (κ := K (pe c e, none))
      (d := back e) (by rw [duties_bar]; exact Finset.mem_univ _) (amount_bar m (pe c e) (back e)) () O' hO)
  isplitr; · iapply (inv_at m K (pe c e, none)); iexact HR
  isplitl [HO]; · iexact HO
  isplitl [Htok]; · iexact Htok
  isplitl [Hp]
  · rw [payload_bar]; unfold barPay; rw [pe_back, back_back]
    icases Hp with ⟨H1, H2, H3, H4⟩
    isplitl [H1]; · iexact H1
    isplitl [H2]; · iexact H2
    isplitl [H3]; · iexact H3
    isplitl [H4]; · iexact H4
    isplitr; · iapply (reached_at m K (c, some (1, e, 0))); iexact HR
    isplitr; · iapply (reached_at m K (c, some (1, e, 1))); iexact HR
    isplitr; · iapply (reached_at m K (c, some (3, e, 0))); iexact HR
    iapply (reached_at m K (c, some (3, e, 1))); iexact HR
  · iapply (reached_at m K (pe c e, none)); iexact HR

/-- A copy into the memory of device `n`: the source held at share `q` reading `X` (it comes back with the wait on the send
    cell `sS`), the destination's elements on `n` held outright (they land with `X` and go to `n` with its wait on the
    receive cell `sR`); the landing's units come off what the issuer owes. -/
theorem step_send (c n : Dev nD) {src dst : Memref sig .tc .vmem S128x512 .bf16} (sS sR : DmaSem sig) (κ₁ κ₂ : ℕ)
    (q : PosShare TreeShare) (X : S128x512.Idx → Elt F .bf16)
    (hN : dst.view.dmaCredit = N)
    (hd₁ : (0 : Fin 3) ∈ (collRd m).duties ((c : Thread nD τ), .dma sS) 0) (hd₂ : (0 : Fin 3) ∈ (collRd m).duties ((n : Thread nD τ), .dma sR) 0)
    (hp₁ : (owns (c : Thread nD τ) src q X : sProp 𝕄) ⊢ (collRd m).payload ((c : Thread nD τ), .dma sS) 0 0)
    (hp₂ : (owns (n : Thread nD τ) dst fullShare X : sProp 𝕄) ⊢ (collRd m).payload ((n : Thread nD τ), .dma sR) 0 0)
    {hsc : (dst : Memref sig (Dev.tc n : Thread nD τ).2.kind .vmem S128x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O₀ O' : CellTallies nD τ sig Unit) (hO : O₀ = O' + tallyAt ((n : Thread nD τ), .dma sR) () N) (W : Waits sig Unit)
    (hr : τ.routes (c : Thread nD τ) (n : Thread nD τ) = true) :
    iprop(cellInv ER (collRd m) κ₁ ((c : Thread nD τ), .dma sS) ∗ cellInv ER (collRd m) κ₂ ((n : Thread nD τ), .dma sR)
        ∗ owns (c : Thread nD τ) src q X ∗ (∃ Y, owns (n : Thread nD τ) dst fullShare Y)
        ∗ owes (c : Thread nD τ) O₀ W
        ∗ dutyTok ER ((c : Thread nD τ), .dma sS) 0 (0 : Fin 3) ∗ reached ER ((c : Thread nD τ), .dma sS) 0
        ∗ dutyTok ER ((n : Thread nD τ), .dma sR) 0 (0 : Fin 3) ∗ reached ER ((n : Thread nD τ), .dma sR) 0)
      ⊢ iprop(((cred (tallyAt ((c : Thread nD τ), .dma sS) () N) ∗ owes (c : Thread nD τ) O' W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  unfold owns
  iintro ⟨HI1, HI2, ⟨%fs, %hfs, Hsrc⟩, ⟨%Y, %fd, %hfd, Hdst⟩, HO, Ht1, Hr1, Ht2, Hr2⟩
  iapply (Rounds.wp_send_pointsTo 𝒱₀ ER (collRd m) (c : Thread nD τ) none (κ₁ := κ₁) (κ₂ := κ₂)
    (r₁ := 0) (r₂ := 0) (d₁ := (0 : Fin 3)) (d₂ := (0 : Fin 3)) (fd := fd) hd₁ hd₂ () () N hN rfl rfl O' hO (W := W)
    (by
      refine (owns_intro (c : Thread nD τ) src q fs).trans ?_
      rw [hfs]; exact hp₁)
    (by
      refine (owns_intro (n : Thread nD τ) dst fullShare _).trans ?_
      rw [View.read_write_univ, hfs]; exact hp₂) hr)
  isplitl [HI1]; · iexact HI1
  isplitl [HI2]; · iexact HI2
  isplitl [Hsrc]; · iexact Hsrc
  isplitl [Hdst]; · iexact Hdst
  isplitl [HO]; · iexact HO
  isplitl [Ht1]; · iexact Ht1
  isplitl [Hr1]; · iexact Hr1
  isplitl [Ht2]; · iexact Ht2
  iexact Hr2

/-- Every `[128, 512]` bf16 view the kernel's copies move carries one copy's credit, whatever buffer it is cut from. -/
theorem credit_any (M : Memref sig .tc .vmem S128x512 .bf16) : M.view.dmaCredit = N := rfl

/-- The wait for the one round of DMA cell `(s, a, i)` of device `c`, covered by the credit for one copy: the cell's
    hand-over comes back, and the cell moves to round 1. -/
theorem step_wait (c : Dev nD) (s : Fin 4) (a : Fin 3) (i : Fin 2) (sm : DmaSem sig) (hsm : sm = dsem s a i)
    {src dst : Memref sig .tc .vmem S128x512 .bf16} {hsrc : src.view.WordExact} {hdst : dst.view.WordExact}
    {α : Type} {Q : α → sProp 𝕄} {k : PUnit → Prog (TpuEff nD τ sig (Elt F) Λ₀ .tc) α}
    (O₁ : CellTallies nD τ sig Unit) (W : Waits sig Unit) :
    iprop(records m K ∗ cred (tallyAt (dcell c s a i) () N) ∗ owes (c : Thread nD τ) O₁ W
        ∗ MayWait (c : Thread nD τ) (.dma (dsem s a i)) () O₁ ∗ atPos ER (dcell c s a i) 0 ∅ 0)
      ⊢ iprop(((owes (c : Thread nD τ) O₁ (insert (SemLoc.dma (dsem s a i), ()) W) ∗ atPos ER (dcell c s a i) 1 ∅ 0 ∗ pay m c s a i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  have hw : ∀ Kk : PUnit → sProp 𝕄, wpE (defs₀ (F := F)) 𝒱₀ (c : Thread nD τ) none Set.univ (.waitDma2 (dsem s a i) src dst hsrc hdst) Kk
      = waitSpec (c : Thread nD τ) Set.univ (.dma (dsem s a i)) N Kk := fun Kk => by
    rw [wpE_waitDma2_eq, credit_any dst]
  iintro ⟨#HR, Hc, HO, Hmw, Hat⟩ Hk
  iapply (Rounds.wp_wait_rest_token 𝒱₀ ER (collRd m) (c : Thread nD τ) none (κ := K (c, some (s, a, i))) hw (Set.mem_univ _) ()
      (O := O₁) (W := W) (R := 0) (m := 0) (T := ∅) (by rw [Nat.zero_add]; exact (expect_d m c s a i).symm)) $$ [Hc HO Hmw Hat]
  · isplitr; · iapply (inv_at m K (c, some (s, a, i))); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_d m c s a i)); iexact Hpay

/-- The wait for the three entry signals: every peer's hand-over comes with it. -/
theorem step_wait_bar (c : Dev nD) {α : Type} {Q : α → sProp 𝕄} {k : PUnit → Prog (TpuEff nD τ sig (Elt F) Λ₀ .tc) α}
    (O₁ : CellTallies nD τ sig Unit) (W : Waits sig Unit) :
    iprop(records m K ∗ cred (tallyAt (barCell c) () 3) ∗ owes (c : Thread nD τ) O₁ W
        ∗ MayWait (c : Thread nD τ) (.reg barS) () O₁ ∗ atPos ER (barCell c) 0 ∅ 0)
      ⊢ iprop(((owes (c : Thread nD τ) O₁ (insert (SemLoc.reg barS, ()) W) ∗ atPos ER (barCell c) 1 ∅ 0
                ∗ barPay c 0 ∗ barPay c 1 ∗ barPay c 2)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, Hc, HO, Hmw, Hat⟩ Hk
  iapply (Rounds.wp_wait_rest_token 𝒱₀ ER (collRd m) (c : Thread nD τ) none (κ := K (c, none))
      (wpE_semWait_eq 𝒱₀ (c : Thread nD τ) none Set.univ) (Set.mem_univ _) ()
      (O := O₁) (W := W) (R := 0) (m := 0) (T := ∅) (by rw [Nat.zero_add]; exact (expect_bar m c).symm)) $$ [Hc HO Hmw Hat]
  · isplitr; · iapply (inv_at m K (c, none)); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_bar m c)); iexact Hpay

/-- A device's own DMA cell, its one round consumed, closes: its counter at zero is the device's again. -/
theorem step_close (c : Dev nD) (s : Fin 4) (a : Fin 3) (i : Fin 2) :
    iprop(records m K ∗ atPos ER (dcell c s a i) 1 ∅ 0) ⊢ iprop(|={Set.univ}=> semVal (dcell c s a i) 0) := by
  iintro ⟨#HR, Hat⟩
  iapply (Rounds.cell_close ER (collRd m) (Set.mem_univ (K (c, some (s, a, i)))) (fun h => h) (R := 0 + 1) (duties_later m (dcell c s a i)))
  isplitr; · iapply (inv_at m K (c, some (s, a, i))); iexact HR
  iexact Hat

theorem routes_pe : ∀ (c : Dev nD) (e : Fin 3), τ.routes (c : Thread nD τ) (pe c e : Thread nD τ) = true := by decide

/-- The reduce-scatter copy of staged slot `(e, i)` into the landing slot the peer `pe c e` keeps for this device. -/
theorem step_rs (c : Dev nD) (e : Fin 3) (i : Fin 2) (n : Dev nD) (hn : n = pe c e)
    {src dst : Memref sig .tc .vmem S128x512 .bf16} (hsrcE : src = sV e i) (hdstE : dst = bV (back e) i)
    (sS sR : DmaSem sig) (hsS : sS = dsem 0 e i) (hsR : sR = dsem 1 (back e) i)
    {hsc : (dst : Memref sig (Dev.tc n : Thread nD τ).2.kind .vmem S128x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O₀ O' : CellTallies nD τ sig Unit) (hO : O₀ = O' + tallyAt (peerCell c 1 e i) () N) (W : Waits sig Unit) :
    iprop(records m K ∗ owns (c : Thread nD τ) (sV e i) fullShare (sq (stg m c e i))
        ∗ (∃ Y, owns (pe c e : Thread nD τ) (bV (back e) i) fullShare Y)
        ∗ owes (c : Thread nD τ) O₀ W ∗ dutyTok ER (dcell c 0 e i) 0 (0 : Fin 3) ∗ dutyTok ER (peerCell c 1 e i) 0 (0 : Fin 3))
      ⊢ iprop(((cred (tallyAt (dcell c 0 e i) () N) ∗ owes (c : Thread nD τ) O' W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsrcE hdstE hsS hsR
  iintro ⟨#HR, Hsrc, Hdst, HO, Ht1, Ht2⟩
  iapply (step_send m c (pe c e) (src := sV e i) (dst := bV (back e) i) (dsem 0 e i) (dsem 1 (back e) i) (K (c, some (0, e, i))) (K (pe c e, some (1, back e, i)))
    fullShare (sq (stg m c e i)) (credit_b (back e) i)
    (by rw [duties_d]; exact Finset.mem_singleton_self _) (by rw [duties_d]; exact Finset.mem_singleton_self _)
    (by rw [payload_d]; exact BI.Entails.refl _)
    (by rw [payload_d, stg_eq_rcv]; exact BI.Entails.refl _)
    O₀ O' hO W (routes_pe c e))
  isplitr; · iapply (inv_at m K (c, some (0, e, i))); iexact HR
  isplitr; · iapply (inv_at m K (pe c e, some (1, back e, i))); iexact HR
  isplitl [Hsrc]; · iexact Hsrc
  isplitl [Hdst]; · iexact Hdst
  isplitl [HO]; · iexact HO
  isplitl [Ht1]; · iexact Ht1
  isplitr; · iapply (reached_at m K (c, some (0, e, i))); iexact HR
  isplitl [Ht2]; · iexact Ht2
  iapply (reached_at m K (pe c e, some (1, back e, i))); iexact HR

/-- The all-gather copy of this device's half `i` of the result into the same rows of the peer `pe c e`'s result buffer,
    lending a third of the rows' share. -/
theorem step_ag (c : Dev nD) (e : Fin 3) (i : Fin 2) (n : Dev nD) (hn : n = pe c e)
    {src dst : Memref sig .tc .vmem S128x512 .bf16} (hsrcE : src = oV c i) (hdstE : dst = oV c i)
    (sS sR : DmaSem sig) (hsS : sS = dsem 2 e i) (hsR : sR = dsem 3 (back e) i)
    {hsc : (dst : Memref sig (Dev.tc n : Thread nD τ).2.kind .vmem S128x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O₀ O' : CellTallies nD τ sig Unit) (hO : O₀ = O' + tallyAt (peerCell c 3 e i) () N) (W : Waits sig Unit) :
    iprop(records m K ∗ owns (c : Thread nD τ) (oV c i) (agShare e) (yX m c i)
        ∗ (∃ Y, owns (pe c e : Thread nD τ) (oV c i) fullShare Y)
        ∗ owes (c : Thread nD τ) O₀ W ∗ dutyTok ER (dcell c 2 e i) 0 (0 : Fin 3) ∗ dutyTok ER (peerCell c 3 e i) 0 (0 : Fin 3))
      ⊢ iprop(((cred (tallyAt (dcell c 2 e i) () N) ∗ owes (c : Thread nD τ) O' W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsrcE hdstE hsS hsR
  iintro ⟨#HR, Hsrc, Hdst, HO, Ht1, Ht2⟩
  iapply (step_send m c (pe c e) (src := oV c i) (dst := oV c i) (dsem 2 e i) (dsem 3 (back e) i) (K (c, some (2, e, i))) (K (pe c e, some (3, back e, i)))
    (agShare e) (yX m c i) (credit_o c i)
    (by rw [duties_d]; exact Finset.mem_singleton_self _) (by rw [duties_d]; exact Finset.mem_singleton_self _)
    (by rw [payload_d]; exact BI.Entails.refl _)
    (by rw [payload_d]; show _ ⊢ (owns ((pe c e : Dev nD) : Thread nD τ) (oV (pe (pe c e) (back e)) i) fullShare (yX m (pe (pe c e) (back e)) i) : sProp 𝕄); rw [pe_back])
    O₀ O' hO W (routes_pe c e))
  isplitr; · iapply (inv_at m K (c, some (2, e, i))); iexact HR
  isplitr; · iapply (inv_at m K (pe c e, some (3, back e, i))); iexact HR
  isplitl [Hsrc]; · iexact Hsrc
  isplitl [Hdst]; · iexact Hdst
  isplitl [HO]; · iexact HO
  isplitl [Ht1]; · iexact Ht1
  isplitr; · iapply (reached_at m K (c, some (2, e, i))); iexact HR
  isplitl [Ht2]; · iexact Ht2
  iapply (reached_at m K (pe c e, some (3, back e, i))); iexact HR

end Cert.Kernel.Coll

end
-- ==== Proof.KernelGeom.lean ====
/-
  The geometry of the buffers the body works in.

  A [3, 2, 128, 512] buffer is six slots `(a, i)` of shape [1, 1, 128, 512]; a [1024, 512] buffer is eight halves
  `(q, i)`, rows `256 q + 128 i ..+128`. Each family is pairwise disjoint and covers its buffer, so owning the buffer
  is owning every member of the family. A slot seen with its two unit axes dropped is the same elements in the same
  order. A store through a unit-stride rectangle of a whole buffer is read back through the slice at that rectangle.
-/
import proofs.«900370_g7700000000000371_dist_matmul_of_ar_i_m1024_n512_k512_v7x_i4_f32_1_alg».proof.Proof.KernelProto
import Idealize.ShloMosaic.Lib.Memref
import Idealize.ShloMosaic.Lib.Pipeline.Value

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The two families of rectangles -/

/-- The six slots of a `[3, 2, 128, 512]` buffer, as one family. -/
abbrev slots (t : Fin 3 × Fin 2) : Rect S3x2x128x512 := r4 t.1 t.2
/-- The eight halves of a `[1024, 512]` buffer, as one family. -/
abbrev halves (t : Dev nD × Fin 2) : Rect S1024x512 := r2 t.1 t.2

theorem slots_stride (t : Fin 3 × Fin 2) (a : Fin S3x2x128x512.rank) : (slots t).stride a = 1 := rfl
theorem halves_stride (t : Dev nD × Fin 2) (a : Fin S1024x512.rank) : (halves t).stride a = 1 := rfl

/-- An index lies in slot `(a, i)` exactly when its first two coordinates are `a` and `i`. -/
theorem mem_r4 (a : Fin 3) (i : Fin 2) (x : S3x2x128x512.Idx) : x ∈ (r4 a i).set ↔ (x 0).val = a.val ∧ (x 1).val = i.val := by
  rw [Rect.mem_set_unit]
  have h2 : (x 2).val < 128 := (x 2).isLt
  have h3 : (x 3).val < 512 := (x 3).isLt
  constructor
  · intro h
    have h0 := h 0
    have h1 := h 1
    change a.val ≤ (x 0).val ∧ (x 0).val < a.val + 1 at h0
    change i.val ≤ (x 1).val ∧ (x 1).val < i.val + 1 at h1
    omega
  · rintro ⟨e0, e1⟩ b
    match b with
    | ⟨0, _⟩ => show a.val ≤ (x 0).val ∧ (x 0).val < a.val + 1; omega
    | ⟨1, _⟩ => show i.val ≤ (x 1).val ∧ (x 1).val < i.val + 1; omega
    | ⟨2, _⟩ => show 0 ≤ (x 2).val ∧ (x 2).val < 0 + 128; omega
    | ⟨3, _⟩ => show 0 ≤ (x 3).val ∧ (x 3).val < 0 + 512; omega

/-- An index lies in half `(q, i)` exactly when its row is one of `256 q + 128 i ..+128`. -/
theorem mem_r2 (q : Dev nD) (i : Fin 2) (x : S1024x512.Idx) :
    x ∈ (r2 q i).set ↔ 256 * q.val + 128 * i.val ≤ (x 0).val ∧ (x 0).val < 256 * q.val + 128 * i.val + 128 := by
  rw [Rect.mem_set_unit]
  have h1 : (x 1).val < 512 := (x 1).isLt
  constructor
  · intro h
    exact h 0
  · intro h b
    match b with
    | ⟨0, _⟩ => exact h
    | ⟨1, _⟩ => show 0 ≤ (x 1).val ∧ (x 1).val < 0 + 512; omega

theorem slots_disjoint (t t' : Fin 3 × Fin 2) (h : t ≠ t') : Disjoint (slots t).set (slots t').set := by
  rw [Finset.disjoint_left]
  intro x hx hx'
  rw [mem_r4] at hx hx'
  exact h (Prod.ext (Fin.ext (by omega)) (Fin.ext (by omega)))

theorem slots_cover : (Finset.univ : Finset (Fin 3 × Fin 2)).biUnion (fun t => (slots t).set) = Finset.univ := by
  ext x
  simp only [Finset.mem_biUnion, Finset.mem_univ, true_and, iff_true]
  exact ⟨(⟨(x 0).val, (x 0).isLt⟩, ⟨(x 1).val, (x 1).isLt⟩), (mem_r4 _ _ x).mpr ⟨rfl, rfl⟩⟩

theorem halves_disjoint (t t' : Dev nD × Fin 2) (h : t ≠ t') : Disjoint (halves t).set (halves t').set := by
  rw [Finset.disjoint_left]
  intro x hx hx'
  rw [mem_r2] at hx hx'
  have h1 : t.2.val < 2 := t.2.isLt
  have h2 : t'.2.val < 2 := t'.2.isLt
  exact h (Prod.ext (Fin.ext (by omega)) (Fin.ext (by omega)))

theorem halves_cover : (Finset.univ : Finset (Dev nD × Fin 2)).biUnion (fun t => (halves t).set) = Finset.univ := by
  ext x
  simp only [Finset.mem_biUnion, Finset.mem_univ, true_and, iff_true]
  have hx : (x 0).val < 1024 := (x 0).isLt
  refine ⟨(⟨(x 0).val / 256, by show (x 0).val / 256 < 4; omega⟩, ⟨(x 0).val % 256 / 128, by omega⟩), (mem_r2 _ _ x).mpr ?_⟩
  show 256 * ((x 0).val / 256) + 128 * ((x 0).val % 256 / 128) ≤ (x 0).val
    ∧ (x 0).val < 256 * ((x 0).val / 256) + 128 * ((x 0).val % 256 / 128) + 128
  omega

/-! ## A slice through a memref and an access at its rectangle -/

section Slice

variable {Val : EltTy → Type} {κ : Kind} {sp : Space} {s : Shape} {e : EltTy}
  (M : Memref sig κ sp s e) (r : Rect s) (hr : ∀ a, r.stride a = 1)

/-- The view an access at a unit-stride rectangle goes through is the slice's view. -/
theorem access_eq_slice_view : M.access r = (M.slice r hr).view := rfl

/-- What a store through the rectangle writes on every index is what the slice then reads. -/
theorem read_slice_write_access (f : (M.access r).ty.Contents Val) (w : r.shape.Idx → Val e) :
    (M.slice r hr).view.read Val ((M.access r).write Val f w Finset.univ) = w :=
  View.read_write_univ _ _

/-- A load through the memref at the rectangle reads what the slice reads. -/
theorem readAt_eq_read_slice (f : M.view.ty.Contents Val) :
    M.view.readAt Val r.toLoadRect f = (M.slice r hr).view.read Val f := rfl

/-- The elements a load at the rectangle touches are the slice's. -/
theorem setOn_load_eq : M.view.setOn r.set = (M.slice r hr).view.set :=
  (View.set_slice M.view r).symm

theorem setOn_load_subset : M.view.setOn r.set ⊆ (M.slice r hr).view.set :=
  (setOn_load_eq M r hr).subset

/-- The elements a store on every index of the rectangle touches are the slice's. -/
theorem setOn_store_eq : (M.access r).setOn Finset.univ = (M.slice r hr).view.set := rfl

theorem setOn_store_subset : (M.access r).setOn Finset.univ ⊆ (M.slice r hr).view.set :=
  (setOn_store_eq M r hr).subset

end Slice

section SliceLoc

variable {sp : Space} {s : Shape} {e : EltTy} (c : Thread nD τ) (M : Memref sig c.2.kind sp s e) (r : Rect s)
  (hr : ∀ a, r.stride a = 1)

/-- An access, the slice and the memref itself sit in one buffer. -/
theorem loc_access_eq : (M.access r).loc c = (M.slice r hr).view.loc c := rfl
theorem loc_slice_eq : (M.slice r hr).view.loc c = M.view.loc c := rfl

end SliceLoc

/-! ## A slice with its unit axes dropped -/

section Squeeze

variable {sp : Space} {s s' : Shape} {e : EltTy}

/-- Viewing an array at another shape with as many entries loses nothing. -/
theorem shapeCast_inj {α : Type} (hc : s.ShapeCasts s') (hc' : s'.ShapeCasts s) (A B : s.Idx → α) :
    shapeCast s' A hc = shapeCast s' B hc ↔ A = B := by
  constructor
  · intro h
    have h' := congrArg (fun Z => shapeCast s Z hc') h
    simp only [shapeCast_shapeCast] at h'
    exact h'
  · intro h; rw [h]

/-- Owning a slice with unit axes dropped, at contents viewed the same way, is owning the slice. -/
theorem owns_squeeze_slice (c : Thread nD τ) (M : Memref sig c.2.kind sp s e) (r : Rect s)
    (hr : ∀ a, r.stride a = 1) (hq : r.shape.Squeezes s') (hc : r.shape.ShapeCasts s') (hc' : s'.ShapeCasts r.shape)
    (q : PosShare TreeShare) (X : r.shape.Idx → Elt F e) :
    (owns c ((M.slice r hr).squeeze s' hq) q (shapeCast s' X hc) : sProp 𝕄) = owns c (M.slice r hr) q X := by
  unfold owns
  have hset : ((M.slice r hr).squeeze s' hq).view.set = (M.slice r hr).view.set := View.set_reshape _ _
  have hp : ∀ f, (((M.slice r hr).squeeze s' hq).view.read (Elt F) f = shapeCast s' X hc)
      = ((M.slice r hr).view.read (Elt F) f = X) := fun f =>
    propext (shapeCast_inj hc hc' ((M.slice r hr).view.read (Elt F) f) X)
  rw [hset]
  simp only [hp]

/-- The same with any contents at the squeezed shape: they are the slice's contents viewed back. -/
theorem owns_squeeze_slice' (c : Thread nD τ) (M : Memref sig c.2.kind sp s e) (r : Rect s)
    (hr : ∀ a, r.stride a = 1) (hq : r.shape.Squeezes s') (hc : r.shape.ShapeCasts s') (hc' : s'.ShapeCasts r.shape)
    (q : PosShare TreeShare) (Y : s'.Idx → Elt F e) :
    (owns c ((M.slice r hr).squeeze s' hq) q Y : sProp 𝕄) = owns c (M.slice r hr) q (shapeCast r.shape Y hc') := by
  rw [← owns_squeeze_slice c M r hr hq hc hc' q (shapeCast r.shape Y hc'), shapeCast_shapeCast]

end Squeeze

/-! ## Gluing: every member of a disjoint covering family owned at some contents -/

section Glue

variable (c : Thread nD τ) {sp : Space} {sh : Shape} {e : EltTy} (m : Memref sig c.2.kind sp sh e) (q : PosShare TreeShare)
  {T : Type} [Fintype T] [DecidableEq T] (r : T → Rect sh) (hr : ∀ t a, (r t).stride a = 1)

/-- Each slice of a disjoint covering family owned at some contents: the memref owned at the contents they assemble
    to. -/
theorem owns_glue (hd : ∀ t t', t ≠ t' → Disjoint (r t).set (r t').set)
    (hcov : (Finset.univ : Finset T).biUnion (fun t => (r t).set) = Finset.univ) :
    BI.bigSep Finset.univ (fun t => iprop(∃ Y, owns c (m.slice (r t) (hr t)) q Y))
      ⊢ (iprop(∃ X, owns c m q X) : sProp 𝕄) := by
  refine (bigSep_exists_pi (Y := fun t => (r t).shape.Idx → Elt F e) Finset.univ
    (fun t Y => (owns c (m.slice (r t) (hr t)) q Y : sProp 𝕄))).trans ?_
  iintro ⟨%Z, H⟩
  iexists Rect.glue r hcov Z
  iapply (owns_of_rects c m q r hr hd hcov (Rect.glue r hcov Z))
  have e1 : (fun t => (owns c (m.slice (r t) (hr t)) q (fun j => Rect.glue r hcov Z ((r t).emb j)) : sProp 𝕄))
      = fun t => owns c (m.slice (r t) (hr t)) q (Z t) :=
    funext fun t => by
      rw [show (fun j => Rect.glue r hcov Z ((r t).emb j)) = Z t from funext fun j => Rect.glue_emb r hcov hd Z t j]
  rw [e1]
  iexact H

/-- For a whole buffer: its points-to at some contents. -/
theorem pointsTo_of_glue (b : Ref sig c.2.kind) {T : Type} [Fintype T] [DecidableEq T] (r : T → Rect b.ty.shape)
    (hr : ∀ t a, (r t).stride a = 1) (hd : ∀ t t', t ≠ t' → Disjoint (r t).set (r t').set)
    (hcov : (Finset.univ : Finset T).biUnion (fun t => (r t).set) = Finset.univ) :
    BI.bigSep Finset.univ (fun t => iprop(∃ Y, owns c ((Memref.whole b).slice (r t) (hr t)) q Y))
      ⊢ (iprop(∃ f, (c.loc b) ↦{q} f) : sProp 𝕄) := by
  refine (owns_glue c (Memref.whole b) q r hr hd hcov).trans ?_
  iintro ⟨%X, H⟩
  iexists X
  iapply (Entails.of_eq (owns_whole c b q X))
  iexact H

end Glue

/-- A slot of a `[3, 2, 128, 512]` buffer seen as `[128, 512]`, owned at the contents seen the same way. -/
theorem owns_slot_sq (c : Dev nD) (M : Memref sig .tc .vmem S3x2x128x512 .bf16) (a : Fin 3) (i : Fin 2)
    (q : PosShare TreeShare) (X : FVec F S1x1x128x512 .bf16) :
    (owns (c : Thread nD τ) ((M.slice (r4 a i) (fun _ => rfl)).squeeze S128x512 squeezes_S1x1x128x512_S128x512) q (sq X) : sProp 𝕄)
      = owns (c : Thread nD τ) (M.slice (r4 a i) (fun _ => rfl)) q X :=
  owns_squeeze_slice (c : Thread nD τ) M (r4 a i) (fun _ => rfl) squeezes_S1x1x128x512_S128x512
    shapeCasts_S1x1x128x512_S128x512 shapeCasts_S128x512_S1x1x128x512 q X

/-- The same with any contents `Y` at `[128, 512]`. -/
theorem owns_slot_unsq (c : Dev nD) (M : Memref sig .tc .vmem S3x2x128x512 .bf16) (a : Fin 3) (i : Fin 2)
    (q : PosShare TreeShare) (Y : S128x512.Idx → Elt F .bf16) :
    (owns (c : Thread nD τ) ((M.slice (r4 a i) (fun _ => rfl)).squeeze S128x512 squeezes_S1x1x128x512_S128x512) q Y : sProp 𝕄)
      = owns (c : Thread nD τ) (M.slice (r4 a i) (fun _ => rfl)) q (shapeCast S1x1x128x512 Y shapeCasts_S128x512_S1x1x128x512) :=
  owns_squeeze_slice' (c : Thread nD τ) M (r4 a i) (fun _ => rfl) squeezes_S1x1x128x512_S128x512
    shapeCasts_S1x1x128x512_S128x512 shapeCasts_S128x512_S1x1x128x512 q Y

/-! ## The scratch buffers and the result's buffer back whole -/

section Whole

variable (c : Dev nD)

/-- The staging scratch: its six slots owned at some contents give the buffer's points-to. -/
theorem sM_whole :
    BI.bigSep Finset.univ (fun t : Fin 3 × Fin 2 =>
        iprop(∃ Y, owns (c : Thread nD τ) (sM.slice (r4 t.1 t.2) (fun _ => rfl)) fullShare Y))
      ⊢ (iprop(∃ f, ((c : Thread nD τ).loc cc0_scratch0) ↦{fullShare} f) : sProp 𝕄) :=
  pointsTo_of_glue (c : Thread nD τ) fullShare cc0_scratch0 slots (fun _ _ => rfl) slots_disjoint slots_cover

/-- The landing scratch, the same. -/
theorem bM_whole :
    BI.bigSep Finset.univ (fun t : Fin 3 × Fin 2 =>
        iprop(∃ Y, owns (c : Thread nD τ) (bM.slice (r4 t.1 t.2) (fun _ => rfl)) fullShare Y))
      ⊢ (iprop(∃ f, ((c : Thread nD τ).loc cc0_scratch1) ↦{fullShare} f) : sProp 𝕄) :=
  pointsTo_of_glue (c : Thread nD τ) fullShare cc0_scratch1 slots (fun _ _ => rfl) slots_disjoint slots_cover

/-- The result's staging buffer from its eight halves. -/
theorem oM_whole :
    BI.bigSep Finset.univ (fun t : Dev nD × Fin 2 =>
        iprop(∃ Y, owns (c : Thread nD τ) (oM.slice (r2 t.1 t.2) (fun _ => rfl)) fullShare Y))
      ⊢ (iprop(∃ f, ((c : Thread nD τ).loc cc0_stg2_0) ↦{fullShare} f) : sProp 𝕄) :=
  pointsTo_of_glue (c : Thread nD τ) fullShare cc0_stg2_0 halves (fun _ _ => rfl) halves_disjoint halves_cover

/-- The same two scratch buffers from their slots seen as `[128, 512]`. -/
theorem sV_whole :
    BI.bigSep Finset.univ (fun t : Fin 3 × Fin 2 => iprop(∃ Y, owns (c : Thread nD τ) (sV t.1 t.2) fullShare Y))
      ⊢ (iprop(∃ f, ((c : Thread nD τ).loc cc0_scratch0) ↦{fullShare} f) : sProp 𝕄) := by
  have key : ∀ t : Fin 3 × Fin 2, (iprop(∃ Y, owns (c : Thread nD τ) (sV t.1 t.2) fullShare Y) : sProp 𝕄)
      ⊢ iprop(∃ Y, owns (c : Thread nD τ) (sM.slice (r4 t.1 t.2) (fun _ => rfl)) fullShare Y) := fun t => by
    iintro ⟨%Y, H⟩
    iexists shapeCast S1x1x128x512 Y shapeCasts_S128x512_S1x1x128x512
    iapply (Entails.of_eq (owns_slot_unsq c sM t.1 t.2 fullShare Y))
    iexact H
  exact (BI.bigSep_mono fun t _ => key t).trans (sM_whole (F := F) c)

theorem bV_whole :
    BI.bigSep Finset.univ (fun t : Fin 3 × Fin 2 => iprop(∃ Y, owns (c : Thread nD τ) (bV t.1 t.2) fullShare Y))
      ⊢ (iprop(∃ f, ((c : Thread nD τ).loc cc0_scratch1) ↦{fullShare} f) : sProp 𝕄) := by
  have key : ∀ t : Fin 3 × Fin 2, (iprop(∃ Y, owns (c : Thread nD τ) (bV t.1 t.2) fullShare Y) : sProp 𝕄)
      ⊢ iprop(∃ Y, owns (c : Thread nD τ) (bM.slice (r4 t.1 t.2) (fun _ => rfl)) fullShare Y) := fun t => by
    iintro ⟨%Y, H⟩
    iexists shapeCast S1x1x128x512 Y shapeCasts_S128x512_S1x1x128x512
    iapply (Entails.of_eq (owns_slot_unsq c bM t.1 t.2 fullShare Y))
    iexact H
  exact (BI.bigSep_mono fun t _ => key t).trans (bM_whole (F := F) c)

/-- The weight's scratch is one whole buffer. -/
theorem vM_whole (q : PosShare TreeShare) (X : S512x512.Idx → Elt F .bf16) :
    (owns (c : Thread nD τ) vM q X : sProp 𝕄) = ((c : Thread nD τ).loc cc0_scratch2) ↦{q} X :=
  owns_whole (c : Thread nD τ) cc0_scratch2 q X

end Whole

/-! ## The families listed in order -/

/-- The six slots in the order `(0,0), (0,1), (1,0), (1,1), (2,0), (2,1)`. -/
theorem bigSep_slots (Φ : Fin 3 × Fin 2 → sProp 𝕄) :
    BI.bigSep Finset.univ Φ = iprop(Φ (0, 0) ∗ Φ (0, 1) ∗ Φ (1, 0) ∗ Φ (1, 1) ∗ Φ (2, 0) ∗ Φ (2, 1)) :=
  BI.bigSep_univ_eq_bigSepL [(0, 0), (0, 1), (1, 0), (1, 1), (2, 0), (2, 1)] (by decide) (by decide) Φ

theorem halves_list_univ : ∀ c : Dev nD, (Finset.univ : Finset (Dev nD × Fin 2))
    = [(c, (0 : Fin 2)), (c, 1), (pe c 0, 0), (pe c 0, 1), (pe c 1, 0), (pe c 1, 1), (pe c 2, 0), (pe c 2, 1)].toFinset := by
  decide
theorem halves_list_nodup : ∀ c : Dev nD,
    [(c, (0 : Fin 2)), (c, 1), (pe c 0, 0), (pe c 0, 1), (pe c 1, 0), (pe c 1, 1), (pe c 2, 0), (pe c 2, 1)].Nodup := by
  decide

/-- The eight halves listed from device `c`'s own quarter round the other three. -/
theorem bigSep_halves (c : Dev nD) (Φ : Dev nD × Fin 2 → sProp 𝕄) :
    BI.bigSep Finset.univ Φ = iprop(Φ (c, 0) ∗ Φ (c, 1) ∗ Φ (pe c 0, 0) ∗ Φ (pe c 0, 1) ∗ Φ (pe c 1, 0) ∗ Φ (pe c 1, 1)
      ∗ Φ (pe c 2, 0) ∗ Φ (pe c 2, 1)) :=
  BI.bigSep_univ_eq_bigSepL _ (halves_list_univ c) (halves_list_nodup c) Φ

/-! ## A whole buffer split into a family, and the splits of the three buffers -/

/-- A whole buffer's points-to: each slice of a disjoint covering family owned at some contents. -/
theorem pointsTo_split (c : Thread nD τ) (q : PosShare TreeShare) (b : Ref sig c.2.kind) {T : Type} [Fintype T]
    [DecidableEq T] (r : T → Rect b.ty.shape) (hr : ∀ t a, (r t).stride a = 1)
    (hd : ∀ t t', t ≠ t' → Disjoint (r t).set (r t').set)
    (hcov : (Finset.univ : Finset T).biUnion (fun t => (r t).set) = Finset.univ) (f : b.ty.Contents (Elt F)) :
    ((c.loc b) ↦{q} f : sProp 𝕄)
      ⊢ BI.bigSep Finset.univ (fun t => iprop(∃ Y, owns c ((Memref.whole b).slice (r t) (hr t)) q Y)) := by
  have key : ∀ t, (owns c ((Memref.whole b).slice (r t) (hr t)) q (fun j => f ((r t).emb j)) : sProp 𝕄)
      ⊢ iprop(∃ Y, owns c ((Memref.whole b).slice (r t) (hr t)) q Y) := fun t => by
    iintro H
    iexists (fun j => f ((r t).emb j))
    iexact H
  exact (Entails.of_eq (owns_whole c b q f).symm).trans
    ((owns_rects c (Memref.whole b) q r hr hd hcov f).trans (BI.bigSep_mono fun t _ => key t))

section Splits

variable (c : Dev nD)

/-- The staging scratch split into its six slots, each owned at some contents. -/
theorem sM_split (f : Buf (Elt F) ((c : Thread nD τ).loc cc0_scratch0)) :
    (((c : Thread nD τ).loc cc0_scratch0) ↦{fullShare} f : sProp 𝕄)
      ⊢ iprop((∃ Y, owns (c : Thread nD τ) (sM.slice (r4 0 0) (fun _ => rfl)) fullShare Y)
          ∗ (∃ Y, owns (c : Thread nD τ) (sM.slice (r4 0 1) (fun _ => rfl)) fullShare Y)
          ∗ (∃ Y, owns (c : Thread nD τ) (sM.slice (r4 1 0) (fun _ => rfl)) fullShare Y)
          ∗ (∃ Y, owns (c : Thread nD τ) (sM.slice (r4 1 1) (fun _ => rfl)) fullShare Y)
          ∗ (∃ Y, owns (c : Thread nD τ) (sM.slice (r4 2 0) (fun _ => rfl)) fullShare Y)
          ∗ (∃ Y, owns (c : Thread nD τ) (sM.slice (r4 2 1) (fun _ => rfl)) fullShare Y)) :=
  (pointsTo_split (c : Thread nD τ) fullShare cc0_scratch0 slots (fun _ _ => rfl) slots_disjoint slots_cover f).trans
    (Entails.of_eq (bigSep_slots _))

/-- The landing scratch, the same. -/
theorem bM_split (f : Buf (Elt F) ((c : Thread nD τ).loc cc0_scratch1)) :
    (((c : Thread nD τ).loc cc0_scratch1) ↦{fullShare} f : sProp 𝕄)
      ⊢ iprop((∃ Y, owns (c : Thread nD τ) (bM.slice (r4 0 0) (fun _ => rfl)) fullShare Y)
          ∗ (∃ Y, owns (c : Thread nD τ) (bM.slice (r4 0 1) (fun _ => rfl)) fullShare Y)
          ∗ (∃ Y, owns (c : Thread nD τ) (bM.slice (r4 1 0) (fun _ => rfl)) fullShare Y)
          ∗ (∃ Y, owns (c : Thread nD τ) (bM.slice (r4 1 1) (fun _ => rfl)) fullShare Y)
          ∗ (∃ Y, owns (c : Thread nD τ) (bM.slice (r4 2 0) (fun _ => rfl)) fullShare Y)
          ∗ (∃ Y, owns (c : Thread nD τ) (bM.slice (r4 2 1) (fun _ => rfl)) fullShare Y)) :=
  (pointsTo_split (c : Thread nD τ) fullShare cc0_scratch1 slots (fun _ _ => rfl) slots_disjoint slots_cover f).trans
    (Entails.of_eq (bigSep_slots _))

/-- A slot owned at some contents, seen as `[128, 512]`: owned at some contents. -/
theorem slot_to_sq (M : Memref sig .tc .vmem S3x2x128x512 .bf16) (a : Fin 3) (i : Fin 2) :
    (iprop(∃ Y, owns (c : Thread nD τ) (M.slice (r4 a i) (fun _ => rfl)) fullShare Y) : sProp 𝕄)
      ⊢ iprop(∃ Y, owns (c : Thread nD τ)
          ((M.slice (r4 a i) (fun _ => rfl)).squeeze S128x512 squeezes_S1x1x128x512_S128x512) fullShare Y) := by
  iintro ⟨%Y, H⟩
  iexists sq Y
  iapply (Entails.of_eq (owns_slot_sq c M a i fullShare Y).symm)
  iexact H

/-- and back. -/
theorem sq_to_slot (M : Memref sig .tc .vmem S3x2x128x512 .bf16) (a : Fin 3) (i : Fin 2) :
    (iprop(∃ Y, owns (c : Thread nD τ)
          ((M.slice (r4 a i) (fun _ => rfl)).squeeze S128x512 squeezes_S1x1x128x512_S128x512) fullShare Y) : sProp 𝕄)
      ⊢ iprop(∃ Y, owns (c : Thread nD τ) (M.slice (r4 a i) (fun _ => rfl)) fullShare Y) := by
  iintro ⟨%Y, H⟩
  iexists shapeCast S1x1x128x512 Y shapeCasts_S128x512_S1x1x128x512
  iapply (Entails.of_eq (owns_slot_unsq c M a i fullShare Y))
  iexact H

/-- The staging scratch split into its six slots seen as `[128, 512]`. -/
theorem sV_split (f : Buf (Elt F) ((c : Thread nD τ).loc cc0_scratch0)) :
    (((c : Thread nD τ).loc cc0_scratch0) ↦{fullShare} f : sProp 𝕄)
      ⊢ iprop((∃ Y, owns (c : Thread nD τ) (sV 0 0) fullShare Y) ∗ (∃ Y, owns (c : Thread nD τ) (sV 0 1) fullShare Y)
          ∗ (∃ Y, owns (c : Thread nD τ) (sV 1 0) fullShare Y) ∗ (∃ Y, owns (c : Thread nD τ) (sV 1 1) fullShare Y)
          ∗ (∃ Y, owns (c : Thread nD τ) (sV 2 0) fullShare Y) ∗ (∃ Y, owns (c : Thread nD τ) (sV 2 1) fullShare Y)) :=
  (sM_split c f).trans (BI.sep_mono (slot_to_sq c sM 0 0) (BI.sep_mono (slot_to_sq c sM 0 1) (BI.sep_mono (slot_to_sq c sM 1 0)
    (BI.sep_mono (slot_to_sq c sM 1 1) (BI.sep_mono (slot_to_sq c sM 2 0) (slot_to_sq c sM 2 1))))))

theorem bV_split (f : Buf (Elt F) ((c : Thread nD τ).loc cc0_scratch1)) :
    (((c : Thread nD τ).loc cc0_scratch1) ↦{fullShare} f : sProp 𝕄)
      ⊢ iprop((∃ Y, owns (c : Thread nD τ) (bV 0 0) fullShare Y) ∗ (∃ Y, owns (c : Thread nD τ) (bV 0 1) fullShare Y)
          ∗ (∃ Y, owns (c : Thread nD τ) (bV 1 0) fullShare Y) ∗ (∃ Y, owns (c : Thread nD τ) (bV 1 1) fullShare Y)
          ∗ (∃ Y, owns (c : Thread nD τ) (bV 2 0) fullShare Y) ∗ (∃ Y, owns (c : Thread nD τ) (bV 2 1) fullShare Y)) :=
  (bM_split c f).trans (BI.sep_mono (slot_to_sq c bM 0 0) (BI.sep_mono (slot_to_sq c bM 0 1) (BI.sep_mono (slot_to_sq c bM 1 0)
    (BI.sep_mono (slot_to_sq c bM 1 1) (BI.sep_mono (slot_to_sq c bM 2 0) (slot_to_sq c bM 2 1))))))

/-- The join back: the six slots seen as `[128, 512]`, each owned at some contents, are the buffer at some contents. -/
theorem sV_join :
    (iprop((∃ Y, owns (c : Thread nD τ) (sV 0 0) fullShare Y) ∗ (∃ Y, owns (c : Thread nD τ) (sV 0 1) fullShare Y)
          ∗ (∃ Y, owns (c : Thread nD τ) (sV 1 0) fullShare Y) ∗ (∃ Y, owns (c : Thread nD τ) (sV 1 1) fullShare Y)
          ∗ (∃ Y, owns (c : Thread nD τ) (sV 2 0) fullShare Y) ∗ (∃ Y, owns (c : Thread nD τ) (sV 2 1) fullShare Y)) : sProp 𝕄)
      ⊢ iprop(∃ f, ((c : Thread nD τ).loc cc0_scratch0) ↦{fullShare} f) :=
  (Entails.of_eq (bigSep_slots (fun t : Fin 3 × Fin 2 =>
    (iprop(∃ Y, owns (c : Thread nD τ) (sV t.1 t.2) fullShare Y) : sProp 𝕄))).symm).trans (sV_whole c)

theorem bV_join :
    (iprop((∃ Y, owns (c : Thread nD τ) (bV 0 0) fullShare Y) ∗ (∃ Y, owns (c : Thread nD τ) (bV 0 1) fullShare Y)
          ∗ (∃ Y, owns (c : Thread nD τ) (bV 1 0) fullShare Y) ∗ (∃ Y, owns (c : Thread nD τ) (bV 1 1) fullShare Y)
          ∗ (∃ Y, owns (c : Thread nD τ) (bV 2 0) fullShare Y) ∗ (∃ Y, owns (c : Thread nD τ) (bV 2 1) fullShare Y)) : sProp 𝕄)
      ⊢ iprop(∃ f, ((c : Thread nD τ).loc cc0_scratch1) ↦{fullShare} f) :=
  (Entails.of_eq (bigSep_slots (fun t : Fin 3 × Fin 2 =>
    (iprop(∃ Y, owns (c : Thread nD τ) (bV t.1 t.2) fullShare Y) : sProp 𝕄))).symm).trans (bV_whole c)

/-- The result's staging buffer split into its eight halves, listed from `c`'s own quarter round the others. -/
theorem oV_split (g : Buf (Elt F) ((c : Thread nD τ).loc cc0_stg2_0)) :
    (((c : Thread nD τ).loc cc0_stg2_0) ↦{fullShare} g : sProp 𝕄)
      ⊢ iprop((∃ Y, owns (c : Thread nD τ) (oV c 0) fullShare Y) ∗ (∃ Y, owns (c : Thread nD τ) (oV c 1) fullShare Y)
          ∗ (∃ Y, owns (c : Thread nD τ) (oV (pe c 0) 0) fullShare Y) ∗ (∃ Y, owns (c : Thread nD τ) (oV (pe c 0) 1) fullShare Y)
          ∗ (∃ Y, owns (c : Thread nD τ) (oV (pe c 1) 0) fullShare Y) ∗ (∃ Y, owns (c : Thread nD τ) (oV (pe c 1) 1) fullShare Y)
          ∗ (∃ Y, owns (c : Thread nD τ) (oV (pe c 2) 0) fullShare Y) ∗ (∃ Y, owns (c : Thread nD τ) (oV (pe c 2) 1) fullShare Y)) :=
  (pointsTo_split (c : Thread nD τ) fullShare cc0_stg2_0 halves (fun _ _ => rfl) halves_disjoint halves_cover g).trans
    (Entails.of_eq (bigSep_halves c _))

end Splits

/-! ## The result's buffer on one half, and the halves joined -/

section Result

variable (m : (ℓ : Loc nD τ sig) → Buf (Elt F) ℓ)

theorem yX_congr {q q' : Dev nD} {i i' : Fin 2} {x x' : S128x512.Idx} (hq : q' = q) (hi : i' = i) (hx : x' = x) :
    yX m q' i' x' = yX m q i x := by
  subst hq hi hx; rfl

/-- The result's buffer at the place of index `j` of half `i` of quarter `q` is that half's value at `j`. -/
theorem outAt_emb (q : Dev nD) (i : Fin 2) (j : (r2 q i).shape.Idx) : outAt m ((r2 q i).emb j) = yX m q i j := by
  have h0 : ((r2 q i).emb j 0).val = 256 * q.val + 128 * i.val + (j 0).val := by
    rw [Rect.emb_apply]
    show 256 * q.val + 128 * i.val + 1 * (j 0).val = _
    omega
  have h1 : ((r2 q i).emb j 1).val = (j 1).val := by
    rw [Rect.emb_apply]
    show 0 + 1 * (j 1).val = _
    omega
  have hj0 : (j 0).val < 128 := (j 0).isLt
  have hj1 : (j 1).val < 512 := (j 1).isLt
  have hq : q.val < 4 := q.isLt
  have hi : i.val < 2 := i.isLt
  unfold outAt
  refine yX_congr m (Fin.ext ?_) (Fin.ext ?_) (funext fun a => Fin.ext ?_)
  · show ((r2 q i).emb j 0).val / 256 % 4 = q.val
    rw [h0]; omega
  · show ((r2 q i).emb j 0).val % 256 / 128 % 2 = i.val
    rw [h0]; omega
  · match a with
    | ⟨0, _⟩ =>
      show ((r2 q i).emb j 0).val % 128 = (j 0).val
      rw [h0]; omega
    | ⟨1, _⟩ =>
      show ((r2 q i).emb j 1).val % 512 = (j 1).val
      rw [h1]; omega

/-- The same as an equation of functions on the half's indices. -/
theorem outAt_emb_fun (q : Dev nD) (i : Fin 2) : (fun j => outAt m ((r2 q i).emb j)) = yX m q i :=
  funext fun j => outAt_emb m q i j

/-- The eight halves, each owned at its value, are the result's buffer holding the whole result. -/
theorem oV_join (c : Dev nD) :
    (iprop(owns (c : Thread nD τ) (oV c 0) fullShare (yX m c 0) ∗ owns (c : Thread nD τ) (oV c 1) fullShare (yX m c 1)
        ∗ owns (c : Thread nD τ) (oV (pe c 0) 0) fullShare (yX m (pe c 0) 0)
        ∗ owns (c : Thread nD τ) (oV (pe c 0) 1) fullShare (yX m (pe c 0) 1)
        ∗ owns (c : Thread nD τ) (oV (pe c 1) 0) fullShare (yX m (pe c 1) 0)
        ∗ owns (c : Thread nD τ) (oV (pe c 1) 1) fullShare (yX m (pe c 1) 1)
        ∗ owns (c : Thread nD τ) (oV (pe c 2) 0) fullShare (yX m (pe c 2) 0)
        ∗ owns (c : Thread nD τ) (oV (pe c 2) 1) fullShare (yX m (pe c 2) 1)) : sProp 𝕄)
      ⊢ iprop(∃ f : Buf (Elt F) ((c : Thread nD τ).loc cc0_stg2_0),
          ⌜f = outAt m⌝ ∗ (((c : Thread nD τ).loc cc0_stg2_0) ↦{fullShare} f)) := by
  refine (Entails.of_eq (bigSep_halves c (fun t : Dev nD × Fin 2 =>
    (owns (c : Thread nD τ) (oV t.1 t.2) fullShare (yX m t.1 t.2) : sProp 𝕄))).symm).trans ?_
  have e : (fun t : Dev nD × Fin 2 => (owns (c : Thread nD τ) (oV t.1 t.2) fullShare (yX m t.1 t.2) : sProp 𝕄))
      = fun t => owns (c : Thread nD τ) (oM.slice (halves t) (fun _ => rfl)) fullShare
          (fun j => outAt m ((halves t).emb j)) :=
    funext fun t => by rw [outAt_emb_fun]
  rw [e]
  refine (owns_of_rects (c : Thread nD τ) oM fullShare halves (fun _ _ => rfl) halves_disjoint halves_cover (outAt m)).trans ?_
  exact Entails.of_eq (owns_whole_eq (c : Thread nD τ) cc0_stg2_0 fullShare (outAt m))

end Result

/-! ## Stores and loads at the printed rectangles -/

section Printed

variable (c : Dev nD) (i : Fin 2)

/-- A store through the whole result memref at a rectangle whose offsets are half `i` of `c`'s quarter, read back
    through that half. -/
theorem read_oV_write (off : Fin 2 → Nat) (hoff : off = ![256 * c.val + 128 * i.val, 0])
    (p : ∀ a, off a + S128x512.size a ≤ S1024x512.size a)
    (f : (oM.access (Rect.unit off S128x512.size p)).ty.Contents (Elt F)) (w : S128x512.Idx → Elt F .bf16) :
    (oV c i).view.read (Elt F) ((oM.access (Rect.unit off S128x512.size p)).write (Elt F) f w Finset.univ) = w := by
  subst hoff
  exact View.read_write_univ _ _

/-- The elements such a store touches are the half's. -/
theorem setOn_oV_store (off : Fin 2 → Nat) (hoff : off = ![256 * c.val + 128 * i.val, 0])
    (p : ∀ a, off a + S128x512.size a ≤ S1024x512.size a) :
    (oM.access (Rect.unit off S128x512.size p)).setOn Finset.univ ⊆ (oV c i).view.set := by
  subst hoff
  exact subset_rfl

/-- The elements a load at that rectangle touches are the half's. -/
theorem setOn_oV_load (off : Fin 2 → Nat) (hoff : off = ![256 * c.val + 128 * i.val, 0])
    (p : ∀ a, off a + S128x512.size a ≤ S1024x512.size a) :
    oM.view.setOn (Rect.unit (s := S1024x512) off S128x512.size p).set ⊆ (oV c i).view.set := by
  subst hoff
  exact (setOn_load_eq oM (r2 c i) (fun _ => rfl)).subset

/-- Every access to the result's buffer, and every half, sits in that one buffer. -/
theorem loc_oM_access (d : Dev nD) (R : Rect S1024x512) (q : Dev nD) :
    (oM.access R).loc (d : Thread nD τ) = (oV q i).view.loc (d : Thread nD τ) := rfl

variable (a : Fin 3)

/-- A slot seen as `[128, 512]` has the slot's elements, -/
theorem set_sV : (sV a i).view.set = (sM.slice (r4 a i) (fun _ => rfl)).view.set := View.set_reshape _ _
theorem set_bV : (bV a i).view.set = (bM.slice (r4 a i) (fun _ => rfl)).view.set := View.set_reshape _ _

/-- reads what a load through the buffer at the slot reads, seen as `[128, 512]`, -/
theorem read_sV (f : sM.view.ty.Contents (Elt F)) :
    (sV a i).view.read (Elt F) f = sq (sM.view.readAt (Elt F) (r4 a i).toLoadRect f) := rfl
theorem read_bV (f : bM.view.ty.Contents (Elt F)) :
    (bV a i).view.read (Elt F) f = sq (bM.view.readAt (Elt F) (r4 a i).toLoadRect f) := rfl

/-- and what a store on every index through the buffer at the slot writes, it reads seen as `[128, 512]`. -/
theorem read_sV_write (f : (sM.access (r4 a i)).ty.Contents (Elt F)) (w : FVec F S1x1x128x512 .bf16) :
    (sV a i).view.read (Elt F) ((sM.access (r4 a i)).write (Elt F) f w Finset.univ) = sq w := by
  show shapeCast S128x512 ((sM.slice (r4 a i) (fun _ => rfl)).view.read (Elt F) _) _ = _
  rw [read_slice_write_access]
theorem read_bV_write (f : (bM.access (r4 a i)).ty.Contents (Elt F)) (w : FVec F S1x1x128x512 .bf16) :
    (bV a i).view.read (Elt F) ((bM.access (r4 a i)).write (Elt F) f w Finset.univ) = sq w := by
  show shapeCast S128x512 ((bM.slice (r4 a i) (fun _ => rfl)).view.read (Elt F) _) _ = _
  rw [read_slice_write_access]

/-- The elements a load or a store at the slot touches are the squeezed slot's. -/
theorem setOn_sV_load : sM.view.setOn (r4 a i).set ⊆ (sV a i).view.set := by
  rw [set_sV]; exact setOn_load_subset sM (r4 a i) (fun _ => rfl)
theorem setOn_bV_load : bM.view.setOn (r4 a i).set ⊆ (bV a i).view.set := by
  rw [set_bV]; exact setOn_load_subset bM (r4 a i) (fun _ => rfl)
theorem setOn_sV_store : (sM.access (r4 a i)).setOn Finset.univ ⊆ (sV a i).view.set := by
  rw [set_sV]; exact setOn_store_subset sM (r4 a i) (fun _ => rfl)
theorem setOn_bV_store : (bM.access (r4 a i)).setOn Finset.univ ⊆ (bV a i).view.set := by
  rw [set_bV]; exact setOn_store_subset bM (r4 a i) (fun _ => rfl)

theorem loc_sV (d : Dev nD) : (sV a i).view.loc (d : Thread nD τ) = sM.view.loc (d : Thread nD τ) := rfl
theorem loc_bV (d : Dev nD) : (bV a i).view.loc (d : Thread nD τ) = bM.view.loc (d : Thread nD τ) := rfl

end Printed

end Cert.Kernel.Coll

end
-- ==== Proof.KernelBody.lean ====
/-
  One thread's body, from what the launch hands it to what the pipeline takes back.

  Device `c` first hands each peer, with its entry signal, the slot of its landing buffer and the rows of its result
  buffer that peer will write, and stages its own rows of each peer's quarter, rounded, one slot per peer and half. With
  the three peers' signals it receives the like from them. It copies each staged slot into the slot the peer keeps for
  it; per half it then waits for the three peers' rows of its own quarter, adds them to its own rows, multiplies by
  the rounded weights, stores the half into its rows of the result and copies it, at a third of the rows' share each, to
  the three peers. It waits for the six halves the peers send, and for its twelve copies to have left; its 24 cells close.

  What each buffer holds is followed slot by slot and half by half: a staged slot reads `stg m c a i`, a landed slot
  `rcv m c a i`, this device's half `yX m c i` (the sum of the four devices' rows times the weights, in the order own,
  first, second, third peer) and a peer's half `yX m (pe c a) i`; the eight halves are the result `outAt m`.
-/
import proofs.«900370_g7700000000000371_dist_matmul_of_ar_i_m1024_n512_k512_v7x_i4_f32_1_alg».proof.Proof.KernelProto
import proofs.«900370_g7700000000000371_dist_matmul_of_ar_i_m1024_n512_k512_v7x_i4_f32_1_alg».proof.Proof.KernelBodyDefs
import proofs.«900370_g7700000000000371_dist_matmul_of_ar_i_m1024_n512_k512_v7x_i4_f32_1_alg».proof.Proof.KernelSteps
import proofs.«900370_g7700000000000371_dist_matmul_of_ar_i_m1024_n512_k512_v7x_i4_f32_1_alg».proof.Proof.KernelGeom
import Idealize.ShloMosaic.Lib.StableHlo.CollectiveRules

noncomputable section

namespace Cert.Kernel.Coll

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The printed spelling of the semaphores and views, identified -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
theorem bigSep_cells (Φ : CK → sProp 𝕄) :
    bigSep Finset.univ Φ = iprop(Φ (none) ∗ Φ (some (0, 0, 0)) ∗ Φ (some (0, 0, 1)) ∗ Φ (some (0, 1, 0)) ∗ Φ (some (0, 1, 1)) ∗ Φ (some (0, 2, 0)) ∗ Φ (some (0, 2, 1)) ∗ Φ (some (1, 0, 0)) ∗ Φ (some (1, 0, 1)) ∗ Φ (some (1, 1, 0)) ∗ Φ (some (1, 1, 1)) ∗ Φ (some (1, 2, 0)) ∗ Φ (some (1, 2, 1)) ∗ Φ (some (2, 0, 0)) ∗ Φ (some (2, 0, 1)) ∗ Φ (some (2, 1, 0)) ∗ Φ (some (2, 1, 1)) ∗ Φ (some (2, 2, 0)) ∗ Φ (some (2, 2, 1)) ∗ Φ (some (3, 0, 0)) ∗ Φ (some (3, 0, 1)) ∗ Φ (some (3, 1, 0)) ∗ Φ (some (3, 1, 1)) ∗ Φ (some (3, 2, 0)) ∗ Φ (some (3, 2, 1))) :=
  bigSep_univ_eq_bigSepL [none, some (0, 0, 0), some (0, 0, 1), some (0, 1, 0), some (0, 1, 1), some (0, 2, 0), some (0, 2, 1), some (1, 0, 0), some (1, 0, 1), some (1, 1, 0), some (1, 1, 1), some (1, 2, 0), some (1, 2, 1), some (2, 0, 0), some (2, 0, 1), some (2, 1, 0), some (2, 1, 1), some (2, 2, 0), some (2, 2, 1), some (3, 0, 0), some (3, 0, 1), some (3, 1, 0), some (3, 1, 1), some (3, 2, 0), some (3, 2, 1)] (by decide) (by decide) Φ

/-- The receive cells a copy names on the peer, through the printed slot offsets. -/
theorem semR_rs0 : ∀ (c : Dev nD) (r : Fin 3), ((cc0_scratch4.slice (Rect.unit (s := S3x2) (k0_off2 c (BitVec.ofNat 32 (1 + r.val))) S1x1.size (k0_off2_inb c r))).squeeze S_ squeezes_S1x1_S_).sem = dsem 1 (back r) 0 := by decide +kernel
theorem semR_rs1 : ∀ (c : Dev nD) (r : Fin 3), ((cc0_scratch4.slice (Rect.unit (s := S3x2) (k0_off4 c (BitVec.ofNat 32 (1 + r.val))) S1x1.size (k0_off4_inb c r))).squeeze S_ squeezes_S1x1_S_).sem = dsem 1 (back r) 1 := by decide +kernel
theorem semR_ag0 : ∀ (c : Dev nD) (r : Fin 3), ((cc0_scratch6.slice (Rect.unit (s := S3x2) (k0_off2 c (BitVec.ofNat 32 (1 + r.val))) S1x1.size (k0_off2_inb c r))).squeeze S_ squeezes_S1x1_S_).sem = dsem 3 (back r) 0 := by decide +kernel
theorem semR_ag1 : ∀ (c : Dev nD) (r : Fin 3), ((cc0_scratch6.slice (Rect.unit (s := S3x2) (k0_off4 c (BitVec.ofNat 32 (1 + r.val))) S1x1.size (k0_off4_inb c r))).squeeze S_ squeezes_S1x1_S_).sem = dsem 3 (back r) 1 := by decide +kernel

/-- The landing slot a reduce-scatter copy names on the peer. -/
theorem dst_rs0 (c : Dev nD) (r : Fin 3) :
    ((bM.slice (Rect.unit (s := S3x2x128x512) (k0_off3 c (BitVec.ofNat 32 (1 + r.val))) S1x1x128x512.size (k0_off3_inb c r)) (fun _ => rfl)).squeeze S128x512 squeezes_S1x1x128x512_S128x512) = bV (back r) 0 :=
  congrArg (fun M : Memref sig .tc .vmem S1x1x128x512 .bf16 => M.squeeze S128x512 squeezes_S1x1x128x512_S128x512)
    (Memref.slice_unit_congr bM (off3_eq c r) _ (inb4 (back r) 0) _ (fun _ => rfl))
theorem dst_rs1 (c : Dev nD) (r : Fin 3) :
    ((bM.slice (Rect.unit (s := S3x2x128x512) (k0_off5 c (BitVec.ofNat 32 (1 + r.val))) S1x1x128x512.size (k0_off5_inb c r)) (fun _ => rfl)).squeeze S128x512 squeezes_S1x1x128x512_S128x512) = bV (back r) 1 :=
  congrArg (fun M : Memref sig .tc .vmem S1x1x128x512 .bf16 => M.squeeze S128x512 squeezes_S1x1x128x512_S128x512)
    (Memref.slice_unit_congr bM (off5_eq c r) _ (inb4 (back r) 1) _ (fun _ => rfl))
/-- The rows of the result an all-gather copy names, on the issuer and on the peer alike. -/
theorem rows_ag (c : Dev nD) (r : Fin 2) :
    (oM.slice (Rect.unit (s := S1024x512) (k0_off7 c (BitVec.ofNat 32 (128 * r.val))) S128x512.size (k0_off7_inb c r)) (fun _ => rfl)) = oV c r :=
  Memref.slice_unit_congr oM (k0_off7_eq c r) _ (inb2 c r) _ (fun _ => rfl)

theorem bigSep_DK (Φ : Fin 4 × Fin 3 × Fin 2 → sProp 𝕄) :
    bigSep Finset.univ Φ = iprop(Φ (0, 0, 0) ∗ Φ (0, 0, 1) ∗ Φ (0, 1, 0) ∗ Φ (0, 1, 1) ∗ Φ (0, 2, 0) ∗ Φ (0, 2, 1) ∗ Φ (1, 0, 0) ∗ Φ (1, 0, 1) ∗ Φ (1, 1, 0) ∗ Φ (1, 1, 1) ∗ Φ (1, 2, 0) ∗ Φ (1, 2, 1) ∗ Φ (2, 0, 0) ∗ Φ (2, 0, 1) ∗ Φ (2, 1, 0) ∗ Φ (2, 1, 1) ∗ Φ (2, 2, 0) ∗ Φ (2, 2, 1) ∗ Φ (3, 0, 0) ∗ Φ (3, 0, 1) ∗ Φ (3, 1, 0) ∗ Φ (3, 1, 1) ∗ Φ (3, 2, 0) ∗ Φ (3, 2, 1)) :=
  bigSep_univ_eq_bigSepL [(0, 0, 0), (0, 0, 1), (0, 1, 0), (0, 1, 1), (0, 2, 0), (0, 2, 1), (1, 0, 0), (1, 0, 1), (1, 1, 0), (1, 1, 1), (1, 2, 0), (1, 2, 1), (2, 0, 0), (2, 0, 1), (2, 1, 0), (2, 1, 1), (2, 2, 0), (2, 2, 1), (3, 0, 0), (3, 0, 1), (3, 1, 0), (3, 1, 1), (3, 2, 0), (3, 2, 1)] (by decide) (by decide) Φ

/-! ## What the body's loads read -/

/-- Rows `256 q + 128 i ..+128` of the staged argument, through any spelling of the offsets. -/
theorem tBlk_of_off (c q : Dev nD) (i : Fin 2) (off : Fin 2 → Nat) (hoff : off = ![256 * q.val + 128 * i.val, 0])
    (p : ∀ a, off a + S128x512.size a ≤ S1024x512.size a) :
    (tM : Memref sig .tc .vmem S1024x512 .f32).view.readAt (Elt F) (Rect.unit (s := S1024x512) off S128x512.size p).toLoadRect (tIn m c)
      = tBlk m c q i := by
  subst hoff; rfl
theorem tBlk_off1 (c : Dev nD) (a : Fin 3) (i : Fin 2) :
    (tM : Memref sig .tc .vmem S1024x512 .f32).view.readAt (Elt F)
      (Rect.unit (s := S1024x512) (k0_off1 c (BitVec.ofNat 32 (1 + a.val)) (BitVec.ofNat 32 (128 * i.val))) S128x512.size (k0_off1_inb c a i)).toLoadRect (tIn m c)
      = tBlk m c (pe c a) i := tBlk_of_off m c (pe c a) i _ (off1_eq c a i) _
theorem tBlk_off6 (c : Dev nD) (i : Fin 2) :
    (tM : Memref sig .tc .vmem S1024x512 .f32).view.readAt (Elt F)
      (Rect.unit (s := S1024x512) (k0_off6 c (BitVec.ofNat 32 (128 * i.val))) S128x512.size (k0_off6_inb c i)).toLoadRect (tIn m c)
      = tBlk m c c i := tBlk_of_off m c c i _ (k0_off6_eq c i) _

/-- A whole buffer's points-to, stated through the whole memref's view. -/
theorem pts_whole (c : Dev nD) (b : Ref sig .tc) (q : PosShare TreeShare) (f : Buf (Elt F) ((c : Thread nD τ).loc b)) :
    ((((c : Thread nD τ).loc b) ↦{q} f) : sProp 𝕄)
      = ((Memref.whole b : Memref sig .tc _ _ _).view.loc (c : Thread nD τ) ↦[(Memref.whole b : Memref sig .tc _ _ _).view.set]{q} f) := by
  rw [View.set_whole]

theorem lv_rs : ∀ (c : Dev nD) (a : Fin 3) (i : Fin 2), lv (dcell c 1 a i) () = 2 := by decide
theorem lv_ag : ∀ (c : Dev nD) (a : Fin 3) (i : Fin 2), lv (dcell c 3 a i) () = 3 := by decide
theorem lv_send : ∀ (c : Dev nD) (a : Fin 3) (i : Fin 2), lv (dcell c 0 a i) () = 0 ∧ lv (dcell c 2 a i) () = 0 := by decide

theorem pay_s (c : Dev nD) (a : Fin 3) (i : Fin 2) : pay m c 0 a i = owns (c : Thread nD τ) (sV a i) fullShare (sq (stg m c a i)) := rfl
theorem pay_r (c : Dev nD) (a : Fin 3) (i : Fin 2) : pay m c 1 a i = owns (c : Thread nD τ) (bV a i) fullShare (sq (rcv m c a i)) := rfl
theorem pay_g (c : Dev nD) (a : Fin 3) (i : Fin 2) : pay m c 2 a i = owns (c : Thread nD τ) (oV c i) (agShare a) (yX m c i) := rfl
theorem pay_a (c : Dev nD) (a : Fin 3) (i : Fin 2) : pay m c 3 a i = owns (c : Thread nD τ) (oV (pe c a) i) fullShare (yX m (pe c a) i) := rfl

/-! ## A half of the result lent to three copies at once -/

theorem share3 (c : Dev nD) (M : Memref sig .tc .vmem S128x512 .bf16) (Y : S128x512.Idx → Elt F .bf16) :
    (owns (c : Thread nD τ) M fullShare Y : sProp 𝕄)
      ⊢ iprop(owns (c : Thread nD τ) M (agShare 0) Y ∗ owns (c : Thread nD τ) M (agShare 1) Y ∗ owns (c : Thread nD τ) M (agShare 2) Y) := by
  iintro H
  ihave H := (owns_share (c : Thread nD τ) M (PosShare.mem_left_op_right fullShare) Y).1 $$ H
  icases H with ⟨H0, H⟩
  ihave H := (owns_share (c : Thread nD τ) M (PosShare.mem_left_op_right fullShare.right) Y).1 $$ H
  icases H with ⟨H1, H2⟩
  isplitl [H0]; · iexact H0
  isplitl [H1]; · iexact H1
  iexact H2
theorem unshare3 (c : Dev nD) (M : Memref sig .tc .vmem S128x512 .bf16) (Y : S128x512.Idx → Elt F .bf16) :
    iprop(owns (c : Thread nD τ) M (agShare 0) Y ∗ owns (c : Thread nD τ) M (agShare 1) Y ∗ owns (c : Thread nD τ) M (agShare 2) Y)
      ⊢ (owns (c : Thread nD τ) M fullShare Y : sProp 𝕄) := by
  iintro ⟨H0, H1, H2⟩
  ihave H := (owns_share (c : Thread nD τ) M (PosShare.mem_left_op_right fullShare.right) Y).2 $$ [H1 H2]
  · isplitl [H1]; · iexact H1
    iexact H2
  iapply (owns_share (c : Thread nD τ) M (PosShare.mem_left_op_right fullShare) Y).2
  isplitl [H0]; · iexact H0
  iexact H

theorem owns_open (c : Dev nD) (M : Memref sig .tc .vmem S128x512 .bf16) (q : PosShare TreeShare) (X : S128x512.Idx → Elt F .bf16) :
    (owns (c : Thread nD τ) M q X : sProp 𝕄) ⊢ iprop(∃ f, ⌜M.view.read (Elt F) f = X⌝ ∗ (M.view.loc (c : Thread nD τ) ↦[M.view.set]{q} f)) := BI.Entails.refl _
theorem owns_open4 (c : Dev nD) (M : Memref sig .tc .vmem S1x1x128x512 .bf16) (q : PosShare TreeShare) (X : S1x1x128x512.Idx → Elt F .bf16) :
    (owns (c : Thread nD τ) M q X : sProp 𝕄) ⊢ iprop(∃ f, ⌜M.view.read (Elt F) f = X⌝ ∗ (M.view.loc (c : Thread nD τ) ↦[M.view.set]{q} f)) := BI.Entails.refl _

theorem hz2 : (![0, 0] : Fin 2 → Nat) = fun _ => 0 := funext fun a => by fin_cases a <;> rfl

/-- A proposition held under a name of its own. -/
def Kept (p : Prop) : Prop := p
theorem Kept.intro {p : Prop} (h : p) : Kept p := h
theorem Kept.out {p : Prop} (h : Kept p) : p := h

/-- Nothing owed, whatever waits were recorded, is what the pipeline asks back after the point. -/
theorem owes_done (c : Dev nD) (W' : Waits sig Unit) :
    (owes (c : Thread nD τ) (0 : CellTallies nD τ sig Unit) W' : sProp 𝕄)
      ⊢ iprop(∃ W : Waits sig Unit, ⌜(↑W : Set (SemLoc sig × Unit)) ⊆ (dats m ρ 0 c).bound () (t0_0 : Fin cfg0.N).succ⌝ ∗ owes (c : Thread nD τ) 0 W) := by
  iintro H
  iexists W'
  isplitr; · (ipureintro; exact fun _ _ => Or.inl trivial)
  iexact H

set_option maxHeartbeats 3200000 in
theorem sound_body : BodySound (F := F) m ρ := by
  intro K c Kt
  unfold bodyPre ghost posns payToks creds scr theBody
  iintro ⟨⟨⟨⟨#HR, Hpos, Htok⟩, Hcr, #Hlev, ⟨%f3, Hs⟩, ⟨%f4, Hb⟩, ⟨%f5, Hv⟩⟩, Ho, ⟨%d0, %g0, %hg0, Ht⟩, ⟨%d1, %g1, %hg1, Hw⟩, ⟨%d2, %g2, %hg2, Hout⟩⟩, Hk⟩
  simp only [bigSep_fin3, bigSep_fin32, bigSep_cells]
  icases Hpos with ⟨HpB, Hps00, Hps01, Hps10, Hps11, Hps20, Hps21, Hpr00, Hpr01, Hpr10, Hpr11, Hpr20, Hpr21, Hpg00, Hpg01, Hpg10, Hpg11, Hpg20, Hpg21, Hpa00, Hpa01, Hpa10, Hpa11, Hpa20, Hpa21⟩
  icases Htok with ⟨⟨HtB0, HtB1, HtB2⟩, ⟨Htr00, Htr01, Htr10, Htr11, Htr20, Htr21⟩, ⟨Hta00, Hta01, Hta10, Hta11, Hta20, Hta21⟩, ⟨Hts00, Hts01, Hts10, Hts11, Hts20, Hts21⟩, ⟨Htg00, Htg01, Htg10, Htg11, Htg20, Htg21⟩⟩
  icases Hcr with ⟨HcB, ⟨Hcr00, Hcr01, Hcr10, Hcr11, Hcr20, Hcr21⟩, ⟨Hca00, Hca01, Hca10, Hca11, Hca20, Hca21⟩⟩
  unfold Dat.owesAt Pipeline.owesWithin
  icases Ho with ⟨%W, %hW, HO⟩
  rw [show (dats m ρ 0 c).owed (t0_0 : Fin cfg0.N).castSucc = O c 0 from rfl]
  -- the landing buffer and the result's staging buffer, slot by slot and half by half
  ihave Hb := (bV_split c f4) $$ Hb
  icases Hb with ⟨Hbq00, Hbq01, Hbq10, Hbq11, Hbq20, Hbq21⟩
  ihave Hout := (oV_split c g2) $$ Hout
  icases Hout with ⟨Hoc0, Hoc1, Hop00, Hop01, Hop10, Hop11, Hop20, Hop21⟩
  sl_exec
  -- the entry signal to peer 0
  iapply (step_signal m K c 0 _ (dev1_eq c) (O c 0) (O c 1) rfl W) $$ [HO HtB0 Hbq00 Hbq01 Hop00 Hop01]
  · isplitr; · iexact HR
    isplitl [HO]; · iexact HO
    isplitl [HtB0]; · iexact HtB0
    isplitl [Hbq00]; · iexact Hbq00
    isplitl [Hbq01]; · iexact Hbq01
    isplitl [Hop00]; · iexact Hop00
    iexact Hop01
  iintro HO
  sl_exec
  -- the entry signal to peer 1
  iapply (step_signal m K c 1 _ (dev2_eq c) (O c 1) (O c 2) rfl W) $$ [HO HtB1 Hbq10 Hbq11 Hop10 Hop11]
  · isplitr; · iexact HR
    isplitl [HO]; · iexact HO
    isplitl [HtB1]; · iexact HtB1
    isplitl [Hbq10]; · iexact Hbq10
    isplitl [Hbq11]; · iexact Hbq11
    isplitl [Hop10]; · iexact Hop10
    iexact Hop11
  iintro HO
  sl_exec
  -- the entry signal to peer 2
  iapply (step_signal m K c 2 _ (dev3_eq c) (O c 2) (O c 3) rfl W) $$ [HO HtB2 Hbq20 Hbq21 Hop20 Hop21]
  · isplitr; · iexact HR
    isplitl [HO]; · iexact HO
    isplitl [HtB2]; · iexact HtB2
    isplitl [Hbq20]; · iexact Hbq20
    isplitl [Hbq21]; · iexact Hbq21
    isplitl [Hop20]; · iexact Hop20
    iexact Hop21
  iintro HO
  sl_exec
  -- the staging scratch, slot by slot; the inputs as fetched
  ihave Hs := (sM_split c f3) $$ Hs
  icases Hs with ⟨Hsl00, Hsl01, Hsl10, Hsl11, Hsl20, Hsl21⟩
  have hg0' : g0 = tIn m c := by rw [hg0]; unfold Dat.before; rw [if_pos (fetch0_0 t0_0)]; rfl
  subst hg0'
  have hg1' : g1 = wIn m c := by rw [hg1]; unfold Dat.before; rw [if_pos (fetch0_1 t0_0)]; rfl
  subst hg1'
  ihave Ht := (Entails.of_eq (pts_whole c cc0_stg0_0 fullShare _)) $$ Ht
  ihave Hw := (Entails.of_eq (pts_whole c cc0_stg1_0 fullShare _)) $$ Hw
  ihave Hv := (Entails.of_eq (pts_whole c cc0_scratch2 fullShare _)) $$ Hv
  icases Hsl00 with ⟨%Y00, Hsl00⟩
  ihave Hsl00 := (owns_open4 c (sM.slice (r4 0 0) (fun _ => rfl)) fullShare Y00) $$ Hsl00
  icases Hsl00 with ⟨%fs00, %hfs00, Hsl00⟩
  icases Hsl01 with ⟨%Y01, Hsl01⟩
  ihave Hsl01 := (owns_open4 c (sM.slice (r4 0 1) (fun _ => rfl)) fullShare Y01) $$ Hsl01
  icases Hsl01 with ⟨%fs01, %hfs01, Hsl01⟩
  icases Hsl10 with ⟨%Y10, Hsl10⟩
  ihave Hsl10 := (owns_open4 c (sM.slice (r4 1 0) (fun _ => rfl)) fullShare Y10) $$ Hsl10
  icases Hsl10 with ⟨%fs10, %hfs10, Hsl10⟩
  icases Hsl11 with ⟨%Y11, Hsl11⟩
  ihave Hsl11 := (owns_open4 c (sM.slice (r4 1 1) (fun _ => rfl)) fullShare Y11) $$ Hsl11
  icases Hsl11 with ⟨%fs11, %hfs11, Hsl11⟩
  icases Hsl20 with ⟨%Y20, Hsl20⟩
  ihave Hsl20 := (owns_open4 c (sM.slice (r4 2 0) (fun _ => rfl)) fullShare Y20) $$ Hsl20
  icases Hsl20 with ⟨%fs20, %hfs20, Hsl20⟩
  icases Hsl21 with ⟨%Y21, Hsl21⟩
  ihave Hsl21 := (owns_open4 c (sM.slice (r4 2 1) (fun _ => rfl)) fullShare Y21) $$ Hsl21
  icases Hsl21 with ⟨%fs21, %hfs21, Hsl21⟩
  sl_exec
  have hs00 : (((sM.slice (r4 0 0) (fun _ => rfl)).view.loc (c : Thread nD τ) ↦[(sM.slice (r4 0 0) (fun _ => rfl)).view.set]{fullShare} (sound_body.sl.Hsl00_w1 m c fs00)) : sProp 𝕄)
      ⊢ owns (c : Thread nD τ) (sV 0 0) fullShare (sq (stg m c 0 0)) := by
    have hread : (sM.slice (r4 0 0) (fun _ => rfl)).view.read (Elt F) (sound_body.sl.Hsl00_w1 m c fs00) = stg m c 0 0 := by
      unfold sound_body.sl.Hsl00_w1 stg
      rw [← tBlk_off1 m c 0 0]
      exact read_slice_write_access sM (r4 0 0) (fun _ => rfl) fs00 _
    refine (owns_intro (c : Thread nD τ) (sM.slice (r4 0 0) (fun _ => rfl)) fullShare _).trans (Entails.of_eq ?_)
    rw [owns_slot_sq c sM 0 0 fullShare (stg m c 0 0), hread]
  ihave Hsl00 := hs00 $$ Hsl00
  have hs01 : (((sM.slice (r4 0 1) (fun _ => rfl)).view.loc (c : Thread nD τ) ↦[(sM.slice (r4 0 1) (fun _ => rfl)).view.set]{fullShare} (sound_body.sl.Hsl01_w4 m c fs01)) : sProp 𝕄)
      ⊢ owns (c : Thread nD τ) (sV 0 1) fullShare (sq (stg m c 0 1)) := by
    have hread : (sM.slice (r4 0 1) (fun _ => rfl)).view.read (Elt F) (sound_body.sl.Hsl01_w4 m c fs01) = stg m c 0 1 := by
      unfold sound_body.sl.Hsl01_w4 stg
      rw [← tBlk_off1 m c 0 1]
      exact read_slice_write_access sM (r4 0 1) (fun _ => rfl) fs01 _
    refine (owns_intro (c : Thread nD τ) (sM.slice (r4 0 1) (fun _ => rfl)) fullShare _).trans (Entails.of_eq ?_)
    rw [owns_slot_sq c sM 0 1 fullShare (stg m c 0 1), hread]
  ihave Hsl01 := hs01 $$ Hsl01
  have hs10 : (((sM.slice (r4 1 0) (fun _ => rfl)).view.loc (c : Thread nD τ) ↦[(sM.slice (r4 1 0) (fun _ => rfl)).view.set]{fullShare} (sound_body.sl.Hsl10_w2 m c fs10)) : sProp 𝕄)
      ⊢ owns (c : Thread nD τ) (sV 1 0) fullShare (sq (stg m c 1 0)) := by
    have hread : (sM.slice (r4 1 0) (fun _ => rfl)).view.read (Elt F) (sound_body.sl.Hsl10_w2 m c fs10) = stg m c 1 0 := by
      unfold sound_body.sl.Hsl10_w2 stg
      rw [← tBlk_off1 m c 1 0]
      exact read_slice_write_access sM (r4 1 0) (fun _ => rfl) fs10 _
    refine (owns_intro (c : Thread nD τ) (sM.slice (r4 1 0) (fun _ => rfl)) fullShare _).trans (Entails.of_eq ?_)
    rw [owns_slot_sq c sM 1 0 fullShare (stg m c 1 0), hread]
  ihave Hsl10 := hs10 $$ Hsl10
  have hs11 : (((sM.slice (r4 1 1) (fun _ => rfl)).view.loc (c : Thread nD τ) ↦[(sM.slice (r4 1 1) (fun _ => rfl)).view.set]{fullShare} (sound_body.sl.Hsl11_w5 m c fs11)) : sProp 𝕄)
      ⊢ owns (c : Thread nD τ) (sV 1 1) fullShare (sq (stg m c 1 1)) := by
    have hread : (sM.slice (r4 1 1) (fun _ => rfl)).view.read (Elt F) (sound_body.sl.Hsl11_w5 m c fs11) = stg m c 1 1 := by
      unfold sound_body.sl.Hsl11_w5 stg
      rw [← tBlk_off1 m c 1 1]
      exact read_slice_write_access sM (r4 1 1) (fun _ => rfl) fs11 _
    refine (owns_intro (c : Thread nD τ) (sM.slice (r4 1 1) (fun _ => rfl)) fullShare _).trans (Entails.of_eq ?_)
    rw [owns_slot_sq c sM 1 1 fullShare (stg m c 1 1), hread]
  ihave Hsl11 := hs11 $$ Hsl11
  have hs20 : (((sM.slice (r4 2 0) (fun _ => rfl)).view.loc (c : Thread nD τ) ↦[(sM.slice (r4 2 0) (fun _ => rfl)).view.set]{fullShare} (sound_body.sl.Hsl20_w3 m c fs20)) : sProp 𝕄)
      ⊢ owns (c : Thread nD τ) (sV 2 0) fullShare (sq (stg m c 2 0)) := by
    have hread : (sM.slice (r4 2 0) (fun _ => rfl)).view.read (Elt F) (sound_body.sl.Hsl20_w3 m c fs20) = stg m c 2 0 := by
      unfold sound_body.sl.Hsl20_w3 stg
      rw [← tBlk_off1 m c 2 0]
      exact read_slice_write_access sM (r4 2 0) (fun _ => rfl) fs20 _
    refine (owns_intro (c : Thread nD τ) (sM.slice (r4 2 0) (fun _ => rfl)) fullShare _).trans (Entails.of_eq ?_)
    rw [owns_slot_sq c sM 2 0 fullShare (stg m c 2 0), hread]
  ihave Hsl20 := hs20 $$ Hsl20
  have hs21 : (((sM.slice (r4 2 1) (fun _ => rfl)).view.loc (c : Thread nD τ) ↦[(sM.slice (r4 2 1) (fun _ => rfl)).view.set]{fullShare} (sound_body.sl.Hsl21_w6 m c fs21)) : sProp 𝕄)
      ⊢ owns (c : Thread nD τ) (sV 2 1) fullShare (sq (stg m c 2 1)) := by
    have hread : (sM.slice (r4 2 1) (fun _ => rfl)).view.read (Elt F) (sound_body.sl.Hsl21_w6 m c fs21) = stg m c 2 1 := by
      unfold sound_body.sl.Hsl21_w6 stg
      rw [← tBlk_off1 m c 2 1]
      exact read_slice_write_access sM (r4 2 1) (fun _ => rfl) fs21 _
    refine (owns_intro (c : Thread nD τ) (sM.slice (r4 2 1) (fun _ => rfl)) fullShare _).trans (Entails.of_eq ?_)
    rw [owns_slot_sq c sM 2 1 fullShare (stg m c 2 1), hread]
  ihave Hsl21 := hs21 $$ Hsl21
  -- the wait for the three entry signals
  iapply (step_wait_bar m K c (O c 3) W) $$ [HcB HO HpB]
  · isplitr; · iexact HR
    isplitl [HcB]; · iexact HcB
    isplitl [HO]; · iexact HO
    isplitr; · iapply (mayWait_of c (.reg barS) 3 1 (le_refl _) (above_bar c)); iexact Hlev
    iexact HpB
  iintro ⟨HO, HpB, HB0, HB1, HB2⟩
  unfold barPay
  icases HB0 with ⟨Hd0b0, Hd0b1, Hd0o0, Hd0o1, -, -, -, -⟩
  icases HB1 with ⟨Hd1b0, Hd1b1, Hd1o0, Hd1o1, -, -, -, -⟩
  icases HB2 with ⟨Hd2b0, Hd2b1, Hd2o0, Hd2o1, -, -, -, -⟩
  -- the reduce-scatter copy of staged slot (1, 0) to peer 1
  sl_exec
  iapply (step_rs m K c 1 0 _ (dev4_eq c) rfl (dst_rs0 c 1) _ _ rfl (semR_rs0 c 1) (O c 3) (O c 4) rfl _) $$ [Hsl10 Hd1b0 HO Hts10 Htr10]
  · isplitr; · iexact HR
    isplitl [Hsl10]; · iexact Hsl10
    isplitl [Hd1b0]; · iexact Hd1b0
    isplitl [HO]; · iexact HO
    isplitl [Hts10]; · iexact Hts10
    iexact Htr10
  iintro ⟨Hcs10, HO⟩
  -- the reduce-scatter copy of staged slot (0, 0) to peer 0
  sl_exec
  iapply (step_rs m K c 0 0 _ (dev5_eq c) rfl (dst_rs0 c 0) _ _ rfl (semR_rs0 c 0) (O c 4) (O c 5) rfl _) $$ [Hsl00 Hd0b0 HO Hts00 Htr00]
  · isplitr; · iexact HR
    isplitl [Hsl00]; · iexact Hsl00
    isplitl [Hd0b0]; · iexact Hd0b0
    isplitl [HO]; · iexact HO
    isplitl [Hts00]; · iexact Hts00
    iexact Htr00
  iintro ⟨Hcs00, HO⟩
  -- the reduce-scatter copy of staged slot (2, 0) to peer 2
  sl_exec
  iapply (step_rs m K c 2 0 _ (dev6_eq c) rfl (dst_rs0 c 2) _ _ rfl (semR_rs0 c 2) (O c 5) (O c 6) rfl _) $$ [Hsl20 Hd2b0 HO Hts20 Htr20]
  · isplitr; · iexact HR
    isplitl [Hsl20]; · iexact Hsl20
    isplitl [Hd2b0]; · iexact Hd2b0
    isplitl [HO]; · iexact HO
    isplitl [Hts20]; · iexact Hts20
    iexact Htr20
  iintro ⟨Hcs20, HO⟩
  -- the reduce-scatter copy of staged slot (1, 1) to peer 1
  sl_exec
  iapply (step_rs m K c 1 1 _ (dev7_eq c) rfl (dst_rs1 c 1) _ _ rfl (semR_rs1 c 1) (O c 6) (O c 7) rfl _) $$ [Hsl11 Hd1b1 HO Hts11 Htr11]
  · isplitr; · iexact HR
    isplitl [Hsl11]; · iexact Hsl11
    isplitl [Hd1b1]; · iexact Hd1b1
    isplitl [HO]; · iexact HO
    isplitl [Hts11]; · iexact Hts11
    iexact Htr11
  iintro ⟨Hcs11, HO⟩
  -- the reduce-scatter copy of staged slot (0, 1) to peer 0
  sl_exec
  iapply (step_rs m K c 0 1 _ (dev8_eq c) rfl (dst_rs1 c 0) _ _ rfl (semR_rs1 c 0) (O c 7) (O c 8) rfl _) $$ [Hsl01 Hd0b1 HO Hts01 Htr01]
  · isplitr; · iexact HR
    isplitl [Hsl01]; · iexact Hsl01
    isplitl [Hd0b1]; · iexact Hd0b1
    isplitl [HO]; · iexact HO
    isplitl [Hts01]; · iexact Hts01
    iexact Htr01
  iintro ⟨Hcs01, HO⟩
  -- the reduce-scatter copy of staged slot (2, 1) to peer 2
  sl_exec
  iapply (step_rs m K c 2 1 _ (dev9_eq c) rfl (dst_rs1 c 2) _ _ rfl (semR_rs1 c 2) (O c 8) (O c 9) rfl _) $$ [Hsl21 Hd2b1 HO Hts21 Htr21]
  · isplitr; · iexact HR
    isplitl [Hsl21]; · iexact Hsl21
    isplitl [Hd2b1]; · iexact Hd2b1
    isplitl [HO]; · iexact HO
    isplitl [Hts21]; · iexact Hts21
    iexact Htr21
  iintro ⟨Hcs21, HO⟩
  -- the wait for peer 0's rows of this device's quarter, half 0
  sl_exec
  iapply (step_wait m K c 1 0 0 _ rfl (O c 9) _) $$ [Hcr00 HO Hpr00]
  · isplitr; · iexact HR
    isplitl [Hcr00]; · iexact Hcr00
    isplitl [HO]; · iexact HO
    isplitr; · iapply (mayWait_of c (.dma (dsem 1 0 0)) 9 2 (lv_rs c 0 0).le (above_rs0 c)); iexact Hlev
    iexact Hpr00
  iintro ⟨HO, Hpr00, Hbv00⟩
  ihave Hbv00 := (Entails.of_eq ((pay_r m c 0 0).trans (owns_slot_sq c bM 0 0 fullShare (rcv m c 0 0)))) $$ Hbv00
  ihave Hbv00 := (owns_open4 c (bM.slice (r4 0 0) (fun _ => rfl)) fullShare (rcv m c 0 0)) $$ Hbv00
  icases Hbv00 with ⟨%fb00, %hfb00, Hbv00⟩
  have kfb00 := Kept.intro hfb00; clear hfb00
  -- the wait for peer 1's rows of this device's quarter, half 0
  sl_exec
  iapply (step_wait m K c 1 1 0 _ rfl (O c 9) _) $$ [Hcr10 HO Hpr10]
  · isplitr; · iexact HR
    isplitl [Hcr10]; · iexact Hcr10
    isplitl [HO]; · iexact HO
    isplitr; · iapply (mayWait_of c (.dma (dsem 1 1 0)) 9 2 (lv_rs c 1 0).le (above_rs0 c)); iexact Hlev
    iexact Hpr10
  iintro ⟨HO, Hpr10, Hbv10⟩
  ihave Hbv10 := (Entails.of_eq ((pay_r m c 1 0).trans (owns_slot_sq c bM 1 0 fullShare (rcv m c 1 0)))) $$ Hbv10
  ihave Hbv10 := (owns_open4 c (bM.slice (r4 1 0) (fun _ => rfl)) fullShare (rcv m c 1 0)) $$ Hbv10
  icases Hbv10 with ⟨%fb10, %hfb10, Hbv10⟩
  have kfb10 := Kept.intro hfb10; clear hfb10
  -- the wait for peer 2's rows of this device's quarter, half 0
  sl_exec
  iapply (step_wait m K c 1 2 0 _ rfl (O c 9) _) $$ [Hcr20 HO Hpr20]
  · isplitr; · iexact HR
    isplitl [Hcr20]; · iexact Hcr20
    isplitl [HO]; · iexact HO
    isplitr; · iapply (mayWait_of c (.dma (dsem 1 2 0)) 9 2 (lv_rs c 2 0).le (above_rs0 c)); iexact Hlev
    iexact Hpr20
  iintro ⟨HO, Hpr20, Hbv20⟩
  ihave Hbv20 := (Entails.of_eq ((pay_r m c 2 0).trans (owns_slot_sq c bM 2 0 fullShare (rcv m c 2 0)))) $$ Hbv20
  ihave Hbv20 := (owns_open4 c (bM.slice (r4 2 0) (fun _ => rfl)) fullShare (rcv m c 2 0)) $$ Hbv20
  icases Hbv20 with ⟨%fb20, %hfb20, Hbv20⟩
  have kfb20 := Kept.intro hfb20; clear hfb20
  icases Hoc0 with ⟨%Yo0, Hoc0⟩
  ihave Hoc0 := (owns_open c (oV c 0) fullShare Yo0) $$ Hoc0
  icases Hoc0 with ⟨%fo0, %hfo0, Hoc0⟩
  clear hfo0
  sl_exec
  -- half 0 of this device's quarter now holds the four devices' rows summed, times the weights
  have hy0 : (((oV c 0).view.loc (c : Thread nD τ) ↦[(oV c 0).view.set]{fullShare} (sound_body.sl.Hoc0_w1 m c fb00 fb10 fb20 fo0)) : sProp 𝕄)
      ⊢ iprop(owns (c : Thread nD τ) (oV c 0) (agShare 0) (yX m c 0) ∗ owns (c : Thread nD τ) (oV c 0) (agShare 1) (yX m c 0) ∗ owns (c : Thread nD τ) (oV c 0) (agShare 2) (yX m c 0)) := by
    have ew : sound_body.sl.v409 m c = wB m c := by
      unfold sound_body.sl.v409 wB
      rw [View.readCov_cons_toLoadRect]
      exact congrArg k0_pay8 (Memref.readAt_unit_zero (Elt F) cc0_stg1_0 hz2 _ (wIn m c))
    have hread : (oV c 0).view.read (Elt F) (sound_body.sl.Hoc0_w1 m c fb00 fb10 fb20 fo0) = yX m c 0 := by
      unfold sound_body.sl.Hoc0_w1
      refine (read_oV_write (F := F) c 0 _ (k0_off6_eq c 0) (k0_off6_inb c 0) _ _).trans ?_
      unfold yX
      exact congr (congr (congr (congr (congrArg k0_pay9 (tBlk_off6 m c 0)) kfb00.out) kfb10.out) kfb20.out) ew
    refine (owns_intro (c : Thread nD τ) (oV c 0) fullShare _).trans ?_
    rw [hread]
    exact share3 c (oV c 0) (yX m c 0)
  ihave Hoc0 := hy0 $$ Hoc0
  icases Hoc0 with ⟨Hy00, Hy10, Hy20⟩
  -- the all-gather copy of half 0 to peer 1
  try sl_exec
  iapply (step_ag m K c 1 0 _ (dev10_eq c) (rows_ag c 0) (rows_ag c 0) _ _ rfl (semR_ag0 c 1) (O c 9) (O c 10) rfl _) $$ [Hy10 Hd1o0 HO Htg10 Hta10]
  · isplitr; · iexact HR
    isplitl [Hy10]; · iexact Hy10
    isplitl [Hd1o0]; · iexact Hd1o0
    isplitl [HO]; · iexact HO
    isplitl [Htg10]; · iexact Htg10
    iexact Hta10
  iintro ⟨Hcg10, HO⟩
  -- the all-gather copy of half 0 to peer 0
  try sl_exec
  iapply (step_ag m K c 0 0 _ (dev11_eq c) (rows_ag c 0) (rows_ag c 0) _ _ rfl (semR_ag0 c 0) (O c 10) (O c 11) rfl _) $$ [Hy00 Hd0o0 HO Htg00 Hta00]
  · isplitr; · iexact HR
    isplitl [Hy00]; · iexact Hy00
    isplitl [Hd0o0]; · iexact Hd0o0
    isplitl [HO]; · iexact HO
    isplitl [Htg00]; · iexact Htg00
    iexact Hta00
  iintro ⟨Hcg00, HO⟩
  -- the all-gather copy of half 0 to peer 2
  try sl_exec
  iapply (step_ag m K c 2 0 _ (dev12_eq c) (rows_ag c 0) (rows_ag c 0) _ _ rfl (semR_ag0 c 2) (O c 11) (O c 12) rfl _) $$ [Hy20 Hd2o0 HO Htg20 Hta20]
  · isplitr; · iexact HR
    isplitl [Hy20]; · iexact Hy20
    isplitl [Hd2o0]; · iexact Hd2o0
    isplitl [HO]; · iexact HO
    isplitl [Htg20]; · iexact Htg20
    iexact Hta20
  iintro ⟨Hcg20, HO⟩
  -- the wait for peer 0's rows of this device's quarter, half 1
  sl_exec
  iapply (step_wait m K c 1 0 1 _ rfl (O c 12) _) $$ [Hcr01 HO Hpr01]
  · isplitr; · iexact HR
    isplitl [Hcr01]; · iexact Hcr01
    isplitl [HO]; · iexact HO
    isplitr; · iapply (mayWait_of c (.dma (dsem 1 0 1)) 12 2 (lv_rs c 0 1).le (above_rs1 c)); iexact Hlev
    iexact Hpr01
  iintro ⟨HO, Hpr01, Hbv01⟩
  ihave Hbv01 := (Entails.of_eq ((pay_r m c 0 1).trans (owns_slot_sq c bM 0 1 fullShare (rcv m c 0 1)))) $$ Hbv01
  ihave Hbv01 := (owns_open4 c (bM.slice (r4 0 1) (fun _ => rfl)) fullShare (rcv m c 0 1)) $$ Hbv01
  icases Hbv01 with ⟨%fb01, %hfb01, Hbv01⟩
  have kfb01 := Kept.intro hfb01; clear hfb01
  -- the wait for peer 1's rows of this device's quarter, half 1
  sl_exec
  iapply (step_wait m K c 1 1 1 _ rfl (O c 12) _) $$ [Hcr11 HO Hpr11]
  · isplitr; · iexact HR
    isplitl [Hcr11]; · iexact Hcr11
    isplitl [HO]; · iexact HO
    isplitr; · iapply (mayWait_of c (.dma (dsem 1 1 1)) 12 2 (lv_rs c 1 1).le (above_rs1 c)); iexact Hlev
    iexact Hpr11
  iintro ⟨HO, Hpr11, Hbv11⟩
  ihave Hbv11 := (Entails.of_eq ((pay_r m c 1 1).trans (owns_slot_sq c bM 1 1 fullShare (rcv m c 1 1)))) $$ Hbv11
  ihave Hbv11 := (owns_open4 c (bM.slice (r4 1 1) (fun _ => rfl)) fullShare (rcv m c 1 1)) $$ Hbv11
  icases Hbv11 with ⟨%fb11, %hfb11, Hbv11⟩
  have kfb11 := Kept.intro hfb11; clear hfb11
  -- the wait for peer 2's rows of this device's quarter, half 1
  sl_exec
  iapply (step_wait m K c 1 2 1 _ rfl (O c 12) _) $$ [Hcr21 HO Hpr21]
  · isplitr; · iexact HR
    isplitl [Hcr21]; · iexact Hcr21
    isplitl [HO]; · iexact HO
    isplitr; · iapply (mayWait_of c (.dma (dsem 1 2 1)) 12 2 (lv_rs c 2 1).le (above_rs1 c)); iexact Hlev
    iexact Hpr21
  iintro ⟨HO, Hpr21, Hbv21⟩
  ihave Hbv21 := (Entails.of_eq ((pay_r m c 2 1).trans (owns_slot_sq c bM 2 1 fullShare (rcv m c 2 1)))) $$ Hbv21
  ihave Hbv21 := (owns_open4 c (bM.slice (r4 2 1) (fun _ => rfl)) fullShare (rcv m c 2 1)) $$ Hbv21
  icases Hbv21 with ⟨%fb21, %hfb21, Hbv21⟩
  have kfb21 := Kept.intro hfb21; clear hfb21
  icases Hoc1 with ⟨%Yo1, Hoc1⟩
  ihave Hoc1 := (owns_open c (oV c 1) fullShare Yo1) $$ Hoc1
  icases Hoc1 with ⟨%fo1, %hfo1, Hoc1⟩
  clear hfo1
  sl_exec
  -- half 1 of this device's quarter now holds the four devices' rows summed, times the weights
  have hy1 : (((oV c 1).view.loc (c : Thread nD τ) ↦[(oV c 1).view.set]{fullShare} (sound_body.sl.Hoc1_w1 m c fb01 fb11 fb21 fo1)) : sProp 𝕄)
      ⊢ iprop(owns (c : Thread nD τ) (oV c 1) (agShare 0) (yX m c 1) ∗ owns (c : Thread nD τ) (oV c 1) (agShare 1) (yX m c 1) ∗ owns (c : Thread nD τ) (oV c 1) (agShare 2) (yX m c 1)) := by
    have ew : sound_body.sl.v549 m c = wB m c := by
      unfold sound_body.sl.v549 wB
      rw [View.readCov_cons_toLoadRect]
      exact congrArg k0_pay8 (Memref.readAt_unit_zero (Elt F) cc0_stg1_0 hz2 _ (wIn m c))
    have er : sound_body.sl.r_1 m c fb01 = k0_pay10 (tBlk m c c 1) (rcv m c 0 1) := by
      unfold sound_body.sl.r_1
      exact congr (congrArg k0_pay10 (tBlk_off6 m c 1)) kfb01.out
    have hread : (oV c 1).view.read (Elt F) (sound_body.sl.Hoc1_w1 m c fb01 fb11 fb21 fo1) = yX m c 1 := by
      unfold sound_body.sl.Hoc1_w1
      refine (read_oV_write (F := F) c 1 _ (k0_off6_eq c 1) (k0_off6_inb c 1) _ _).trans ?_
      unfold yX
      show _ = k0_pay11 (k0_pay10 (tBlk m c c 1) (rcv m c 0 1)) (rcv m c 1 1) (rcv m c 2 1) (wB m c)
      exact congr (congr (congr (congrArg k0_pay11 er) kfb11.out) kfb21.out) ew
    refine (owns_intro (c : Thread nD τ) (oV c 1) fullShare _).trans ?_
    rw [hread]
    exact share3 c (oV c 1) (yX m c 1)
  ihave Hoc1 := hy1 $$ Hoc1
  icases Hoc1 with ⟨Hy01, Hy11, Hy21⟩
  -- the all-gather copy of half 1 to peer 1
  try sl_exec
  iapply (step_ag m K c 1 1 _ (dev13_eq c) (rows_ag c 1) (rows_ag c 1) _ _ rfl (semR_ag1 c 1) (O c 12) (O c 13) rfl _) $$ [Hy11 Hd1o1 HO Htg11 Hta11]
  · isplitr; · iexact HR
    isplitl [Hy11]; · iexact Hy11
    isplitl [Hd1o1]; · iexact Hd1o1
    isplitl [HO]; · iexact HO
    isplitl [Htg11]; · iexact Htg11
    iexact Hta11
  iintro ⟨Hcg11, HO⟩
  -- the all-gather copy of half 1 to peer 0
  try sl_exec
  iapply (step_ag m K c 0 1 _ (dev14_eq c) (rows_ag c 1) (rows_ag c 1) _ _ rfl (semR_ag1 c 0) (O c 13) (O c 14) rfl _) $$ [Hy01 Hd0o1 HO Htg01 Hta01]
  · isplitr; · iexact HR
    isplitl [Hy01]; · iexact Hy01
    isplitl [Hd0o1]; · iexact Hd0o1
    isplitl [HO]; · iexact HO
    isplitl [Htg01]; · iexact Htg01
    iexact Hta01
  iintro ⟨Hcg01, HO⟩
  -- the all-gather copy of half 1 to peer 2
  try sl_exec
  iapply (step_ag m K c 2 1 _ (dev15_eq c) (rows_ag c 1) (rows_ag c 1) _ _ rfl (semR_ag1 c 2) (O c 14) (O c 15) rfl _) $$ [Hy21 Hd2o1 HO Htg21 Hta21]
  · isplitr; · iexact HR
    isplitl [Hy21]; · iexact Hy21
    isplitl [Hd2o1]; · iexact Hd2o1
    isplitl [HO]; · iexact HO
    isplitl [Htg21]; · iexact Htg21
    iexact Hta21
  iintro ⟨Hcg21, HO⟩
  try sl_exec
  -- the wait for peer 0's half 0 of the result
  try sl_exec
  iapply (step_wait m K c 3 0 0 _ rfl (O c 15) _) $$ [Hca00 HO Hpa00]
  · isplitr; · iexact HR
    isplitl [Hca00]; · iexact Hca00
    isplitl [HO]; · iexact HO
    isplitr; · rw [show O c 15 = (0 : CellTallies nD τ sig Unit) from rfl, MayWait_zero]; iempintro
    iexact Hpa00
  iintro ⟨HO, Hpa00, Hov00⟩
  -- the wait for peer 1's half 0 of the result
  try sl_exec
  iapply (step_wait m K c 3 1 0 _ rfl (O c 15) _) $$ [Hca10 HO Hpa10]
  · isplitr; · iexact HR
    isplitl [Hca10]; · iexact Hca10
    isplitl [HO]; · iexact HO
    isplitr; · rw [show O c 15 = (0 : CellTallies nD τ sig Unit) from rfl, MayWait_zero]; iempintro
    iexact Hpa10
  iintro ⟨HO, Hpa10, Hov10⟩
  -- the wait for peer 2's half 0 of the result
  try sl_exec
  iapply (step_wait m K c 3 2 0 _ rfl (O c 15) _) $$ [Hca20 HO Hpa20]
  · isplitr; · iexact HR
    isplitl [Hca20]; · iexact Hca20
    isplitl [HO]; · iexact HO
    isplitr; · rw [show O c 15 = (0 : CellTallies nD τ sig Unit) from rfl, MayWait_zero]; iempintro
    iexact Hpa20
  iintro ⟨HO, Hpa20, Hov20⟩
  -- the wait for peer 0's half 1 of the result
  try sl_exec
  iapply (step_wait m K c 3 0 1 _ rfl (O c 15) _) $$ [Hca01 HO Hpa01]
  · isplitr; · iexact HR
    isplitl [Hca01]; · iexact Hca01
    isplitl [HO]; · iexact HO
    isplitr; · rw [show O c 15 = (0 : CellTallies nD τ sig Unit) from rfl, MayWait_zero]; iempintro
    iexact Hpa01
  iintro ⟨HO, Hpa01, Hov01⟩
  -- the wait for peer 1's half 1 of the result
  try sl_exec
  iapply (step_wait m K c 3 1 1 _ rfl (O c 15) _) $$ [Hca11 HO Hpa11]
  · isplitr; · iexact HR
    isplitl [Hca11]; · iexact Hca11
    isplitl [HO]; · iexact HO
    isplitr; · rw [show O c 15 = (0 : CellTallies nD τ sig Unit) from rfl, MayWait_zero]; iempintro
    iexact Hpa11
  iintro ⟨HO, Hpa11, Hov11⟩
  -- the wait for peer 2's half 1 of the result
  try sl_exec
  iapply (step_wait m K c 3 2 1 _ rfl (O c 15) _) $$ [Hca21 HO Hpa21]
  · isplitr; · iexact HR
    isplitl [Hca21]; · iexact Hca21
    isplitl [HO]; · iexact HO
    isplitr; · rw [show O c 15 = (0 : CellTallies nD τ sig Unit) from rfl, MayWait_zero]; iempintro
    iexact Hpa21
  iintro ⟨HO, Hpa21, Hov21⟩
  -- the wait for staged slot (1, 0) to have left
  try sl_exec
  iapply (step_wait m K c 0 1 0 _ rfl (O c 15) _) $$ [Hcs10 HO Hps10]
  · isplitr; · iexact HR
    isplitl [Hcs10]; · iexact Hcs10
    isplitl [HO]; · iexact HO
    isplitr; · rw [show O c 15 = (0 : CellTallies nD τ sig Unit) from rfl, MayWait_zero]; iempintro
    iexact Hps10
  iintro ⟨HO, Hps10, Hsb10⟩
  -- the wait for staged slot (0, 0) to have left
  try sl_exec
  iapply (step_wait m K c 0 0 0 _ rfl (O c 15) _) $$ [Hcs00 HO Hps00]
  · isplitr; · iexact HR
    isplitl [Hcs00]; · iexact Hcs00
    isplitl [HO]; · iexact HO
    isplitr; · rw [show O c 15 = (0 : CellTallies nD τ sig Unit) from rfl, MayWait_zero]; iempintro
    iexact Hps00
  iintro ⟨HO, Hps00, Hsb00⟩
  -- the wait for staged slot (2, 0) to have left
  try sl_exec
  iapply (step_wait m K c 0 2 0 _ rfl (O c 15) _) $$ [Hcs20 HO Hps20]
  · isplitr; · iexact HR
    isplitl [Hcs20]; · iexact Hcs20
    isplitl [HO]; · iexact HO
    isplitr; · rw [show O c 15 = (0 : CellTallies nD τ sig Unit) from rfl, MayWait_zero]; iempintro
    iexact Hps20
  iintro ⟨HO, Hps20, Hsb20⟩
  -- the wait for staged slot (1, 1) to have left
  try sl_exec
  iapply (step_wait m K c 0 1 1 _ rfl (O c 15) _) $$ [Hcs11 HO Hps11]
  · isplitr; · iexact HR
    isplitl [Hcs11]; · iexact Hcs11
    isplitl [HO]; · iexact HO
    isplitr; · rw [show O c 15 = (0 : CellTallies nD τ sig Unit) from rfl, MayWait_zero]; iempintro
    iexact Hps11
  iintro ⟨HO, Hps11, Hsb11⟩
  -- the wait for staged slot (0, 1) to have left
  try sl_exec
  iapply (step_wait m K c 0 0 1 _ rfl (O c 15) _) $$ [Hcs01 HO Hps01]
  · isplitr; · iexact HR
    isplitl [Hcs01]; · iexact Hcs01
    isplitl [HO]; · iexact HO
    isplitr; · rw [show O c 15 = (0 : CellTallies nD τ sig Unit) from rfl, MayWait_zero]; iempintro
    iexact Hps01
  iintro ⟨HO, Hps01, Hsb01⟩
  -- the wait for staged slot (2, 1) to have left
  try sl_exec
  iapply (step_wait m K c 0 2 1 _ rfl (O c 15) _) $$ [Hcs21 HO Hps21]
  · isplitr; · iexact HR
    isplitl [Hcs21]; · iexact Hcs21
    isplitl [HO]; · iexact HO
    isplitr; · rw [show O c 15 = (0 : CellTallies nD τ sig Unit) from rfl, MayWait_zero]; iempintro
    iexact Hps21
  iintro ⟨HO, Hps21, Hsb21⟩
  -- the wait for half 0 to have left for peer 1
  try sl_exec
  iapply (step_wait m K c 2 1 0 _ rfl (O c 15) _) $$ [Hcg10 HO Hpg10]
  · isplitr; · iexact HR
    isplitl [Hcg10]; · iexact Hcg10
    isplitl [HO]; · iexact HO
    isplitr; · rw [show O c 15 = (0 : CellTallies nD τ sig Unit) from rfl, MayWait_zero]; iempintro
    iexact Hpg10
  iintro ⟨HO, Hpg10, Hgb10⟩
  -- the wait for half 0 to have left for peer 0
  try sl_exec
  iapply (step_wait m K c 2 0 0 _ rfl (O c 15) _) $$ [Hcg00 HO Hpg00]
  · isplitr; · iexact HR
    isplitl [Hcg00]; · iexact Hcg00
    isplitl [HO]; · iexact HO
    isplitr; · rw [show O c 15 = (0 : CellTallies nD τ sig Unit) from rfl, MayWait_zero]; iempintro
    iexact Hpg00
  iintro ⟨HO, Hpg00, Hgb00⟩
  -- the wait for half 0 to have left for peer 2
  try sl_exec
  iapply (step_wait m K c 2 2 0 _ rfl (O c 15) _) $$ [Hcg20 HO Hpg20]
  · isplitr; · iexact HR
    isplitl [Hcg20]; · iexact Hcg20
    isplitl [HO]; · iexact HO
    isplitr; · rw [show O c 15 = (0 : CellTallies nD τ sig Unit) from rfl, MayWait_zero]; iempintro
    iexact Hpg20
  iintro ⟨HO, Hpg20, Hgb20⟩
  -- the wait for half 1 to have left for peer 1
  try sl_exec
  iapply (step_wait m K c 2 1 1 _ rfl (O c 15) _) $$ [Hcg11 HO Hpg11]
  · isplitr; · iexact HR
    isplitl [Hcg11]; · iexact Hcg11
    isplitl [HO]; · iexact HO
    isplitr; · rw [show O c 15 = (0 : CellTallies nD τ sig Unit) from rfl, MayWait_zero]; iempintro
    iexact Hpg11
  iintro ⟨HO, Hpg11, Hgb11⟩
  -- the wait for half 1 to have left for peer 0
  try sl_exec
  iapply (step_wait m K c 2 0 1 _ rfl (O c 15) _) $$ [Hcg01 HO Hpg01]
  · isplitr; · iexact HR
    isplitl [Hcg01]; · iexact Hcg01
    isplitl [HO]; · iexact HO
    isplitr; · rw [show O c 15 = (0 : CellTallies nD τ sig Unit) from rfl, MayWait_zero]; iempintro
    iexact Hpg01
  iintro ⟨HO, Hpg01, Hgb01⟩
  -- the wait for half 1 to have left for peer 2
  try sl_exec
  iapply (step_wait m K c 2 2 1 _ rfl (O c 15) _) $$ [Hcg21 HO Hpg21]
  · isplitr; · iexact HR
    isplitl [Hcg21]; · iexact Hcg21
    isplitl [HO]; · iexact HO
    isplitr; · rw [show O c 15 = (0 : CellTallies nD τ sig Unit) from rfl, MayWait_zero]; iempintro
    iexact Hpg21
  iintro ⟨HO, Hpg21, Hgb21⟩
  try sl_exec
  -- the 24 own cells close: their counters at zero are the device's again
  imod (step_close m K c 0 0 0) $$ [Hps00] with Hzs00
  · isplitr; · iexact HR
    iexact Hps00
  imod (step_close m K c 0 0 1) $$ [Hps01] with Hzs01
  · isplitr; · iexact HR
    iexact Hps01
  imod (step_close m K c 0 1 0) $$ [Hps10] with Hzs10
  · isplitr; · iexact HR
    iexact Hps10
  imod (step_close m K c 0 1 1) $$ [Hps11] with Hzs11
  · isplitr; · iexact HR
    iexact Hps11
  imod (step_close m K c 0 2 0) $$ [Hps20] with Hzs20
  · isplitr; · iexact HR
    iexact Hps20
  imod (step_close m K c 0 2 1) $$ [Hps21] with Hzs21
  · isplitr; · iexact HR
    iexact Hps21
  imod (step_close m K c 1 0 0) $$ [Hpr00] with Hzr00
  · isplitr; · iexact HR
    iexact Hpr00
  imod (step_close m K c 1 0 1) $$ [Hpr01] with Hzr01
  · isplitr; · iexact HR
    iexact Hpr01
  imod (step_close m K c 1 1 0) $$ [Hpr10] with Hzr10
  · isplitr; · iexact HR
    iexact Hpr10
  imod (step_close m K c 1 1 1) $$ [Hpr11] with Hzr11
  · isplitr; · iexact HR
    iexact Hpr11
  imod (step_close m K c 1 2 0) $$ [Hpr20] with Hzr20
  · isplitr; · iexact HR
    iexact Hpr20
  imod (step_close m K c 1 2 1) $$ [Hpr21] with Hzr21
  · isplitr; · iexact HR
    iexact Hpr21
  imod (step_close m K c 2 0 0) $$ [Hpg00] with Hzg00
  · isplitr; · iexact HR
    iexact Hpg00
  imod (step_close m K c 2 0 1) $$ [Hpg01] with Hzg01
  · isplitr; · iexact HR
    iexact Hpg01
  imod (step_close m K c 2 1 0) $$ [Hpg10] with Hzg10
  · isplitr; · iexact HR
    iexact Hpg10
  imod (step_close m K c 2 1 1) $$ [Hpg11] with Hzg11
  · isplitr; · iexact HR
    iexact Hpg11
  imod (step_close m K c 2 2 0) $$ [Hpg20] with Hzg20
  · isplitr; · iexact HR
    iexact Hpg20
  imod (step_close m K c 2 2 1) $$ [Hpg21] with Hzg21
  · isplitr; · iexact HR
    iexact Hpg21
  imod (step_close m K c 3 0 0) $$ [Hpa00] with Hza00
  · isplitr; · iexact HR
    iexact Hpa00
  imod (step_close m K c 3 0 1) $$ [Hpa01] with Hza01
  · isplitr; · iexact HR
    iexact Hpa01
  imod (step_close m K c 3 1 0) $$ [Hpa10] with Hza10
  · isplitr; · iexact HR
    iexact Hpa10
  imod (step_close m K c 3 1 1) $$ [Hpa11] with Hza11
  · isplitr; · iexact HR
    iexact Hpa11
  imod (step_close m K c 3 2 0) $$ [Hpa20] with Hza20
  · isplitr; · iexact HR
    iexact Hpa20
  imod (step_close m K c 3 2 1) $$ [Hpa21] with Hza21
  · isplitr; · iexact HR
    iexact Hpa21
  rw [wp_ret]; imodintro
  iapply Hk
  unfold bodyPost Φ₁ scr Dat.owesAt Pipeline.owesWithin
  rw [show (dats m ρ 0 c).owed (t0_0 : Fin cfg0.N).succ = 0 from rfl, bigSep_DK]
  isplitl [Hsb00 Hsb01 Hsb10 Hsb11 Hsb20 Hsb21 Hbv00 Hbv01 Hbv10 Hbv11 Hbv20 Hbv21 Hv Hzs00 Hzs01 Hzs10 Hzs11 Hzs20 Hzs21 Hzr00 Hzr01 Hzr10 Hzr11 Hzr20 Hzr21 Hzg00 Hzg01 Hzg10 Hzg11 Hzg20 Hzg21 Hza00 Hza01 Hza10 Hza11 Hza20 Hza21]
  · isplitl [Hsb00 Hsb01 Hsb10 Hsb11 Hsb20 Hsb21 Hbv00 Hbv01 Hbv10 Hbv11 Hbv20 Hbv21 Hv]
    · isplitl [Hsb00 Hsb01 Hsb10 Hsb11 Hsb20 Hsb21]
      · iapply (sV_join c)
        isplitl [Hsb00]; · (iexists _; iapply (Entails.of_eq (pay_s m c 0 0)); iexact Hsb00)
        isplitl [Hsb01]; · (iexists _; iapply (Entails.of_eq (pay_s m c 0 1)); iexact Hsb01)
        isplitl [Hsb10]; · (iexists _; iapply (Entails.of_eq (pay_s m c 1 0)); iexact Hsb10)
        isplitl [Hsb11]; · (iexists _; iapply (Entails.of_eq (pay_s m c 1 1)); iexact Hsb11)
        isplitl [Hsb20]; · (iexists _; iapply (Entails.of_eq (pay_s m c 2 0)); iexact Hsb20)
        iexists _; iapply (Entails.of_eq (pay_s m c 2 1)); iexact Hsb21
      isplitl [Hbv00 Hbv01 Hbv10 Hbv11 Hbv20 Hbv21]
      · iapply (bV_join c)
        isplitl [Hbv00]; · (iapply (slot_to_sq c bM 0 0); iexists _; iapply (owns_intro (c : Thread nD τ) (bM.slice (r4 0 0) (fun _ => rfl)) fullShare _); iexact Hbv00)
        isplitl [Hbv01]; · (iapply (slot_to_sq c bM 0 1); iexists _; iapply (owns_intro (c : Thread nD τ) (bM.slice (r4 0 1) (fun _ => rfl)) fullShare _); iexact Hbv01)
        isplitl [Hbv10]; · (iapply (slot_to_sq c bM 1 0); iexists _; iapply (owns_intro (c : Thread nD τ) (bM.slice (r4 1 0) (fun _ => rfl)) fullShare _); iexact Hbv10)
        isplitl [Hbv11]; · (iapply (slot_to_sq c bM 1 1); iexists _; iapply (owns_intro (c : Thread nD τ) (bM.slice (r4 1 1) (fun _ => rfl)) fullShare _); iexact Hbv11)
        isplitl [Hbv20]; · (iapply (slot_to_sq c bM 2 0); iexists _; iapply (owns_intro (c : Thread nD τ) (bM.slice (r4 2 0) (fun _ => rfl)) fullShare _); iexact Hbv20)
        iapply (slot_to_sq c bM 2 1); iexists _; iapply (owns_intro (c : Thread nD τ) (bM.slice (r4 2 1) (fun _ => rfl)) fullShare _); iexact Hbv21
      · iexists _; iapply (Entails.of_eq (pts_whole c cc0_scratch2 fullShare _).symm); iexact Hv
    isplitl [Hzs00]; · iexact Hzs00
    isplitl [Hzs01]; · iexact Hzs01
    isplitl [Hzs10]; · iexact Hzs10
    isplitl [Hzs11]; · iexact Hzs11
    isplitl [Hzs20]; · iexact Hzs20
    isplitl [Hzs21]; · iexact Hzs21
    isplitl [Hzr00]; · iexact Hzr00
    isplitl [Hzr01]; · iexact Hzr01
    isplitl [Hzr10]; · iexact Hzr10
    isplitl [Hzr11]; · iexact Hzr11
    isplitl [Hzr20]; · iexact Hzr20
    isplitl [Hzr21]; · iexact Hzr21
    isplitl [Hzg00]; · iexact Hzg00
    isplitl [Hzg01]; · iexact Hzg01
    isplitl [Hzg10]; · iexact Hzg10
    isplitl [Hzg11]; · iexact Hzg11
    isplitl [Hzg20]; · iexact Hzg20
    isplitl [Hzg21]; · iexact Hzg21
    isplitl [Hza00]; · iexact Hza00
    isplitl [Hza01]; · iexact Hza01
    isplitl [Hza10]; · iexact Hza10
    isplitl [Hza11]; · iexact Hza11
    isplitl [Hza20]; · iexact Hza20
    iexact Hza21
  isplitl [HO]
  · iapply (owes_done m ρ c _); iexact HO
  isplitl [Ht]
  · iexists _; isplitr; · (ipureintro; rfl)
    iapply (Entails.of_eq (pts_whole c cc0_stg0_0 fullShare _).symm); iexact Ht
  isplitl [Hw]
  · iexists _; isplitr; · (ipureintro; rfl)
    iapply (Entails.of_eq (pts_whole c cc0_stg1_0 fullShare _).symm); iexact Hw
  iapply (oV_join m c)
  isplitl [Hgb00 Hgb10 Hgb20]
  · iapply (unshare3 c (oV c 0) (yX m c 0))
    isplitl [Hgb00]; · (iapply (Entails.of_eq (pay_g m c 0 0)); iexact Hgb00)
    isplitl [Hgb10]; · (iapply (Entails.of_eq (pay_g m c 1 0)); iexact Hgb10)
    iapply (Entails.of_eq (pay_g m c 2 0)); iexact Hgb20
  isplitl [Hgb01 Hgb11 Hgb21]
  · iapply (unshare3 c (oV c 1) (yX m c 1))
    isplitl [Hgb01]; · (iapply (Entails.of_eq (pay_g m c 0 1)); iexact Hgb01)
    isplitl [Hgb11]; · (iapply (Entails.of_eq (pay_g m c 1 1)); iexact Hgb11)
    iapply (Entails.of_eq (pay_g m c 2 1)); iexact Hgb21
  isplitl [Hov00]; · (iapply (Entails.of_eq (pay_a m c 0 0)); iexact Hov00)
  isplitl [Hov01]; · (iapply (Entails.of_eq (pay_a m c 0 1)); iexact Hov01)
  isplitl [Hov10]; · (iapply (Entails.of_eq (pay_a m c 1 0)); iexact Hov10)
  isplitl [Hov11]; · (iapply (Entails.of_eq (pay_a m c 1 1)); iexact Hov11)
  isplitl [Hov20]; · (iapply (Entails.of_eq (pay_a m c 2 0)); iexact Hov20)
  iapply (Entails.of_eq (pay_a m c 2 1)); iexact Hov21

end Cert.Kernel.Coll

end
-- ==== Proof.KernelIdealProto.lean ====
/-
  The protocol of the four-device kernel: a reduce-scatter of row blocks, a matrix product, an all-gather.

  Each device `c` holds 1024 rows of `t` in four quarters of 256 rows, each quarter in two halves of 128. Quarter `q`
  of the result is owned by device `q`: every other device rounds its rows of that quarter and copies them into a slot
  of `q`'s landing buffer; `q` adds the three landed blocks to its own rows, multiplies by the weights, and copies the
  half it obtained into the same rows of every other device's result buffer. Before its first copy a device signals
  each peer's barrier semaphore once and waits for three units on its own: a unit from peer `p` says `p` is inside the
  kernel, and hands over the slots and rows of `p`'s buffers this device will write.

  Here: the resource algebra, the closed forms of the printed device and offset chains, the cells (a barrier cell and
  24 DMA cells per device), the views, the contents each buffer holds, the schedule of the one round of every cell with
  its tables, what each device owes in program order with the levels that order the waits, the ghost state and the
  pipeline's proof data.
-/
import proofs.«900370_g7700000000000371_dist_matmul_of_ar_i_m1024_n512_k512_v7x_i4_f32_1_alg».proof.Defs
import proofs.«900370_g7700000000000371_dist_matmul_of_ar_i_m1024_n512_k512_v7x_i4_f32_1_alg».proof.Proof.Gen.KernelIdeal
import proofs.«900370_g7700000000000371_dist_matmul_of_ar_i_m1024_n512_k512_v7x_i4_f32_1_alg».proof.Proof.Gen.KernelIdeal.Skeleton
import proofs.«900370_g7700000000000371_dist_matmul_of_ar_i_m1024_n512_k512_v7x_i4_f32_1_alg».proof.Proof.Gen.KernelIdeal.Launch
import proofs.«900370_g7700000000000371_dist_matmul_of_ar_i_m1024_n512_k512_v7x_i4_f32_1_alg».proof.Proof.Gen.KernelIdeal.Points
import proofs.«900370_g7700000000000371_dist_matmul_of_ar_i_m1024_n512_k512_v7x_i4_f32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh axis -/

/-- The device `e + 1` places after `c` on the mesh axis (cyclically). -/
def pe (c : Dev nD) (e : Fin 3) : Dev nD := ⟨(c.val + 1 + e.val) % 4, Nat.mod_lt _ (by decide)⟩
/-- Seen from `pe c e`, `c` is the device `back e + 1` places after it. -/
def back (e : Fin 3) : Fin 3 := ⟨2 - e.val, by omega⟩

theorem pe_back : ∀ (c : Dev nD) (e : Fin 3), pe (pe c e) (back e) = c := by decide
theorem back_back : ∀ e : Fin 3, back (back e) = e := by decide
theorem pe_ne : ∀ (c : Dev nD) (e : Fin 3), pe c e ≠ c := by decide
theorem pe_inj : ∀ (c : Dev nD) (e e' : Fin 3), pe c e = pe c e' → e = e' := by decide

/-- The printed device chains in closed form: the entry signals go to the three peers in order, the copies of
    each half to the second, the first and the third peer. -/
theorem dev1_eq : ∀ c : Dev nD, (⟨k0_dev1 c, k0_dev1_lt c⟩ : Dev nD) = pe c 0 := by decide +kernel
theorem dev2_eq : ∀ c : Dev nD, (⟨k0_dev2 c, k0_dev2_lt c⟩ : Dev nD) = pe c 1 := by decide +kernel
theorem dev3_eq : ∀ c : Dev nD, (⟨k0_dev3 c, k0_dev3_lt c⟩ : Dev nD) = pe c 2 := by decide +kernel
theorem dev4_eq : ∀ c : Dev nD, (⟨k0_dev4 c, k0_dev4_lt c⟩ : Dev nD) = pe c 1 := by decide +kernel
theorem dev5_eq : ∀ c : Dev nD, (⟨k0_dev5 c, k0_dev5_lt c⟩ : Dev nD) = pe c 0 := by decide +kernel
theorem dev6_eq : ∀ c : Dev nD, (⟨k0_dev6 c, k0_dev6_lt c⟩ : Dev nD) = pe c 2 := by decide +kernel
theorem dev7_eq : ∀ c : Dev nD, (⟨k0_dev7 c, k0_dev7_lt c⟩ : Dev nD) = pe c 1 := by decide +kernel
theorem dev8_eq : ∀ c : Dev nD, (⟨k0_dev8 c, k0_dev8_lt c⟩ : Dev nD) = pe c 0 := by decide +kernel
theorem dev9_eq : ∀ c : Dev nD, (⟨k0_dev9 c, k0_dev9_lt c⟩ : Dev nD) = pe c 2 := by decide +kernel
theorem dev10_eq : ∀ c : Dev nD, (⟨k0_dev10 c, k0_dev10_lt c⟩ : Dev nD) = pe c 1 := by decide +kernel
theorem dev11_eq : ∀ c : Dev nD, (⟨k0_dev11 c, k0_dev11_lt c⟩ : Dev nD) = pe c 0 := by decide +kernel
theorem dev12_eq : ∀ c : Dev nD, (⟨k0_dev12 c, k0_dev12_lt c⟩ : Dev nD) = pe c 2 := by decide +kernel
theorem dev13_eq : ∀ c : Dev nD, (⟨k0_dev13 c, k0_dev13_lt c⟩ : Dev nD) = pe c 1 := by decide +kernel
theorem dev14_eq : ∀ c : Dev nD, (⟨k0_dev14 c, k0_dev14_lt c⟩ : Dev nD) = pe c 0 := by decide +kernel
theorem dev15_eq : ∀ c : Dev nD, (⟨k0_dev15 c, k0_dev15_lt c⟩ : Dev nD) = pe c 2 := by decide +kernel

/-- The printed offset chains in closed form. -/
theorem off1_eq : ∀ (c : Dev nD) (r₁ : Fin 3) (r₂ : Fin 2), k0_off1 c (BitVec.ofNat 32 (1 + r₁.val)) (BitVec.ofNat 32 (128 * r₂.val)) = ![256 * (pe c r₁).val + 128 * r₂.val, 0] := by decide +kernel
theorem off2_eq : ∀ (c : Dev nD) (r : Fin 3), k0_off2 c (BitVec.ofNat 32 (1 + r.val)) = ![(back r).val, 0] := by decide +kernel
theorem off3_eq : ∀ (c : Dev nD) (r : Fin 3), k0_off3 c (BitVec.ofNat 32 (1 + r.val)) = ![(back r).val, 0, 0, 0] := by decide +kernel
theorem off4_eq : ∀ (c : Dev nD) (r : Fin 3), k0_off4 c (BitVec.ofNat 32 (1 + r.val)) = ![(back r).val, 1] := by decide +kernel
theorem off5_eq : ∀ (c : Dev nD) (r : Fin 3), k0_off5 c (BitVec.ofNat 32 (1 + r.val)) = ![(back r).val, 1, 0, 0] := by decide +kernel
theorem off8_eq : ∀ (c : Dev nD) (r₁ : Fin 3) (r₂ : Fin 2), k0_off8 c (BitVec.ofNat 32 r₁.val) (BitVec.ofNat 32 (128 * r₂.val)) = ![256 * (pe c r₁).val + 128 * r₂.val, 0] := by decide +kernel

/-! ## The cells -/

/-- The runtime's barrier semaphore of collective id 0 (not scoped to the launch). -/
abbrev barS : Sem sig := (SemArray.scalar (sig.barrier 0 rfl) : Sems sig S_).sem
abbrev barCell (c : Dev nD) : GSem nD τ sig := ((c : Thread nD τ), .reg barS)

/-- The kernel's four arrays of six DMA semaphores, `s` = 0 the reduce-scatter send cells, 1 its receive cells,
    2 the all-gather send cells, 3 its receive cells; entry `(a, i)` of array `s`. -/
def dsem (s : Fin 4) (a : Fin 3) (i : Fin 2) : DmaSem sig :=
  ⟨3 + 6 * s.val + 2 * a.val + i.val, by have := s.isLt; have := a.isLt; have := i.isLt; show _ < 27; omega⟩
abbrev dcell (c : Dev nD) (s : Fin 4) (a : Fin 3) (i : Fin 2) : GSem nD τ sig := ((c : Thread nD τ), .dma (dsem s a i))

/-! ## The views -/

abbrev tM : Memref sig .tc .vmem S1024x512 .f32 := Memref.whole cc0_stg0_0
abbrev wM : Memref sig .tc .vmem S512x512 .f32 := Memref.whole cc0_stg1_0
abbrev oM : Memref sig .tc .vmem S1024x512 .bf16 := Memref.whole cc0_stg2_0
abbrev sM : Memref sig .tc .vmem S3x2x128x512 .bf16 := Memref.whole cc0_scratch0
abbrev bM : Memref sig .tc .vmem S3x2x128x512 .bf16 := Memref.whole cc0_scratch1
abbrev vM : Memref sig .tc .vmem S512x512 .bf16 := Memref.whole cc0_scratch2

theorem inb4 : ∀ (a : Fin 3) (i : Fin 2), ∀ x, (![a.val, i.val, 0, 0] : Fin 4 → Nat) x + S1x1x128x512.size x ≤ S3x2x128x512.size x := by decide
theorem inb2 : ∀ (q : Dev nD) (i : Fin 2), ∀ x, (![256 * q.val + 128 * i.val, 0] : Fin 2 → Nat) x + S128x512.size x ≤ S1024x512.size x := by decide

/-- Slot `(a, i)` of a `[3, 2, 128, 512]` scratch buffer. -/
abbrev r4 (a : Fin 3) (i : Fin 2) : Rect S3x2x128x512 := Rect.unit ![a.val, i.val, 0, 0] S1x1x128x512.size (inb4 a i)
/-- Rows `256 q + 128 i ..+128` of a `[1024, 512]` buffer: half `i` of device `q`'s quarter. -/
abbrev r2 (q : Dev nD) (i : Fin 2) : Rect S1024x512 := Rect.unit ![256 * q.val + 128 * i.val, 0] S128x512.size (inb2 q i)

/-- Slot `(a, i)` of the staging scratch, of the landing scratch; half `i` of quarter `q` of the result's buffer. -/
abbrev sV (a : Fin 3) (i : Fin 2) : Memref sig .tc .vmem S128x512 .bf16 := (sM.slice (r4 a i) (fun _ => rfl)).squeeze S128x512 squeezes_S1x1x128x512_S128x512
abbrev bV (a : Fin 3) (i : Fin 2) : Memref sig .tc .vmem S128x512 .bf16 := (bM.slice (r4 a i) (fun _ => rfl)).squeeze S128x512 squeezes_S1x1x128x512_S128x512
abbrev oV (q : Dev nD) (i : Fin 2) : Memref sig .tc .vmem S128x512 .bf16 := oM.slice (r2 q i) (fun _ => rfl)

/-- One copy's credit: the same for every slice the kernel moves. -/
abbrev N : ℕ := (bV 0 0).view.dmaCredit
theorem N_pos : 0 < N := View.dmaCredit_pos _ (by decide)
theorem credit_b (a : Fin 3) (i : Fin 2) : (bV a i).view.dmaCredit = N := rfl
theorem credit_s (a : Fin 3) (i : Fin 2) : (sV a i).view.dmaCredit = N := rfl
theorem credit_o (q : Dev nD) (i : Fin 2) : (oV q i).view.dmaCredit = N := rfl

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- What the pipeline stages of device `c`'s two argument arrays. -/
def tIn (c : Dev nD) : (cc0_stg0_0 : Ref sig .tc).ty.Contents (Elt F) :=
  (win0_0.blk (0 : Fin 1)).view.read (Elt F) (m ((c : Thread nD τ).loc main_arg0))
def wIn (c : Dev nD) : (cc0_stg1_0 : Ref sig .tc).ty.Contents (Elt F) :=
  (win0_1.blk (0 : Fin 1)).view.read (Elt F) (m ((c : Thread nD τ).loc main_arg1))

/-- Half `i` of quarter `q` of device `c`'s rows. -/
def tBlk (c q : Dev nD) (i : Fin 2) : Vec F S128x512 .f32 :=
  (tM : Memref sig .tc .vmem S1024x512 .f32).view.readAt (Elt F) (r2 q i).toLoadRect (tIn m c)

/-- What device `c` stages in slot `(a, i)`: its rows of `pe c a`'s quarter, rounded. -/
def stg (c : Dev nD) (a : Fin 3) (i : Fin 2) : FVec F S1x1x128x512 .bf16 := k0_pay1 (tBlk m c (pe c a) i)
/-- What device `c` receives in landing slot `(a, i)`: the sender `pe c a`'s rows of `c`'s quarter, rounded. -/
def rcv (c : Dev nD) (a : Fin 3) (i : Fin 2) : FVec F S1x1x128x512 .bf16 := k0_pay1 (tBlk m (pe c a) c i)
theorem stg_eq_rcv (c : Dev nD) (a : Fin 3) (i : Fin 2) : stg m c a i = rcv m (pe c a) (back a) i := by
  unfold stg rcv; rw [pe_back]

/-- The weights, rounded. -/
def wB (c : Dev nD) : FVec F S512x512 .bf16 := k0_pay8 (wIn m c)

/-- Half `i` of device `c`'s quarter of the result: the four devices' rows of it summed, times the weights. -/
def yX (c : Dev nD) (i : Fin 2) : FVec F S128x512 .bf16 :=
  k0_pay9 (tBlk m c c i) (rcv m c 0 i) (rcv m c 1 i) (rcv m c 2 i) (wB m c)

/-- A `[1, 1, 128, 512]` block read through a squeezed slot. -/
abbrev sq (X : FVec F S1x1x128x512 .bf16) : S128x512.Idx → Elt F .bf16 := shapeCast S128x512 X shapeCasts_S1x1x128x512_S128x512

/-! ## The schedule -/

/-- The three copies of one half lend the same rows: a third of the share each. -/
def agShare (a : Fin 3) : PosShare TreeShare := match a with
  | ⟨0, _⟩ => fullShare.left
  | ⟨1, _⟩ => fullShare.right.left
  | ⟨_ + 2, _⟩ => fullShare.right.right

/-- What the one duty of DMA cell `(s, a, i)` of device `c` hands `c`: its staged slot back (0), slot `(a, i)` of its
    landing buffer holding `pe c a`'s rows (1), its share of its own half of the result back (2), `pe c a`'s half of the
    result landed in its result buffer (3). -/
def pay (c : Dev nD) (s : Fin 4) (a : Fin 3) (i : Fin 2) : sProp 𝕄 :=
  match s with
  | ⟨0, _⟩ => owns (c : Thread nD τ) (sV a i) fullShare (sq (stg m c a i))
  | ⟨1, _⟩ => owns (c : Thread nD τ) (bV a i) fullShare (sq (rcv m c a i))
  | ⟨2, _⟩ => owns (c : Thread nD τ) (oV c i) (agShare a) (yX m c i)
  | ⟨_ + 3, _⟩ => owns (c : Thread nD τ) (oV (pe c a) i) fullShare (yX m (pe c a) i)

/-- What the entry signal of `pe c d` hands `c`: the two slots of `pe c d`'s landing buffer and the two halves of `c`'s
    quarter of its result buffer that `c` will copy into, and that `pe c d` has reached round 0 of the four cells those
    copies complete on. -/
def barPay (c : Dev nD) (d : Fin 3) : sProp 𝕄 :=
  iprop((∃ X, owns (pe c d : Thread nD τ) (bV (back d) 0) fullShare X) ∗ (∃ X, owns (pe c d : Thread nD τ) (bV (back d) 1) fullShare X)
    ∗ (∃ X, owns (pe c d : Thread nD τ) (oV c 0) fullShare X) ∗ (∃ X, owns (pe c d : Thread nD τ) (oV c 1) fullShare X)
    ∗ reached ER (dcell (pe c d) 1 (back d) 0) 0 ∗ reached ER (dcell (pe c d) 1 (back d) 1) 0
    ∗ reached ER (dcell (pe c d) 3 (back d) 0) 0 ∗ reached ER (dcell (pe c d) 3 (back d) 1) 0)

def decS (n : DmaSem sig) : Fin 4 := ⟨(n.val - 3) / 6 % 4, Nat.mod_lt _ (by decide)⟩
def decA (n : DmaSem sig) : Fin 3 := ⟨(n.val - 3) % 6 / 2 % 3, Nat.mod_lt _ (by decide)⟩
def decI (n : DmaSem sig) : Fin 2 := ⟨(n.val - 3) % 2, Nat.mod_lt _ (by decide)⟩
theorem decS_dsem : ∀ (s : Fin 4) (a : Fin 3) (i : Fin 2), decS (dsem s a i) = s := by decide
theorem decA_dsem : ∀ (s : Fin 4) (a : Fin 3) (i : Fin 2), decA (dsem s a i) = a := by decide
theorem decI_dsem : ∀ (s : Fin 4) (a : Fin 3) (i : Fin 2), decI (dsem s a i) = i := by decide
theorem dsem_ge : ∀ (s : Fin 4) (a : Fin 3) (i : Fin 2), 3 ≤ (dsem s a i).val := by decide

/-- One round. A TensorCore's barrier cell has three duties of one unit, one per peer; each of its 24 DMA cells one duty
    of one copy's credit. -/
def collRd : Rounds.Schedule (GSem nD τ sig) (Fin 3) 𝕄 where
  duties g r := if r = 0 ∧ g.1.2 = .tc then (match g.2 with | .reg _ => Finset.univ | .dma n => if 3 ≤ n.val then {0} else ∅) else ∅
  unitless _ := False
  amount g _ _ := match g.2 with | .reg _ => 1 | .dma _ => N
  payload g _ d := match g.2 with | .reg _ => barPay g.1.1 d | .dma n => pay m g.1.1 (decS n) (decA n) (decI n)
  amount_pos g _ _ _ := by
    rcases g with ⟨t, sm⟩
    cases sm with
    | reg _ => exact Nat.one_pos
    | dma _ => exact N_pos

instance pay_storable (c : Dev nD) (s : Fin 4) (a : Fin 3) (i : Fin 2) : BI.Storable (upEmb : UEmb _ 𝕄) (pay m c s a i) := by
  unfold pay; split <;> infer_instance

instance barPay_storable (c : Dev nD) (d : Fin 3) : BI.Storable (upEmb : UEmb _ 𝕄) (barPay (F := F) c d) := by
  unfold barPay; infer_instance

instance collRd_payload_storable (g : GSem nD τ sig) (r : ℕ) (d : Fin 3) :
    BI.Storable (upEmb : UEmb _ 𝕄) ((collRd (F := F) m).payload g r d) := by
  rcases g with ⟨t, sm⟩
  cases sm with
  | reg _ => exact barPay_storable _ _
  | dma n => exact pay_storable m _ _ _ _

section Sched
variable (c : Dev nD) (s : Fin 4) (a : Fin 3) (i : Fin 2)

theorem duties_bar : (collRd (F := F) m).duties (barCell c) 0 = Finset.univ := by dsimp only [collRd]; exact if_pos ⟨rfl, rfl⟩
theorem duties_d : (collRd (F := F) m).duties (dcell c s a i) 0 = {0} := by
  dsimp only [collRd]; rw [if_pos ⟨rfl, rfl⟩]; exact if_pos (dsem_ge s a i)
theorem duties_later (g : GSem nD τ sig) : ∀ r, 1 ≤ r → (collRd (F := F) m).duties g r = ∅ :=
  fun r hr => by dsimp only [collRd]; rw [if_neg fun h => by omega]
theorem amount_bar (d : Fin 3) : (collRd (F := F) m).amount (barCell c) 0 d = 1 := rfl
theorem amount_d (d : Fin 3) : (collRd (F := F) m).amount (dcell c s a i) 0 d = N := rfl
theorem expect_bar : (collRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (collRd (F := F) m).expect (dcell c s a i) 0 = N := by
  unfold Schedule.expect Schedule.amountOf; rw [duties_d, Finset.sum_singleton, amount_d]
theorem payload_bar (d : Fin 3) : (collRd (F := F) m).payload (barCell c) 0 d = barPay c d := rfl
theorem payload_d (d : Fin 3) : (collRd (F := F) m).payload (dcell c s a i) 0 d = pay m c s a i := by
  show pay m c (decS (dsem s a i)) (decA (dsem s a i)) (decI (dsem s a i)) = _
  rw [decS_dsem, decA_dsem, decI_dsem]

/-- The barrier cell's round, no duty taken: the three peers' hand-overs. -/
theorem rest_bar : bigSep ((collRd (F := F) m).duties (barCell c) 0 \ ∅) (fun d => (collRd (F := F) m).payload (barCell c) 0 d)
    = iprop(barPay c 0 ∗ barPay c 1 ∗ barPay c 2) := by
  rw [Finset.sdiff_empty, duties_bar, bigSep_univ_eq_bigSepL [(0 : Fin 3), 1, 2] (by decide) (by decide)]
  rfl
theorem rest_d : bigSep ((collRd (F := F) m).duties (dcell c s a i) 0 \ ∅) (fun d => (collRd (F := F) m).payload (dcell c s a i) 0 d) = pay m c s a i := by
  rw [Finset.sdiff_empty, duties_d, bigSep_singleton, payload_d]

end Sched

/-! ## What each core owes at launch; the levels -/

/-- The cell a copy of device `c` into its peer `pe c e` completes on: array `s` (1 reduce-scatter, 3 all-gather), the
    slot that peer keeps for `c`, half `i`. -/
abbrev peerCell (c : Dev nD) (s : Fin 4) (e : Fin 3) (i : Fin 2) : GSem nD τ sig := dcell (pe c e) s (back e) i

/-- What device `c` pays, in program order: one unit to each peer's barrier cell, its six reduce-scatter copies, its six
    all-gather copies (each group of three to the second, the first and the third peer). -/
def debts (c : Dev nD) : List (GSem nD τ sig × ℕ) :=
  [(barCell (pe c 0), 1), (barCell (pe c 1), 1), (barCell (pe c 2), 1),
   (peerCell c 1 1 0, N), (peerCell c 1 0 0, N), (peerCell c 1 2 0, N),
   (peerCell c 1 1 1, N), (peerCell c 1 0 1, N), (peerCell c 1 2 1, N),
   (peerCell c 3 1 0, N), (peerCell c 3 0 0, N), (peerCell c 3 2 0, N),
   (peerCell c 3 1 1, N), (peerCell c 3 0 1, N), (peerCell c 3 2 1, N)]

def owe : List (GSem nD τ sig × ℕ) → CellTallies nD τ sig Unit
  | [] => 0
  | d :: ds => owe ds + tallyAt d.1 () d.2

/-- What device `c` still owes after its first `k` payments. -/
def O (c : Dev nD) (k : ℕ) : CellTallies nD τ sig Unit := owe ((debts c).drop k)

theorem owe_pos {ds : List (GSem nD τ sig × ℕ)} {g : GSem nD τ sig} {u : Unit} (h : 0 < owe ds g u) : ∃ d ∈ ds, g = d.1 := by
  induction ds with
  | nil => exact absurd h (Nat.lt_irrefl 0)
  | cons d ds ih =>
    unfold owe at h
    rw [Pi.add_apply, Finsupp.add_apply, tallyAt_apply] at h
    by_cases hg : g = d.1 ∧ u = ()
    · exact ⟨d, List.mem_cons_self, hg.1⟩
    · rw [if_neg hg, Nat.add_zero] at h
      obtain ⟨d', hd', e⟩ := ih h
      exact ⟨d', List.mem_cons_of_mem _ hd', e⟩

def L (g : GSem nD τ sig) : Finset Unit := if g.1.2 = .tc then {()} else ∅
/-- Barrier cells at 1, reduce-scatter receive cells at 2, all-gather receive cells at 3, everything else (staging, send) at 0. -/
def lv (g : GSem nD τ sig) (_ : Unit) : ℕ := match g.2 with
  | .reg _ => 1
  | .dma n => if decS n = 1 then 2 else if decS n = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem debts_tc : ∀ (c : Dev nD), ∀ d ∈ debts c, L d.1 = {()} := by
  intro c d hd
  simp only [debts, List.mem_cons, List.mem_nil_iff, or_false] at hd
  rcases hd with rfl | rfl | rfl | rfl | rfl | rfl | rfl | rfl | rfl | rfl | rfl | rfl | rfl | rfl | rfl <;> exact L_tc _ _

/-- A wait on a cell of level at most `b` while every cell still owed sits above `b`. -/
theorem mayWait_of (c : Dev nD) (sm : SemLoc sig) (k : ℕ) (b : ℕ) (hb : lv ((c : Thread nD τ), sm) () ≤ b)
    (hd : ∀ d ∈ (debts c).drop k, b < lv d.1 ()) : (levAts L lv : sProp 𝕄) ⊢ MayWait (c : Thread nD τ) sm () (O c k) :=
  MayOwe.of_cut (L := L) (lev := lv) b
    (fun p hp => by rw [Finset.mem_singleton.mp hp, L_tc]; exact Finset.mem_singleton_self _)
    (fun g u hg => by
      obtain ⟨d, hd', rfl⟩ := owe_pos hg
      rw [debts_tc c d (List.mem_of_mem_drop hd')]; exact Finset.mem_singleton_self _)
    (fun p hp => by rw [Finset.mem_singleton.mp hp]; exact hb)
    (fun g u hg => by
      obtain ⟨d, hd', rfl⟩ := owe_pos hg
      exact hd d hd')

theorem above_bar : ∀ c : Dev nD, ∀ d ∈ (debts c).drop 3, 1 < lv d.1 () := by decide
theorem above_rs0 : ∀ c : Dev nD, ∀ d ∈ (debts c).drop 9, 2 < lv d.1 () := by decide
theorem above_rs1 : ∀ c : Dev nD, ∀ d ∈ (debts c).drop 12, 2 < lv d.1 () := by decide
theorem O_done (c : Dev nD) : O c 15 = 0 := rfl
theorem O_step (c : Dev nD) : O c 0 = O c 1 + tallyAt (barCell (pe c 0)) () 1 := rfl

/-! ## The result's staging buffer at the end: all eight halves -/

/-- Row `256 q + 128 i + r` of the result is row `r` of half `i` of device `q`'s quarter. -/
def outAt : (cc0_stg2_0 : Ref sig .tc).ty.Contents (Elt F) := fun j =>
  yX m ⟨(j 0).val / 256 % 4, Nat.mod_lt _ (by decide)⟩ ⟨(j 0).val % 256 / 128 % 2, Nat.mod_lt _ (by decide)⟩
    (Idealize.ShloMosaic.ValueIdx.ix2 (⟨(j 0).val % 128, Nat.mod_lt _ (by decide)⟩ : Fin 128) (⟨(j 1).val % 512, Nat.mod_lt _ (by decide)⟩ : Fin 512))

/-! ## The ghost state -/

/-- A TensorCore's cells: its barrier cell (`none`) and its 24 DMA cells. -/
abbrev CK : Type := Option (Fin 4 × Fin 3 × Fin 2)
def csem : CK → SemLoc sig
  | none => .reg barS
  | some x => .dma (dsem x.1 x.2.1 x.2.2)
abbrev kcell (ck : Dev nD × CK) : GSem nD τ sig := ((ck.1 : Thread nD τ), csem ck.2)

/-- Every cell's invariant, under the names `K` the launch allocated them at, and round 0 of every cell reached. -/
def records (K : Dev nD × CK → ℕ) : sProp 𝕄 :=
  iprop((bigSep Finset.univ fun ck : Dev nD × CK => cellInv ER (collRd m) (K ck) (kcell ck))
    ∗ bigSep Finset.univ fun ck : Dev nD × CK => reached ER (kcell ck) 0)

instance records_persistent (K : Dev nD × CK → ℕ) : BI.Persistent (records m K) := by unfold records; infer_instance

/-- Device `c`'s positions: round 0 of each of its cells, nothing taken. -/
def posns (c : Dev nD) : sProp 𝕄 := bigSep Finset.univ fun k : CK => atPos ER (kcell (c, k)) 0 ∅ 0

/-- The tokens of the duties device `c` pays: its unit on each peer's barrier cell, its copies' landings on the peers'
    receive cells, its copies' departures on its own send cells. -/
def payToks (c : Dev nD) : sProp 𝕄 :=
  iprop((bigSep Finset.univ fun e : Fin 3 => dutyTok ER (barCell (pe c e)) 0 (back e))
    ∗ (bigSep Finset.univ fun x : Fin 3 × Fin 2 => dutyTok ER (peerCell c 1 x.1 x.2) 0 (0 : Fin 3))
    ∗ (bigSep Finset.univ fun x : Fin 3 × Fin 2 => dutyTok ER (peerCell c 3 x.1 x.2) 0 (0 : Fin 3))
    ∗ (bigSep Finset.univ fun x : Fin 3 × Fin 2 => dutyTok ER (dcell c 0 x.1 x.2) 0 (0 : Fin 3))
    ∗ (bigSep Finset.univ fun x : Fin 3 × Fin 2 => dutyTok ER (dcell c 2 x.1 x.2) 0 (0 : Fin 3)))

def ghost (K : Dev nD × CK → ℕ) (c : Dev nD) : sProp 𝕄 := iprop(records m K ∗ posns c ∗ payToks c)

/-- The credit the launch deals device `c`: what its peers owe its barrier cell and its twelve receive cells. -/
def creds (c : Dev nD) : sProp 𝕄 :=
  iprop(cred (tallyAt (barCell c) () 3)
    ∗ (bigSep Finset.univ fun x : Fin 3 × Fin 2 => cred (tallyAt (dcell c 1 x.1 x.2) () N))
    ∗ (bigSep Finset.univ fun x : Fin 3 × Fin 2 => cred (tallyAt (dcell c 3 x.1 x.2) () N)))

def start (c : Dev nD) : sProp 𝕄 := iprop((∃ K, ghost m K c) ∗ creds c ∗ levAts L lv)

/-- The three scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scr c)
/-- After the point: the scratch buffers back, the 24 own cells at zero, closed (the barrier cell is the runtime's). -/
def Φ₁ (c : Dev nD) : sProp 𝕄 :=
  iprop(scr c ∗ bigSep Finset.univ fun x : Fin 4 × Fin 3 × Fin 2 => semVal (dcell c x.1 x.2.1 x.2.2) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tIn m c
    | ⟨1, _⟩ => wIn m c
    | ⟨2, _⟩ => outAt m
  Φ t := match t with
    | ⟨0, _⟩ => Φ₀ m c
    | ⟨_ + 1, _⟩ => Φ₁ c
  q _ := fullShare
  owed t := match t with
    | ⟨0, _⟩ => O c 0
    | ⟨_ + 1, _⟩ => 0

abbrev 𝒱₀ : Variants := Variants.none

end Cert.KernelIdeal.Coll

end
-- ==== Proof.KernelIdealBodyDefs.lean ====
/-
  What one thread's body starts from and what it leaves: the ghost state, the launch credit, the levels and the three
  scratch buffers; what the thread owes; the three staging buffers whole — the two inputs as the pipeline fetched them,
  the result's at whatever it held — and, after the body, the scratch buffers back, the 24 own cells at zero, nothing
  owed, the inputs as they were and the result's staging buffer holding all eight halves.
-/
import proofs.«900370_g7700000000000371_dist_matmul_of_ar_i_m1024_n512_k512_v7x_i4_f32_1_alg».proof.Proof.KernelIdealProto

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- A staging buffer held whole at contents `X`. -/
abbrev stgW (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ scr c)
    ∗ (dats m ρ 0 c).owesAt () (t0_0 : Fin cfg0.N).castSucc
    ∗ (∃ d, stgW c cc0_stg0_0 ((dats m ρ 0 c).before (0 : Fin 3) t0_0 d))
    ∗ (∃ d, stgW c cc0_stg1_0 ((dats m ρ 0 c).before (1 : Fin 3) t0_0 d))
    ∗ (∃ d, stgW c cc0_stg2_0 ((dats m ρ 0 c).before (2 : Fin 3) t0_0 d)))

def bodyPost (c : Dev nD) : sProp 𝕄 :=
  iprop(Φ₁ c ∗ (dats m ρ 0 c).owesAt () (t0_0 : Fin cfg0.N).succ
    ∗ stgW c cc0_stg0_0 (tIn m c) ∗ stgW c cc0_stg1_0 (wIn m c) ∗ stgW c cc0_stg2_0 (outAt m))

/-- The body, as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6

/-- One thread's body is sound: from `bodyPre` it runs to `bodyPost`. -/
def BodySound : Prop :=
  ∀ (K : Dev nD × CK → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

end Cert.KernelIdeal.Coll

end
-- ==== Proof.KernelIdealSteps.lean ====
/-
  One thread's protocol steps, each as a rule at the head of a program: the entry signal to a peer (handing that peer
  the slots and rows of this device's buffers it will copy into), a copy of a slot or of a half of the result into a
  peer's memory (paying the landing's duty on the peer's receive cell and the departure's on this device's send cell),
  and a wait for the one round of one of the device's own cells. Stated over the printed operation's own spelling of its
  device, views and semaphores, with the equations that identify them.
-/
import proofs.«900370_g7700000000000371_dist_matmul_of_ar_i_m1024_n512_k512_v7x_i4_f32_1_alg».proof.Proof.KernelIdealProto

noncomputable section

namespace Cert.KernelIdeal.Coll

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem inv_at' (ck : Dev nD × CK) :
    (bigSep Finset.univ fun ck : Dev nD × CK => (cellInv ER (collRd m) (K ck) (kcell ck) : sProp 𝕄)) ⊢ cellInv ER (collRd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (ck : Dev nD × CK) : (records m K : sProp 𝕄) ⊢ cellInv ER (collRd m) (K ck) (kcell ck) := by
  unfold records; iintro ⟨H, -⟩; iapply (inv_at' m K ck); iexact H
theorem reached_at (ck : Dev nD × CK) : (records m K : sProp 𝕄) ⊢ reached ER (kcell ck) 0 := by
  unfold records; iintro ⟨-, H⟩; iapply (reached_at' (F := F) ck); iexact H

/-- The entry signal to the peer `pe c e`: it pays the peer's barrier duty `back e`, handing over slot `e` of this device's
    landing buffer and the peer's quarter of its result buffer, both halves of each. -/
theorem step_signal (c : Dev nD) (e : Fin 3) (n : Dev nD) (hn : n = pe c e) (O₀ O' : CellTallies nD τ sig Unit)
    (hO : O₀ = O' + tallyAt (barCell (pe c e)) () 1) (W : Waits sig Unit)
    {α : Type} {Q : α → sProp 𝕄} {k : PUnit → Prog (TpuEff nD τ sig (Elt F) Λ₀ .tc) α} :
    iprop(records m K ∗ owes (c : Thread nD τ) O₀ W ∗ dutyTok ER (barCell (pe c e)) 0 (back e)
        ∗ (∃ X, owns (c : Thread nD τ) (bV e 0) fullShare X) ∗ (∃ X, owns (c : Thread nD τ) (bV e 1) fullShare X)
        ∗ (∃ X, owns (c : Thread nD τ) (oV (pe c e) 0) fullShare X) ∗ (∃ X, owns (c : Thread nD τ) (oV (pe c e) 1) fullShare X))
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Htok, Hp⟩
  iapply (Rounds.wp_signal 𝒱₀ ER (collRd m) (c : Thread nD τ) none (dst := (pe c e : Thread nD τ)) (κ := K (pe c e, none))
      (d := back e) (by rw [duties_bar]; exact Finset.mem_univ _) (amount_bar m (pe c e) (back e)) () O' hO)
  isplitr; · iapply (inv_at m K (pe c e, none)); iexact HR
  isplitl [HO]; · iexact HO
  isplitl [Htok]; · iexact Htok
  isplitl [Hp]
  · rw [payload_bar]; unfold barPay; rw [pe_back, back_back]
    icases Hp with ⟨H1, H2, H3, H4⟩
    isplitl [H1]; · iexact H1
    isplitl [H2]; · iexact H2
    isplitl [H3]; · iexact H3
    isplitl [H4]; · iexact H4
    isplitr; · iapply (reached_at m K (c, some (1, e, 0))); iexact HR
    isplitr; · iapply (reached_at m K (c, some (1, e, 1))); iexact HR
    isplitr; · iapply (reached_at m K (c, some (3, e, 0))); iexact HR
    iapply (reached_at m K (c, some (3, e, 1))); iexact HR
  · iapply (reached_at m K (pe c e, none)); iexact HR

/-- A copy into the memory of device `n`: the source held at share `q` reading `X` (it comes back with the wait on the send
    cell `sS`), the destination's elements on `n` held outright (they land with `X` and go to `n` with its wait on the
    receive cell `sR`); the landing's units come off what the issuer owes. -/
theorem step_send (c n : Dev nD) {src dst : Memref sig .tc .vmem S128x512 .bf16} (sS sR : DmaSem sig) (κ₁ κ₂ : ℕ)
    (q : PosShare TreeShare) (X : S128x512.Idx → Elt F .bf16)
    (hN : dst.view.dmaCredit = N)
    (hd₁ : (0 : Fin 3) ∈ (collRd m).duties ((c : Thread nD τ), .dma sS) 0) (hd₂ : (0 : Fin 3) ∈ (collRd m).duties ((n : Thread nD τ), .dma sR) 0)
    (hp₁ : (owns (c : Thread nD τ) src q X : sProp 𝕄) ⊢ (collRd m).payload ((c : Thread nD τ), .dma sS) 0 0)
    (hp₂ : (owns (n : Thread nD τ) dst fullShare X : sProp 𝕄) ⊢ (collRd m).payload ((n : Thread nD τ), .dma sR) 0 0)
    {hsc : (dst : Memref sig (Dev.tc n : Thread nD τ).2.kind .vmem S128x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O₀ O' : CellTallies nD τ sig Unit) (hO : O₀ = O' + tallyAt ((n : Thread nD τ), .dma sR) () N) (W : Waits sig Unit)
    (hr : τ.routes (c : Thread nD τ) (n : Thread nD τ) = true) :
    iprop(cellInv ER (collRd m) κ₁ ((c : Thread nD τ), .dma sS) ∗ cellInv ER (collRd m) κ₂ ((n : Thread nD τ), .dma sR)
        ∗ owns (c : Thread nD τ) src q X ∗ (∃ Y, owns (n : Thread nD τ) dst fullShare Y)
        ∗ owes (c : Thread nD τ) O₀ W
        ∗ dutyTok ER ((c : Thread nD τ), .dma sS) 0 (0 : Fin 3) ∗ reached ER ((c : Thread nD τ), .dma sS) 0
        ∗ dutyTok ER ((n : Thread nD τ), .dma sR) 0 (0 : Fin 3) ∗ reached ER ((n : Thread nD τ), .dma sR) 0)
      ⊢ iprop(((cred (tallyAt ((c : Thread nD τ), .dma sS) () N) ∗ owes (c : Thread nD τ) O' W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  unfold owns
  iintro ⟨HI1, HI2, ⟨%fs, %hfs, Hsrc⟩, ⟨%Y, %fd, %hfd, Hdst⟩, HO, Ht1, Hr1, Ht2, Hr2⟩
  iapply (Rounds.wp_send_pointsTo 𝒱₀ ER (collRd m) (c : Thread nD τ) none (κ₁ := κ₁) (κ₂ := κ₂)
    (r₁ := 0) (r₂ := 0) (d₁ := (0 : Fin 3)) (d₂ := (0 : Fin 3)) (fd := fd) hd₁ hd₂ () () N hN rfl rfl O' hO (W := W)
    (by
      refine (owns_intro (c : Thread nD τ) src q fs).trans ?_
      rw [hfs]; exact hp₁)
    (by
      refine (owns_intro (n : Thread nD τ) dst fullShare _).trans ?_
      rw [View.read_write_univ, hfs]; exact hp₂) hr)
  isplitl [HI1]; · iexact HI1
  isplitl [HI2]; · iexact HI2
  isplitl [Hsrc]; · iexact Hsrc
  isplitl [Hdst]; · iexact Hdst
  isplitl [HO]; · iexact HO
  isplitl [Ht1]; · iexact Ht1
  isplitl [Hr1]; · iexact Hr1
  isplitl [Ht2]; · iexact Ht2
  iexact Hr2

/-- Every `[128, 512]` bf16 view the kernel's copies move carries one copy's credit, whatever buffer it is cut from. -/
theorem credit_any (M : Memref sig .tc .vmem S128x512 .bf16) : M.view.dmaCredit = N := rfl

/-- The wait for the one round of DMA cell `(s, a, i)` of device `c`, covered by the credit for one copy: the cell's
    hand-over comes back, and the cell moves to round 1. -/
theorem step_wait (c : Dev nD) (s : Fin 4) (a : Fin 3) (i : Fin 2) (sm : DmaSem sig) (hsm : sm = dsem s a i)
    {src dst : Memref sig .tc .vmem S128x512 .bf16} {hsrc : src.view.WordExact} {hdst : dst.view.WordExact}
    {α : Type} {Q : α → sProp 𝕄} {k : PUnit → Prog (TpuEff nD τ sig (Elt F) Λ₀ .tc) α}
    (O₁ : CellTallies nD τ sig Unit) (W : Waits sig Unit) :
    iprop(records m K ∗ cred (tallyAt (dcell c s a i) () N) ∗ owes (c : Thread nD τ) O₁ W
        ∗ MayWait (c : Thread nD τ) (.dma (dsem s a i)) () O₁ ∗ atPos ER (dcell c s a i) 0 ∅ 0)
      ⊢ iprop(((owes (c : Thread nD τ) O₁ (insert (SemLoc.dma (dsem s a i), ()) W) ∗ atPos ER (dcell c s a i) 1 ∅ 0 ∗ pay m c s a i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  have hw : ∀ Kk : PUnit → sProp 𝕄, wpE (defs₀ (F := F)) 𝒱₀ (c : Thread nD τ) none Set.univ (.waitDma2 (dsem s a i) src dst hsrc hdst) Kk
      = waitSpec (c : Thread nD τ) Set.univ (.dma (dsem s a i)) N Kk := fun Kk => by
    rw [wpE_waitDma2_eq, credit_any dst]
  iintro ⟨#HR, Hc, HO, Hmw, Hat⟩ Hk
  iapply (Rounds.wp_wait_rest_token 𝒱₀ ER (collRd m) (c : Thread nD τ) none (κ := K (c, some (s, a, i))) hw (Set.mem_univ _) ()
      (O := O₁) (W := W) (R := 0) (m := 0) (T := ∅) (by rw [Nat.zero_add]; exact (expect_d m c s a i).symm)) $$ [Hc HO Hmw Hat]
  · isplitr; · iapply (inv_at m K (c, some (s, a, i))); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_d m c s a i)); iexact Hpay

/-- The wait for the three entry signals: every peer's hand-over comes with it. -/
theorem step_wait_bar (c : Dev nD) {α : Type} {Q : α → sProp 𝕄} {k : PUnit → Prog (TpuEff nD τ sig (Elt F) Λ₀ .tc) α}
    (O₁ : CellTallies nD τ sig Unit) (W : Waits sig Unit) :
    iprop(records m K ∗ cred (tallyAt (barCell c) () 3) ∗ owes (c : Thread nD τ) O₁ W
        ∗ MayWait (c : Thread nD τ) (.reg barS) () O₁ ∗ atPos ER (barCell c) 0 ∅ 0)
      ⊢ iprop(((owes (c : Thread nD τ) O₁ (insert (SemLoc.reg barS, ()) W) ∗ atPos ER (barCell c) 1 ∅ 0
                ∗ barPay c 0 ∗ barPay c 1 ∗ barPay c 2)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, Hc, HO, Hmw, Hat⟩ Hk
  iapply (Rounds.wp_wait_rest_token 𝒱₀ ER (collRd m) (c : Thread nD τ) none (κ := K (c, none))
      (wpE_semWait_eq 𝒱₀ (c : Thread nD τ) none Set.univ) (Set.mem_univ _) ()
      (O := O₁) (W := W) (R := 0) (m := 0) (T := ∅) (by rw [Nat.zero_add]; exact (expect_bar m c).symm)) $$ [Hc HO Hmw Hat]
  · isplitr; · iapply (inv_at m K (c, none)); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_bar m c)); iexact Hpay

/-- A device's own DMA cell, its one round consumed, closes: its counter at zero is the device's again. -/
theorem step_close (c : Dev nD) (s : Fin 4) (a : Fin 3) (i : Fin 2) :
    iprop(records m K ∗ atPos ER (dcell c s a i) 1 ∅ 0) ⊢ iprop(|={Set.univ}=> semVal (dcell c s a i) 0) := by
  iintro ⟨#HR, Hat⟩
  iapply (Rounds.cell_close ER (collRd m) (Set.mem_univ (K (c, some (s, a, i)))) (fun h => h) (R := 0 + 1) (duties_later m (dcell c s a i)))
  isplitr; · iapply (inv_at m K (c, some (s, a, i))); iexact HR
  iexact Hat

theorem routes_pe : ∀ (c : Dev nD) (e : Fin 3), τ.routes (c : Thread nD τ) (pe c e : Thread nD τ) = true := by decide

/-- The reduce-scatter copy of staged slot `(e, i)` into the landing slot the peer `pe c e` keeps for this device. -/
theorem step_rs (c : Dev nD) (e : Fin 3) (i : Fin 2) (n : Dev nD) (hn : n = pe c e)
    {src dst : Memref sig .tc .vmem S128x512 .bf16} (hsrcE : src = sV e i) (hdstE : dst = bV (back e) i)
    (sS sR : DmaSem sig) (hsS : sS = dsem 0 e i) (hsR : sR = dsem 1 (back e) i)
    {hsc : (dst : Memref sig (Dev.tc n : Thread nD τ).2.kind .vmem S128x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O₀ O' : CellTallies nD τ sig Unit) (hO : O₀ = O' + tallyAt (peerCell c 1 e i) () N) (W : Waits sig Unit) :
    iprop(records m K ∗ owns (c : Thread nD τ) (sV e i) fullShare (sq (stg m c e i))
        ∗ (∃ Y, owns (pe c e : Thread nD τ) (bV (back e) i) fullShare Y)
        ∗ owes (c : Thread nD τ) O₀ W ∗ dutyTok ER (dcell c 0 e i) 0 (0 : Fin 3) ∗ dutyTok ER (peerCell c 1 e i) 0 (0 : Fin 3))
      ⊢ iprop(((cred (tallyAt (dcell c 0 e i) () N) ∗ owes (c : Thread nD τ) O' W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsrcE hdstE hsS hsR
  iintro ⟨#HR, Hsrc, Hdst, HO, Ht1, Ht2⟩
  iapply (step_send m c (pe c e) (src := sV e i) (dst := bV (back e) i) (dsem 0 e i) (dsem 1 (back e) i) (K (c, some (0, e, i))) (K (pe c e, some (1, back e, i)))
    fullShare (sq (stg m c e i)) (credit_b (back e) i)
    (by rw [duties_d]; exact Finset.mem_singleton_self _) (by rw [duties_d]; exact Finset.mem_singleton_self _)
    (by rw [payload_d]; exact BI.Entails.refl _)
    (by rw [payload_d, stg_eq_rcv]; exact BI.Entails.refl _)
    O₀ O' hO W (routes_pe c e))
  isplitr; · iapply (inv_at m K (c, some (0, e, i))); iexact HR
  isplitr; · iapply (inv_at m K (pe c e, some (1, back e, i))); iexact HR
  isplitl [Hsrc]; · iexact Hsrc
  isplitl [Hdst]; · iexact Hdst
  isplitl [HO]; · iexact HO
  isplitl [Ht1]; · iexact Ht1
  isplitr; · iapply (reached_at m K (c, some (0, e, i))); iexact HR
  isplitl [Ht2]; · iexact Ht2
  iapply (reached_at m K (pe c e, some (1, back e, i))); iexact HR

/-- The all-gather copy of this device's half `i` of the result into the same rows of the peer `pe c e`'s result buffer,
    lending a third of the rows' share. -/
theorem step_ag (c : Dev nD) (e : Fin 3) (i : Fin 2) (n : Dev nD) (hn : n = pe c e)
    {src dst : Memref sig .tc .vmem S128x512 .bf16} (hsrcE : src = oV c i) (hdstE : dst = oV c i)
    (sS sR : DmaSem sig) (hsS : sS = dsem 2 e i) (hsR : sR = dsem 3 (back e) i)
    {hsc : (dst : Memref sig (Dev.tc n : Thread nD τ).2.kind .vmem S128x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O₀ O' : CellTallies nD τ sig Unit) (hO : O₀ = O' + tallyAt (peerCell c 3 e i) () N) (W : Waits sig Unit) :
    iprop(records m K ∗ owns (c : Thread nD τ) (oV c i) (agShare e) (yX m c i)
        ∗ (∃ Y, owns (pe c e : Thread nD τ) (oV c i) fullShare Y)
        ∗ owes (c : Thread nD τ) O₀ W ∗ dutyTok ER (dcell c 2 e i) 0 (0 : Fin 3) ∗ dutyTok ER (peerCell c 3 e i) 0 (0 : Fin 3))
      ⊢ iprop(((cred (tallyAt (dcell c 2 e i) () N) ∗ owes (c : Thread nD τ) O' W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsrcE hdstE hsS hsR
  iintro ⟨#HR, Hsrc, Hdst, HO, Ht1, Ht2⟩
  iapply (step_send m c (pe c e) (src := oV c i) (dst := oV c i) (dsem 2 e i) (dsem 3 (back e) i) (K (c, some (2, e, i))) (K (pe c e, some (3, back e, i)))
    (agShare e) (yX m c i) (credit_o c i)
    (by rw [duties_d]; exact Finset.mem_singleton_self _) (by rw [duties_d]; exact Finset.mem_singleton_self _)
    (by rw [payload_d]; exact BI.Entails.refl _)
    (by rw [payload_d]; show _ ⊢ (owns ((pe c e : Dev nD) : Thread nD τ) (oV (pe (pe c e) (back e)) i) fullShare (yX m (pe (pe c e) (back e)) i) : sProp 𝕄); rw [pe_back])
    O₀ O' hO W (routes_pe c e))
  isplitr; · iapply (inv_at m K (c, some (2, e, i))); iexact HR
  isplitr; · iapply (inv_at m K (pe c e, some (3, back e, i))); iexact HR
  isplitl [Hsrc]; · iexact Hsrc
  isplitl [Hdst]; · iexact Hdst
  isplitl [HO]; · iexact HO
  isplitl [Ht1]; · iexact Ht1
  isplitr; · iapply (reached_at m K (c, some (2, e, i))); iexact HR
  isplitl [Ht2]; · iexact Ht2
  iapply (reached_at m K (pe c e, some (3, back e, i))); iexact HR

end Cert.KernelIdeal.Coll

end
-- ==== Proof.KernelIdealGeom.lean ====
/-
  The geometry of the buffers the body works in.

  A [3, 2, 128, 512] buffer is six slots `(a, i)` of shape [1, 1, 128, 512]; a [1024, 512] buffer is eight halves
  `(q, i)`, rows `256 q + 128 i ..+128`. Each family is pairwise disjoint and covers its buffer, so owning the buffer
  is owning every member of the family. A slot seen with its two unit axes dropped is the same elements in the same
  order. A store through a unit-stride rectangle of a whole buffer is read back through the slice at that rectangle.
-/
import proofs.«900370_g7700000000000371_dist_matmul_of_ar_i_m1024_n512_k512_v7x_i4_f32_1_alg».proof.Proof.KernelIdealProto
import Idealize.ShloMosaic.Lib.Memref
import Idealize.ShloMosaic.Lib.Pipeline.Value

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The two families of rectangles -/

/-- The six slots of a `[3, 2, 128, 512]` buffer, as one family. -/
abbrev slots (t : Fin 3 × Fin 2) : Rect S3x2x128x512 := r4 t.1 t.2
/-- The eight halves of a `[1024, 512]` buffer, as one family. -/
abbrev halves (t : Dev nD × Fin 2) : Rect S1024x512 := r2 t.1 t.2

theorem slots_stride (t : Fin 3 × Fin 2) (a : Fin S3x2x128x512.rank) : (slots t).stride a = 1 := rfl
theorem halves_stride (t : Dev nD × Fin 2) (a : Fin S1024x512.rank) : (halves t).stride a = 1 := rfl

/-- An index lies in slot `(a, i)` exactly when its first two coordinates are `a` and `i`. -/
theorem mem_r4 (a : Fin 3) (i : Fin 2) (x : S3x2x128x512.Idx) : x ∈ (r4 a i).set ↔ (x 0).val = a.val ∧ (x 1).val = i.val := by
  rw [Rect.mem_set_unit]
  have h2 : (x 2).val < 128 := (x 2).isLt
  have h3 : (x 3).val < 512 := (x 3).isLt
  constructor
  · intro h
    have h0 := h 0
    have h1 := h 1
    change a.val ≤ (x 0).val ∧ (x 0).val < a.val + 1 at h0
    change i.val ≤ (x 1).val ∧ (x 1).val < i.val + 1 at h1
    omega
  · rintro ⟨e0, e1⟩ b
    match b with
    | ⟨0, _⟩ => show a.val ≤ (x 0).val ∧ (x 0).val < a.val + 1; omega
    | ⟨1, _⟩ => show i.val ≤ (x 1).val ∧ (x 1).val < i.val + 1; omega
    | ⟨2, _⟩ => show 0 ≤ (x 2).val ∧ (x 2).val < 0 + 128; omega
    | ⟨3, _⟩ => show 0 ≤ (x 3).val ∧ (x 3).val < 0 + 512; omega

/-- An index lies in half `(q, i)` exactly when its row is one of `256 q + 128 i ..+128`. -/
theorem mem_r2 (q : Dev nD) (i : Fin 2) (x : S1024x512.Idx) :
    x ∈ (r2 q i).set ↔ 256 * q.val + 128 * i.val ≤ (x 0).val ∧ (x 0).val < 256 * q.val + 128 * i.val + 128 := by
  rw [Rect.mem_set_unit]
  have h1 : (x 1).val < 512 := (x 1).isLt
  constructor
  · intro h
    exact h 0
  · intro h b
    match b with
    | ⟨0, _⟩ => exact h
    | ⟨1, _⟩ => show 0 ≤ (x 1).val ∧ (x 1).val < 0 + 512; omega

theorem slots_disjoint (t t' : Fin 3 × Fin 2) (h : t ≠ t') : Disjoint (slots t).set (slots t').set := by
  rw [Finset.disjoint_left]
  intro x hx hx'
  rw [mem_r4] at hx hx'
  exact h (Prod.ext (Fin.ext (by omega)) (Fin.ext (by omega)))

theorem slots_cover : (Finset.univ : Finset (Fin 3 × Fin 2)).biUnion (fun t => (slots t).set) = Finset.univ := by
  ext x
  simp only [Finset.mem_biUnion, Finset.mem_univ, true_and, iff_true]
  exact ⟨(⟨(x 0).val, (x 0).isLt⟩, ⟨(x 1).val, (x 1).isLt⟩), (mem_r4 _ _ x).mpr ⟨rfl, rfl⟩⟩

theorem halves_disjoint (t t' : Dev nD × Fin 2) (h : t ≠ t') : Disjoint (halves t).set (halves t').set := by
  rw [Finset.disjoint_left]
  intro x hx hx'
  rw [mem_r2] at hx hx'
  have h1 : t.2.val < 2 := t.2.isLt
  have h2 : t'.2.val < 2 := t'.2.isLt
  exact h (Prod.ext (Fin.ext (by omega)) (Fin.ext (by omega)))

theorem halves_cover : (Finset.univ : Finset (Dev nD × Fin 2)).biUnion (fun t => (halves t).set) = Finset.univ := by
  ext x
  simp only [Finset.mem_biUnion, Finset.mem_univ, true_and, iff_true]
  have hx : (x 0).val < 1024 := (x 0).isLt
  refine ⟨(⟨(x 0).val / 256, by show (x 0).val / 256 < 4; omega⟩, ⟨(x 0).val % 256 / 128, by omega⟩), (mem_r2 _ _ x).mpr ?_⟩
  show 256 * ((x 0).val / 256) + 128 * ((x 0).val % 256 / 128) ≤ (x 0).val
    ∧ (x 0).val < 256 * ((x 0).val / 256) + 128 * ((x 0).val % 256 / 128) + 128
  omega

/-! ## A slice through a memref and an access at its rectangle -/

section Slice

variable {Val : EltTy → Type} {κ : Kind} {sp : Space} {s : Shape} {e : EltTy}
  (M : Memref sig κ sp s e) (r : Rect s) (hr : ∀ a, r.stride a = 1)

/-- The view an access at a unit-stride rectangle goes through is the slice's view. -/
theorem access_eq_slice_view : M.access r = (M.slice r hr).view := rfl

/-- What a store through the rectangle writes on every index is what the slice then reads. -/
theorem read_slice_write_access (f : (M.access r).ty.Contents Val) (w : r.shape.Idx → Val e) :
    (M.slice r hr).view.read Val ((M.access r).write Val f w Finset.univ) = w :=
  View.read_write_univ _ _

/-- A load through the memref at the rectangle reads what the slice reads. -/
theorem readAt_eq_read_slice (f : M.view.ty.Contents Val) :
    M.view.readAt Val r.toLoadRect f = (M.slice r hr).view.read Val f := rfl

/-- The elements a load at the rectangle touches are the slice's. -/
theorem setOn_load_eq : M.view.setOn r.set = (M.slice r hr).view.set :=
  (View.set_slice M.view r).symm

theorem setOn_load_subset : M.view.setOn r.set ⊆ (M.slice r hr).view.set :=
  (setOn_load_eq M r hr).subset

/-- The elements a store on every index of the rectangle touches are the slice's. -/
theorem setOn_store_eq : (M.access r).setOn Finset.univ = (M.slice r hr).view.set := rfl

theorem setOn_store_subset : (M.access r).setOn Finset.univ ⊆ (M.slice r hr).view.set :=
  (setOn_store_eq M r hr).subset

end Slice

section SliceLoc

variable {sp : Space} {s : Shape} {e : EltTy} (c : Thread nD τ) (M : Memref sig c.2.kind sp s e) (r : Rect s)
  (hr : ∀ a, r.stride a = 1)

/-- An access, the slice and the memref itself sit in one buffer. -/
theorem loc_access_eq : (M.access r).loc c = (M.slice r hr).view.loc c := rfl
theorem loc_slice_eq : (M.slice r hr).view.loc c = M.view.loc c := rfl

end SliceLoc

/-! ## A slice with its unit axes dropped -/

section Squeeze

variable {sp : Space} {s s' : Shape} {e : EltTy}

/-- Viewing an array at another shape with as many entries loses nothing. -/
theorem shapeCast_inj {α : Type} (hc : s.ShapeCasts s') (hc' : s'.ShapeCasts s) (A B : s.Idx → α) :
    shapeCast s' A hc = shapeCast s' B hc ↔ A = B := by
  constructor
  · intro h
    have h' := congrArg (fun Z => shapeCast s Z hc') h
    simp only [shapeCast_shapeCast] at h'
    exact h'
  · intro h; rw [h]

/-- Owning a slice with unit axes dropped, at contents viewed the same way, is owning the slice. -/
theorem owns_squeeze_slice (c : Thread nD τ) (M : Memref sig c.2.kind sp s e) (r : Rect s)
    (hr : ∀ a, r.stride a = 1) (hq : r.shape.Squeezes s') (hc : r.shape.ShapeCasts s') (hc' : s'.ShapeCasts r.shape)
    (q : PosShare TreeShare) (X : r.shape.Idx → Elt F e) :
    (owns c ((M.slice r hr).squeeze s' hq) q (shapeCast s' X hc) : sProp 𝕄) = owns c (M.slice r hr) q X := by
  unfold owns
  have hset : ((M.slice r hr).squeeze s' hq).view.set = (M.slice r hr).view.set := View.set_reshape _ _
  have hp : ∀ f, (((M.slice r hr).squeeze s' hq).view.read (Elt F) f = shapeCast s' X hc)
      = ((M.slice r hr).view.read (Elt F) f = X) := fun f =>
    propext (shapeCast_inj hc hc' ((M.slice r hr).view.read (Elt F) f) X)
  rw [hset]
  simp only [hp]

/-- The same with any contents at the squeezed shape: they are the slice's contents viewed back. -/
theorem owns_squeeze_slice' (c : Thread nD τ) (M : Memref sig c.2.kind sp s e) (r : Rect s)
    (hr : ∀ a, r.stride a = 1) (hq : r.shape.Squeezes s') (hc : r.shape.ShapeCasts s') (hc' : s'.ShapeCasts r.shape)
    (q : PosShare TreeShare) (Y : s'.Idx → Elt F e) :
    (owns c ((M.slice r hr).squeeze s' hq) q Y : sProp 𝕄) = owns c (M.slice r hr) q (shapeCast r.shape Y hc') := by
  rw [← owns_squeeze_slice c M r hr hq hc hc' q (shapeCast r.shape Y hc'), shapeCast_shapeCast]

end Squeeze

/-! ## Gluing: every member of a disjoint covering family owned at some contents -/

section Glue

variable (c : Thread nD τ) {sp : Space} {sh : Shape} {e : EltTy} (m : Memref sig c.2.kind sp sh e) (q : PosShare TreeShare)
  {T : Type} [Fintype T] [DecidableEq T] (r : T → Rect sh) (hr : ∀ t a, (r t).stride a = 1)

/-- Each slice of a disjoint covering family owned at some contents: the memref owned at the contents they assemble
    to. -/
theorem owns_glue (hd : ∀ t t', t ≠ t' → Disjoint (r t).set (r t').set)
    (hcov : (Finset.univ : Finset T).biUnion (fun t => (r t).set) = Finset.univ) :
    BI.bigSep Finset.univ (fun t => iprop(∃ Y, owns c (m.slice (r t) (hr t)) q Y))
      ⊢ (iprop(∃ X, owns c m q X) : sProp 𝕄) := by
  refine (bigSep_exists_pi (Y := fun t => (r t).shape.Idx → Elt F e) Finset.univ
    (fun t Y => (owns c (m.slice (r t) (hr t)) q Y : sProp 𝕄))).trans ?_
  iintro ⟨%Z, H⟩
  iexists Rect.glue r hcov Z
  iapply (owns_of_rects c m q r hr hd hcov (Rect.glue r hcov Z))
  have e1 : (fun t => (owns c (m.slice (r t) (hr t)) q (fun j => Rect.glue r hcov Z ((r t).emb j)) : sProp 𝕄))
      = fun t => owns c (m.slice (r t) (hr t)) q (Z t) :=
    funext fun t => by
      rw [show (fun j => Rect.glue r hcov Z ((r t).emb j)) = Z t from funext fun j => Rect.glue_emb r hcov hd Z t j]
  rw [e1]
  iexact H

/-- For a whole buffer: its points-to at some contents. -/
theorem pointsTo_of_glue (b : Ref sig c.2.kind) {T : Type} [Fintype T] [DecidableEq T] (r : T → Rect b.ty.shape)
    (hr : ∀ t a, (r t).stride a = 1) (hd : ∀ t t', t ≠ t' → Disjoint (r t).set (r t').set)
    (hcov : (Finset.univ : Finset T).biUnion (fun t => (r t).set) = Finset.univ) :
    BI.bigSep Finset.univ (fun t => iprop(∃ Y, owns c ((Memref.whole b).slice (r t) (hr t)) q Y))
      ⊢ (iprop(∃ f, (c.loc b) ↦{q} f) : sProp 𝕄) := by
  refine (owns_glue c (Memref.whole b) q r hr hd hcov).trans ?_
  iintro ⟨%X, H⟩
  iexists X
  iapply (Entails.of_eq (owns_whole c b q X))
  iexact H

end Glue

/-- A slot of a `[3, 2, 128, 512]` buffer seen as `[128, 512]`, owned at the contents seen the same way. -/
theorem owns_slot_sq (c : Dev nD) (M : Memref sig .tc .vmem S3x2x128x512 .bf16) (a : Fin 3) (i : Fin 2)
    (q : PosShare TreeShare) (X : FVec F S1x1x128x512 .bf16) :
    (owns (c : Thread nD τ) ((M.slice (r4 a i) (fun _ => rfl)).squeeze S128x512 squeezes_S1x1x128x512_S128x512) q (sq X) : sProp 𝕄)
      = owns (c : Thread nD τ) (M.slice (r4 a i) (fun _ => rfl)) q X :=
  owns_squeeze_slice (c : Thread nD τ) M (r4 a i) (fun _ => rfl) squeezes_S1x1x128x512_S128x512
    shapeCasts_S1x1x128x512_S128x512 shapeCasts_S128x512_S1x1x128x512 q X

/-- The same with any contents `Y` at `[128, 512]`. -/
theorem owns_slot_unsq (c : Dev nD) (M : Memref sig .tc .vmem S3x2x128x512 .bf16) (a : Fin 3) (i : Fin 2)
    (q : PosShare TreeShare) (Y : S128x512.Idx → Elt F .bf16) :
    (owns (c : Thread nD τ) ((M.slice (r4 a i) (fun _ => rfl)).squeeze S128x512 squeezes_S1x1x128x512_S128x512) q Y : sProp 𝕄)
      = owns (c : Thread nD τ) (M.slice (r4 a i) (fun _ => rfl)) q (shapeCast S1x1x128x512 Y shapeCasts_S128x512_S1x1x128x512) :=
  owns_squeeze_slice' (c : Thread nD τ) M (r4 a i) (fun _ => rfl) squeezes_S1x1x128x512_S128x512
    shapeCasts_S1x1x128x512_S128x512 shapeCasts_S128x512_S1x1x128x512 q Y

/-! ## The scratch buffers and the result's buffer back whole -/

section Whole

variable (c : Dev nD)

/-- The staging scratch: its six slots owned at some contents give the buffer's points-to. -/
theorem sM_whole :
    BI.bigSep Finset.univ (fun t : Fin 3 × Fin 2 =>
        iprop(∃ Y, owns (c : Thread nD τ) (sM.slice (r4 t.1 t.2) (fun _ => rfl)) fullShare Y))
      ⊢ (iprop(∃ f, ((c : Thread nD τ).loc cc0_scratch0) ↦{fullShare} f) : sProp 𝕄) :=
  pointsTo_of_glue (c : Thread nD τ) fullShare cc0_scratch0 slots (fun _ _ => rfl) slots_disjoint slots_cover

/-- The landing scratch, the same. -/
theorem bM_whole :
    BI.bigSep Finset.univ (fun t : Fin 3 × Fin 2 =>
        iprop(∃ Y, owns (c : Thread nD τ) (bM.slice (r4 t.1 t.2) (fun _ => rfl)) fullShare Y))
      ⊢ (iprop(∃ f, ((c : Thread nD τ).loc cc0_scratch1) ↦{fullShare} f) : sProp 𝕄) :=
  pointsTo_of_glue (c : Thread nD τ) fullShare cc0_scratch1 slots (fun _ _ => rfl) slots_disjoint slots_cover

/-- The result's staging buffer from its eight halves. -/
theorem oM_whole :
    BI.bigSep Finset.univ (fun t : Dev nD × Fin 2 =>
        iprop(∃ Y, owns (c : Thread nD τ) (oM.slice (r2 t.1 t.2) (fun _ => rfl)) fullShare Y))
      ⊢ (iprop(∃ f, ((c : Thread nD τ).loc cc0_stg2_0) ↦{fullShare} f) : sProp 𝕄) :=
  pointsTo_of_glue (c : Thread nD τ) fullShare cc0_stg2_0 halves (fun _ _ => rfl) halves_disjoint halves_cover

/-- The same two scratch buffers from their slots seen as `[128, 512]`. -/
theorem sV_whole :
    BI.bigSep Finset.univ (fun t : Fin 3 × Fin 2 => iprop(∃ Y, owns (c : Thread nD τ) (sV t.1 t.2) fullShare Y))
      ⊢ (iprop(∃ f, ((c : Thread nD τ).loc cc0_scratch0) ↦{fullShare} f) : sProp 𝕄) := by
  have key : ∀ t : Fin 3 × Fin 2, (iprop(∃ Y, owns (c : Thread nD τ) (sV t.1 t.2) fullShare Y) : sProp 𝕄)
      ⊢ iprop(∃ Y, owns (c : Thread nD τ) (sM.slice (r4 t.1 t.2) (fun _ => rfl)) fullShare Y) := fun t => by
    iintro ⟨%Y, H⟩
    iexists shapeCast S1x1x128x512 Y shapeCasts_S128x512_S1x1x128x512
    iapply (Entails.of_eq (owns_slot_unsq c sM t.1 t.2 fullShare Y))
    iexact H
  exact (BI.bigSep_mono fun t _ => key t).trans (sM_whole (F := F) c)

theorem bV_whole :
    BI.bigSep Finset.univ (fun t : Fin 3 × Fin 2 => iprop(∃ Y, owns (c : Thread nD τ) (bV t.1 t.2) fullShare Y))
      ⊢ (iprop(∃ f, ((c : Thread nD τ).loc cc0_scratch1) ↦{fullShare} f) : sProp 𝕄) := by
  have key : ∀ t : Fin 3 × Fin 2, (iprop(∃ Y, owns (c : Thread nD τ) (bV t.1 t.2) fullShare Y) : sProp 𝕄)
      ⊢ iprop(∃ Y, owns (c : Thread nD τ) (bM.slice (r4 t.1 t.2) (fun _ => rfl)) fullShare Y) := fun t => by
    iintro ⟨%Y, H⟩
    iexists shapeCast S1x1x128x512 Y shapeCasts_S128x512_S1x1x128x512
    iapply (Entails.of_eq (owns_slot_unsq c bM t.1 t.2 fullShare Y))
    iexact H
  exact (BI.bigSep_mono fun t _ => key t).trans (bM_whole (F := F) c)

/-- The weight's scratch is one whole buffer. -/
theorem vM_whole (q : PosShare TreeShare) (X : S512x512.Idx → Elt F .bf16) :
    (owns (c : Thread nD τ) vM q X : sProp 𝕄) = ((c : Thread nD τ).loc cc0_scratch2) ↦{q} X :=
  owns_whole (c : Thread nD τ) cc0_scratch2 q X

end Whole

/-! ## The families listed in order -/

/-- The six slots in the order `(0,0), (0,1), (1,0), (1,1), (2,0), (2,1)`. -/
theorem bigSep_slots (Φ : Fin 3 × Fin 2 → sProp 𝕄) :
    BI.bigSep Finset.univ Φ = iprop(Φ (0, 0) ∗ Φ (0, 1) ∗ Φ (1, 0) ∗ Φ (1, 1) ∗ Φ (2, 0) ∗ Φ (2, 1)) :=
  BI.bigSep_univ_eq_bigSepL [(0, 0), (0, 1), (1, 0), (1, 1), (2, 0), (2, 1)] (by decide) (by decide) Φ

theorem halves_list_univ : ∀ c : Dev nD, (Finset.univ : Finset (Dev nD × Fin 2))
    = [(c, (0 : Fin 2)), (c, 1), (pe c 0, 0), (pe c 0, 1), (pe c 1, 0), (pe c 1, 1), (pe c 2, 0), (pe c 2, 1)].toFinset := by
  decide
theorem halves_list_nodup : ∀ c : Dev nD,
    [(c, (0 : Fin 2)), (c, 1), (pe c 0, 0), (pe c 0, 1), (pe c 1, 0), (pe c 1, 1), (pe c 2, 0), (pe c 2, 1)].Nodup := by
  decide

/-- The eight halves listed from device `c`'s own quarter round the other three. -/
theorem bigSep_halves (c : Dev nD) (Φ : Dev nD × Fin 2 → sProp 𝕄) :
    BI.bigSep Finset.univ Φ = iprop(Φ (c, 0) ∗ Φ (c, 1) ∗ Φ (pe c 0, 0) ∗ Φ (pe c 0, 1) ∗ Φ (pe c 1, 0) ∗ Φ (pe c 1, 1)
      ∗ Φ (pe c 2, 0) ∗ Φ (pe c 2, 1)) :=
  BI.bigSep_univ_eq_bigSepL _ (halves_list_univ c) (halves_list_nodup c) Φ

/-! ## A whole buffer split into a family, and the splits of the three buffers -/

/-- A whole buffer's points-to: each slice of a disjoint covering family owned at some contents. -/
theorem pointsTo_split (c : Thread nD τ) (q : PosShare TreeShare) (b : Ref sig c.2.kind) {T : Type} [Fintype T]
    [DecidableEq T] (r : T → Rect b.ty.shape) (hr : ∀ t a, (r t).stride a = 1)
    (hd : ∀ t t', t ≠ t' → Disjoint (r t).set (r t').set)
    (hcov : (Finset.univ : Finset T).biUnion (fun t => (r t).set) = Finset.univ) (f : b.ty.Contents (Elt F)) :
    ((c.loc b) ↦{q} f : sProp 𝕄)
      ⊢ BI.bigSep Finset.univ (fun t => iprop(∃ Y, owns c ((Memref.whole b).slice (r t) (hr t)) q Y)) := by
  have key : ∀ t, (owns c ((Memref.whole b).slice (r t) (hr t)) q (fun j => f ((r t).emb j)) : sProp 𝕄)
      ⊢ iprop(∃ Y, owns c ((Memref.whole b).slice (r t) (hr t)) q Y) := fun t => by
    iintro H
    iexists (fun j => f ((r t).emb j))
    iexact H
  exact (Entails.of_eq (owns_whole c b q f).symm).trans
    ((owns_rects c (Memref.whole b) q r hr hd hcov f).trans (BI.bigSep_mono fun t _ => key t))

section Splits

variable (c : Dev nD)

/-- The staging scratch split into its six slots, each owned at some contents. -/
theorem sM_split (f : Buf (Elt F) ((c : Thread nD τ).loc cc0_scratch0)) :
    (((c : Thread nD τ).loc cc0_scratch0) ↦{fullShare} f : sProp 𝕄)
      ⊢ iprop((∃ Y, owns (c : Thread nD τ) (sM.slice (r4 0 0) (fun _ => rfl)) fullShare Y)
          ∗ (∃ Y, owns (c : Thread nD τ) (sM.slice (r4 0 1) (fun _ => rfl)) fullShare Y)
          ∗ (∃ Y, owns (c : Thread nD τ) (sM.slice (r4 1 0) (fun _ => rfl)) fullShare Y)
          ∗ (∃ Y, owns (c : Thread nD τ) (sM.slice (r4 1 1) (fun _ => rfl)) fullShare Y)
          ∗ (∃ Y, owns (c : Thread nD τ) (sM.slice (r4 2 0) (fun _ => rfl)) fullShare Y)
          ∗ (∃ Y, owns (c : Thread nD τ) (sM.slice (r4 2 1) (fun _ => rfl)) fullShare Y)) :=
  (pointsTo_split (c : Thread nD τ) fullShare cc0_scratch0 slots (fun _ _ => rfl) slots_disjoint slots_cover f).trans
    (Entails.of_eq (bigSep_slots _))

/-- The landing scratch, the same. -/
theorem bM_split (f : Buf (Elt F) ((c : Thread nD τ).loc cc0_scratch1)) :
    (((c : Thread nD τ).loc cc0_scratch1) ↦{fullShare} f : sProp 𝕄)
      ⊢ iprop((∃ Y, owns (c : Thread nD τ) (bM.slice (r4 0 0) (fun _ => rfl)) fullShare Y)
          ∗ (∃ Y, owns (c : Thread nD τ) (bM.slice (r4 0 1) (fun _ => rfl)) fullShare Y)
          ∗ (∃ Y, owns (c : Thread nD τ) (bM.slice (r4 1 0) (fun _ => rfl)) fullShare Y)
          ∗ (∃ Y, owns (c : Thread nD τ) (bM.slice (r4 1 1) (fun _ => rfl)) fullShare Y)
          ∗ (∃ Y, owns (c : Thread nD τ) (bM.slice (r4 2 0) (fun _ => rfl)) fullShare Y)
          ∗ (∃ Y, owns (c : Thread nD τ) (bM.slice (r4 2 1) (fun _ => rfl)) fullShare Y)) :=
  (pointsTo_split (c : Thread nD τ) fullShare cc0_scratch1 slots (fun _ _ => rfl) slots_disjoint slots_cover f).trans
    (Entails.of_eq (bigSep_slots _))

/-- A slot owned at some contents, seen as `[128, 512]`: owned at some contents. -/
theorem slot_to_sq (M : Memref sig .tc .vmem S3x2x128x512 .bf16) (a : Fin 3) (i : Fin 2) :
    (iprop(∃ Y, owns (c : Thread nD τ) (M.slice (r4 a i) (fun _ => rfl)) fullShare Y) : sProp 𝕄)
      ⊢ iprop(∃ Y, owns (c : Thread nD τ)
          ((M.slice (r4 a i) (fun _ => rfl)).squeeze S128x512 squeezes_S1x1x128x512_S128x512) fullShare Y) := by
  iintro ⟨%Y, H⟩
  iexists sq Y
  iapply (Entails.of_eq (owns_slot_sq c M a i fullShare Y).symm)
  iexact H

/-- and back. -/
theorem sq_to_slot (M : Memref sig .tc .vmem S3x2x128x512 .bf16) (a : Fin 3) (i : Fin 2) :
    (iprop(∃ Y, owns (c : Thread nD τ)
          ((M.slice (r4 a i) (fun _ => rfl)).squeeze S128x512 squeezes_S1x1x128x512_S128x512) fullShare Y) : sProp 𝕄)
      ⊢ iprop(∃ Y, owns (c : Thread nD τ) (M.slice (r4 a i) (fun _ => rfl)) fullShare Y) := by
  iintro ⟨%Y, H⟩
  iexists shapeCast S1x1x128x512 Y shapeCasts_S128x512_S1x1x128x512
  iapply (Entails.of_eq (owns_slot_unsq c M a i fullShare Y))
  iexact H

/-- The staging scratch split into its six slots seen as `[128, 512]`. -/
theorem sV_split (f : Buf (Elt F) ((c : Thread nD τ).loc cc0_scratch0)) :
    (((c : Thread nD τ).loc cc0_scratch0) ↦{fullShare} f : sProp 𝕄)
      ⊢ iprop((∃ Y, owns (c : Thread nD τ) (sV 0 0) fullShare Y) ∗ (∃ Y, owns (c : Thread nD τ) (sV 0 1) fullShare Y)
          ∗ (∃ Y, owns (c : Thread nD τ) (sV 1 0) fullShare Y) ∗ (∃ Y, owns (c : Thread nD τ) (sV 1 1) fullShare Y)
          ∗ (∃ Y, owns (c : Thread nD τ) (sV 2 0) fullShare Y) ∗ (∃ Y, owns (c : Thread nD τ) (sV 2 1) fullShare Y)) :=
  (sM_split c f).trans (BI.sep_mono (slot_to_sq c sM 0 0) (BI.sep_mono (slot_to_sq c sM 0 1) (BI.sep_mono (slot_to_sq c sM 1 0)
    (BI.sep_mono (slot_to_sq c sM 1 1) (BI.sep_mono (slot_to_sq c sM 2 0) (slot_to_sq c sM 2 1))))))

theorem bV_split (f : Buf (Elt F) ((c : Thread nD τ).loc cc0_scratch1)) :
    (((c : Thread nD τ).loc cc0_scratch1) ↦{fullShare} f : sProp 𝕄)
      ⊢ iprop((∃ Y, owns (c : Thread nD τ) (bV 0 0) fullShare Y) ∗ (∃ Y, owns (c : Thread nD τ) (bV 0 1) fullShare Y)
          ∗ (∃ Y, owns (c : Thread nD τ) (bV 1 0) fullShare Y) ∗ (∃ Y, owns (c : Thread nD τ) (bV 1 1) fullShare Y)
          ∗ (∃ Y, owns (c : Thread nD τ) (bV 2 0) fullShare Y) ∗ (∃ Y, owns (c : Thread nD τ) (bV 2 1) fullShare Y)) :=
  (bM_split c f).trans (BI.sep_mono (slot_to_sq c bM 0 0) (BI.sep_mono (slot_to_sq c bM 0 1) (BI.sep_mono (slot_to_sq c bM 1 0)
    (BI.sep_mono (slot_to_sq c bM 1 1) (BI.sep_mono (slot_to_sq c bM 2 0) (slot_to_sq c bM 2 1))))))

/-- The join back: the six slots seen as `[128, 512]`, each owned at some contents, are the buffer at some contents. -/
theorem sV_join :
    (iprop((∃ Y, owns (c : Thread nD τ) (sV 0 0) fullShare Y) ∗ (∃ Y, owns (c : Thread nD τ) (sV 0 1) fullShare Y)
          ∗ (∃ Y, owns (c : Thread nD τ) (sV 1 0) fullShare Y) ∗ (∃ Y, owns (c : Thread nD τ) (sV 1 1) fullShare Y)
          ∗ (∃ Y, owns (c : Thread nD τ) (sV 2 0) fullShare Y) ∗ (∃ Y, owns (c : Thread nD τ) (sV 2 1) fullShare Y)) : sProp 𝕄)
      ⊢ iprop(∃ f, ((c : Thread nD τ).loc cc0_scratch0) ↦{fullShare} f) :=
  (Entails.of_eq (bigSep_slots (fun t : Fin 3 × Fin 2 =>
    (iprop(∃ Y, owns (c : Thread nD τ) (sV t.1 t.2) fullShare Y) : sProp 𝕄))).symm).trans (sV_whole c)

theorem bV_join :
    (iprop((∃ Y, owns (c : Thread nD τ) (bV 0 0) fullShare Y) ∗ (∃ Y, owns (c : Thread nD τ) (bV 0 1) fullShare Y)
          ∗ (∃ Y, owns (c : Thread nD τ) (bV 1 0) fullShare Y) ∗ (∃ Y, owns (c : Thread nD τ) (bV 1 1) fullShare Y)
          ∗ (∃ Y, owns (c : Thread nD τ) (bV 2 0) fullShare Y) ∗ (∃ Y, owns (c : Thread nD τ) (bV 2 1) fullShare Y)) : sProp 𝕄)
      ⊢ iprop(∃ f, ((c : Thread nD τ).loc cc0_scratch1) ↦{fullShare} f) :=
  (Entails.of_eq (bigSep_slots (fun t : Fin 3 × Fin 2 =>
    (iprop(∃ Y, owns (c : Thread nD τ) (bV t.1 t.2) fullShare Y) : sProp 𝕄))).symm).trans (bV_whole c)

/-- The result's staging buffer split into its eight halves, listed from `c`'s own quarter round the others. -/
theorem oV_split (g : Buf (Elt F) ((c : Thread nD τ).loc cc0_stg2_0)) :
    (((c : Thread nD τ).loc cc0_stg2_0) ↦{fullShare} g : sProp 𝕄)
      ⊢ iprop((∃ Y, owns (c : Thread nD τ) (oV c 0) fullShare Y) ∗ (∃ Y, owns (c : Thread nD τ) (oV c 1) fullShare Y)
          ∗ (∃ Y, owns (c : Thread nD τ) (oV (pe c 0) 0) fullShare Y) ∗ (∃ Y, owns (c : Thread nD τ) (oV (pe c 0) 1) fullShare Y)
          ∗ (∃ Y, owns (c : Thread nD τ) (oV (pe c 1) 0) fullShare Y) ∗ (∃ Y, owns (c : Thread nD τ) (oV (pe c 1) 1) fullShare Y)
          ∗ (∃ Y, owns (c : Thread nD τ) (oV (pe c 2) 0) fullShare Y) ∗ (∃ Y, owns (c : Thread nD τ) (oV (pe c 2) 1) fullShare Y)) :=
  (pointsTo_split (c : Thread nD τ) fullShare cc0_stg2_0 halves (fun _ _ => rfl) halves_disjoint halves_cover g).trans
    (Entails.of_eq (bigSep_halves c _))

end Splits

/-! ## The result's buffer on one half, and the halves joined -/

section Result

variable (m : (ℓ : Loc nD τ sig) → Buf (Elt F) ℓ)

theorem yX_congr {q q' : Dev nD} {i i' : Fin 2} {x x' : S128x512.Idx} (hq : q' = q) (hi : i' = i) (hx : x' = x) :
    yX m q' i' x' = yX m q i x := by
  subst hq hi hx; rfl

/-- The result's buffer at the place of index `j` of half `i` of quarter `q` is that half's value at `j`. -/
theorem outAt_emb (q : Dev nD) (i : Fin 2) (j : (r2 q i).shape.Idx) : outAt m ((r2 q i).emb j) = yX m q i j := by
  have h0 : ((r2 q i).emb j 0).val = 256 * q.val + 128 * i.val + (j 0).val := by
    rw [Rect.emb_apply]
    show 256 * q.val + 128 * i.val + 1 * (j 0).val = _
    omega
  have h1 : ((r2 q i).emb j 1).val = (j 1).val := by
    rw [Rect.emb_apply]
    show 0 + 1 * (j 1).val = _
    omega
  have hj0 : (j 0).val < 128 := (j 0).isLt
  have hj1 : (j 1).val < 512 := (j 1).isLt
  have hq : q.val < 4 := q.isLt
  have hi : i.val < 2 := i.isLt
  unfold outAt
  refine yX_congr m (Fin.ext ?_) (Fin.ext ?_) (funext fun a => Fin.ext ?_)
  · show ((r2 q i).emb j 0).val / 256 % 4 = q.val
    rw [h0]; omega
  · show ((r2 q i).emb j 0).val % 256 / 128 % 2 = i.val
    rw [h0]; omega
  · match a with
    | ⟨0, _⟩ =>
      show ((r2 q i).emb j 0).val % 128 = (j 0).val
      rw [h0]; omega
    | ⟨1, _⟩ =>
      show ((r2 q i).emb j 1).val % 512 = (j 1).val
      rw [h1]; omega

/-- The same as an equation of functions on the half's indices. -/
theorem outAt_emb_fun (q : Dev nD) (i : Fin 2) : (fun j => outAt m ((r2 q i).emb j)) = yX m q i :=
  funext fun j => outAt_emb m q i j

/-- The eight halves, each owned at its value, are the result's buffer holding the whole result. -/
theorem oV_join (c : Dev nD) :
    (iprop(owns (c : Thread nD τ) (oV c 0) fullShare (yX m c 0) ∗ owns (c : Thread nD τ) (oV c 1) fullShare (yX m c 1)
        ∗ owns (c : Thread nD τ) (oV (pe c 0) 0) fullShare (yX m (pe c 0) 0)
        ∗ owns (c : Thread nD τ) (oV (pe c 0) 1) fullShare (yX m (pe c 0) 1)
        ∗ owns (c : Thread nD τ) (oV (pe c 1) 0) fullShare (yX m (pe c 1) 0)
        ∗ owns (c : Thread nD τ) (oV (pe c 1) 1) fullShare (yX m (pe c 1) 1)
        ∗ owns (c : Thread nD τ) (oV (pe c 2) 0) fullShare (yX m (pe c 2) 0)
        ∗ owns (c : Thread nD τ) (oV (pe c 2) 1) fullShare (yX m (pe c 2) 1)) : sProp 𝕄)
      ⊢ iprop(∃ f : Buf (Elt F) ((c : Thread nD τ).loc cc0_stg2_0),
          ⌜f = outAt m⌝ ∗ (((c : Thread nD τ).loc cc0_stg2_0) ↦{fullShare} f)) := by
  refine (Entails.of_eq (bigSep_halves c (fun t : Dev nD × Fin 2 =>
    (owns (c : Thread nD τ) (oV t.1 t.2) fullShare (yX m t.1 t.2) : sProp 𝕄))).symm).trans ?_
  have e : (fun t : Dev nD × Fin 2 => (owns (c : Thread nD τ) (oV t.1 t.2) fullShare (yX m t.1 t.2) : sProp 𝕄))
      = fun t => owns (c : Thread nD τ) (oM.slice (halves t) (fun _ => rfl)) fullShare
          (fun j => outAt m ((halves t).emb j)) :=
    funext fun t => by rw [outAt_emb_fun]
  rw [e]
  refine (owns_of_rects (c : Thread nD τ) oM fullShare halves (fun _ _ => rfl) halves_disjoint halves_cover (outAt m)).trans ?_
  exact Entails.of_eq (owns_whole_eq (c : Thread nD τ) cc0_stg2_0 fullShare (outAt m))

end Result

/-! ## Stores and loads at the printed rectangles -/

section Printed

variable (c : Dev nD) (i : Fin 2)

/-- A store through the whole result memref at a rectangle whose offsets are half `i` of `c`'s quarter, read back
    through that half. -/
theorem read_oV_write (off : Fin 2 → Nat) (hoff : off = ![256 * c.val + 128 * i.val, 0])
    (p : ∀ a, off a + S128x512.size a ≤ S1024x512.size a)
    (f : (oM.access (Rect.unit off S128x512.size p)).ty.Contents (Elt F)) (w : S128x512.Idx → Elt F .bf16) :
    (oV c i).view.read (Elt F) ((oM.access (Rect.unit off S128x512.size p)).write (Elt F) f w Finset.univ) = w := by
  subst hoff
  exact View.read_write_univ _ _

/-- The elements such a store touches are the half's. -/
theorem setOn_oV_store (off : Fin 2 → Nat) (hoff : off = ![256 * c.val + 128 * i.val, 0])
    (p : ∀ a, off a + S128x512.size a ≤ S1024x512.size a) :
    (oM.access (Rect.unit off S128x512.size p)).setOn Finset.univ ⊆ (oV c i).view.set := by
  subst hoff
  exact subset_rfl

/-- The elements a load at that rectangle touches are the half's. -/
theorem setOn_oV_load (off : Fin 2 → Nat) (hoff : off = ![256 * c.val + 128 * i.val, 0])
    (p : ∀ a, off a + S128x512.size a ≤ S1024x512.size a) :
    oM.view.setOn (Rect.unit (s := S1024x512) off S128x512.size p).set ⊆ (oV c i).view.set := by
  subst hoff
  exact (setOn_load_eq oM (r2 c i) (fun _ => rfl)).subset

/-- Every access to the result's buffer, and every half, sits in that one buffer. -/
theorem loc_oM_access (d : Dev nD) (R : Rect S1024x512) (q : Dev nD) :
    (oM.access R).loc (d : Thread nD τ) = (oV q i).view.loc (d : Thread nD τ) := rfl

variable (a : Fin 3)

/-- A slot seen as `[128, 512]` has the slot's elements, -/
theorem set_sV : (sV a i).view.set = (sM.slice (r4 a i) (fun _ => rfl)).view.set := View.set_reshape _ _
theorem set_bV : (bV a i).view.set = (bM.slice (r4 a i) (fun _ => rfl)).view.set := View.set_reshape _ _

/-- reads what a load through the buffer at the slot reads, seen as `[128, 512]`, -/
theorem read_sV (f : sM.view.ty.Contents (Elt F)) :
    (sV a i).view.read (Elt F) f = sq (sM.view.readAt (Elt F) (r4 a i).toLoadRect f) := rfl
theorem read_bV (f : bM.view.ty.Contents (Elt F)) :
    (bV a i).view.read (Elt F) f = sq (bM.view.readAt (Elt F) (r4 a i).toLoadRect f) := rfl

/-- and what a store on every index through the buffer at the slot writes, it reads seen as `[128, 512]`. -/
theorem read_sV_write (f : (sM.access (r4 a i)).ty.Contents (Elt F)) (w : FVec F S1x1x128x512 .bf16) :
    (sV a i).view.read (Elt F) ((sM.access (r4 a i)).write (Elt F) f w Finset.univ) = sq w := by
  show shapeCast S128x512 ((sM.slice (r4 a i) (fun _ => rfl)).view.read (Elt F) _) _ = _
  rw [read_slice_write_access]
theorem read_bV_write (f : (bM.access (r4 a i)).ty.Contents (Elt F)) (w : FVec F S1x1x128x512 .bf16) :
    (bV a i).view.read (Elt F) ((bM.access (r4 a i)).write (Elt F) f w Finset.univ) = sq w := by
  show shapeCast S128x512 ((bM.slice (r4 a i) (fun _ => rfl)).view.read (Elt F) _) _ = _
  rw [read_slice_write_access]

/-- The elements a load or a store at the slot touches are the squeezed slot's. -/
theorem setOn_sV_load : sM.view.setOn (r4 a i).set ⊆ (sV a i).view.set := by
  rw [set_sV]; exact setOn_load_subset sM (r4 a i) (fun _ => rfl)
theorem setOn_bV_load : bM.view.setOn (r4 a i).set ⊆ (bV a i).view.set := by
  rw [set_bV]; exact setOn_load_subset bM (r4 a i) (fun _ => rfl)
theorem setOn_sV_store : (sM.access (r4 a i)).setOn Finset.univ ⊆ (sV a i).view.set := by
  rw [set_sV]; exact setOn_store_subset sM (r4 a i) (fun _ => rfl)
theorem setOn_bV_store : (bM.access (r4 a i)).setOn Finset.univ ⊆ (bV a i).view.set := by
  rw [set_bV]; exact setOn_store_subset bM (r4 a i) (fun _ => rfl)

theorem loc_sV (d : Dev nD) : (sV a i).view.loc (d : Thread nD τ) = sM.view.loc (d : Thread nD τ) := rfl
theorem loc_bV (d : Dev nD) : (bV a i).view.loc (d : Thread nD τ) = bM.view.loc (d : Thread nD τ) := rfl

end Printed

end Cert.KernelIdeal.Coll

end
-- ==== Proof.KernelIdealBody.lean ====
/-
  One thread's body, from what the launch hands it to what the pipeline takes back.

  Device `c` first hands each peer, with its entry signal, the slot of its landing buffer and the rows of its result
  buffer that peer will write, and stages its own rows of each peer's quarter, rounded, one slot per peer and half. With
  the three peers' signals it receives the like from them. It copies each staged slot into the slot the peer keeps for
  it; per half it then waits for the three peers' rows of its own quarter, adds them to its own rows, multiplies by
  the rounded weights, stores the half into its rows of the result and copies it, at a third of the rows' share each, to
  the three peers. It waits for the six halves the peers send, and for its twelve copies to have left; its 24 cells close.

  What each buffer holds is followed slot by slot and half by half: a staged slot reads `stg m c a i`, a landed slot
  `rcv m c a i`, this device's half `yX m c i` (the sum of the four devices' rows times the weights, in the order own,
  first, second, third peer) and a peer's half `yX m (pe c a) i`; the eight halves are the result `outAt m`.
-/
import proofs.«900370_g7700000000000371_dist_matmul_of_ar_i_m1024_n512_k512_v7x_i4_f32_1_alg».proof.Proof.KernelIdealProto
import proofs.«900370_g7700000000000371_dist_matmul_of_ar_i_m1024_n512_k512_v7x_i4_f32_1_alg».proof.Proof.KernelIdealBodyDefs
import proofs.«900370_g7700000000000371_dist_matmul_of_ar_i_m1024_n512_k512_v7x_i4_f32_1_alg».proof.Proof.KernelIdealSteps
import proofs.«900370_g7700000000000371_dist_matmul_of_ar_i_m1024_n512_k512_v7x_i4_f32_1_alg».proof.Proof.KernelIdealGeom
import Idealize.ShloMosaic.Lib.StableHlo.CollectiveRules

noncomputable section

namespace Cert.KernelIdeal.Coll

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The printed spelling of the semaphores and views, identified -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
theorem bigSep_cells (Φ : CK → sProp 𝕄) :
    bigSep Finset.univ Φ = iprop(Φ (none) ∗ Φ (some (0, 0, 0)) ∗ Φ (some (0, 0, 1)) ∗ Φ (some (0, 1, 0)) ∗ Φ (some (0, 1, 1)) ∗ Φ (some (0, 2, 0)) ∗ Φ (some (0, 2, 1)) ∗ Φ (some (1, 0, 0)) ∗ Φ (some (1, 0, 1)) ∗ Φ (some (1, 1, 0)) ∗ Φ (some (1, 1, 1)) ∗ Φ (some (1, 2, 0)) ∗ Φ (some (1, 2, 1)) ∗ Φ (some (2, 0, 0)) ∗ Φ (some (2, 0, 1)) ∗ Φ (some (2, 1, 0)) ∗ Φ (some (2, 1, 1)) ∗ Φ (some (2, 2, 0)) ∗ Φ (some (2, 2, 1)) ∗ Φ (some (3, 0, 0)) ∗ Φ (some (3, 0, 1)) ∗ Φ (some (3, 1, 0)) ∗ Φ (some (3, 1, 1)) ∗ Φ (some (3, 2, 0)) ∗ Φ (some (3, 2, 1))) :=
  bigSep_univ_eq_bigSepL [none, some (0, 0, 0), some (0, 0, 1), some (0, 1, 0), some (0, 1, 1), some (0, 2, 0), some (0, 2, 1), some (1, 0, 0), some (1, 0, 1), some (1, 1, 0), some (1, 1, 1), some (1, 2, 0), some (1, 2, 1), some (2, 0, 0), some (2, 0, 1), some (2, 1, 0), some (2, 1, 1), some (2, 2, 0), some (2, 2, 1), some (3, 0, 0), some (3, 0, 1), some (3, 1, 0), some (3, 1, 1), some (3, 2, 0), some (3, 2, 1)] (by decide) (by decide) Φ

/-- The receive cells a copy names on the peer, through the printed slot offsets. -/
theorem semR_rs0 : ∀ (c : Dev nD) (r : Fin 3), ((cc0_scratch4.slice (Rect.unit (s := S3x2) (k0_off2 c (BitVec.ofNat 32 (1 + r.val))) S1x1.size (k0_off2_inb c r))).squeeze S_ squeezes_S1x1_S_).sem = dsem 1 (back r) 0 := by decide +kernel
theorem semR_rs1 : ∀ (c : Dev nD) (r : Fin 3), ((cc0_scratch4.slice (Rect.unit (s := S3x2) (k0_off4 c (BitVec.ofNat 32 (1 + r.val))) S1x1.size (k0_off4_inb c r))).squeeze S_ squeezes_S1x1_S_).sem = dsem 1 (back r) 1 := by decide +kernel
theorem semR_ag0 : ∀ (c : Dev nD) (r : Fin 3), ((cc0_scratch6.slice (Rect.unit (s := S3x2) (k0_off2 c (BitVec.ofNat 32 (1 + r.val))) S1x1.size (k0_off2_inb c r))).squeeze S_ squeezes_S1x1_S_).sem = dsem 3 (back r) 0 := by decide +kernel
theorem semR_ag1 : ∀ (c : Dev nD) (r : Fin 3), ((cc0_scratch6.slice (Rect.unit (s := S3x2) (k0_off4 c (BitVec.ofNat 32 (1 + r.val))) S1x1.size (k0_off4_inb c r))).squeeze S_ squeezes_S1x1_S_).sem = dsem 3 (back r) 1 := by decide +kernel

/-- The landing slot a reduce-scatter copy names on the peer. -/
theorem dst_rs0 (c : Dev nD) (r : Fin 3) :
    ((bM.slice (Rect.unit (s := S3x2x128x512) (k0_off3 c (BitVec.ofNat 32 (1 + r.val))) S1x1x128x512.size (k0_off3_inb c r)) (fun _ => rfl)).squeeze S128x512 squeezes_S1x1x128x512_S128x512) = bV (back r) 0 :=
  congrArg (fun M : Memref sig .tc .vmem S1x1x128x512 .bf16 => M.squeeze S128x512 squeezes_S1x1x128x512_S128x512)
    (Memref.slice_unit_congr bM (off3_eq c r) _ (inb4 (back r) 0) _ (fun _ => rfl))
theorem dst_rs1 (c : Dev nD) (r : Fin 3) :
    ((bM.slice (Rect.unit (s := S3x2x128x512) (k0_off5 c (BitVec.ofNat 32 (1 + r.val))) S1x1x128x512.size (k0_off5_inb c r)) (fun _ => rfl)).squeeze S128x512 squeezes_S1x1x128x512_S128x512) = bV (back r) 1 :=
  congrArg (fun M : Memref sig .tc .vmem S1x1x128x512 .bf16 => M.squeeze S128x512 squeezes_S1x1x128x512_S128x512)
    (Memref.slice_unit_congr bM (off5_eq c r) _ (inb4 (back r) 1) _ (fun _ => rfl))
/-- The rows of the result an all-gather copy names, on the issuer and on the peer alike. -/
theorem rows_ag (c : Dev nD) (r : Fin 2) :
    (oM.slice (Rect.unit (s := S1024x512) (k0_off7 c (BitVec.ofNat 32 (128 * r.val))) S128x512.size (k0_off7_inb c r)) (fun _ => rfl)) = oV c r :=
  Memref.slice_unit_congr oM (k0_off7_eq c r) _ (inb2 c r) _ (fun _ => rfl)

theorem bigSep_DK (Φ : Fin 4 × Fin 3 × Fin 2 → sProp 𝕄) :
    bigSep Finset.univ Φ = iprop(Φ (0, 0, 0) ∗ Φ (0, 0, 1) ∗ Φ (0, 1, 0) ∗ Φ (0, 1, 1) ∗ Φ (0, 2, 0) ∗ Φ (0, 2, 1) ∗ Φ (1, 0, 0) ∗ Φ (1, 0, 1) ∗ Φ (1, 1, 0) ∗ Φ (1, 1, 1) ∗ Φ (1, 2, 0) ∗ Φ (1, 2, 1) ∗ Φ (2, 0, 0) ∗ Φ (2, 0, 1) ∗ Φ (2, 1, 0) ∗ Φ (2, 1, 1) ∗ Φ (2, 2, 0) ∗ Φ (2, 2, 1) ∗ Φ (3, 0, 0) ∗ Φ (3, 0, 1) ∗ Φ (3, 1, 0) ∗ Φ (3, 1, 1) ∗ Φ (3, 2, 0) ∗ Φ (3, 2, 1)) :=
  bigSep_univ_eq_bigSepL [(0, 0, 0), (0, 0, 1), (0, 1, 0), (0, 1, 1), (0, 2, 0), (0, 2, 1), (1, 0, 0), (1, 0, 1), (1, 1, 0), (1, 1, 1), (1, 2, 0), (1, 2, 1), (2, 0, 0), (2, 0, 1), (2, 1, 0), (2, 1, 1), (2, 2, 0), (2, 2, 1), (3, 0, 0), (3, 0, 1), (3, 1, 0), (3, 1, 1), (3, 2, 0), (3, 2, 1)] (by decide) (by decide) Φ

/-! ## What the body's loads read -/

/-- Rows `256 q + 128 i ..+128` of the staged argument, through any spelling of the offsets. -/
theorem tBlk_of_off (c q : Dev nD) (i : Fin 2) (off : Fin 2 → Nat) (hoff : off = ![256 * q.val + 128 * i.val, 0])
    (p : ∀ a, off a + S128x512.size a ≤ S1024x512.size a) :
    (tM : Memref sig .tc .vmem S1024x512 .f32).view.readAt (Elt F) (Rect.unit (s := S1024x512) off S128x512.size p).toLoadRect (tIn m c)
      = tBlk m c q i := by
  subst hoff; rfl
theorem tBlk_off1 (c : Dev nD) (a : Fin 3) (i : Fin 2) :
    (tM : Memref sig .tc .vmem S1024x512 .f32).view.readAt (Elt F)
      (Rect.unit (s := S1024x512) (k0_off1 c (BitVec.ofNat 32 (1 + a.val)) (BitVec.ofNat 32 (128 * i.val))) S128x512.size (k0_off1_inb c a i)).toLoadRect (tIn m c)
      = tBlk m c (pe c a) i := tBlk_of_off m c (pe c a) i _ (off1_eq c a i) _
theorem tBlk_off6 (c : Dev nD) (i : Fin 2) :
    (tM : Memref sig .tc .vmem S1024x512 .f32).view.readAt (Elt F)
      (Rect.unit (s := S1024x512) (k0_off6 c (BitVec.ofNat 32 (128 * i.val))) S128x512.size (k0_off6_inb c i)).toLoadRect (tIn m c)
      = tBlk m c c i := tBlk_of_off m c c i _ (k0_off6_eq c i) _

/-- A whole buffer's points-to, stated through the whole memref's view. -/
theorem pts_whole (c : Dev nD) (b : Ref sig .tc) (q : PosShare TreeShare) (f : Buf (Elt F) ((c : Thread nD τ).loc b)) :
    ((((c : Thread nD τ).loc b) ↦{q} f) : sProp 𝕄)
      = ((Memref.whole b : Memref sig .tc _ _ _).view.loc (c : Thread nD τ) ↦[(Memref.whole b : Memref sig .tc _ _ _).view.set]{q} f) := by
  rw [View.set_whole]

theorem lv_rs : ∀ (c : Dev nD) (a : Fin 3) (i : Fin 2), lv (dcell c 1 a i) () = 2 := by decide
theorem lv_ag : ∀ (c : Dev nD) (a : Fin 3) (i : Fin 2), lv (dcell c 3 a i) () = 3 := by decide
theorem lv_send : ∀ (c : Dev nD) (a : Fin 3) (i : Fin 2), lv (dcell c 0 a i) () = 0 ∧ lv (dcell c 2 a i) () = 0 := by decide

theorem pay_s (c : Dev nD) (a : Fin 3) (i : Fin 2) : pay m c 0 a i = owns (c : Thread nD τ) (sV a i) fullShare (sq (stg m c a i)) := rfl
theorem pay_r (c : Dev nD) (a : Fin 3) (i : Fin 2) : pay m c 1 a i = owns (c : Thread nD τ) (bV a i) fullShare (sq (rcv m c a i)) := rfl
theorem pay_g (c : Dev nD) (a : Fin 3) (i : Fin 2) : pay m c 2 a i = owns (c : Thread nD τ) (oV c i) (agShare a) (yX m c i) := rfl
theorem pay_a (c : Dev nD) (a : Fin 3) (i : Fin 2) : pay m c 3 a i = owns (c : Thread nD τ) (oV (pe c a) i) fullShare (yX m (pe c a) i) := rfl

/-! ## A half of the result lent to three copies at once -/

theorem share3 (c : Dev nD) (M : Memref sig .tc .vmem S128x512 .bf16) (Y : S128x512.Idx → Elt F .bf16) :
    (owns (c : Thread nD τ) M fullShare Y : sProp 𝕄)
      ⊢ iprop(owns (c : Thread nD τ) M (agShare 0) Y ∗ owns (c : Thread nD τ) M (agShare 1) Y ∗ owns (c : Thread nD τ) M (agShare 2) Y) := by
  iintro H
  ihave H := (owns_share (c : Thread nD τ) M (PosShare.mem_left_op_right fullShare) Y).1 $$ H
  icases H with ⟨H0, H⟩
  ihave H := (owns_share (c : Thread nD τ) M (PosShare.mem_left_op_right fullShare.right) Y).1 $$ H
  icases H with ⟨H1, H2⟩
  isplitl [H0]; · iexact H0
  isplitl [H1]; · iexact H1
  iexact H2
theorem unshare3 (c : Dev nD) (M : Memref sig .tc .vmem S128x512 .bf16) (Y : S128x512.Idx → Elt F .bf16) :
    iprop(owns (c : Thread nD τ) M (agShare 0) Y ∗ owns (c : Thread nD τ) M (agShare 1) Y ∗ owns (c : Thread nD τ) M (agShare 2) Y)
      ⊢ (owns (c : Thread nD τ) M fullShare Y : sProp 𝕄) := by
  iintro ⟨H0, H1, H2⟩
  ihave H := (owns_share (c : Thread nD τ) M (PosShare.mem_left_op_right fullShare.right) Y).2 $$ [H1 H2]
  · isplitl [H1]; · iexact H1
    iexact H2
  iapply (owns_share (c : Thread nD τ) M (PosShare.mem_left_op_right fullShare) Y).2
  isplitl [H0]; · iexact H0
  iexact H

theorem owns_open (c : Dev nD) (M : Memref sig .tc .vmem S128x512 .bf16) (q : PosShare TreeShare) (X : S128x512.Idx → Elt F .bf16) :
    (owns (c : Thread nD τ) M q X : sProp 𝕄) ⊢ iprop(∃ f, ⌜M.view.read (Elt F) f = X⌝ ∗ (M.view.loc (c : Thread nD τ) ↦[M.view.set]{q} f)) := BI.Entails.refl _
theorem owns_open4 (c : Dev nD) (M : Memref sig .tc .vmem S1x1x128x512 .bf16) (q : PosShare TreeShare) (X : S1x1x128x512.Idx → Elt F .bf16) :
    (owns (c : Thread nD τ) M q X : sProp 𝕄) ⊢ iprop(∃ f, ⌜M.view.read (Elt F) f = X⌝ ∗ (M.view.loc (c : Thread nD τ) ↦[M.view.set]{q} f)) := BI.Entails.refl _

theorem hz2 : (![0, 0] : Fin 2 → Nat) = fun _ => 0 := funext fun a => by fin_cases a <;> rfl

/-- A proposition held under a name of its own. -/
def Kept (p : Prop) : Prop := p
theorem Kept.intro {p : Prop} (h : p) : Kept p := h
theorem Kept.out {p : Prop} (h : Kept p) : p := h

/-- Nothing owed, whatever waits were recorded, is what the pipeline asks back after the point. -/
theorem owes_done (c : Dev nD) (W' : Waits sig Unit) :
    (owes (c : Thread nD τ) (0 : CellTallies nD τ sig Unit) W' : sProp 𝕄)
      ⊢ iprop(∃ W : Waits sig Unit, ⌜(↑W : Set (SemLoc sig × Unit)) ⊆ (dats m ρ 0 c).bound () (t0_0 : Fin cfg0.N).succ⌝ ∗ owes (c : Thread nD τ) 0 W) := by
  iintro H
  iexists W'
  isplitr; · (ipureintro; exact fun _ _ => Or.inl trivial)
  iexact H

set_option maxHeartbeats 3200000 in
theorem sound_body : BodySound (F := F) m ρ := by
  intro K c Kt
  unfold bodyPre ghost posns payToks creds scr theBody
  iintro ⟨⟨⟨⟨#HR, Hpos, Htok⟩, Hcr, #Hlev, ⟨%f3, Hs⟩, ⟨%f4, Hb⟩, ⟨%f5, Hv⟩⟩, Ho, ⟨%d0, %g0, %hg0, Ht⟩, ⟨%d1, %g1, %hg1, Hw⟩, ⟨%d2, %g2, %hg2, Hout⟩⟩, Hk⟩
  simp only [bigSep_fin3, bigSep_fin32, bigSep_cells]
  icases Hpos with ⟨HpB, Hps00, Hps01, Hps10, Hps11, Hps20, Hps21, Hpr00, Hpr01, Hpr10, Hpr11, Hpr20, Hpr21, Hpg00, Hpg01, Hpg10, Hpg11, Hpg20, Hpg21, Hpa00, Hpa01, Hpa10, Hpa11, Hpa20, Hpa21⟩
  icases Htok with ⟨⟨HtB0, HtB1, HtB2⟩, ⟨Htr00, Htr01, Htr10, Htr11, Htr20, Htr21⟩, ⟨Hta00, Hta01, Hta10, Hta11, Hta20, Hta21⟩, ⟨Hts00, Hts01, Hts10, Hts11, Hts20, Hts21⟩, ⟨Htg00, Htg01, Htg10, Htg11, Htg20, Htg21⟩⟩
  icases Hcr with ⟨HcB, ⟨Hcr00, Hcr01, Hcr10, Hcr11, Hcr20, Hcr21⟩, ⟨Hca00, Hca01, Hca10, Hca11, Hca20, Hca21⟩⟩
  unfold Dat.owesAt Pipeline.owesWithin
  icases Ho with ⟨%W, %hW, HO⟩
  rw [show (dats m ρ 0 c).owed (t0_0 : Fin cfg0.N).castSucc = O c 0 from rfl]
  -- the landing buffer and the result's staging buffer, slot by slot and half by half
  ihave Hb := (bV_split c f4) $$ Hb
  icases Hb with ⟨Hbq00, Hbq01, Hbq10, Hbq11, Hbq20, Hbq21⟩
  ihave Hout := (oV_split c g2) $$ Hout
  icases Hout with ⟨Hoc0, Hoc1, Hop00, Hop01, Hop10, Hop11, Hop20, Hop21⟩
  sl_exec
  -- the entry signal to peer 0
  iapply (step_signal m K c 0 _ (dev1_eq c) (O c 0) (O c 1) rfl W) $$ [HO HtB0 Hbq00 Hbq01 Hop00 Hop01]
  · isplitr; · iexact HR
    isplitl [HO]; · iexact HO
    isplitl [HtB0]; · iexact HtB0
    isplitl [Hbq00]; · iexact Hbq00
    isplitl [Hbq01]; · iexact Hbq01
    isplitl [Hop00]; · iexact Hop00
    iexact Hop01
  iintro HO
  sl_exec
  -- the entry signal to peer 1
  iapply (step_signal m K c 1 _ (dev2_eq c) (O c 1) (O c 2) rfl W) $$ [HO HtB1 Hbq10 Hbq11 Hop10 Hop11]
  · isplitr; · iexact HR
    isplitl [HO]; · iexact HO
    isplitl [HtB1]; · iexact HtB1
    isplitl [Hbq10]; · iexact Hbq10
    isplitl [Hbq11]; · iexact Hbq11
    isplitl [Hop10]; · iexact Hop10
    iexact Hop11
  iintro HO
  sl_exec
  -- the entry signal to peer 2
  iapply (step_signal m K c 2 _ (dev3_eq c) (O c 2) (O c 3) rfl W) $$ [HO HtB2 Hbq20 Hbq21 Hop20 Hop21]
  · isplitr; · iexact HR
    isplitl [HO]; · iexact HO
    isplitl [HtB2]; · iexact HtB2
    isplitl [Hbq20]; · iexact Hbq20
    isplitl [Hbq21]; · iexact Hbq21
    isplitl [Hop20]; · iexact Hop20
    iexact Hop21
  iintro HO
  sl_exec
  -- the staging scratch, slot by slot; the inputs as fetched
  ihave Hs := (sM_split c f3) $$ Hs
  icases Hs with ⟨Hsl00, Hsl01, Hsl10, Hsl11, Hsl20, Hsl21⟩
  have hg0' : g0 = tIn m c := by rw [hg0]; unfold Dat.before; rw [if_pos (fetch0_0 t0_0)]; rfl
  subst hg0'
  have hg1' : g1 = wIn m c := by rw [hg1]; unfold Dat.before; rw [if_pos (fetch0_1 t0_0)]; rfl
  subst hg1'
  ihave Ht := (Entails.of_eq (pts_whole c cc0_stg0_0 fullShare _)) $$ Ht
  ihave Hw := (Entails.of_eq (pts_whole c cc0_stg1_0 fullShare _)) $$ Hw
  ihave Hv := (Entails.of_eq (pts_whole c cc0_scratch2 fullShare _)) $$ Hv
  icases Hsl00 with ⟨%Y00, Hsl00⟩
  ihave Hsl00 := (owns_open4 c (sM.slice (r4 0 0) (fun _ => rfl)) fullShare Y00) $$ Hsl00
  icases Hsl00 with ⟨%fs00, %hfs00, Hsl00⟩
  icases Hsl01 with ⟨%Y01, Hsl01⟩
  ihave Hsl01 := (owns_open4 c (sM.slice (r4 0 1) (fun _ => rfl)) fullShare Y01) $$ Hsl01
  icases Hsl01 with ⟨%fs01, %hfs01, Hsl01⟩
  icases Hsl10 with ⟨%Y10, Hsl10⟩
  ihave Hsl10 := (owns_open4 c (sM.slice (r4 1 0) (fun _ => rfl)) fullShare Y10) $$ Hsl10
  icases Hsl10 with ⟨%fs10, %hfs10, Hsl10⟩
  icases Hsl11 with ⟨%Y11, Hsl11⟩
  ihave Hsl11 := (owns_open4 c (sM.slice (r4 1 1) (fun _ => rfl)) fullShare Y11) $$ Hsl11
  icases Hsl11 with ⟨%fs11, %hfs11, Hsl11⟩
  icases Hsl20 with ⟨%Y20, Hsl20⟩
  ihave Hsl20 := (owns_open4 c (sM.slice (r4 2 0) (fun _ => rfl)) fullShare Y20) $$ Hsl20
  icases Hsl20 with ⟨%fs20, %hfs20, Hsl20⟩
  icases Hsl21 with ⟨%Y21, Hsl21⟩
  ihave Hsl21 := (owns_open4 c (sM.slice (r4 2 1) (fun _ => rfl)) fullShare Y21) $$ Hsl21
  icases Hsl21 with ⟨%fs21, %hfs21, Hsl21⟩
  sl_exec
  have hs00 : (((sM.slice (r4 0 0) (fun _ => rfl)).view.loc (c : Thread nD τ) ↦[(sM.slice (r4 0 0) (fun _ => rfl)).view.set]{fullShare} (sound_body.sl.Hsl00_w1 m c fs00)) : sProp 𝕄)
      ⊢ owns (c : Thread nD τ) (sV 0 0) fullShare (sq (stg m c 0 0)) := by
    have hread : (sM.slice (r4 0 0) (fun _ => rfl)).view.read (Elt F) (sound_body.sl.Hsl00_w1 m c fs00) = stg m c 0 0 := by
      unfold sound_body.sl.Hsl00_w1 stg
      rw [← tBlk_off1 m c 0 0]
      exact read_slice_write_access sM (r4 0 0) (fun _ => rfl) fs00 _
    refine (owns_intro (c : Thread nD τ) (sM.slice (r4 0 0) (fun _ => rfl)) fullShare _).trans (Entails.of_eq ?_)
    rw [owns_slot_sq c sM 0 0 fullShare (stg m c 0 0), hread]
  ihave Hsl00 := hs00 $$ Hsl00
  have hs01 : (((sM.slice (r4 0 1) (fun _ => rfl)).view.loc (c : Thread nD τ) ↦[(sM.slice (r4 0 1) (fun _ => rfl)).view.set]{fullShare} (sound_body.sl.Hsl01_w4 m c fs01)) : sProp 𝕄)
      ⊢ owns (c : Thread nD τ) (sV 0 1) fullShare (sq (stg m c 0 1)) := by
    have hread : (sM.slice (r4 0 1) (fun _ => rfl)).view.read (Elt F) (sound_body.sl.Hsl01_w4 m c fs01) = stg m c 0 1 := by
      unfold sound_body.sl.Hsl01_w4 stg
      rw [← tBlk_off1 m c 0 1]
      exact read_slice_write_access sM (r4 0 1) (fun _ => rfl) fs01 _
    refine (owns_intro (c : Thread nD τ) (sM.slice (r4 0 1) (fun _ => rfl)) fullShare _).trans (Entails.of_eq ?_)
    rw [owns_slot_sq c sM 0 1 fullShare (stg m c 0 1), hread]
  ihave Hsl01 := hs01 $$ Hsl01
  have hs10 : (((sM.slice (r4 1 0) (fun _ => rfl)).view.loc (c : Thread nD τ) ↦[(sM.slice (r4 1 0) (fun _ => rfl)).view.set]{fullShare} (sound_body.sl.Hsl10_w2 m c fs10)) : sProp 𝕄)
      ⊢ owns (c : Thread nD τ) (sV 1 0) fullShare (sq (stg m c 1 0)) := by
    have hread : (sM.slice (r4 1 0) (fun _ => rfl)).view.read (Elt F) (sound_body.sl.Hsl10_w2 m c fs10) = stg m c 1 0 := by
      unfold sound_body.sl.Hsl10_w2 stg
      rw [← tBlk_off1 m c 1 0]
      exact read_slice_write_access sM (r4 1 0) (fun _ => rfl) fs10 _
    refine (owns_intro (c : Thread nD τ) (sM.slice (r4 1 0) (fun _ => rfl)) fullShare _).trans (Entails.of_eq ?_)
    rw [owns_slot_sq c sM 1 0 fullShare (stg m c 1 0), hread]
  ihave Hsl10 := hs10 $$ Hsl10
  have hs11 : (((sM.slice (r4 1 1) (fun _ => rfl)).view.loc (c : Thread nD τ) ↦[(sM.slice (r4 1 1) (fun _ => rfl)).view.set]{fullShare} (sound_body.sl.Hsl11_w5 m c fs11)) : sProp 𝕄)
      ⊢ owns (c : Thread nD τ) (sV 1 1) fullShare (sq (stg m c 1 1)) := by
    have hread : (sM.slice (r4 1 1) (fun _ => rfl)).view.read (Elt F) (sound_body.sl.Hsl11_w5 m c fs11) = stg m c 1 1 := by
      unfold sound_body.sl.Hsl11_w5 stg
      rw [← tBlk_off1 m c 1 1]
      exact read_slice_write_access sM (r4 1 1) (fun _ => rfl) fs11 _
    refine (owns_intro (c : Thread nD τ) (sM.slice (r4 1 1) (fun _ => rfl)) fullShare _).trans (Entails.of_eq ?_)
    rw [owns_slot_sq c sM 1 1 fullShare (stg m c 1 1), hread]
  ihave Hsl11 := hs11 $$ Hsl11
  have hs20 : (((sM.slice (r4 2 0) (fun _ => rfl)).view.loc (c : Thread nD τ) ↦[(sM.slice (r4 2 0) (fun _ => rfl)).view.set]{fullShare} (sound_body.sl.Hsl20_w3 m c fs20)) : sProp 𝕄)
      ⊢ owns (c : Thread nD τ) (sV 2 0) fullShare (sq (stg m c 2 0)) := by
    have hread : (sM.slice (r4 2 0) (fun _ => rfl)).view.read (Elt F) (sound_body.sl.Hsl20_w3 m c fs20) = stg m c 2 0 := by
      unfold sound_body.sl.Hsl20_w3 stg
      rw [← tBlk_off1 m c 2 0]
      exact read_slice_write_access sM (r4 2 0) (fun _ => rfl) fs20 _
    refine (owns_intro (c : Thread nD τ) (sM.slice (r4 2 0) (fun _ => rfl)) fullShare _).trans (Entails.of_eq ?_)
    rw [owns_slot_sq c sM 2 0 fullShare (stg m c 2 0), hread]
  ihave Hsl20 := hs20 $$ Hsl20
  have hs21 : (((sM.slice (r4 2 1) (fun _ => rfl)).view.loc (c : Thread nD τ) ↦[(sM.slice (r4 2 1) (fun _ => rfl)).view.set]{fullShare} (sound_body.sl.Hsl21_w6 m c fs21)) : sProp 𝕄)
      ⊢ owns (c : Thread nD τ) (sV 2 1) fullShare (sq (stg m c 2 1)) := by
    have hread : (sM.slice (r4 2 1) (fun _ => rfl)).view.read (Elt F) (sound_body.sl.Hsl21_w6 m c fs21) = stg m c 2 1 := by
      unfold sound_body.sl.Hsl21_w6 stg
      rw [← tBlk_off1 m c 2 1]
      exact read_slice_write_access sM (r4 2 1) (fun _ => rfl) fs21 _
    refine (owns_intro (c : Thread nD τ) (sM.slice (r4 2 1) (fun _ => rfl)) fullShare _).trans (Entails.of_eq ?_)
    rw [owns_slot_sq c sM 2 1 fullShare (stg m c 2 1), hread]
  ihave Hsl21 := hs21 $$ Hsl21
  -- the wait for the three entry signals
  iapply (step_wait_bar m K c (O c 3) W) $$ [HcB HO HpB]
  · isplitr; · iexact HR
    isplitl [HcB]; · iexact HcB
    isplitl [HO]; · iexact HO
    isplitr; · iapply (mayWait_of c (.reg barS) 3 1 (le_refl _) (above_bar c)); iexact Hlev
    iexact HpB
  iintro ⟨HO, HpB, HB0, HB1, HB2⟩
  unfold barPay
  icases HB0 with ⟨Hd0b0, Hd0b1, Hd0o0, Hd0o1, -, -, -, -⟩
  icases HB1 with ⟨Hd1b0, Hd1b1, Hd1o0, Hd1o1, -, -, -, -⟩
  icases HB2 with ⟨Hd2b0, Hd2b1, Hd2o0, Hd2o1, -, -, -, -⟩
  -- the reduce-scatter copy of staged slot (1, 0) to peer 1
  sl_exec
  iapply (step_rs m K c 1 0 _ (dev4_eq c) rfl (dst_rs0 c 1) _ _ rfl (semR_rs0 c 1) (O c 3) (O c 4) rfl _) $$ [Hsl10 Hd1b0 HO Hts10 Htr10]
  · isplitr; · iexact HR
    isplitl [Hsl10]; · iexact Hsl10
    isplitl [Hd1b0]; · iexact Hd1b0
    isplitl [HO]; · iexact HO
    isplitl [Hts10]; · iexact Hts10
    iexact Htr10
  iintro ⟨Hcs10, HO⟩
  -- the reduce-scatter copy of staged slot (0, 0) to peer 0
  sl_exec
  iapply (step_rs m K c 0 0 _ (dev5_eq c) rfl (dst_rs0 c 0) _ _ rfl (semR_rs0 c 0) (O c 4) (O c 5) rfl _) $$ [Hsl00 Hd0b0 HO Hts00 Htr00]
  · isplitr; · iexact HR
    isplitl [Hsl00]; · iexact Hsl00
    isplitl [Hd0b0]; · iexact Hd0b0
    isplitl [HO]; · iexact HO
    isplitl [Hts00]; · iexact Hts00
    iexact Htr00
  iintro ⟨Hcs00, HO⟩
  -- the reduce-scatter copy of staged slot (2, 0) to peer 2
  sl_exec
  iapply (step_rs m K c 2 0 _ (dev6_eq c) rfl (dst_rs0 c 2) _ _ rfl (semR_rs0 c 2) (O c 5) (O c 6) rfl _) $$ [Hsl20 Hd2b0 HO Hts20 Htr20]
  · isplitr; · iexact HR
    isplitl [Hsl20]; · iexact Hsl20
    isplitl [Hd2b0]; · iexact Hd2b0
    isplitl [HO]; · iexact HO
    isplitl [Hts20]; · iexact Hts20
    iexact Htr20
  iintro ⟨Hcs20, HO⟩
  -- the reduce-scatter copy of staged slot (1, 1) to peer 1
  sl_exec
  iapply (step_rs m K c 1 1 _ (dev7_eq c) rfl (dst_rs1 c 1) _ _ rfl (semR_rs1 c 1) (O c 6) (O c 7) rfl _) $$ [Hsl11 Hd1b1 HO Hts11 Htr11]
  · isplitr; · iexact HR
    isplitl [Hsl11]; · iexact Hsl11
    isplitl [Hd1b1]; · iexact Hd1b1
    isplitl [HO]; · iexact HO
    isplitl [Hts11]; · iexact Hts11
    iexact Htr11
  iintro ⟨Hcs11, HO⟩
  -- the reduce-scatter copy of staged slot (0, 1) to peer 0
  sl_exec
  iapply (step_rs m K c 0 1 _ (dev8_eq c) rfl (dst_rs1 c 0) _ _ rfl (semR_rs1 c 0) (O c 7) (O c 8) rfl _) $$ [Hsl01 Hd0b1 HO Hts01 Htr01]
  · isplitr; · iexact HR
    isplitl [Hsl01]; · iexact Hsl01
    isplitl [Hd0b1]; · iexact Hd0b1
    isplitl [HO]; · iexact HO
    isplitl [Hts01]; · iexact Hts01
    iexact Htr01
  iintro ⟨Hcs01, HO⟩
  -- the reduce-scatter copy of staged slot (2, 1) to peer 2
  sl_exec
  iapply (step_rs m K c 2 1 _ (dev9_eq c) rfl (dst_rs1 c 2) _ _ rfl (semR_rs1 c 2) (O c 8) (O c 9) rfl _) $$ [Hsl21 Hd2b1 HO Hts21 Htr21]
  · isplitr; · iexact HR
    isplitl [Hsl21]; · iexact Hsl21
    isplitl [Hd2b1]; · iexact Hd2b1
    isplitl [HO]; · iexact HO
    isplitl [Hts21]; · iexact Hts21
    iexact Htr21
  iintro ⟨Hcs21, HO⟩
  -- the wait for peer 0's rows of this device's quarter, half 0
  sl_exec
  iapply (step_wait m K c 1 0 0 _ rfl (O c 9) _) $$ [Hcr00 HO Hpr00]
  · isplitr; · iexact HR
    isplitl [Hcr00]; · iexact Hcr00
    isplitl [HO]; · iexact HO
    isplitr; · iapply (mayWait_of c (.dma (dsem 1 0 0)) 9 2 (lv_rs c 0 0).le (above_rs0 c)); iexact Hlev
    iexact Hpr00
  iintro ⟨HO, Hpr00, Hbv00⟩
  ihave Hbv00 := (Entails.of_eq ((pay_r m c 0 0).trans (owns_slot_sq c bM 0 0 fullShare (rcv m c 0 0)))) $$ Hbv00
  ihave Hbv00 := (owns_open4 c (bM.slice (r4 0 0) (fun _ => rfl)) fullShare (rcv m c 0 0)) $$ Hbv00
  icases Hbv00 with ⟨%fb00, %hfb00, Hbv00⟩
  have kfb00 := Kept.intro hfb00; clear hfb00
  -- the wait for peer 1's rows of this device's quarter, half 0
  sl_exec
  iapply (step_wait m K c 1 1 0 _ rfl (O c 9) _) $$ [Hcr10 HO Hpr10]
  · isplitr; · iexact HR
    isplitl [Hcr10]; · iexact Hcr10
    isplitl [HO]; · iexact HO
    isplitr; · iapply (mayWait_of c (.dma (dsem 1 1 0)) 9 2 (lv_rs c 1 0).le (above_rs0 c)); iexact Hlev
    iexact Hpr10
  iintro ⟨HO, Hpr10, Hbv10⟩
  ihave Hbv10 := (Entails.of_eq ((pay_r m c 1 0).trans (owns_slot_sq c bM 1 0 fullShare (rcv m c 1 0)))) $$ Hbv10
  ihave Hbv10 := (owns_open4 c (bM.slice (r4 1 0) (fun _ => rfl)) fullShare (rcv m c 1 0)) $$ Hbv10
  icases Hbv10 with ⟨%fb10, %hfb10, Hbv10⟩
  have kfb10 := Kept.intro hfb10; clear hfb10
  -- the wait for peer 2's rows of this device's quarter, half 0
  sl_exec
  iapply (step_wait m K c 1 2 0 _ rfl (O c 9) _) $$ [Hcr20 HO Hpr20]
  · isplitr; · iexact HR
    isplitl [Hcr20]; · iexact Hcr20
    isplitl [HO]; · iexact HO
    isplitr; · iapply (mayWait_of c (.dma (dsem 1 2 0)) 9 2 (lv_rs c 2 0).le (above_rs0 c)); iexact Hlev
    iexact Hpr20
  iintro ⟨HO, Hpr20, Hbv20⟩
  ihave Hbv20 := (Entails.of_eq ((pay_r m c 2 0).trans (owns_slot_sq c bM 2 0 fullShare (rcv m c 2 0)))) $$ Hbv20
  ihave Hbv20 := (owns_open4 c (bM.slice (r4 2 0) (fun _ => rfl)) fullShare (rcv m c 2 0)) $$ Hbv20
  icases Hbv20 with ⟨%fb20, %hfb20, Hbv20⟩
  have kfb20 := Kept.intro hfb20; clear hfb20
  icases Hoc0 with ⟨%Yo0, Hoc0⟩
  ihave Hoc0 := (owns_open c (oV c 0) fullShare Yo0) $$ Hoc0
  icases Hoc0 with ⟨%fo0, %hfo0, Hoc0⟩
  clear hfo0
  sl_exec
  -- half 0 of this device's quarter now holds the four devices' rows summed, times the weights
  have hy0 : (((oV c 0).view.loc (c : Thread nD τ) ↦[(oV c 0).view.set]{fullShare} (sound_body.sl.Hoc0_w1 m c fb00 fb10 fb20 fo0)) : sProp 𝕄)
      ⊢ iprop(owns (c : Thread nD τ) (oV c 0) (agShare 0) (yX m c 0) ∗ owns (c : Thread nD τ) (oV c 0) (agShare 1) (yX m c 0) ∗ owns (c : Thread nD τ) (oV c 0) (agShare 2) (yX m c 0)) := by
    have ew : sound_body.sl.v409 m c = wB m c := by
      unfold sound_body.sl.v409 wB
      rw [View.readCov_cons_toLoadRect]
      exact congrArg k0_pay8 (Memref.readAt_unit_zero (Elt F) cc0_stg1_0 hz2 _ (wIn m c))
    have hread : (oV c 0).view.read (Elt F) (sound_body.sl.Hoc0_w1 m c fb00 fb10 fb20 fo0) = yX m c 0 := by
      unfold sound_body.sl.Hoc0_w1
      refine (read_oV_write (F := F) c 0 _ (k0_off6_eq c 0) (k0_off6_inb c 0) _ _).trans ?_
      unfold yX
      exact congr (congr (congr (congr (congrArg k0_pay9 (tBlk_off6 m c 0)) kfb00.out) kfb10.out) kfb20.out) ew
    refine (owns_intro (c : Thread nD τ) (oV c 0) fullShare _).trans ?_
    rw [hread]
    exact share3 c (oV c 0) (yX m c 0)
  ihave Hoc0 := hy0 $$ Hoc0
  icases Hoc0 with ⟨Hy00, Hy10, Hy20⟩
  -- the all-gather copy of half 0 to peer 1
  try sl_exec
  iapply (step_ag m K c 1 0 _ (dev10_eq c) (rows_ag c 0) (rows_ag c 0) _ _ rfl (semR_ag0 c 1) (O c 9) (O c 10) rfl _) $$ [Hy10 Hd1o0 HO Htg10 Hta10]
  · isplitr; · iexact HR
    isplitl [Hy10]; · iexact Hy10
    isplitl [Hd1o0]; · iexact Hd1o0
    isplitl [HO]; · iexact HO
    isplitl [Htg10]; · iexact Htg10
    iexact Hta10
  iintro ⟨Hcg10, HO⟩
  -- the all-gather copy of half 0 to peer 0
  try sl_exec
  iapply (step_ag m K c 0 0 _ (dev11_eq c) (rows_ag c 0) (rows_ag c 0) _ _ rfl (semR_ag0 c 0) (O c 10) (O c 11) rfl _) $$ [Hy00 Hd0o0 HO Htg00 Hta00]
  · isplitr; · iexact HR
    isplitl [Hy00]; · iexact Hy00
    isplitl [Hd0o0]; · iexact Hd0o0
    isplitl [HO]; · iexact HO
    isplitl [Htg00]; · iexact Htg00
    iexact Hta00
  iintro ⟨Hcg00, HO⟩
  -- the all-gather copy of half 0 to peer 2
  try sl_exec
  iapply (step_ag m K c 2 0 _ (dev12_eq c) (rows_ag c 0) (rows_ag c 0) _ _ rfl (semR_ag0 c 2) (O c 11) (O c 12) rfl _) $$ [Hy20 Hd2o0 HO Htg20 Hta20]
  · isplitr; · iexact HR
    isplitl [Hy20]; · iexact Hy20
    isplitl [Hd2o0]; · iexact Hd2o0
    isplitl [HO]; · iexact HO
    isplitl [Htg20]; · iexact Htg20
    iexact Hta20
  iintro ⟨Hcg20, HO⟩
  -- the wait for peer 0's rows of this device's quarter, half 1
  sl_exec
  iapply (step_wait m K c 1 0 1 _ rfl (O c 12) _) $$ [Hcr01 HO Hpr01]
  · isplitr; · iexact HR
    isplitl [Hcr01]; · iexact Hcr01
    isplitl [HO]; · iexact HO
    isplitr; · iapply (mayWait_of c (.dma (dsem 1 0 1)) 12 2 (lv_rs c 0 1).le (above_rs1 c)); iexact Hlev
    iexact Hpr01
  iintro ⟨HO, Hpr01, Hbv01⟩
  ihave Hbv01 := (Entails.of_eq ((pay_r m c 0 1).trans (owns_slot_sq c bM 0 1 fullShare (rcv m c 0 1)))) $$ Hbv01
  ihave Hbv01 := (owns_open4 c (bM.slice (r4 0 1) (fun _ => rfl)) fullShare (rcv m c 0 1)) $$ Hbv01
  icases Hbv01 with ⟨%fb01, %hfb01, Hbv01⟩
  have kfb01 := Kept.intro hfb01; clear hfb01
  -- the wait for peer 1's rows of this device's quarter, half 1
  sl_exec
  iapply (step_wait m K c 1 1 1 _ rfl (O c 12) _) $$ [Hcr11 HO Hpr11]
  · isplitr; · iexact HR
    isplitl [Hcr11]; · iexact Hcr11
    isplitl [HO]; · iexact HO
    isplitr; · iapply (mayWait_of c (.dma (dsem 1 1 1)) 12 2 (lv_rs c 1 1).le (above_rs1 c)); iexact Hlev
    iexact Hpr11
  iintro ⟨HO, Hpr11, Hbv11⟩
  ihave Hbv11 := (Entails.of_eq ((pay_r m c 1 1).trans (owns_slot_sq c bM 1 1 fullShare (rcv m c 1 1)))) $$ Hbv11
  ihave Hbv11 := (owns_open4 c (bM.slice (r4 1 1) (fun _ => rfl)) fullShare (rcv m c 1 1)) $$ Hbv11
  icases Hbv11 with ⟨%fb11, %hfb11, Hbv11⟩
  have kfb11 := Kept.intro hfb11; clear hfb11
  -- the wait for peer 2's rows of this device's quarter, half 1
  sl_exec
  iapply (step_wait m K c 1 2 1 _ rfl (O c 12) _) $$ [Hcr21 HO Hpr21]
  · isplitr; · iexact HR
    isplitl [Hcr21]; · iexact Hcr21
    isplitl [HO]; · iexact HO
    isplitr; · iapply (mayWait_of c (.dma (dsem 1 2 1)) 12 2 (lv_rs c 2 1).le (above_rs1 c)); iexact Hlev
    iexact Hpr21
  iintro ⟨HO, Hpr21, Hbv21⟩
  ihave Hbv21 := (Entails.of_eq ((pay_r m c 2 1).trans (owns_slot_sq c bM 2 1 fullShare (rcv m c 2 1)))) $$ Hbv21
  ihave Hbv21 := (owns_open4 c (bM.slice (r4 2 1) (fun _ => rfl)) fullShare (rcv m c 2 1)) $$ Hbv21
  icases Hbv21 with ⟨%fb21, %hfb21, Hbv21⟩
  have kfb21 := Kept.intro hfb21; clear hfb21
  icases Hoc1 with ⟨%Yo1, Hoc1⟩
  ihave Hoc1 := (owns_open c (oV c 1) fullShare Yo1) $$ Hoc1
  icases Hoc1 with ⟨%fo1, %hfo1, Hoc1⟩
  clear hfo1
  sl_exec
  -- half 1 of this device's quarter now holds the four devices' rows summed, times the weights
  have hy1 : (((oV c 1).view.loc (c : Thread nD τ) ↦[(oV c 1).view.set]{fullShare} (sound_body.sl.Hoc1_w1 m c fb01 fb11 fb21 fo1)) : sProp 𝕄)
      ⊢ iprop(owns (c : Thread nD τ) (oV c 1) (agShare 0) (yX m c 1) ∗ owns (c : Thread nD τ) (oV c 1) (agShare 1) (yX m c 1) ∗ owns (c : Thread nD τ) (oV c 1) (agShare 2) (yX m c 1)) := by
    have ew : sound_body.sl.v549 m c = wB m c := by
      unfold sound_body.sl.v549 wB
      rw [View.readCov_cons_toLoadRect]
      exact congrArg k0_pay8 (Memref.readAt_unit_zero (Elt F) cc0_stg1_0 hz2 _ (wIn m c))
    have er : sound_body.sl.r_1 m c fb01 = k0_pay10 (tBlk m c c 1) (rcv m c 0 1) := by
      unfold sound_body.sl.r_1
      exact congr (congrArg k0_pay10 (tBlk_off6 m c 1)) kfb01.out
    have hread : (oV c 1).view.read (Elt F) (sound_body.sl.Hoc1_w1 m c fb01 fb11 fb21 fo1) = yX m c 1 := by
      unfold sound_body.sl.Hoc1_w1
      refine (read_oV_write (F := F) c 1 _ (k0_off6_eq c 1) (k0_off6_inb c 1) _ _).trans ?_
      unfold yX
      show _ = k0_pay11 (k0_pay10 (tBlk m c c 1) (rcv m c 0 1)) (rcv m c 1 1) (rcv m c 2 1) (wB m c)
      exact congr (congr (congr (congrArg k0_pay11 er) kfb11.out) kfb21.out) ew
    refine (owns_intro (c : Thread nD τ) (oV c 1) fullShare _).trans ?_
    rw [hread]
    exact share3 c (oV c 1) (yX m c 1)
  ihave Hoc1 := hy1 $$ Hoc1
  icases Hoc1 with ⟨Hy01, Hy11, Hy21⟩
  -- the all-gather copy of half 1 to peer 1
  try sl_exec
  iapply (step_ag m K c 1 1 _ (dev13_eq c) (rows_ag c 1) (rows_ag c 1) _ _ rfl (semR_ag1 c 1) (O c 12) (O c 13) rfl _) $$ [Hy11 Hd1o1 HO Htg11 Hta11]
  · isplitr; · iexact HR
    isplitl [Hy11]; · iexact Hy11
    isplitl [Hd1o1]; · iexact Hd1o1
    isplitl [HO]; · iexact HO
    isplitl [Htg11]; · iexact Htg11
    iexact Hta11
  iintro ⟨Hcg11, HO⟩
  -- the all-gather copy of half 1 to peer 0
  try sl_exec
  iapply (step_ag m K c 0 1 _ (dev14_eq c) (rows_ag c 1) (rows_ag c 1) _ _ rfl (semR_ag1 c 0) (O c 13) (O c 14) rfl _) $$ [Hy01 Hd0o1 HO Htg01 Hta01]
  · isplitr; · iexact HR
    isplitl [Hy01]; · iexact Hy01
    isplitl [Hd0o1]; · iexact Hd0o1
    isplitl [HO]; · iexact HO
    isplitl [Htg01]; · iexact Htg01
    iexact Hta01
  iintro ⟨Hcg01, HO⟩
  -- the all-gather copy of half 1 to peer 2
  try sl_exec
  iapply (step_ag m K c 2 1 _ (dev15_eq c) (rows_ag c 1) (rows_ag c 1) _ _ rfl (semR_ag1 c 2) (O c 14) (O c 15) rfl _) $$ [Hy21 Hd2o1 HO Htg21 Hta21]
  · isplitr; · iexact HR
    isplitl [Hy21]; · iexact Hy21
    isplitl [Hd2o1]; · iexact Hd2o1
    isplitl [HO]; · iexact HO
    isplitl [Htg21]; · iexact Htg21
    iexact Hta21
  iintro ⟨Hcg21, HO⟩
  try sl_exec
  -- the wait for peer 0's half 0 of the result
  try sl_exec
  iapply (step_wait m K c 3 0 0 _ rfl (O c 15) _) $$ [Hca00 HO Hpa00]
  · isplitr; · iexact HR
    isplitl [Hca00]; · iexact Hca00
    isplitl [HO]; · iexact HO
    isplitr; · rw [show O c 15 = (0 : CellTallies nD τ sig Unit) from rfl, MayWait_zero]; iempintro
    iexact Hpa00
  iintro ⟨HO, Hpa00, Hov00⟩
  -- the wait for peer 1's half 0 of the result
  try sl_exec
  iapply (step_wait m K c 3 1 0 _ rfl (O c 15) _) $$ [Hca10 HO Hpa10]
  · isplitr; · iexact HR
    isplitl [Hca10]; · iexact Hca10
    isplitl [HO]; · iexact HO
    isplitr; · rw [show O c 15 = (0 : CellTallies nD τ sig Unit) from rfl, MayWait_zero]; iempintro
    iexact Hpa10
  iintro ⟨HO, Hpa10, Hov10⟩
  -- the wait for peer 2's half 0 of the result
  try sl_exec
  iapply (step_wait m K c 3 2 0 _ rfl (O c 15) _) $$ [Hca20 HO Hpa20]
  · isplitr; · iexact HR
    isplitl [Hca20]; · iexact Hca20
    isplitl [HO]; · iexact HO
    isplitr; · rw [show O c 15 = (0 : CellTallies nD τ sig Unit) from rfl, MayWait_zero]; iempintro
    iexact Hpa20
  iintro ⟨HO, Hpa20, Hov20⟩
  -- the wait for peer 0's half 1 of the result
  try sl_exec
  iapply (step_wait m K c 3 0 1 _ rfl (O c 15) _) $$ [Hca01 HO Hpa01]
  · isplitr; · iexact HR
    isplitl [Hca01]; · iexact Hca01
    isplitl [HO]; · iexact HO
    isplitr; · rw [show O c 15 = (0 : CellTallies nD τ sig Unit) from rfl, MayWait_zero]; iempintro
    iexact Hpa01
  iintro ⟨HO, Hpa01, Hov01⟩
  -- the wait for peer 1's half 1 of the result
  try sl_exec
  iapply (step_wait m K c 3 1 1 _ rfl (O c 15) _) $$ [Hca11 HO Hpa11]
  · isplitr; · iexact HR
    isplitl [Hca11]; · iexact Hca11
    isplitl [HO]; · iexact HO
    isplitr; · rw [show O c 15 = (0 : CellTallies nD τ sig Unit) from rfl, MayWait_zero]; iempintro
    iexact Hpa11
  iintro ⟨HO, Hpa11, Hov11⟩
  -- the wait for peer 2's half 1 of the result
  try sl_exec
  iapply (step_wait m K c 3 2 1 _ rfl (O c 15) _) $$ [Hca21 HO Hpa21]
  · isplitr; · iexact HR
    isplitl [Hca21]; · iexact Hca21
    isplitl [HO]; · iexact HO
    isplitr; · rw [show O c 15 = (0 : CellTallies nD τ sig Unit) from rfl, MayWait_zero]; iempintro
    iexact Hpa21
  iintro ⟨HO, Hpa21, Hov21⟩
  -- the wait for staged slot (1, 0) to have left
  try sl_exec
  iapply (step_wait m K c 0 1 0 _ rfl (O c 15) _) $$ [Hcs10 HO Hps10]
  · isplitr; · iexact HR
    isplitl [Hcs10]; · iexact Hcs10
    isplitl [HO]; · iexact HO
    isplitr; · rw [show O c 15 = (0 : CellTallies nD τ sig Unit) from rfl, MayWait_zero]; iempintro
    iexact Hps10
  iintro ⟨HO, Hps10, Hsb10⟩
  -- the wait for staged slot (0, 0) to have left
  try sl_exec
  iapply (step_wait m K c 0 0 0 _ rfl (O c 15) _) $$ [Hcs00 HO Hps00]
  · isplitr; · iexact HR
    isplitl [Hcs00]; · iexact Hcs00
    isplitl [HO]; · iexact HO
    isplitr; · rw [show O c 15 = (0 : CellTallies nD τ sig Unit) from rfl, MayWait_zero]; iempintro
    iexact Hps00
  iintro ⟨HO, Hps00, Hsb00⟩
  -- the wait for staged slot (2, 0) to have left
  try sl_exec
  iapply (step_wait m K c 0 2 0 _ rfl (O c 15) _) $$ [Hcs20 HO Hps20]
  · isplitr; · iexact HR
    isplitl [Hcs20]; · iexact Hcs20
    isplitl [HO]; · iexact HO
    isplitr; · rw [show O c 15 = (0 : CellTallies nD τ sig Unit) from rfl, MayWait_zero]; iempintro
    iexact Hps20
  iintro ⟨HO, Hps20, Hsb20⟩
  -- the wait for staged slot (1, 1) to have left
  try sl_exec
  iapply (step_wait m K c 0 1 1 _ rfl (O c 15) _) $$ [Hcs11 HO Hps11]
  · isplitr; · iexact HR
    isplitl [Hcs11]; · iexact Hcs11
    isplitl [HO]; · iexact HO
    isplitr; · rw [show O c 15 = (0 : CellTallies nD τ sig Unit) from rfl, MayWait_zero]; iempintro
    iexact Hps11
  iintro ⟨HO, Hps11, Hsb11⟩
  -- the wait for staged slot (0, 1) to have left
  try sl_exec
  iapply (step_wait m K c 0 0 1 _ rfl (O c 15) _) $$ [Hcs01 HO Hps01]
  · isplitr; · iexact HR
    isplitl [Hcs01]; · iexact Hcs01
    isplitl [HO]; · iexact HO
    isplitr; · rw [show O c 15 = (0 : CellTallies nD τ sig Unit) from rfl, MayWait_zero]; iempintro
    iexact Hps01
  iintro ⟨HO, Hps01, Hsb01⟩
  -- the wait for staged slot (2, 1) to have left
  try sl_exec
  iapply (step_wait m K c 0 2 1 _ rfl (O c 15) _) $$ [Hcs21 HO Hps21]
  · isplitr; · iexact HR
    isplitl [Hcs21]; · iexact Hcs21
    isplitl [HO]; · iexact HO
    isplitr; · rw [show O c 15 = (0 : CellTallies nD τ sig Unit) from rfl, MayWait_zero]; iempintro
    iexact Hps21
  iintro ⟨HO, Hps21, Hsb21⟩
  -- the wait for half 0 to have left for peer 1
  try sl_exec
  iapply (step_wait m K c 2 1 0 _ rfl (O c 15) _) $$ [Hcg10 HO Hpg10]
  · isplitr; · iexact HR
    isplitl [Hcg10]; · iexact Hcg10
    isplitl [HO]; · iexact HO
    isplitr; · rw [show O c 15 = (0 : CellTallies nD τ sig Unit) from rfl, MayWait_zero]; iempintro
    iexact Hpg10
  iintro ⟨HO, Hpg10, Hgb10⟩
  -- the wait for half 0 to have left for peer 0
  try sl_exec
  iapply (step_wait m K c 2 0 0 _ rfl (O c 15) _) $$ [Hcg00 HO Hpg00]
  · isplitr; · iexact HR
    isplitl [Hcg00]; · iexact Hcg00
    isplitl [HO]; · iexact HO
    isplitr; · rw [show O c 15 = (0 : CellTallies nD τ sig Unit) from rfl, MayWait_zero]; iempintro
    iexact Hpg00
  iintro ⟨HO, Hpg00, Hgb00⟩
  -- the wait for half 0 to have left for peer 2
  try sl_exec
  iapply (step_wait m K c 2 2 0 _ rfl (O c 15) _) $$ [Hcg20 HO Hpg20]
  · isplitr; · iexact HR
    isplitl [Hcg20]; · iexact Hcg20
    isplitl [HO]; · iexact HO
    isplitr; · rw [show O c 15 = (0 : CellTallies nD τ sig Unit) from rfl, MayWait_zero]; iempintro
    iexact Hpg20
  iintro ⟨HO, Hpg20, Hgb20⟩
  -- the wait for half 1 to have left for peer 1
  try sl_exec
  iapply (step_wait m K c 2 1 1 _ rfl (O c 15) _) $$ [Hcg11 HO Hpg11]
  · isplitr; · iexact HR
    isplitl [Hcg11]; · iexact Hcg11
    isplitl [HO]; · iexact HO
    isplitr; · rw [show O c 15 = (0 : CellTallies nD τ sig Unit) from rfl, MayWait_zero]; iempintro
    iexact Hpg11
  iintro ⟨HO, Hpg11, Hgb11⟩
  -- the wait for half 1 to have left for peer 0
  try sl_exec
  iapply (step_wait m K c 2 0 1 _ rfl (O c 15) _) $$ [Hcg01 HO Hpg01]
  · isplitr; · iexact HR
    isplitl [Hcg01]; · iexact Hcg01
    isplitl [HO]; · iexact HO
    isplitr; · rw [show O c 15 = (0 : CellTallies nD τ sig Unit) from rfl, MayWait_zero]; iempintro
    iexact Hpg01
  iintro ⟨HO, Hpg01, Hgb01⟩
  -- the wait for half 1 to have left for peer 2
  try sl_exec
  iapply (step_wait m K c 2 2 1 _ rfl (O c 15) _) $$ [Hcg21 HO Hpg21]
  · isplitr; · iexact HR
    isplitl [Hcg21]; · iexact Hcg21
    isplitl [HO]; · iexact HO
    isplitr; · rw [show O c 15 = (0 : CellTallies nD τ sig Unit) from rfl, MayWait_zero]; iempintro
    iexact Hpg21
  iintro ⟨HO, Hpg21, Hgb21⟩
  try sl_exec
  -- the 24 own cells close: their counters at zero are the device's again
  imod (step_close m K c 0 0 0) $$ [Hps00] with Hzs00
  · isplitr; · iexact HR
    iexact Hps00
  imod (step_close m K c 0 0 1) $$ [Hps01] with Hzs01
  · isplitr; · iexact HR
    iexact Hps01
  imod (step_close m K c 0 1 0) $$ [Hps10] with Hzs10
  · isplitr; · iexact HR
    iexact Hps10
  imod (step_close m K c 0 1 1) $$ [Hps11] with Hzs11
  · isplitr; · iexact HR
    iexact Hps11
  imod (step_close m K c 0 2 0) $$ [Hps20] with Hzs20
  · isplitr; · iexact HR
    iexact Hps20
  imod (step_close m K c 0 2 1) $$ [Hps21] with Hzs21
  · isplitr; · iexact HR
    iexact Hps21
  imod (step_close m K c 1 0 0) $$ [Hpr00] with Hzr00
  · isplitr; · iexact HR
    iexact Hpr00
  imod (step_close m K c 1 0 1) $$ [Hpr01] with Hzr01
  · isplitr; · iexact HR
    iexact Hpr01
  imod (step_close m K c 1 1 0) $$ [Hpr10] with Hzr10
  · isplitr; · iexact HR
    iexact Hpr10
  imod (step_close m K c 1 1 1) $$ [Hpr11] with Hzr11
  · isplitr; · iexact HR
    iexact Hpr11
  imod (step_close m K c 1 2 0) $$ [Hpr20] with Hzr20
  · isplitr; · iexact HR
    iexact Hpr20
  imod (step_close m K c 1 2 1) $$ [Hpr21] with Hzr21
  · isplitr; · iexact HR
    iexact Hpr21
  imod (step_close m K c 2 0 0) $$ [Hpg00] with Hzg00
  · isplitr; · iexact HR
    iexact Hpg00
  imod (step_close m K c 2 0 1) $$ [Hpg01] with Hzg01
  · isplitr; · iexact HR
    iexact Hpg01
  imod (step_close m K c 2 1 0) $$ [Hpg10] with Hzg10
  · isplitr; · iexact HR
    iexact Hpg10
  imod (step_close m K c 2 1 1) $$ [Hpg11] with Hzg11
  · isplitr; · iexact HR
    iexact Hpg11
  imod (step_close m K c 2 2 0) $$ [Hpg20] with Hzg20
  · isplitr; · iexact HR
    iexact Hpg20
  imod (step_close m K c 2 2 1) $$ [Hpg21] with Hzg21
  · isplitr; · iexact HR
    iexact Hpg21
  imod (step_close m K c 3 0 0) $$ [Hpa00] with Hza00
  · isplitr; · iexact HR
    iexact Hpa00
  imod (step_close m K c 3 0 1) $$ [Hpa01] with Hza01
  · isplitr; · iexact HR
    iexact Hpa01
  imod (step_close m K c 3 1 0) $$ [Hpa10] with Hza10
  · isplitr; · iexact HR
    iexact Hpa10
  imod (step_close m K c 3 1 1) $$ [Hpa11] with Hza11
  · isplitr; · iexact HR
    iexact Hpa11
  imod (step_close m K c 3 2 0) $$ [Hpa20] with Hza20
  · isplitr; · iexact HR
    iexact Hpa20
  imod (step_close m K c 3 2 1) $$ [Hpa21] with Hza21
  · isplitr; · iexact HR
    iexact Hpa21
  rw [wp_ret]; imodintro
  iapply Hk
  unfold bodyPost Φ₁ scr Dat.owesAt Pipeline.owesWithin
  rw [show (dats m ρ 0 c).owed (t0_0 : Fin cfg0.N).succ = 0 from rfl, bigSep_DK]
  isplitl [Hsb00 Hsb01 Hsb10 Hsb11 Hsb20 Hsb21 Hbv00 Hbv01 Hbv10 Hbv11 Hbv20 Hbv21 Hv Hzs00 Hzs01 Hzs10 Hzs11 Hzs20 Hzs21 Hzr00 Hzr01 Hzr10 Hzr11 Hzr20 Hzr21 Hzg00 Hzg01 Hzg10 Hzg11 Hzg20 Hzg21 Hza00 Hza01 Hza10 Hza11 Hza20 Hza21]
  · isplitl [Hsb00 Hsb01 Hsb10 Hsb11 Hsb20 Hsb21 Hbv00 Hbv01 Hbv10 Hbv11 Hbv20 Hbv21 Hv]
    · isplitl [Hsb00 Hsb01 Hsb10 Hsb11 Hsb20 Hsb21]
      · iapply (sV_join c)
        isplitl [Hsb00]; · (iexists _; iapply (Entails.of_eq (pay_s m c 0 0)); iexact Hsb00)
        isplitl [Hsb01]; · (iexists _; iapply (Entails.of_eq (pay_s m c 0 1)); iexact Hsb01)
        isplitl [Hsb10]; · (iexists _; iapply (Entails.of_eq (pay_s m c 1 0)); iexact Hsb10)
        isplitl [Hsb11]; · (iexists _; iapply (Entails.of_eq (pay_s m c 1 1)); iexact Hsb11)
        isplitl [Hsb20]; · (iexists _; iapply (Entails.of_eq (pay_s m c 2 0)); iexact Hsb20)
        iexists _; iapply (Entails.of_eq (pay_s m c 2 1)); iexact Hsb21
      isplitl [Hbv00 Hbv01 Hbv10 Hbv11 Hbv20 Hbv21]
      · iapply (bV_join c)
        isplitl [Hbv00]; · (iapply (slot_to_sq c bM 0 0); iexists _; iapply (owns_intro (c : Thread nD τ) (bM.slice (r4 0 0) (fun _ => rfl)) fullShare _); iexact Hbv00)
        isplitl [Hbv01]; · (iapply (slot_to_sq c bM 0 1); iexists _; iapply (owns_intro (c : Thread nD τ) (bM.slice (r4 0 1) (fun _ => rfl)) fullShare _); iexact Hbv01)
        isplitl [Hbv10]; · (iapply (slot_to_sq c bM 1 0); iexists _; iapply (owns_intro (c : Thread nD τ) (bM.slice (r4 1 0) (fun _ => rfl)) fullShare _); iexact Hbv10)
        isplitl [Hbv11]; · (iapply (slot_to_sq c bM 1 1); iexists _; iapply (owns_intro (c : Thread nD τ) (bM.slice (r4 1 1) (fun _ => rfl)) fullShare _); iexact Hbv11)
        isplitl [Hbv20]; · (iapply (slot_to_sq c bM 2 0); iexists _; iapply (owns_intro (c : Thread nD τ) (bM.slice (r4 2 0) (fun _ => rfl)) fullShare _); iexact Hbv20)
        iapply (slot_to_sq c bM 2 1); iexists _; iapply (owns_intro (c : Thread nD τ) (bM.slice (r4 2 1) (fun _ => rfl)) fullShare _); iexact Hbv21
      · iexists _; iapply (Entails.of_eq (pts_whole c cc0_scratch2 fullShare _).symm); iexact Hv
    isplitl [Hzs00]; · iexact Hzs00
    isplitl [Hzs01]; · iexact Hzs01
    isplitl [Hzs10]; · iexact Hzs10
    isplitl [Hzs11]; · iexact Hzs11
    isplitl [Hzs20]; · iexact Hzs20
    isplitl [Hzs21]; · iexact Hzs21
    isplitl [Hzr00]; · iexact Hzr00
    isplitl [Hzr01]; · iexact Hzr01
    isplitl [Hzr10]; · iexact Hzr10
    isplitl [Hzr11]; · iexact Hzr11
    isplitl [Hzr20]; · iexact Hzr20
    isplitl [Hzr21]; · iexact Hzr21
    isplitl [Hzg00]; · iexact Hzg00
    isplitl [Hzg01]; · iexact Hzg01
    isplitl [Hzg10]; · iexact Hzg10
    isplitl [Hzg11]; · iexact Hzg11
    isplitl [Hzg20]; · iexact Hzg20
    isplitl [Hzg21]; · iexact Hzg21
    isplitl [Hza00]; · iexact Hza00
    isplitl [Hza01]; · iexact Hza01
    isplitl [Hza10]; · iexact Hza10
    isplitl [Hza11]; · iexact Hza11
    isplitl [Hza20]; · iexact Hza20
    iexact Hza21
  isplitl [HO]
  · iapply (owes_done m ρ c _); iexact HO
  isplitl [Ht]
  · iexists _; isplitr; · (ipureintro; rfl)
    iapply (Entails.of_eq (pts_whole c cc0_stg0_0 fullShare _).symm); iexact Ht
  isplitl [Hw]
  · iexists _; isplitr; · (ipureintro; rfl)
    iapply (Entails.of_eq (pts_whole c cc0_stg1_0 fullShare _).symm); iexact Hw
  iapply (oV_join m c)
  isplitl [Hgb00 Hgb10 Hgb20]
  · iapply (unshare3 c (oV c 0) (yX m c 0))
    isplitl [Hgb00]; · (iapply (Entails.of_eq (pay_g m c 0 0)); iexact Hgb00)
    isplitl [Hgb10]; · (iapply (Entails.of_eq (pay_g m c 1 0)); iexact Hgb10)
    iapply (Entails.of_eq (pay_g m c 2 0)); iexact Hgb20
  isplitl [Hgb01 Hgb11 Hgb21]
  · iapply (unshare3 c (oV c 1) (yX m c 1))
    isplitl [Hgb01]; · (iapply (Entails.of_eq (pay_g m c 0 1)); iexact Hgb01)
    isplitl [Hgb11]; · (iapply (Entails.of_eq (pay_g m c 1 1)); iexact Hgb11)
    iapply (Entails.of_eq (pay_g m c 2 1)); iexact Hgb21
  isplitl [Hov00]; · (iapply (Entails.of_eq (pay_a m c 0 0)); iexact Hov00)
  isplitl [Hov01]; · (iapply (Entails.of_eq (pay_a m c 0 1)); iexact Hov01)
  isplitl [Hov10]; · (iapply (Entails.of_eq (pay_a m c 1 0)); iexact Hov10)
  isplitl [Hov11]; · (iapply (Entails.of_eq (pay_a m c 1 1)); iexact Hov11)
  isplitl [Hov20]; · (iapply (Entails.of_eq (pay_a m c 2 0)); iexact Hov20)
  iapply (Entails.of_eq (pay_a m c 2 1)); iexact Hov21

end Cert.KernelIdeal.Coll

end
-- ==== Proof.KernelLaunch.lean ====
/-
  The launch of the four-device kernel: the launch element, what it funds, every cell's invariant allocated under one
  update, the duty tokens dealt to their payers, the launch credit, and the launch theorem applied to the body's
  obligation.
-/
import proofs.«900370_g7700000000000371_dist_matmul_of_ar_i_m1024_n512_k512_v7x_i4_f32_1_alg».proof.Proof.KernelProto

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The index of a DMA cell: array, entry, half. -/
abbrev DK : Type := Fin 4 × Fin 3 × Fin 2

/-- The kernel's own (scoped) semaphores: its 24 DMA semaphores. -/
abbrev osem : DK → SemLoc sig := fun x => .dma (dsem x.1 x.2.1 x.2.2)

theorem ownSemFacts : Pipeline.OwnSemFacts cfg0.spec osem := by decide

theorem share_eq (c : Dev nD) (w : Fin cfg0.W) : (dats m ρ 0 c).share w = fullShare := by unfold Dat.share; split <;> rfl

theorem dsem_inj : ∀ x y : DK, dsem x.1 x.2.1 x.2.2 = dsem y.1 y.2.1 y.2.2 → x = y := by decide

theorem csem_injective : Function.Injective (csem : CK → SemLoc sig) := by
  intro k k' h
  cases k with
  | none => cases k' with
    | none => rfl
    | some y => exact absurd h (fun h => by cases h)
  | some x => cases k' with
    | none => exact absurd h (fun h => by cases h)
    | some y => exact congrArg some (dsem_inj x y (SemLoc.dma.inj h))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def collCells : Finset (GSem nD τ sig) := Finset.univ.map ⟨kcell, kcell_injective⟩

/-- A duty token as minted: a barrier cell's three, a DMA cell's one. -/
abbrev TK : Type := Fin 3 ⊕ DK
abbrev tokOf (ct : Dev nD × TK) : GSem nD τ sig × ℕ × Fin 3 := match ct.2 with
  | .inl d => (barCell ct.1, 0, d)
  | .inr x => (dcell ct.1 x.1 x.2.1 x.2.2, 0, 0)

theorem tokOf_injective : Function.Injective (tokOf : Dev nD × TK → GSem nD τ sig × ℕ × Fin 3) := by
  rintro ⟨c, j⟩ ⟨c', j'⟩ h
  have h1 : c = c' := by
    have := congrArg (fun x : GSem nD τ sig × ℕ × Fin 3 => x.1.1.1) h
    cases j <;> cases j' <;> exact this
  subst h1
  cases j with
  | inl d => cases j' with
    | inl d' => have := congrArg (fun x : GSem nD τ sig × ℕ × Fin 3 => x.2.2) h; exact congrArg _ (congrArg Sum.inl this)
    | inr y => exact absurd (congrArg (fun x : GSem nD τ sig × ℕ × Fin 3 => x.1.2) h) (fun h' => by cases h')
  | inr x => cases j' with
    | inl d' => exact absurd (congrArg (fun x : GSem nD τ sig × ℕ × Fin 3 => x.1.2) h) (fun h' => by cases h')
    | inr y =>
      have := congrArg (fun x : GSem nD τ sig × ℕ × Fin 3 => x.1.2) h
      exact congrArg _ (congrArg Sum.inr (dsem_inj x y (SemLoc.dma.inj this)))

def collToks : Finset (GSem nD τ sig × ℕ × Fin 3) := Finset.univ.map ⟨tokOf, tokOf_injective⟩

/-- The launch element: the pipeline's cells and tokens, and the protocol's. -/
def u₀ : UU :=
  (initOf (Pipeline.cells cfgs cellOf_inj) (Pipeline.launchToks cfgs cellOf_inj), initOf collCells collToks)

/-! ## What the launch element funds -/

omit [FloatOps F] in
theorem bigSep_CK (Φ : CK → sProp 𝕄) : bigSep Finset.univ Φ = iprop(bigSep Finset.univ (fun x : DK => Φ (some x)) ∗ Φ none) := by
  rw [bigSep_univ_equiv (Equiv.optionEquivSumPUnit.{0, 0} DK).symm Φ, bigSep_univ_sum, bigSep_univ_of_subsingleton (PUnit.unit : PUnit.{1})]
  rfl

/-- The duty tokens of device `c`'s own cells. -/
def toks (c : Dev nD) : sProp 𝕄 :=
  iprop((bigSep Finset.univ fun d : Fin 3 => dutyTok ER (barCell c) 0 d)
    ∗ bigSep Finset.univ fun x : DK => dutyTok ER (dcell c x.1 x.2.1 x.2.2) 0 (0 : Fin 3))

/-- What the launch element deals device `c`. -/
def G (c : Dev nD) : sProp 𝕄 :=
  iprop((bigSep Finset.univ fun k : CK => roundState ER (collRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem fund_coll : BI.own (ER (initOf collCells collToks)) ⊢ (|==> bigSep Finset.univ (G m) : sProp 𝕄) := by
  have hX (Φ : GSem nD τ sig → sProp 𝕄) : bigSep collCells Φ = bigSep Finset.univ fun c : Dev nD => bigSep Finset.univ fun k : CK => Φ (kcell (c, k)) := by
    unfold collCells; rw [bigSep_map, bigSep_univ_prod]; rfl
  have hT : bigSep collToks (fun x => (dutyTok ER x.1 x.2.1 x.2.2 : sProp 𝕄)) = bigSep Finset.univ fun c : Dev nD => toks c := by
    unfold collToks; rw [bigSep_map, bigSep_univ_prod]
    exact bigSep_congr fun c _ => by unfold toks; rw [bigSep_univ_sum]; rfl
  iintro HX
  imod (Rounds.fund ER (collRd m) collCells collToks) $$ HX with ⟨Hst, Hr, Hat, Htok⟩
  imodintro
  ihave Hst' := (Entails.of_eq (hX fun g => roundState ER (collRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  exact BI.Entails.refl _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (collRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (collRd m) (kcell (c, k)) 0)
      ⊢ (|={Set.univ}=> bigSep Finset.univ fun k : CK => iprop(∃ κ : ℕ, cellInv ER (collRd m) κ (kcell (c, k))) : sProp 𝕄) from by
        rw [← bigSep_sep']
        exact (bigSep_mono fun k _ => (Rounds.body_intro ER (collRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

/-- Device `c`'s `e`-th peer sees `c` as its `back e`-th: an involution of (device, peer index). -/
def swp : Dev nD × Fin 3 ≃ Dev nD × Fin 3 where
  toFun p := (pe p.1 p.2, back p.2)
  invFun p := (pe p.1 p.2, back p.2)
  left_inv p := by rcases p with ⟨c, e⟩; exact Prod.ext (pe_back c e) (back_back e)
  right_inv p := by rcases p with ⟨c, e⟩; exact Prod.ext (pe_back c e) (back_back e)

def swp2 : Dev nD × (Fin 3 × Fin 2) ≃ Dev nD × (Fin 3 × Fin 2) where
  toFun p := (pe p.1 p.2.1, (back p.2.1, p.2.2))
  invFun p := (pe p.1 p.2.1, (back p.2.1, p.2.2))
  left_inv p := by rcases p with ⟨c, e, i⟩; exact Prod.ext (pe_back c e) (Prod.ext (back_back e) rfl)
  right_inv p := by rcases p with ⟨c, e, i⟩; exact Prod.ext (pe_back c e) (Prod.ext (back_back e) rfl)

omit [FloatOps F] in
theorem deal (Φ : Dev nD × Fin 3 → sProp 𝕄) :
    (bigSep Finset.univ fun c : Dev nD => bigSep Finset.univ fun e : Fin 3 => Φ (c, e))
      = bigSep Finset.univ fun c : Dev nD => bigSep Finset.univ fun e : Fin 3 => Φ (pe c e, back e) := by
  rw [← bigSep_univ_prod, bigSep_univ_equiv swp Φ, bigSep_univ_prod]; rfl

omit [FloatOps F] in
theorem deal2 (Φ : Dev nD × (Fin 3 × Fin 2) → sProp 𝕄) :
    (bigSep Finset.univ fun c : Dev nD => bigSep Finset.univ fun x : Fin 3 × Fin 2 => Φ (c, x))
      = bigSep Finset.univ fun c : Dev nD => bigSep Finset.univ fun x : Fin 3 × Fin 2 => Φ (pe c x.1, (back x.1, x.2)) := by
  rw [← bigSep_univ_prod, bigSep_univ_equiv swp2 Φ, bigSep_univ_prod]; rfl

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The tokens of array `s` of device `c`'s DMA cells. -/
def dtoks (c : Dev nD) (s : Fin 4) : sProp 𝕄 := bigSep Finset.univ fun y : Fin 3 × Fin 2 => dutyTok ER (dcell c s y.1 y.2) 0 (0 : Fin 3)

omit [FloatOps F] in
theorem toks_eq (c : Dev nD) : (toks c : sProp 𝕄)
    = iprop((bigSep Finset.univ fun d : Fin 3 => dutyTok ER (barCell c) 0 d) ∗ dtoks c 0 ∗ dtoks c 1 ∗ dtoks c 2 ∗ dtoks c 3) := by
  unfold toks dtoks
  rw [bigSep_univ_prod (fun x : DK => (dutyTok ER (dcell c x.1 x.2.1 x.2.2) 0 (0 : Fin 3) : sProp 𝕄)), bigSep_fin4]

omit [FloatOps F] in
/-- A barrier cell's token of duty `d` goes to the peer that pays it, a receive cell's token to the sender. -/
theorem toks_around : (bigSep Finset.univ fun c : Dev nD => (toks c : sProp 𝕄)) ⊢ bigSep Finset.univ fun c : Dev nD => payToks c := by
  rw [bigSep_congr (fun c _ => toks_eq (F := F) c)]
  unfold payToks dtoks
  simp only [bigSep_sep']
  iintro ⟨HB, H0, H1, H2, H3⟩
  ihave HB' := (Entails.of_eq (deal (fun p : Dev nD × Fin 3 => (dutyTok ER (barCell p.1) 0 p.2 : sProp 𝕄)))) $$ HB
  ihave H1' := (Entails.of_eq (deal2 (fun p : Dev nD × (Fin 3 × Fin 2) => (dutyTok ER (dcell p.1 1 p.2.1 p.2.2) 0 (0 : Fin 3) : sProp 𝕄)))) $$ H1
  ihave H3' := (Entails.of_eq (deal2 (fun p : Dev nD × (Fin 3 × Fin 2) => (dutyTok ER (dcell p.1 3 p.2.1 p.2.2) 0 (0 : Fin 3) : sProp 𝕄)))) $$ H3
  isplitl [HB']; · iexact HB'
  isplitl [H1']; · iexact H1'
  isplitl [H3']; · iexact H3'
  isplitl [H0]; · iexact H0
  iexact H2

/-! ## The global step -/

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m K ∗ posns c ∗ payToks c) ⊢ G' m c := by
  unfold G' ghost
  iintro H
  iexists K
  iexact H

theorem regroup :
    (bigSep Finset.univ fun c : Dev nD => iprop((bigSep Finset.univ fun k : CK => iprop(∃ κ : ℕ, cellInv ER (collRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (collRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (collRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (posns c : sProp 𝕄)) payToks).symm)
    isplitl [Hat]; · iexact Hat
    iexact Htk

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem launchCred_owe (fs : List (Dev nD → GSem nD τ sig × ℕ)) (c : Dev nD) :
    (Pipeline.launchCred (fun d => owe (fs.map fun f => f d)) c : sProp 𝕄)
      ⊢ bigSepL fs fun f => (Pipeline.launchCred (fun d => tallyAt (f d).1 () (f d).2) c : sProp 𝕄) := by
  induction fs with
  | nil => exact Entails.of_eq (Pipeline.launchCred_zero c)
  | cons f fs ih =>
    rw [show (fun d : Dev nD => owe ((f :: fs).map fun f => f d)) = fun d => owe (fs.map fun f => f d) + tallyAt (f d).1 () (f d).2 from rfl,
      Pipeline.launchCred_add, bigSepL_cons]
    show _ ⊢ iprop(_ ∗ _)
    iintro ⟨H1, H2⟩
    isplitl [H2]; · iexact H2
    iapply ih; iexact H1

/-- Every device paying its `e`-th peer's cell `sm`, each device is dealt that credit on its own `sm`. -/
theorem cred_item (e : Fin 3) (sm : SemLoc sig) (n : ℕ) (c : Dev nD) :
    (Pipeline.launchCred (fun d => tallyAt (((pe d e : Dev nD) : Thread nD τ), sm) () n) c : sProp 𝕄) ⊢ cred (tallyAt ((c : Thread nD τ), sm) () n) :=
  Pipeline.launchCred_tallyAt sm (fun d => pe d e) (fun d => pe d (back e))
    (fun c => by have h := pe_back c (back e); rwa [back_back] at h) (fun d => pe_back d e) () n c

omit [FloatOps F] in
theorem bigSep_f32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

omit [FloatOps F] in
theorem bigSepL_15 {I : Type} (a1 a2 a3 a4 a5 a6 a7 a8 a9 a10 a11 a12 a13 a14 a15 : I) (Φ : I → sProp 𝕄) :
    bigSepL [a1, a2, a3, a4, a5, a6, a7, a8, a9, a10, a11, a12, a13, a14, a15] Φ
      = iprop(Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15) := rfl

theorem creds_intro (c : Dev nD) : (Pipeline.launchCred (fun d : Dev nD => O d 0) c : sProp 𝕄) ⊢ creds c := by
  refine (launchCred_owe (F := F)
    [fun d => (barCell (pe d 0), 1), fun d => (barCell (pe d 1), 1), fun d => (barCell (pe d 2), 1),
     fun d => (peerCell d 1 1 0, N), fun d => (peerCell d 1 0 0, N), fun d => (peerCell d 1 2 0, N),
     fun d => (peerCell d 1 1 1, N), fun d => (peerCell d 1 0 1, N), fun d => (peerCell d 1 2 1, N),
     fun d => (peerCell d 3 1 0, N), fun d => (peerCell d 3 0 0, N), fun d => (peerCell d 3 2 0, N),
     fun d => (peerCell d 3 1 1, N), fun d => (peerCell d 3 0 1, N), fun d => (peerCell d 3 2 1, N)] c).trans ?_
  unfold creds
  rw [bigSep_f32, bigSep_f32, bigSepL_15]
  iintro ⟨B0, B1, B2, R10, R00, R20, R11, R01, R21, A10, A00, A20, A11, A01, A21⟩
  ihave B0 := (cred_item (F := F) 0 (.reg barS) 1 c) $$ B0
  ihave B1 := (cred_item (F := F) 1 (.reg barS) 1 c) $$ B1
  ihave B2 := (cred_item (F := F) 2 (.reg barS) 1 c) $$ B2
  ihave R10 := (cred_item (F := F) 1 (.dma (dsem 1 (back 1) 0)) N c) $$ R10
  ihave R00 := (cred_item (F := F) 0 (.dma (dsem 1 (back 0) 0)) N c) $$ R00
  ihave R20 := (cred_item (F := F) 2 (.dma (dsem 1 (back 2) 0)) N c) $$ R20
  ihave R11 := (cred_item (F := F) 1 (.dma (dsem 1 (back 1) 1)) N c) $$ R11
  ihave R01 := (cred_item (F := F) 0 (.dma (dsem 1 (back 0) 1)) N c) $$ R01
  ihave R21 := (cred_item (F := F) 2 (.dma (dsem 1 (back 2) 1)) N c) $$ R21
  ihave A10 := (cred_item (F := F) 1 (.dma (dsem 3 (back 1) 0)) N c) $$ A10
  ihave A00 := (cred_item (F := F) 0 (.dma (dsem 3 (back 0) 0)) N c) $$ A00
  ihave A20 := (cred_item (F := F) 2 (.dma (dsem 3 (back 2) 0)) N c) $$ A20
  ihave A11 := (cred_item (F := F) 1 (.dma (dsem 3 (back 1) 1)) N c) $$ A11
  ihave A01 := (cred_item (F := F) 0 (.dma (dsem 3 (back 0) 1)) N c) $$ A01
  ihave A21 := (cred_item (F := F) 2 (.dma (dsem 3 (back 2) 1)) N c) $$ A21
  isplitl [B0 B1 B2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0]; · iexact B0
    iapply (cred_add _ _).2
    isplitl [B1]; · iexact B1
    iexact B2
  isplitl [R10 R00 R20 R11 R01 R21]
  · isplitl [R20]; · iexact R20
    isplitl [R21]; · iexact R21
    isplitl [R10]; · iexact R10
    isplitl [R11]; · iexact R11
    isplitl [R00]; · iexact R00
    iexact R01
  · isplitl [A20]; · iexact A20
    isplitl [A21]; · iexact A21
    isplitl [A10]; · iexact A10
    isplitl [A11]; · iexact A11
    isplitl [A00]; · iexact A00
    iexact A01

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun d : Dev nD => O d 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scr Pipeline.ownSems0
  iintro ⟨Hr, Hz⟩
  isplitr; · iempintro
  isplitl [Hz]; · iexact Hz
  iexact Hr

theorem above_0 : ∀ c : Dev nD, ∀ d ∈ (debts c).drop 0, 0 < lv d.1 () := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 0 (by fin_cases w <;> fin_cases s <;> (revert c; decide)) (above_0 c)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: given each
    device's body obligation, every weakly fair execution of @main terminates, and every final state has each window's
    array at the contents the proof data say. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_coll m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays at the end -/

/-- The two argument arrays after the run hold what they held. -/
theorem finalA_t (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The result array's one block, the whole array, read back is what the body left in the staging buffer. -/
theorem finalA_o_blk (c : Dev nD) : (win0_2.blk (0 : Fin 1)).view.read (Elt F) (finalA m ρ c (2 : Fin 3)) = outAt m := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- The result array on device `c` ends holding all eight halves of the result. -/
theorem finalA_o (c : Dev nD) : finalA m ρ c (2 : Fin 3) = outAt m := by
  have h := finalA_o_blk m ρ c
  have hz : (fun a => (win0_2.index (0 : Fin 1)) a * main_v1.ty.shape.size a) = fun _ => 0 := funext fun a => by fin_cases a <;> decide
  rw [Memref.read_access_unit_zero (Elt F) main_v1 hz (fun a => by fin_cases a <;> decide)] at h
  exact h

end Cert.Kernel.Coll

end
-- ==== Proof.KernelOblig.lean ====
/-
  The body's soundness in the form the launch takes it: the body obligation of the pipeline's one point, and the run.
-/
import proofs.«900370_g7700000000000371_dist_matmul_of_ar_i_m1024_n512_k512_v7x_i4_f32_1_alg».proof.Proof.KernelBodyDefs
import proofs.«900370_g7700000000000371_dist_matmul_of_ar_i_m1024_n512_k512_v7x_i4_f32_1_alg».proof.Proof.KernelLaunch

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point: the invariant before it, what the thread owes, the three staging
    buffers whole. -/
def bodyPre' (c : Dev nD) : sProp 𝕄 :=
  iprop(Φ₀ m c ∗ (dats m ρ 0 c).owesAt () (t0_0 : Fin cfg0.N).castSucc
    ∗ (∃ d, stgW c cc0_stg0_0 ((dats m ρ 0 c).before (0 : Fin 3) t0_0 d))
    ∗ (∃ d, stgW c cc0_stg1_0 ((dats m ρ 0 c).before (1 : Fin 3) t0_0 d))
    ∗ (∃ d, stgW c cc0_stg2_0 ((dats m ρ 0 c).before (2 : Fin 3) t0_0 d)))

set_option maxRecDepth 4000 in
/-- The library's body obligation on device `c`, from the body's soundness. -/
theorem body_obligation (hs : BodySound m ρ) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Hscr⟩, Ho, Ht, Hw, Hout⟩
  iapply (hs K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Ht]; · iexact Ht
    isplitl [Hw]; · iexact Hw
    iexact Hout
  · iintro H; iexact H

/-- At the compiled mesh of four devices, for any float values, from any memory with zero counters: if one thread's body
    is sound, every weakly fair execution of @main terminates, and every final state has each window's array at the
    contents the proof data say. -/
theorem run (hs : BodySound m ρ) : θ_run defs (onTc (τ := τ) (main (F := F))) (s₀ m ρ) (QC m ρ) :=
  run_main m ρ (body_obligation m ρ hs)

end Cert.Kernel.Coll

end
-- ==== Proof.KernelFrame.lean ====
/-
  The frame: from the body's soundness, @main runs and leaves its two argument arrays as they were.
-/
import proofs.«900370_g7700000000000371_dist_matmul_of_ar_i_m1024_n512_k512_v7x_i4_f32_1_alg».proof.Proof.KernelOblig

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- If one thread's body is sound from every memory, then from any memory with zero counters every weakly fair execution
    of @main terminates with both argument arrays as they were. -/
theorem frame_of_sound (hs : ∀ (m : (ℓ : Loc nD τ sig) → Buf (Elt F) ℓ) (ρ : Dev nD → PrngReg), BodySound (F := F) m ρ)
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (0 : Fin 3)).trans (finalA_t m g c), (h c (1 : Fin 3)).trans (finalA_w m g c)⟩)
    (run m g (hs m g))

end Cert.Kernel.Coll

end
-- ==== Proof.KernelIdealLaunch.lean ====
/-
  The launch of the four-device kernel: the launch element, what it funds, every cell's invariant allocated under one
  update, the duty tokens dealt to their payers, the launch credit, and the launch theorem applied to the body's
  obligation.
-/
import proofs.«900370_g7700000000000371_dist_matmul_of_ar_i_m1024_n512_k512_v7x_i4_f32_1_alg».proof.Proof.KernelIdealProto

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The index of a DMA cell: array, entry, half. -/
abbrev DK : Type := Fin 4 × Fin 3 × Fin 2

/-- The kernel's own (scoped) semaphores: its 24 DMA semaphores. -/
abbrev osem : DK → SemLoc sig := fun x => .dma (dsem x.1 x.2.1 x.2.2)

theorem ownSemFacts : Pipeline.OwnSemFacts cfg0.spec osem := by decide

theorem share_eq (c : Dev nD) (w : Fin cfg0.W) : (dats m ρ 0 c).share w = fullShare := by unfold Dat.share; split <;> rfl

theorem dsem_inj : ∀ x y : DK, dsem x.1 x.2.1 x.2.2 = dsem y.1 y.2.1 y.2.2 → x = y := by decide

theorem csem_injective : Function.Injective (csem : CK → SemLoc sig) := by
  intro k k' h
  cases k with
  | none => cases k' with
    | none => rfl
    | some y => exact absurd h (fun h => by cases h)
  | some x => cases k' with
    | none => exact absurd h (fun h => by cases h)
    | some y => exact congrArg some (dsem_inj x y (SemLoc.dma.inj h))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def collCells : Finset (GSem nD τ sig) := Finset.univ.map ⟨kcell, kcell_injective⟩

/-- A duty token as minted: a barrier cell's three, a DMA cell's one. -/
abbrev TK : Type := Fin 3 ⊕ DK
abbrev tokOf (ct : Dev nD × TK) : GSem nD τ sig × ℕ × Fin 3 := match ct.2 with
  | .inl d => (barCell ct.1, 0, d)
  | .inr x => (dcell ct.1 x.1 x.2.1 x.2.2, 0, 0)

theorem tokOf_injective : Function.Injective (tokOf : Dev nD × TK → GSem nD τ sig × ℕ × Fin 3) := by
  rintro ⟨c, j⟩ ⟨c', j'⟩ h
  have h1 : c = c' := by
    have := congrArg (fun x : GSem nD τ sig × ℕ × Fin 3 => x.1.1.1) h
    cases j <;> cases j' <;> exact this
  subst h1
  cases j with
  | inl d => cases j' with
    | inl d' => have := congrArg (fun x : GSem nD τ sig × ℕ × Fin 3 => x.2.2) h; exact congrArg _ (congrArg Sum.inl this)
    | inr y => exact absurd (congrArg (fun x : GSem nD τ sig × ℕ × Fin 3 => x.1.2) h) (fun h' => by cases h')
  | inr x => cases j' with
    | inl d' => exact absurd (congrArg (fun x : GSem nD τ sig × ℕ × Fin 3 => x.1.2) h) (fun h' => by cases h')
    | inr y =>
      have := congrArg (fun x : GSem nD τ sig × ℕ × Fin 3 => x.1.2) h
      exact congrArg _ (congrArg Sum.inr (dsem_inj x y (SemLoc.dma.inj this)))

def collToks : Finset (GSem nD τ sig × ℕ × Fin 3) := Finset.univ.map ⟨tokOf, tokOf_injective⟩

/-- The launch element: the pipeline's cells and tokens, and the protocol's. -/
def u₀ : UU :=
  (initOf (Pipeline.cells cfgs cellOf_inj) (Pipeline.launchToks cfgs cellOf_inj), initOf collCells collToks)

/-! ## What the launch element funds -/

omit [FloatOps F] in
theorem bigSep_CK (Φ : CK → sProp 𝕄) : bigSep Finset.univ Φ = iprop(bigSep Finset.univ (fun x : DK => Φ (some x)) ∗ Φ none) := by
  rw [bigSep_univ_equiv (Equiv.optionEquivSumPUnit.{0, 0} DK).symm Φ, bigSep_univ_sum, bigSep_univ_of_subsingleton (PUnit.unit : PUnit.{1})]
  rfl

/-- The duty tokens of device `c`'s own cells. -/
def toks (c : Dev nD) : sProp 𝕄 :=
  iprop((bigSep Finset.univ fun d : Fin 3 => dutyTok ER (barCell c) 0 d)
    ∗ bigSep Finset.univ fun x : DK => dutyTok ER (dcell c x.1 x.2.1 x.2.2) 0 (0 : Fin 3))

/-- What the launch element deals device `c`. -/
def G (c : Dev nD) : sProp 𝕄 :=
  iprop((bigSep Finset.univ fun k : CK => roundState ER (collRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem fund_coll : BI.own (ER (initOf collCells collToks)) ⊢ (|==> bigSep Finset.univ (G m) : sProp 𝕄) := by
  have hX (Φ : GSem nD τ sig → sProp 𝕄) : bigSep collCells Φ = bigSep Finset.univ fun c : Dev nD => bigSep Finset.univ fun k : CK => Φ (kcell (c, k)) := by
    unfold collCells; rw [bigSep_map, bigSep_univ_prod]; rfl
  have hT : bigSep collToks (fun x => (dutyTok ER x.1 x.2.1 x.2.2 : sProp 𝕄)) = bigSep Finset.univ fun c : Dev nD => toks c := by
    unfold collToks; rw [bigSep_map, bigSep_univ_prod]
    exact bigSep_congr fun c _ => by unfold toks; rw [bigSep_univ_sum]; rfl
  iintro HX
  imod (Rounds.fund ER (collRd m) collCells collToks) $$ HX with ⟨Hst, Hr, Hat, Htok⟩
  imodintro
  ihave Hst' := (Entails.of_eq (hX fun g => roundState ER (collRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  exact BI.Entails.refl _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (collRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (collRd m) (kcell (c, k)) 0)
      ⊢ (|={Set.univ}=> bigSep Finset.univ fun k : CK => iprop(∃ κ : ℕ, cellInv ER (collRd m) κ (kcell (c, k))) : sProp 𝕄) from by
        rw [← bigSep_sep']
        exact (bigSep_mono fun k _ => (Rounds.body_intro ER (collRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

/-- Device `c`'s `e`-th peer sees `c` as its `back e`-th: an involution of (device, peer index). -/
def swp : Dev nD × Fin 3 ≃ Dev nD × Fin 3 where
  toFun p := (pe p.1 p.2, back p.2)
  invFun p := (pe p.1 p.2, back p.2)
  left_inv p := by rcases p with ⟨c, e⟩; exact Prod.ext (pe_back c e) (back_back e)
  right_inv p := by rcases p with ⟨c, e⟩; exact Prod.ext (pe_back c e) (back_back e)

def swp2 : Dev nD × (Fin 3 × Fin 2) ≃ Dev nD × (Fin 3 × Fin 2) where
  toFun p := (pe p.1 p.2.1, (back p.2.1, p.2.2))
  invFun p := (pe p.1 p.2.1, (back p.2.1, p.2.2))
  left_inv p := by rcases p with ⟨c, e, i⟩; exact Prod.ext (pe_back c e) (Prod.ext (back_back e) rfl)
  right_inv p := by rcases p with ⟨c, e, i⟩; exact Prod.ext (pe_back c e) (Prod.ext (back_back e) rfl)

omit [FloatOps F] in
theorem deal (Φ : Dev nD × Fin 3 → sProp 𝕄) :
    (bigSep Finset.univ fun c : Dev nD => bigSep Finset.univ fun e : Fin 3 => Φ (c, e))
      = bigSep Finset.univ fun c : Dev nD => bigSep Finset.univ fun e : Fin 3 => Φ (pe c e, back e) := by
  rw [← bigSep_univ_prod, bigSep_univ_equiv swp Φ, bigSep_univ_prod]; rfl

omit [FloatOps F] in
theorem deal2 (Φ : Dev nD × (Fin 3 × Fin 2) → sProp 𝕄) :
    (bigSep Finset.univ fun c : Dev nD => bigSep Finset.univ fun x : Fin 3 × Fin 2 => Φ (c, x))
      = bigSep Finset.univ fun c : Dev nD => bigSep Finset.univ fun x : Fin 3 × Fin 2 => Φ (pe c x.1, (back x.1, x.2)) := by
  rw [← bigSep_univ_prod, bigSep_univ_equiv swp2 Φ, bigSep_univ_prod]; rfl

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The tokens of array `s` of device `c`'s DMA cells. -/
def dtoks (c : Dev nD) (s : Fin 4) : sProp 𝕄 := bigSep Finset.univ fun y : Fin 3 × Fin 2 => dutyTok ER (dcell c s y.1 y.2) 0 (0 : Fin 3)

omit [FloatOps F] in
theorem toks_eq (c : Dev nD) : (toks c : sProp 𝕄)
    = iprop((bigSep Finset.univ fun d : Fin 3 => dutyTok ER (barCell c) 0 d) ∗ dtoks c 0 ∗ dtoks c 1 ∗ dtoks c 2 ∗ dtoks c 3) := by
  unfold toks dtoks
  rw [bigSep_univ_prod (fun x : DK => (dutyTok ER (dcell c x.1 x.2.1 x.2.2) 0 (0 : Fin 3) : sProp 𝕄)), bigSep_fin4]

omit [FloatOps F] in
/-- A barrier cell's token of duty `d` goes to the peer that pays it, a receive cell's token to the sender. -/
theorem toks_around : (bigSep Finset.univ fun c : Dev nD => (toks c : sProp 𝕄)) ⊢ bigSep Finset.univ fun c : Dev nD => payToks c := by
  rw [bigSep_congr (fun c _ => toks_eq (F := F) c)]
  unfold payToks dtoks
  simp only [bigSep_sep']
  iintro ⟨HB, H0, H1, H2, H3⟩
  ihave HB' := (Entails.of_eq (deal (fun p : Dev nD × Fin 3 => (dutyTok ER (barCell p.1) 0 p.2 : sProp 𝕄)))) $$ HB
  ihave H1' := (Entails.of_eq (deal2 (fun p : Dev nD × (Fin 3 × Fin 2) => (dutyTok ER (dcell p.1 1 p.2.1 p.2.2) 0 (0 : Fin 3) : sProp 𝕄)))) $$ H1
  ihave H3' := (Entails.of_eq (deal2 (fun p : Dev nD × (Fin 3 × Fin 2) => (dutyTok ER (dcell p.1 3 p.2.1 p.2.2) 0 (0 : Fin 3) : sProp 𝕄)))) $$ H3
  isplitl [HB']; · iexact HB'
  isplitl [H1']; · iexact H1'
  isplitl [H3']; · iexact H3'
  isplitl [H0]; · iexact H0
  iexact H2

/-! ## The global step -/

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m K ∗ posns c ∗ payToks c) ⊢ G' m c := by
  unfold G' ghost
  iintro H
  iexists K
  iexact H

theorem regroup :
    (bigSep Finset.univ fun c : Dev nD => iprop((bigSep Finset.univ fun k : CK => iprop(∃ κ : ℕ, cellInv ER (collRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (collRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (collRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (posns c : sProp 𝕄)) payToks).symm)
    isplitl [Hat]; · iexact Hat
    iexact Htk

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem launchCred_owe (fs : List (Dev nD → GSem nD τ sig × ℕ)) (c : Dev nD) :
    (Pipeline.launchCred (fun d => owe (fs.map fun f => f d)) c : sProp 𝕄)
      ⊢ bigSepL fs fun f => (Pipeline.launchCred (fun d => tallyAt (f d).1 () (f d).2) c : sProp 𝕄) := by
  induction fs with
  | nil => exact Entails.of_eq (Pipeline.launchCred_zero c)
  | cons f fs ih =>
    rw [show (fun d : Dev nD => owe ((f :: fs).map fun f => f d)) = fun d => owe (fs.map fun f => f d) + tallyAt (f d).1 () (f d).2 from rfl,
      Pipeline.launchCred_add, bigSepL_cons]
    show _ ⊢ iprop(_ ∗ _)
    iintro ⟨H1, H2⟩
    isplitl [H2]; · iexact H2
    iapply ih; iexact H1

/-- Every device paying its `e`-th peer's cell `sm`, each device is dealt that credit on its own `sm`. -/
theorem cred_item (e : Fin 3) (sm : SemLoc sig) (n : ℕ) (c : Dev nD) :
    (Pipeline.launchCred (fun d => tallyAt (((pe d e : Dev nD) : Thread nD τ), sm) () n) c : sProp 𝕄) ⊢ cred (tallyAt ((c : Thread nD τ), sm) () n) :=
  Pipeline.launchCred_tallyAt sm (fun d => pe d e) (fun d => pe d (back e))
    (fun c => by have h := pe_back c (back e); rwa [back_back] at h) (fun d => pe_back d e) () n c

omit [FloatOps F] in
theorem bigSep_f32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

omit [FloatOps F] in
theorem bigSepL_15 {I : Type} (a1 a2 a3 a4 a5 a6 a7 a8 a9 a10 a11 a12 a13 a14 a15 : I) (Φ : I → sProp 𝕄) :
    bigSepL [a1, a2, a3, a4, a5, a6, a7, a8, a9, a10, a11, a12, a13, a14, a15] Φ
      = iprop(Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15) := rfl

theorem creds_intro (c : Dev nD) : (Pipeline.launchCred (fun d : Dev nD => O d 0) c : sProp 𝕄) ⊢ creds c := by
  refine (launchCred_owe (F := F)
    [fun d => (barCell (pe d 0), 1), fun d => (barCell (pe d 1), 1), fun d => (barCell (pe d 2), 1),
     fun d => (peerCell d 1 1 0, N), fun d => (peerCell d 1 0 0, N), fun d => (peerCell d 1 2 0, N),
     fun d => (peerCell d 1 1 1, N), fun d => (peerCell d 1 0 1, N), fun d => (peerCell d 1 2 1, N),
     fun d => (peerCell d 3 1 0, N), fun d => (peerCell d 3 0 0, N), fun d => (peerCell d 3 2 0, N),
     fun d => (peerCell d 3 1 1, N), fun d => (peerCell d 3 0 1, N), fun d => (peerCell d 3 2 1, N)] c).trans ?_
  unfold creds
  rw [bigSep_f32, bigSep_f32, bigSepL_15]
  iintro ⟨B0, B1, B2, R10, R00, R20, R11, R01, R21, A10, A00, A20, A11, A01, A21⟩
  ihave B0 := (cred_item (F := F) 0 (.reg barS) 1 c) $$ B0
  ihave B1 := (cred_item (F := F) 1 (.reg barS) 1 c) $$ B1
  ihave B2 := (cred_item (F := F) 2 (.reg barS) 1 c) $$ B2
  ihave R10 := (cred_item (F := F) 1 (.dma (dsem 1 (back 1) 0)) N c) $$ R10
  ihave R00 := (cred_item (F := F) 0 (.dma (dsem 1 (back 0) 0)) N c) $$ R00
  ihave R20 := (cred_item (F := F) 2 (.dma (dsem 1 (back 2) 0)) N c) $$ R20
  ihave R11 := (cred_item (F := F) 1 (.dma (dsem 1 (back 1) 1)) N c) $$ R11
  ihave R01 := (cred_item (F := F) 0 (.dma (dsem 1 (back 0) 1)) N c) $$ R01
  ihave R21 := (cred_item (F := F) 2 (.dma (dsem 1 (back 2) 1)) N c) $$ R21
  ihave A10 := (cred_item (F := F) 1 (.dma (dsem 3 (back 1) 0)) N c) $$ A10
  ihave A00 := (cred_item (F := F) 0 (.dma (dsem 3 (back 0) 0)) N c) $$ A00
  ihave A20 := (cred_item (F := F) 2 (.dma (dsem 3 (back 2) 0)) N c) $$ A20
  ihave A11 := (cred_item (F := F) 1 (.dma (dsem 3 (back 1) 1)) N c) $$ A11
  ihave A01 := (cred_item (F := F) 0 (.dma (dsem 3 (back 0) 1)) N c) $$ A01
  ihave A21 := (cred_item (F := F) 2 (.dma (dsem 3 (back 2) 1)) N c) $$ A21
  isplitl [B0 B1 B2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0]; · iexact B0
    iapply (cred_add _ _).2
    isplitl [B1]; · iexact B1
    iexact B2
  isplitl [R10 R00 R20 R11 R01 R21]
  · isplitl [R20]; · iexact R20
    isplitl [R21]; · iexact R21
    isplitl [R10]; · iexact R10
    isplitl [R11]; · iexact R11
    isplitl [R00]; · iexact R00
    iexact R01
  · isplitl [A20]; · iexact A20
    isplitl [A21]; · iexact A21
    isplitl [A10]; · iexact A10
    isplitl [A11]; · iexact A11
    isplitl [A00]; · iexact A00
    iexact A01

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun d : Dev nD => O d 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scr Pipeline.ownSems0
  iintro ⟨Hr, Hz⟩
  isplitr; · iempintro
  isplitl [Hz]; · iexact Hz
  iexact Hr

theorem above_0 : ∀ c : Dev nD, ∀ d ∈ (debts c).drop 0, 0 < lv d.1 () := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 0 (by fin_cases w <;> fin_cases s <;> (revert c; decide)) (above_0 c)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: given each
    device's body obligation, every weakly fair execution of @main terminates, and every final state has each window's
    array at the contents the proof data say. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_coll m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays at the end -/

/-- The two argument arrays after the run hold what they held. -/
theorem finalA_t (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The result array's one block, the whole array, read back is what the body left in the staging buffer. -/
theorem finalA_o_blk (c : Dev nD) : (win0_2.blk (0 : Fin 1)).view.read (Elt F) (finalA m ρ c (2 : Fin 3)) = outAt m := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- The result array on device `c` ends holding all eight halves of the result. -/
theorem finalA_o (c : Dev nD) : finalA m ρ c (2 : Fin 3) = outAt m := by
  have h := finalA_o_blk m ρ c
  have hz : (fun a => (win0_2.index (0 : Fin 1)) a * main_v1.ty.shape.size a) = fun _ => 0 := funext fun a => by fin_cases a <;> decide
  rw [Memref.read_access_unit_zero (Elt F) main_v1 hz (fun a => by fin_cases a <;> decide)] at h
  exact h

end Cert.KernelIdeal.Coll

end
-- ==== Proof.KernelIdealOblig.lean ====
/-
  The body's soundness in the form the launch takes it: the body obligation of the pipeline's one point, and the run.
-/
import proofs.«900370_g7700000000000371_dist_matmul_of_ar_i_m1024_n512_k512_v7x_i4_f32_1_alg».proof.Proof.KernelIdealBodyDefs
import proofs.«900370_g7700000000000371_dist_matmul_of_ar_i_m1024_n512_k512_v7x_i4_f32_1_alg».proof.Proof.KernelIdealLaunch

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point: the invariant before it, what the thread owes, the three staging
    buffers whole. -/
def bodyPre' (c : Dev nD) : sProp 𝕄 :=
  iprop(Φ₀ m c ∗ (dats m ρ 0 c).owesAt () (t0_0 : Fin cfg0.N).castSucc
    ∗ (∃ d, stgW c cc0_stg0_0 ((dats m ρ 0 c).before (0 : Fin 3) t0_0 d))
    ∗ (∃ d, stgW c cc0_stg1_0 ((dats m ρ 0 c).before (1 : Fin 3) t0_0 d))
    ∗ (∃ d, stgW c cc0_stg2_0 ((dats m ρ 0 c).before (2 : Fin 3) t0_0 d)))

set_option maxRecDepth 4000 in
/-- The library's body obligation on device `c`, from the body's soundness. -/
theorem body_obligation (hs : BodySound m ρ) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Hscr⟩, Ho, Ht, Hw, Hout⟩
  iapply (hs K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Ht]; · iexact Ht
    isplitl [Hw]; · iexact Hw
    iexact Hout
  · iintro H; iexact H

/-- At the compiled mesh of four devices, for any float values, from any memory with zero counters: if one thread's body
    is sound, every weakly fair execution of @main terminates, and every final state has each window's array at the
    contents the proof data say. -/
theorem run (hs : BodySound m ρ) : θ_run defs (onTc (τ := τ) (main (F := F))) (s₀ m ρ) (QC m ρ) :=
  run_main m ρ (body_obligation m ρ hs)

end Cert.KernelIdeal.Coll

end
-- ==== Proof.KernelIdealFrame.lean ====
/-
  The frame: from the body's soundness, @main runs and leaves its two argument arrays as they were.
-/
import proofs.«900370_g7700000000000371_dist_matmul_of_ar_i_m1024_n512_k512_v7x_i4_f32_1_alg».proof.Proof.KernelIdealOblig

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- If one thread's body is sound from every memory, then from any memory with zero counters every weakly fair execution
    of @main terminates with both argument arrays as they were. -/
theorem frame_of_sound (hs : ∀ (m : (ℓ : Loc nD τ sig) → Buf (Elt F) ℓ) (ρ : Dev nD → PrngReg), BodySound (F := F) m ρ)
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (0 : Fin 3)).trans (finalA_t m g c), (h c (1 : Fin 3)).trans (finalA_w m g c)⟩)
    (run m g (hs m g))

end Cert.KernelIdeal.Coll

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.PayloadMath.lean ====
/-
  The kernel body's arithmetic, read at an index.

  A staging step takes a [128, 512] block of rows, narrows its elements and views it as a
  [1, 1, 128, 512] array; at the ideal values narrowing is the identity, so entry (0, 0, r, k) of
  the result is entry (r, k) of the block. A chunk step adds to the owner's own block the three
  blocks it received (each viewed back as [128, 512] and widened, the identity again), and
  multiplies the sum by the [512, 512] weight into a zero accumulator: entry (r, n) of the result
  is the sum over k of (own + first + second + third)(r, k) · W(k, n).
-/
import proofs.«900370_g7700000000000371_dist_matmul_of_ar_i_m1024_n512_k512_v7x_i4_f32_1_alg».proof.Proof.Gen.KernelIdeal.Skeleton
import proofs.«900370_g7700000000000371_dist_matmul_of_ar_i_m1024_n512_k512_v7x_i4_f32_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ValueMath

open Idealize.ShloMosaic Idealize.ShloMosaic.ValueIdx Cert.KernelIdeal Cert.KernelIdeal.Gen

variable {α : Type}

/-- An `[a, b]` array viewed `[1, 1, a, b]` reads, at `(u, v, i, j)`, the array at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A `[1, 1, a, b]` array viewed `[a, b]` reads, at `(i, j)`, the array at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## Staging: a block of rows narrowed and viewed `[1, 1, 128, 512]` -/

/-- The staging step at an index: entry `(0, 0, r, k)` is the block's entry `(r, k)`. -/
theorem k0_pay1_apply (v : Vec Ideal S128x512 .f32) (r : Fin 128) (k : Fin 512) :
    k0_pay1 (F := Ideal) v (ix4 (0 : Fin 1) (0 : Fin 1) r k) = v (ix2 r k) := by
  unfold k0_pay1
  rw [shapeCast_ab_11ab_apply, truncf_apply, shapeCast_self]

/-- The six staging steps are one function. -/
theorem k0_pay2_eq : @k0_pay2 Ideal _ = @k0_pay1 Ideal _ := rfl
theorem k0_pay5_eq : @k0_pay5 Ideal _ = @k0_pay1 Ideal _ := rfl
theorem k0_pay6_eq : @k0_pay6 Ideal _ = @k0_pay1 Ideal _ := rfl
theorem k0_pay7_eq : @k0_pay7 Ideal _ = @k0_pay1 Ideal _ := rfl
theorem k0_pay4_pay3_eq (v : Vec Ideal S128x512 .f32) : k0_pay4 (F := Ideal) (k0_pay3 (F := Ideal) v) = k0_pay1 (F := Ideal) v := rfl

theorem k0_pay2_apply (v : Vec Ideal S128x512 .f32) (r : Fin 128) (k : Fin 512) :
    k0_pay2 (F := Ideal) v (ix4 (0 : Fin 1) (0 : Fin 1) r k) = v (ix2 r k) := k0_pay1_apply v r k
theorem k0_pay5_apply (v : Vec Ideal S128x512 .f32) (r : Fin 128) (k : Fin 512) :
    k0_pay5 (F := Ideal) v (ix4 (0 : Fin 1) (0 : Fin 1) r k) = v (ix2 r k) := k0_pay1_apply v r k
theorem k0_pay6_apply (v : Vec Ideal S128x512 .f32) (r : Fin 128) (k : Fin 512) :
    k0_pay6 (F := Ideal) v (ix4 (0 : Fin 1) (0 : Fin 1) r k) = v (ix2 r k) := k0_pay1_apply v r k
theorem k0_pay7_apply (v : Vec Ideal S128x512 .f32) (r : Fin 128) (k : Fin 512) :
    k0_pay7 (F := Ideal) v (ix4 (0 : Fin 1) (0 : Fin 1) r k) = v (ix2 r k) := k0_pay1_apply v r k
theorem k0_pay4_pay3_apply (v : Vec Ideal S128x512 .f32) (r : Fin 128) (k : Fin 512) :
    k0_pay4 (F := Ideal) (k0_pay3 (F := Ideal) v) (ix4 (0 : Fin 1) (0 : Fin 1) r k) = v (ix2 r k) := k0_pay1_apply v r k

/-- The weight narrowed: at the ideal values, the weight. -/
theorem k0_pay8_eq (w : Vec Ideal S512x512 .f32) : k0_pay8 (F := Ideal) w = w := by
  unfold k0_pay8
  rw [shapeCast_self]
  show shapeCast S512x512 w _ = w
  rw [shapeCast_self]

theorem k0_pay8_apply (w : Vec Ideal S512x512 .f32) (j : S512x512.Idx) : k0_pay8 (F := Ideal) w j = w j := by
  rw [k0_pay8_eq]

/-! ## A chunk: own block plus the three received blocks, times the weight -/

/-- The chunk step at an index: entry `(r, n)` is the sum over `k` of the four blocks' entries `(r, k)`, added in the
    order own, first, second, third received, times the weight's entry `(k, n)`. -/
theorem k0_pay9_apply (x0 : Vec Ideal S128x512 .f32) (b0 b1 b2 : Vec Ideal S1x1x128x512 .bf16)
    (w : Vec Ideal S512x512 .bf16) (r : Fin 128) (n : Fin 512) :
    k0_pay9 (F := Ideal) x0 b0 b1 b2 w (ix2 r n)
      = ∑ k : Fin 512, (x0 (ix2 r k) + b0 (ix4 (0 : Fin 1) (0 : Fin 1) r k) + b1 (ix4 (0 : Fin 1) (0 : Fin 1) r k)
          + b2 (ix4 (0 : Fin 1) (0 : Fin 1) r k)) * w (ix2 k n) := by
  unfold k0_pay9
  rw [truncf_apply, Cert.Dense.matmul_zero_eq_mm dot_S128x512_S512x512_S128x512_1_0_0_1_n_n rfl rfl rfl rfl rfl rfl,
    Cert.Dense.mm_apply]
  refine Finset.sum_congr rfl fun k _ => ?_
  rw [truncf_apply, addf_apply, addf_apply, addf_apply, extf_apply, extf_apply, extf_apply, shapeCast_self,
    shapeCast_11ab_ab_apply, shapeCast_11ab_ab_apply, shapeCast_11ab_ab_apply]

/-- The second chunk's first addition at an index. -/
theorem k0_pay10_apply (x0 : Vec Ideal S128x512 .f32) (b0 : Vec Ideal S1x1x128x512 .bf16) (r : Fin 128) (k : Fin 512) :
    k0_pay10 (F := Ideal) x0 b0 (ix2 r k) = x0 (ix2 r k) + b0 (ix4 (0 : Fin 1) (0 : Fin 1) r k) := by
  unfold k0_pay10
  rw [addf_apply, extf_apply, shapeCast_self, shapeCast_11ab_ab_apply]

/-- The second chunk's second step at an index, over any first step's result `y`. -/
theorem k0_pay11_apply (y : FVec Ideal S128x512 .f32) (b1 b2 : Vec Ideal S1x1x128x512 .bf16)
    (w : Vec Ideal S512x512 .bf16) (r : Fin 128) (n : Fin 512) :
    k0_pay11 (F := Ideal) y b1 b2 w (ix2 r n)
      = ∑ k : Fin 512, (y (ix2 r k) + b1 (ix4 (0 : Fin 1) (0 : Fin 1) r k) + b2 (ix4 (0 : Fin 1) (0 : Fin 1) r k))
          * w (ix2 k n) := by
  unfold k0_pay11
  rw [truncf_apply, Cert.Dense.matmul_zero_eq_mm dot_S128x512_S512x512_S128x512_1_0_0_1_n_n rfl rfl rfl rfl rfl rfl,
    Cert.Dense.mm_apply]
  refine Finset.sum_congr rfl fun k _ => ?_
  rw [truncf_apply, addf_apply, addf_apply, extf_apply, extf_apply, shapeCast_11ab_ab_apply, shapeCast_11ab_ab_apply]

/-- The second chunk, split in two steps, is the first chunk's function. -/
theorem k0_pay11_pay10_eq (x0 : Vec Ideal S128x512 .f32) (b0 b1 b2 : Vec Ideal S1x1x128x512 .bf16)
    (w : Vec Ideal S512x512 .bf16) :
    k0_pay11 (F := Ideal) (k0_pay10 (F := Ideal) x0 b0) b1 b2 w = k0_pay9 (F := Ideal) x0 b0 b1 b2 w := rfl

theorem k0_pay11_pay10_apply (x0 : Vec Ideal S128x512 .f32) (b0 b1 b2 : Vec Ideal S1x1x128x512 .bf16)
    (w : Vec Ideal S512x512 .bf16) (r : Fin 128) (n : Fin 512) :
    k0_pay11 (F := Ideal) (k0_pay10 (F := Ideal) x0 b0) b1 b2 w (ix2 r n)
      = ∑ k : Fin 512, (x0 (ix2 r k) + b0 (ix4 (0 : Fin 1) (0 : Fin 1) r k) + b1 (ix4 (0 : Fin 1) (0 : Fin 1) r k)
          + b2 (ix4 (0 : Fin 1) (0 : Fin 1) r k)) * w (ix2 k n) :=
  k0_pay9_apply x0 b0 b1 b2 w r n

end Cert.ValueMath

end
-- ==== Proof.RefMath.lean ====
/-
  The reference's result, read at an index.

  The reference views the [4096, 512] array as four [1024, 512] blocks of rows, sums the blocks, multiplies the sum by the
  [512, 512] weight and narrows the product (the identity at the ideal values). Row `r` of block `q` is row
  `q · 1024 + r` of the array, so entry `(r, n)` of the result is the sum over `k` of
  `(∑ q, t (q · 1024 + r, k)) · W (k, n)`.
-/
import proofs.«900370_g7700000000000371_dist_matmul_of_ar_i_m1024_n512_k512_v7x_i4_f32_1_alg».proof.Proof.Gen.ReferenceIdeal.Read
import Idealize.ShloMosaic.Lib.ValueIdx
import Idealize.ShloMosaic.PureOps.Ideal.Laws

noncomputable section

open scoped BigOperators

namespace Cert.ValueMath

open Idealize.ShloMosaic Idealize.ShloMosaic.ValueIdx Cert.ReferenceIdeal Cert.ReferenceIdeal.Read

/-- Row `r` of block `q` among the 4096 rows of the whole array. -/
abbrev brow (q : Fin 4) (r : Fin 1024) : Fin 4096 := ⟨q.val * 1024 + r.val, by omega⟩

/-- The reference at an index, the four blocks summed as the reduction sums them (over `q : Fin 4`). -/
theorem ref_apply_sum (t : (⟨S4096x512, .f32⟩ : BufTy).Contents (Elt Ideal))
    (W : (⟨S512x512, .f32⟩ : BufTy).Contents (Elt Ideal)) (r : Fin 1024) (n : Fin 512) :
    val_main_v3 (F := Ideal) t W (ix2 r n) = ∑ k : Fin 512, (∑ q : Fin 4, t (ix2 (brow q r) k)) * W (ix2 k n) := by
  rw [val_main_v3_apply]
  show val_main_v2 (F := Ideal) t W (ix2 r n) = _
  rw [val_main_v2_apply]
  refine Finset.sum_congr rfl fun k _ => ?_
  have hW : ridx_main_v2 (ix2 r n) k = ix2 k n := funext fun a => Fin.ext (by
    match a with
    | ⟨0, _⟩ => rfl
    | ⟨1, _⟩ => rfl)
  have hq : ∀ q : Fin 4, val_main_v0 (F := Ideal) t (idx_main_v1 (lidx_main_v2 (ix2 r n) k) q) = t (ix2 (brow q r) k) :=
    fun q => by
      rw [val_main_v0_apply]
      refine congrArg t (funext fun a => Fin.ext ?_)
      have hq4 : q.val < 4 := q.isLt
      have hr : r.val < 1024 := r.isLt
      have hk : k.val < 512 := k.isLt
      match a with
      | ⟨0, _⟩ =>
        show ((q.val * 1024 + r.val) * 512 + k.val) / 512 = q.val * 1024 + r.val
        omega
      | ⟨1, _⟩ =>
        show ((q.val * 1024 + r.val) * 512 + k.val) % 512 = k.val
        omega
  rw [val_main_v1_apply, val_main_cst_apply, hW]
  show (Ideal.ofBits .f32 0x00000000#32 + _) * _ = _
  rw [Ideal.ofBits_zero_f32, zero_add]
  simp only [hq]

/-- The same with the four blocks written out, in the reduction's order. -/
theorem ref_apply (t : (⟨S4096x512, .f32⟩ : BufTy).Contents (Elt Ideal))
    (W : (⟨S512x512, .f32⟩ : BufTy).Contents (Elt Ideal)) (r : Fin 1024) (n : Fin 512) :
    val_main_v3 (F := Ideal) t W (ix2 r n)
      = ∑ k : Fin 512, (t (ix2 (brow 0 r) k) + t (ix2 (brow 1 r) k) + t (ix2 (brow 2 r) k) + t (ix2 (brow 3 r) k))
          * W (ix2 k n) := by
  rw [ref_apply_sum]
  refine Finset.sum_congr rfl fun k _ => ?_
  rw [Fin.sum_univ_four]

end Cert.ValueMath

end
-- ==== Proof.ValueMath.lean ====
/-
  The join: the sum of the four devices' blocks times the weight is the reference's result.

  `outSpec T W` is, entry by entry, `∑ k, (T 0 + T 1 + T 2 + T 3)(r, k) · W (k, n)` for four [1024, 512] arrays `T q`.
  When `T q` is block `q` of the rows of a [4096, 512] array `t`, row `r` of `T q` is row `q · 1024 + r` of `t`, and
  `outSpec` is the reference's result. Addition of extended reals is commutative and associative, so the four blocks
  may be added starting from any of them: no finiteness is needed.
-/
import proofs.«900370_g7700000000000371_dist_matmul_of_ar_i_m1024_n512_k512_v7x_i4_f32_1_alg».proof.Proof.RefMath
import Idealize.ShloMosaic.Lib.Layout

noncomputable section

open scoped BigOperators

namespace Cert.ValueMath

open Idealize.ShloMosaic Idealize.ShloMosaic.ValueIdx Cert.ReferenceIdeal Cert.ReferenceIdeal.Read

/-- The row coordinate of an index of a [1024, 512] array. -/
abbrev rowOf (j : S1024x512.Idx) : Fin 1024 := ⟨(j 0).val, idx2_lt0 j⟩
/-- The column coordinate of an index of a [1024, 512] array. -/
abbrev colOf (j : S1024x512.Idx) : Fin 512 := ⟨(j 1).val, idx2_lt1 j⟩

/-- The four blocks summed, times the weight. -/
def outSpec (T : Fin 4 → (⟨S1024x512, .f32⟩ : BufTy).Contents (Elt Ideal))
    (W : (⟨S512x512, .f32⟩ : BufTy).Contents (Elt Ideal)) : (⟨S1024x512, .bf16⟩ : BufTy).Contents (Elt Ideal) :=
  fun j => ∑ k : Fin 512, (T 0 (ix2 (rowOf j) k) + T 1 (ix2 (rowOf j) k) + T 2 (ix2 (rowOf j) k) + T 3 (ix2 (rowOf j) k))
    * W (ix2 k (colOf j))

theorem outSpec_apply (T : Fin 4 → (⟨S1024x512, .f32⟩ : BufTy).Contents (Elt Ideal))
    (W : (⟨S512x512, .f32⟩ : BufTy).Contents (Elt Ideal)) (r : Fin 1024) (n : Fin 512) :
    outSpec T W (ix2 r n)
      = ∑ k : Fin 512, (T 0 (ix2 r k) + T 1 (ix2 r k) + T 2 (ix2 r k) + T 3 (ix2 r k)) * W (ix2 k n) := rfl

/-- Four extended reals indexed by `Fin 4`, added in the order a permutation lists them. -/
theorem sum4_perm (f : Fin 4 → EReal) (σ : Equiv.Perm (Fin 4)) :
    f (σ 0) + f (σ 1) + f (σ 2) + f (σ 3) = f 0 + f 1 + f 2 + f 3 := by
  rw [← Fin.sum_univ_four f, ← Fin.sum_univ_four (fun i => f (σ i))]
  exact Equiv.sum_comp σ f

/-- Added starting from any `q` and going round (`q, q + 1, q + 2, q + 3` in `Fin 4`). -/
theorem sum4_rot (f : Fin 4 → EReal) (q : Fin 4) :
    f q + f (q + 1) + f (q + 2) + f (q + 3) = f 0 + f 1 + f 2 + f 3 := by
  match q with
  | ⟨0, _⟩ => rfl
  | ⟨1, _⟩ =>
    show f 1 + f 2 + f 3 + f 0 = f 0 + f 1 + f 2 + f 3
    abel
  | ⟨2, _⟩ =>
    show f 2 + f 3 + f 0 + f 1 = f 0 + f 1 + f 2 + f 3
    abel
  | ⟨3, _⟩ =>
    show f 3 + f 0 + f 1 + f 2 = f 0 + f 1 + f 2 + f 3
    abel

/-- `outSpec` at an index with the blocks added starting from any `q` and going round. -/
theorem outSpec_apply_rot (T : Fin 4 → (⟨S1024x512, .f32⟩ : BufTy).Contents (Elt Ideal))
    (W : (⟨S512x512, .f32⟩ : BufTy).Contents (Elt Ideal)) (q : Fin 4) (r : Fin 1024) (n : Fin 512) :
    outSpec T W (ix2 r n)
      = ∑ k : Fin 512, (T q (ix2 r k) + T (q + 1) (ix2 r k) + T (q + 2) (ix2 r k) + T (q + 3) (ix2 r k)) * W (ix2 k n) := by
  rw [outSpec_apply]
  refine Finset.sum_congr rfl fun k _ => ?_
  rw [sum4_rot (fun p => T p (ix2 r k)) q]

/-- `outSpec` at an index with the blocks added in the order a permutation lists them. -/
theorem outSpec_apply_perm (T : Fin 4 → (⟨S1024x512, .f32⟩ : BufTy).Contents (Elt Ideal))
    (W : (⟨S512x512, .f32⟩ : BufTy).Contents (Elt Ideal)) (σ : Equiv.Perm (Fin 4)) (r : Fin 1024) (n : Fin 512) :
    outSpec T W (ix2 r n)
      = ∑ k : Fin 512, (T (σ 0) (ix2 r k) + T (σ 1) (ix2 r k) + T (σ 2) (ix2 r k) + T (σ 3) (ix2 r k)) * W (ix2 k n) := by
  rw [outSpec_apply]
  refine Finset.sum_congr rfl fun k _ => ?_
  rw [sum4_perm (fun p => T p (ix2 r k)) σ]

/-- Block `q` of the rows at an index: row `r` of the block is row `q · 1024 + r` of the array. -/
theorem block_apply_ix2 (t : (⟨S4096x512, .f32⟩ : BufTy).Contents (Elt Ideal)) (q : Fin 4) (r : Fin 1024) (k : Fin 512) :
    (Layout.block ⟨2, ![1024, 512]⟩ ⟨2, ![4096, 512]⟩ 0 4 q t) (ix2 r k) = t (ix2 (brow q r) k) := by
  rw [Layout.block_apply]
  refine congrArg t (funext fun a => Fin.ext ?_)
  match a with
  | ⟨0, _⟩ => rfl
  | ⟨1, _⟩ => rfl

/-- The join: over the blocks of `t`, `outSpec` is the reference's result. -/
theorem outSpec_blocks (t : (⟨S4096x512, .f32⟩ : BufTy).Contents (Elt Ideal))
    (W : (⟨S512x512, .f32⟩ : BufTy).Contents (Elt Ideal)) :
    outSpec (fun q => Layout.block ⟨2, ![1024, 512]⟩ ⟨2, ![4096, 512]⟩ 0 4 q t) W = val_main_v3 (F := Ideal) t W := by
  funext j
  obtain ⟨r, n, rfl⟩ : ∃ (r : Fin 1024) (n : Fin 512), j = ix2 r n := ⟨j 0, j 1, eq_ix2 j⟩
  rw [ref_apply, outSpec_apply]
  refine Finset.sum_congr rfl fun k _ => ?_
  rw [block_apply_ix2, block_apply_ix2, block_apply_ix2, block_apply_ix2]

end Cert.ValueMath

end
-- ==== Proof.KernelIdealBridge.lean ====
/-
  From the devices' buffers to the specification.

  The result's staging buffer, read on the rows of half `i` of device `q`'s quarter, is that half's value; a half's
  own block and the blocks it receives are rows `256 q + 128 i ..+128` of the four devices' arrays, so at the ideal values
  the whole buffer is the sum of the four devices' arrays times the weight, and over the blocks of one array cut in four
  it is the reference's result.
-/
import proofs.«900370_g7700000000000371_dist_matmul_of_ar_i_m1024_n512_k512_v7x_i4_f32_1_alg».proof.Proof.KernelIdealProto
import proofs.«900370_g7700000000000371_dist_matmul_of_ar_i_m1024_n512_k512_v7x_i4_f32_1_alg».proof.Proof.KernelIdealGeom
import proofs.«900370_g7700000000000371_dist_matmul_of_ar_i_m1024_n512_k512_v7x_i4_f32_1_alg».proof.Proof.PayloadMath
import proofs.«900370_g7700000000000371_dist_matmul_of_ar_i_m1024_n512_k512_v7x_i4_f32_1_alg».proof.Proof.ValueMath

noncomputable section

open scoped BigOperators

namespace Cert.KernelIdeal.Bridge

open Cert.KernelIdeal Cert.KernelIdeal.Gen Cert.KernelIdeal.Coll
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The result's buffer on one half -/

/-- Row `ρ` of half `i` of quarter `q` among the 1024 rows. -/
abbrev hrow (q : Dev nD) (i : Fin 2) (ρ : Fin 128) : Fin 1024 := ⟨256 * q.val + 128 * i.val + ρ.val, by have hq : q.val < 4 := q.isLt; omega⟩

theorem yX_congr {q q' : Dev nD} {i i' : Fin 2} {x x' : S128x512.Idx} (hq : q' = q) (hi : i' = i) (hx : x' = x) :
    yX m q' i' x' = yX m q i x :=
  Cert.KernelIdeal.Coll.yX_congr m hq hi hx

/-- The result's buffer at the place of index `j` of half `i` of quarter `q` is that half's value at `j`. -/
theorem outAt_emb (q : Dev nD) (i : Fin 2) (j : (r2 q i).shape.Idx) : outAt m ((r2 q i).emb j) = yX m q i j :=
  Cert.KernelIdeal.Coll.outAt_emb m q i j

/-- The same as an equation of functions on the half's indices. -/
theorem outAt_emb_fun (q : Dev nD) (i : Fin 2) : (fun j => outAt m ((r2 q i).emb j)) = yX m q i :=
  Cert.KernelIdeal.Coll.outAt_emb_fun m q i

/-! ## What the body reads of the arguments -/

/-- The first argument's window is the whole array: what is staged of it is the device's buffer. -/
theorem tIn_eq (c : Dev nD) : tIn m c = m ((c : Thread nD τ).loc main_arg0) := by
  unfold tIn
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The second argument's window is the whole array too. -/
theorem wIn_eq (c : Dev nD) : wIn m c = m ((c : Thread nD τ).loc main_arg1) := by
  unfold wIn
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- Half `i` of quarter `q` of device `c`'s rows, at `(ρ, k)`, is the staged array at row `256 q + 128 i + ρ`. -/
theorem tBlk_apply (c q : Dev nD) (i : Fin 2) (ρ : Fin 128) (k : Fin 512) :
    tBlk m c q i (ix2 ρ k) = tIn m c (ix2 (hrow q i ρ) k) := by
  unfold tBlk
  rw [View.readAt_apply]
  show tIn m c ((r2 q i).toLoadRect.idx (ix2 ρ k)) = _
  refine congrArg (tIn m c) (funext fun a => Fin.ext ?_)
  match a with
  | ⟨0, _⟩ =>
    show 256 * q.val + 128 * i.val + 1 * ρ.val = 256 * q.val + 128 * i.val + ρ.val
    omega
  | ⟨1, _⟩ =>
    show 0 + 1 * k.val = k.val
    omega

/-- The same over the device's buffer. -/
theorem tBlk_apply_mem (c q : Dev nD) (i : Fin 2) (ρ : Fin 128) (k : Fin 512) :
    tBlk m c q i (ix2 ρ k) = m ((c : Thread nD τ).loc main_arg0) (ix2 (hrow q i ρ) k) := by
  rw [tBlk_apply, tIn_eq]

/-- The result's buffer at row `ρ` of half `i` of quarter `q`. -/
theorem outAt_apply (q : Dev nD) (i : Fin 2) (ρ : Fin 128) (n : Fin 512) :
    outAt m (ix2 (hrow q i ρ) n) = yX m q i (ix2 ρ n) := by
  have e : (r2 q i).emb (ix2 ρ n) = ix2 (hrow q i ρ) n := funext fun a => Fin.ext (by
    match a with
    | ⟨0, _⟩ =>
      show 256 * q.val + 128 * i.val + 1 * ρ.val = 256 * q.val + 128 * i.val + ρ.val
      omega
    | ⟨1, _⟩ =>
      show 0 + 1 * n.val = n.val
      omega)
  rw [← e]
  exact outAt_emb m q i (ix2 ρ n)

/-- Every row is a row of one half of one quarter. -/
theorem exists_hrow (R : Fin 1024) : ∃ (q : Dev nD) (i : Fin 2) (ρ : Fin 128), R = hrow q i ρ := by
  have hR : R.val < 1024 := R.isLt
  exact ⟨⟨R.val / 256, by show R.val / 256 < 4; omega⟩, ⟨R.val % 256 / 128, by omega⟩, ⟨R.val % 128, by omega⟩,
    Fin.ext (by show R.val = 256 * (R.val / 256) + 128 * (R.val % 256 / 128) + R.val % 128; omega)⟩

/-! ## The senders, going round the four devices -/

theorem pe_zero : ∀ c : Dev nD, pe c 0 = c + 1 := by decide
theorem pe_one : ∀ c : Dev nD, pe c 1 = c + 2 := by decide
theorem pe_two : ∀ c : Dev nD, pe c 2 = c + 3 := by decide

/-! ## At the ideal values -/

section AtIdeal

variable (μ : (ℓ : Loc nD τ sig) → Buf (Elt Ideal) ℓ)

/-- Device `c`'s first argument buffer, as an array of extended reals. -/
abbrev argT (c : Dev nD) : (⟨S1024x512, .f32⟩ : BufTy).Contents (Elt Ideal) := μ ((c : Thread nD τ).loc main_arg0)

/-- A half's value at an index: the four devices' rows `256 q + 128 i + ρ`, added from the owner `q` going round, times
    the weight every device holds. -/
theorem yX_apply (Wm : (⟨S512x512, .f32⟩ : BufTy).Contents (Elt Ideal))
    (hW : ∀ c : Dev nD, μ ((c : Thread nD τ).loc main_arg1) = Wm) (q : Dev nD) (i : Fin 2) (ρ : Fin 128) (n : Fin 512) :
    yX (F := Ideal) μ q i (ix2 ρ n)
      = ∑ k : Fin 512, (argT μ q (ix2 (hrow q i ρ) k) + argT μ (q + 1) (ix2 (hrow q i ρ) k)
          + argT μ (q + 2) (ix2 (hrow q i ρ) k) + argT μ (q + 3) (ix2 (hrow q i ρ) k)) * Wm (ix2 k n) := by
  unfold yX
  rw [Cert.ValueMath.k0_pay9_apply]
  refine Finset.sum_congr rfl fun k _ => ?_
  unfold rcv wB
  rw [Cert.ValueMath.k0_pay1_apply, Cert.ValueMath.k0_pay1_apply, Cert.ValueMath.k0_pay1_apply,
    Cert.ValueMath.k0_pay8_apply, tBlk_apply_mem, tBlk_apply_mem, tBlk_apply_mem, tBlk_apply_mem, wIn_eq, hW,
    pe_zero, pe_one, pe_two]

/-- The join on the kernel's side: the result's buffer is the sum of the four devices' arrays times the weight. -/
theorem outAt_eq_outSpec (Wm : (⟨S512x512, .f32⟩ : BufTy).Contents (Elt Ideal))
    (hW : ∀ c : Dev nD, μ ((c : Thread nD τ).loc main_arg1) = Wm) :
    outAt (F := Ideal) μ = Cert.ValueMath.outSpec (fun q : Dev nD => μ ((q : Thread nD τ).loc main_arg0)) Wm := by
  funext j
  obtain ⟨R, n, rfl⟩ : ∃ (R : Fin 1024) (n : Fin 512), j = ix2 R n := ⟨j 0, j 1, eq_ix2 j⟩
  obtain ⟨q, i, ρ, rfl⟩ := exists_hrow R
  rw [outAt_apply, yX_apply μ Wm hW]
  exact (Cert.ValueMath.outSpec_apply_rot (fun q : Dev nD => argT μ q) Wm q (hrow q i ρ) n).symm

/-- Over the four blocks of one array and one weight, the result's buffer is the reference's result. -/
theorem outAt_eq_ref (t : (⟨Cert.ReferenceIdeal.S4096x512, .f32⟩ : BufTy).Contents (Elt Ideal))
    (W : (⟨S512x512, .f32⟩ : BufTy).Contents (Elt Ideal))
    (hT : ∀ c : Dev nD, μ ((c : Thread nD τ).loc main_arg0) = Layout.block ⟨2, ![1024, 512]⟩ ⟨2, ![4096, 512]⟩ 0 4 c t)
    (hW : ∀ c : Dev nD, μ ((c : Thread nD τ).loc main_arg1) = W) :
    outAt (F := Ideal) μ = Cert.ReferenceIdeal.Read.val_main_v3 (F := Ideal) t W := by
  rw [outAt_eq_outSpec μ W hW, ← Cert.ValueMath.outSpec_blocks]
  exact congrArg (fun T => Cert.ValueMath.outSpec T W) (funext fun c => hT c)

end AtIdeal

end Cert.KernelIdeal.Bridge

end
-- ==== Proof.KernelIdealClaims.lean ====
/-
  The claims about the idealized kernel and the reference, from the body's soundness: the reference's frame, and that at
  the ideal values every device's result array ends holding the reference's result.
-/
import proofs.«900370_g7700000000000371_dist_matmul_of_ar_i_m1024_n512_k512_v7x_i4_f32_1_alg».proof.Proof.KernelIdealOblig
import proofs.«900370_g7700000000000371_dist_matmul_of_ar_i_m1024_n512_k512_v7x_i4_f32_1_alg».proof.Proof.KernelIdealBridge
import proofs.«900370_g7700000000000371_dist_matmul_of_ar_i_m1024_n512_k512_v7x_i4_f32_1_alg».proof.Proof.Gen.ReferenceIdeal
import proofs.«900370_g7700000000000371_dist_matmul_of_ar_i_m1024_n512_k512_v7x_i4_f32_1_alg».proof.Proof.Gen.ReferenceIdeal.Run
import proofs.«900370_g7700000000000371_dist_matmul_of_ar_i_m1024_n512_k512_v7x_i4_f32_1_alg».proof.Proof.Gen.ReferenceIdeal.Read
import proofs.«900370_g7700000000000371_dist_matmul_of_ar_i_m1024_n512_k512_v7x_i4_f32_1_alg».proof.Proof.Gen.Pre_finite_inputs_Kernel
import proofs.«900370_g7700000000000371_dist_matmul_of_ar_i_m1024_n512_k512_v7x_i4_f32_1_alg».proof.Proof.Gen.Pre_finite_inputs_ReferenceIdeal

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The reference runs and leaves its two argument arrays as they were. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories where each device holds its quarter of the reference's first argument and a copy
    of its second: if one thread's body is sound, both programs run, every device's result array ends holding the
    reference's result, and the arguments of both end as they were. -/
theorem algebraic_of_sound
    (hs : ∀ (m : (ℓ : Loc nD τ sig) → Buf (Elt Ideal) ℓ) (ρ : Dev nD → PrngReg), BodySound (F := Ideal) m ρ) :
    Cert.algebraic_KernelIdeal_ReferenceIdeal := by
  intro m g m' g' _ hagree
  refine ⟨Cert.ReferenceIdeal.Read.val_main_v3 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run defs _ _).mono (fun _ h c => ⟨(h c (2 : Fin 3)).trans ((finalA_o m g c).trans ?_),
        (h c (0 : Fin 3)).trans (finalA_t m g c), (h c (1 : Fin 3)).trans (finalA_w m g c)⟩) (run (F := Ideal) m g (hs m g))
    exact Cert.KernelIdeal.Bridge.outAt_eq_ref m _ _ (fun c => (hagree c).1) (fun c => (hagree c).2)
  · exact (θ_run Cert.ReferenceIdeal.defs _ _).mono
      (fun _ h => ⟨(h 0).1.trans (Cert.ReferenceIdeal.Read.val_main_v3_eq _ _), (h 0).2⟩)
      (Cert.ReferenceIdeal.Value.run (F := Ideal) m' g')

end Cert.KernelIdeal.Coll

end
-- ==== Proof.lean ====
/- The proof of `Cert.Claim` (Defs.lean): frame_Kernel ∧ frame_KernelIdeal ∧ frame_ReferenceIdeal ∧ preserves_Kernel_KernelIdeal ∧
   algebraic_KernelIdeal_ReferenceIdeal, for a kernel on four devices: a reduce-scatter of row blocks, a matrix product,
   an all-gather.

   Device `c` of the four holds rows `1024 c ..+1024` of a `[4096, 512]` array `t` and a copy of the `[512, 512]` weights `W`. Its 1024 rows
   are four quarters of 256 rows, each in two halves of 128; quarter `q` of the result belongs to device `q`. Every device
   rounds its rows of each other device's quarter and copies them to that device; device `q` adds the three blocks it
   receives to its own rows of quarter `q`, multiplies the sum by the rounded weights, rounds, and copies each half of the
   product into the same rows of every other device's result array, so that every device ends holding all 1024 rows. Before
   its first copy a device signals each peer once and waits for the three peers' signals: a copy lands only in a buffer
   whose owner is inside the kernel. The reference, on one device over the whole arrays: the four blocks of `t` added, the
   sum times `W`, rounded.

   The value. At the ideal instance (floats are extended reals, every operation exact, rounding the identity) entry
   `(r, n)` of quarter `q` of the kernel's result is `Σ k, (t_q r k + t_(q+1) r k + t_(q+2) r k + t_(q+3) r k) * W k n`, the
   devices taken from the owner going round the mesh axis, and the reference's is the same sum with the four blocks taken
   in their order in `t`: the two agree by commutativity and associativity of `+` on the extended reals. Nothing is assumed
   finite.

   How the claim is assembled. One thread's body is proved sound once, at a symbolic device and for any float instance
   (`sound_body`). The launch theorem makes of it the run of @main on the four devices, with every window's array at the end
   (`run`): the two argument arrays as they were, the result array holding all eight halves. Both printed programs' frames
   are that run with the values dropped (`frame_of_sound`, at the word-level instance and at the ideal one); the reference's
   frame is its generated run; the idealization rewrote no operation, so `preserves` is `True`; and the algebraic claim is the
   run at the ideal instance, the value equation above over the four blocks of one array, and the reference's generated run
   (`algebraic_of_sound`). -/
import proofs.«900370_g7700000000000371_dist_matmul_of_ar_i_m1024_n512_k512_v7x_i4_f32_1_alg».proof.Defs
import proofs.«900370_g7700000000000371_dist_matmul_of_ar_i_m1024_n512_k512_v7x_i4_f32_1_alg».proof.Proof.Gen.Kernel
import proofs.«900370_g7700000000000371_dist_matmul_of_ar_i_m1024_n512_k512_v7x_i4_f32_1_alg».proof.Proof.Gen.Kernel.Skeleton
import proofs.«900370_g7700000000000371_dist_matmul_of_ar_i_m1024_n512_k512_v7x_i4_f32_1_alg».proof.Proof.Gen.Kernel.Launch
import proofs.«900370_g7700000000000371_dist_matmul_of_ar_i_m1024_n512_k512_v7x_i4_f32_1_alg».proof.Proof.Gen.Kernel.Points
import proofs.«900370_g7700000000000371_dist_matmul_of_ar_i_m1024_n512_k512_v7x_i4_f32_1_alg».proof.Proof.Gen.Kernel.Frame
import proofs.«900370_g7700000000000371_dist_matmul_of_ar_i_m1024_n512_k512_v7x_i4_f32_1_alg».proof.Proof.Gen.KernelIdeal
import proofs.«900370_g7700000000000371_dist_matmul_of_ar_i_m1024_n512_k512_v7x_i4_f32_1_alg».proof.Proof.Gen.KernelIdeal.Skeleton
import proofs.«900370_g7700000000000371_dist_matmul_of_ar_i_m1024_n512_k512_v7x_i4_f32_1_alg».proof.Proof.Gen.KernelIdeal.Launch
import proofs.«900370_g7700000000000371_dist_matmul_of_ar_i_m1024_n512_k512_v7x_i4_f32_1_alg».proof.Proof.Gen.KernelIdeal.Points
import proofs.«900370_g7700000000000371_dist_matmul_of_ar_i_m1024_n512_k512_v7x_i4_f32_1_alg».proof.Proof.Gen.KernelIdeal.Frame
import proofs.«900370_g7700000000000371_dist_matmul_of_ar_i_m1024_n512_k512_v7x_i4_f32_1_alg».proof.Proof.Gen.ReferenceIdeal
import proofs.«900370_g7700000000000371_dist_matmul_of_ar_i_m1024_n512_k512_v7x_i4_f32_1_alg».proof.Proof.Gen.Pre_finite_inputs_Kernel
import proofs.«900370_g7700000000000371_dist_matmul_of_ar_i_m1024_n512_k512_v7x_i4_f32_1_alg».proof.Proof.Gen.Pre_finite_inputs_ReferenceIdeal
import proofs.«900370_g7700000000000371_dist_matmul_of_ar_i_m1024_n512_k512_v7x_i4_f32_1_alg».proof.Proof.KernelBody
import proofs.«900370_g7700000000000371_dist_matmul_of_ar_i_m1024_n512_k512_v7x_i4_f32_1_alg».proof.Proof.KernelIdealBody
import proofs.«900370_g7700000000000371_dist_matmul_of_ar_i_m1024_n512_k512_v7x_i4_f32_1_alg».proof.Proof.KernelFrame
import proofs.«900370_g7700000000000371_dist_matmul_of_ar_i_m1024_n512_k512_v7x_i4_f32_1_alg».proof.Proof.KernelIdealFrame
import proofs.«900370_g7700000000000371_dist_matmul_of_ar_i_m1024_n512_k512_v7x_i4_f32_1_alg».proof.Proof.KernelIdealClaims
import Idealize.ShloMosaic.Adequacy
import Idealize.ShloMosaic.Init

noncomputable section

namespace Cert.Proof

open Idealize.ShloMosaic Idealize.SL.Sem

/-- The kernel as printed runs and leaves its two argument arrays as they were. -/
theorem frame_p : Cert.frame_Kernel :=
  fun m g _ => Cert.Kernel.Coll.frame_of_sound (F := Bits) (fun m ρ => Cert.Kernel.Coll.sound_body m ρ) m g

/-- The idealized kernel runs and leaves its two argument arrays as they were. -/
theorem frame_pi : Cert.frame_KernelIdeal :=
  fun m g _ => Cert.KernelIdeal.Coll.frame_of_sound (F := Ideal) (fun m ρ => Cert.KernelIdeal.Coll.sound_body m ρ) m g

/-- The reference runs and leaves its two argument arrays as they were. -/
theorem frame_ri : Cert.frame_ReferenceIdeal := Cert.KernelIdeal.Coll.frame_ri

/-- At the ideal values every device's result array ends holding the reference's result. -/
theorem algebraic : Cert.algebraic_KernelIdeal_ReferenceIdeal :=
  Cert.KernelIdeal.Coll.algebraic_of_sound (fun m ρ => Cert.KernelIdeal.Coll.sound_body m ρ)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, trivial, algebraic⟩

end Cert.Proof

end
